-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg17 : FVec F S2 .f32) (main_v63 : IVec S_ 1) (main_v67 : IVec S_ 1) : IVec S_ 1 :=
  let main_v68 : IVec S_ 1 := andi main_v63 main_v67
  let main_v69 : FVec F S2 .f32 := Host.absf main_arg17
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg14 : FVec F S32 .f32) (main_arg15 : FVec F S32 .f32) (main_arg16 : FVec F S32x2 .f32) (main_arg17 : FVec F S2 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg14
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg15
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x2 .f32 := Host.absf main_arg16
  let main_cst_24 : FVec F S_ .f32 := constant S_ .f32 0x7F800000#32
  let main_v65 : FVec F S32x2 .f32 := broadcastInDim S32x2 ![] bcast_S_S32x2 main_cst_24
  let main_v66 : IVec S32x2 1 := cmpf .olt main_v64 main_v65
  let main_c_25 : IVec S_ 1 := constantI S_ 1 1#1
  let main_v67 : IVec S_ 1 := (fun x v => Host.reduce IntOp.andi x v reducesTo_S32x2_S_d0_1 h_S_) main_v66 main_c_25
  fn_part4 (F := F) main_arg17 main_v63 main_v67

def fn_part2 {F : FTy → Type} [FloatOps F] (main_arg10 : FVec F S64 .f32) (main_arg11 : FVec F S64 .f32) (main_arg12 : FVec F S64x32 .f32) (main_arg13 : FVec F S32 .f32) (main_arg14 : FVec F S32 .f32) (main_arg15 : FVec F S32 .f32) (main_arg16 : FVec F S32x2 .f32) (main_arg17 : FVec F S2 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg12
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg13
  let main_cst_18 : FVec F S_ .f32 := constant S_ .f32 0x7F800000#32
  let main_v50 : FVec F S32 .f32 := broadcastInDim S32 ![] bcast_S_S32 main_cst_18
  fn_part3 (F := F) main_arg14 main_arg15 main_arg16 main_arg17 main_v48 main_v49 main_v50

def fn_part1 {F : FTy → Type} [FloatOps F] (main_arg7 : FVec F S128 .f32) (main_arg8 : FVec F S128x64 .f32) (main_arg9 : FVec F S64 .f32) (main_arg10 : FVec F S64 .f32) (main_arg11 : FVec F S64 .f32) (main_arg12 : FVec F S64x32 .f32) (main_arg13 : FVec F S32 .f32) (main_arg14 : FVec F S32 .f32) (main_arg15 : FVec F S32 .f32) (main_arg16 : FVec F S32x2 .f32) (main_arg17 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg8
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_arg12 main_arg13 main_arg14 main_arg15 main_arg16 main_arg17 main_v33

def fn {F : FTy → Type} [FloatOps F] (main_arg0 : FVec F S50000x128 .f32) (main_arg1 : IVec S800000 32) (main_arg2 : IVec S800000 32) (main_arg3 : IVec S50000 32) (main_arg4 : FVec F S128x128 .f32) (main_arg5 : FVec F S128 .f32) (main_arg6 : FVec F S128 .f32) (main_arg7 : FVec F S128 .f32) (main_arg8 : FVec F S128x64 .f32) (main_arg9 : FVec F S64 .f32) (main_arg10 : FVec F S64 .f32) (main_arg11 : FVec F S64 .f32) (main_arg12 : FVec F S64x32 .f32) (main_arg13 : FVec F S32 .f32) (main_arg14 : FVec F S32 .f32) (main_arg15 : FVec F S32 .f32) (main_arg16 : FVec F S32x2 .f32) (main_arg17 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S10000x128 : Shape := ⟨2, ![10000, 128]⟩
abbrev S1x64 : Shape := ⟨2, ![1, 64]⟩
abbrev S50000x64 : Shape := ⟨2, ![50000, 64]⟩
abbrev S10000x64 : Shape := ⟨2, ![10000, 64]⟩
abbrev S800000x64 : Shape := ⟨2, ![800000, 64]⟩
abbrev S1x32 : Shape := ⟨2, ![1, 32]⟩
abbrev S50000x32 : Shape := ⟨2, ![50000, 32]⟩
abbrev S10000x32 : Shape := ⟨2, ![10000, 32]⟩
abbrev S64x1 : Shape := ⟨2, ![64, 1]⟩
abbrev S1x2 : Shape := ⟨2, ![1, 2]⟩
abbrev S64x2 : Shape := ⟨2, ![64, 2]⟩

abbrev nBuf : Space → Nat
  | .hbm => 219
  | .vmem => 46
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S50000, .i32⟩
  | 4 => ⟨S128x128, .f32⟩
  | 5 => ⟨S128, .f32⟩
  | 6 => ⟨S128, .f32⟩
  | 7 => ⟨S128, .f32⟩
  | 8 => ⟨S128x64, .f32⟩
  | 9 => ⟨S64, .f32⟩
  | 10 => ⟨S64, .f32⟩
  | 11 => ⟨S64, .f32⟩
  | 12 => ⟨S64x32, .f32⟩
  | 13 => ⟨S32, .f32⟩
  | 14 => ⟨S32, .f32⟩
  | 15 => ⟨S32, .f32⟩
  | 16 => ⟨S32x2, .f32⟩
  | 17 => ⟨S2, .f32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S_, .f32⟩
  | 26 => ⟨S50000, .f32⟩
  | 27 => ⟨S50000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S_, .f32⟩
  | 34 => ⟨S50000, .f32⟩
  | 35 => ⟨S50000, .f32⟩
  | 36 => ⟨S_, .f32⟩
  | 37 => ⟨S50000, .f32⟩
  | 38 => ⟨S50000, .f32⟩
  | 39 => ⟨S50000x1, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S_, .f32⟩
  | 56 => ⟨S50000x128, .f32⟩
  | 57 => ⟨S800000x1, .i32⟩
  | 58 => ⟨S50000x128, .f32⟩
  | 59 => ⟨S50000x128, .f32⟩
  | 60 => ⟨S50000x128, .f32⟩
  | 61 => ⟨S1x128, .f32⟩
  | 62 => ⟨S50000x128, .f32⟩
  | 63 => ⟨S_, .f32⟩
  | 64 => ⟨S128, .f32⟩
  | 65 => ⟨S_, .f32⟩
  | 66 => ⟨S128, .f32⟩
  | 67 => ⟨S128, .f32⟩
  | 68 => ⟨S_, .i32⟩
  | 69 => ⟨S_, .f32⟩
  | 70 => ⟨S128, .f32⟩
  | 71 => ⟨S1x128, .f32⟩
  | 72 => ⟨S_, .f32⟩
  | 73 => ⟨S1x128, .f32⟩
  | 74 => ⟨S1x128, .f32⟩
  | 75 => ⟨S50000x128, .f32⟩
  | 76 => ⟨S50000x128, .f32⟩
  | 77 => ⟨S50000x128, .f32⟩
  | 78 => ⟨S_, .f32⟩
  | 79 => ⟨S_, .f32⟩
  | 80 => ⟨S_, .f32⟩
  | 81 => ⟨S_, .f32⟩
  | 82 => ⟨S128, .f32⟩
  | 83 => ⟨S128, .f32⟩
  | 84 => ⟨S128, .f32⟩
  | 85 => ⟨S_, .f32⟩
  | 86 => ⟨S_, .i1⟩
  | 87 => ⟨S_, .f32⟩
  | 88 => ⟨S_, .f32⟩
  | 89 => ⟨S128, .f32⟩
  | 90 => ⟨S128, .f32⟩
  | 91 => ⟨S1x128, .f32⟩
  | 92 => ⟨S1x128, .f32⟩
  | 93 => ⟨S1x128, .f32⟩
  | 94 => ⟨S1x128, .f32⟩
  | 95 => ⟨S50000x128, .f32⟩
  | 96 => ⟨S50000x128, .f32⟩
  | 97 => ⟨S50000x128, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S50000x128, .f32⟩
  | 112 => ⟨S50000x128, .f32⟩
  | 113 => ⟨S1x64, .f32⟩
  | 114 => ⟨S50000x64, .f32⟩
  | 115 => ⟨S_, .f32⟩
  | 116 => ⟨S64, .f32⟩
  | 117 => ⟨S_, .f32⟩
  | 118 => ⟨S64, .f32⟩
  | 119 => ⟨S64, .f32⟩
  | 120 => ⟨S_, .i32⟩
  | 121 => ⟨S_, .f32⟩
  | 122 => ⟨S64, .f32⟩
  | 123 => ⟨S1x64, .f32⟩
  | 124 => ⟨S_, .f32⟩
  | 125 => ⟨S1x64, .f32⟩
  | 126 => ⟨S1x64, .f32⟩
  | 127 => ⟨S50000x64, .f32⟩
  | _ => ⟨S50000x128, .f32⟩

abbrev hbmTy0_1 (i : Nat) : BufTy := match i % 128 with
  | 0 => ⟨S50000x64, .f32⟩
  | 1 => ⟨S50000x64, .f32⟩
  | 2 => ⟨S_, .f32⟩
  | 3 => ⟨S_, .f32⟩
  | 4 => ⟨S_, .f32⟩
  | 5 => ⟨S_, .f32⟩
  | 6 => ⟨S64, .f32⟩
  | 7 => ⟨S64, .f32⟩
  | 8 => ⟨S64, .f32⟩
  | 9 => ⟨S_, .f32⟩
  | 10 => ⟨S_, .i1⟩
  | 11 => ⟨S_, .f32⟩
  | 12 => ⟨S_, .f32⟩
  | 13 => ⟨S64, .f32⟩
  | 14 => ⟨S64, .f32⟩
  | 15 => ⟨S1x64, .f32⟩
  | 16 => ⟨S1x64, .f32⟩
  | 17 => ⟨S1x64, .f32⟩
  | 18 => ⟨S1x64, .f32⟩
  | 19 => ⟨S50000x64, .f32⟩
  | 20 => ⟨S50000x64, .f32⟩
  | 21 => ⟨S50000x64, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x64, .f32⟩
  | 31 => ⟨S_, .f32⟩
  | 32 => ⟨S50000x64, .f32⟩
  | 33 => ⟨S800000x1, .i32⟩
  | 34 => ⟨S50000x64, .f32⟩
  | 35 => ⟨S50000x64, .f32⟩
  | 36 => ⟨S50000x64, .f32⟩
  | 37 => ⟨S1x32, .f32⟩
  | 38 => ⟨S50000x32, .f32⟩
  | 39 => ⟨S_, .f32⟩
  | 40 => ⟨S32, .f32⟩
  | 41 => ⟨S_, .f32⟩
  | 42 => ⟨S32, .f32⟩
  | 43 => ⟨S32, .f32⟩
  | 44 => ⟨S_, .i32⟩
  | 45 => ⟨S_, .f32⟩
  | 46 => ⟨S32, .f32⟩
  | 47 => ⟨S1x32, .f32⟩
  | 48 => ⟨S_, .f32⟩
  | 49 => ⟨S1x32, .f32⟩
  | 50 => ⟨S1x32, .f32⟩
  | 51 => ⟨S50000x32, .f32⟩
  | 52 => ⟨S50000x32, .f32⟩
  | 53 => ⟨S50000x32, .f32⟩
  | 54 => ⟨S_, .f32⟩
  | 55 => ⟨S_, .f32⟩
  | 56 => ⟨S_, .f32⟩
  | 57 => ⟨S_, .f32⟩
  | 58 => ⟨S32, .f32⟩
  | 59 => ⟨S32, .f32⟩
  | 60 => ⟨S32, .f32⟩
  | 61 => ⟨S_, .f32⟩
  | 62 => ⟨S_, .i1⟩
  | 63 => ⟨S_, .f32⟩
  | 64 => ⟨S_, .f32⟩
  | 65 => ⟨S32, .f32⟩
  | 66 => ⟨S32, .f32⟩
  | 67 => ⟨S1x32, .f32⟩
  | 68 => ⟨S1x32, .f32⟩
  | 69 => ⟨S1x32, .f32⟩
  | 70 => ⟨S1x32, .f32⟩
  | 71 => ⟨S50000x32, .f32⟩
  | 72 => ⟨S_, .f32⟩
  | 73 => ⟨S50000, .f32⟩
  | 74 => ⟨S_, .f32⟩
  | 75 => ⟨S64, .f32⟩
  | 76 => ⟨S50000x1, .i32⟩
  | 77 => ⟨S64, .f32⟩
  | 78 => ⟨S_, .f32⟩
  | 79 => ⟨S_, .f32⟩
  | 80 => ⟨S64, .f32⟩
  | 81 => ⟨S64, .f32⟩
  | 82 => ⟨S_, .f32⟩
  | 83 => ⟨S64x32, .f32⟩
  | 84 => ⟨S50000x1, .i32⟩
  | 85 => ⟨S64x32, .f32⟩
  | 86 => ⟨S64x1, .f32⟩
  | 87 => ⟨S64x32, .f32⟩
  | 88 => ⟨S64x32, .f32⟩
  | 89 => ⟨S1x2, .f32⟩
  | 90 => ⟨S64x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S128x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x32, .f32⟩
  | .local _ .vmem, ⟨31, _⟩ => ⟨S1x32, .f32⟩
  | .local _ .vmem, ⟨32, _⟩ => ⟨S10000x32, .f32⟩
  | .local _ .vmem, ⟨33, _⟩ => ⟨S10000x32, .f32⟩
  | .local _ .vmem, ⟨34, _⟩ => ⟨S10000x32, .f32⟩
  | .local _ .vmem, ⟨35, _⟩ => ⟨S10000x32, .f32⟩
  | .local _ .vmem, ⟨36, _⟩ => ⟨S1x32, .f32⟩
  | .local _ .vmem, ⟨37, _⟩ => ⟨S1x32, .f32⟩
  | .local _ .vmem, ⟨38, _⟩ => ⟨S1x32, .f32⟩
  | .local _ .vmem, ⟨39, _⟩ => ⟨S1x32, .f32⟩
  | .local _ .vmem, ⟨40, _⟩ => ⟨S10000x32, .f32⟩
  | .local _ .vmem, ⟨41, _⟩ => ⟨S10000x32, .f32⟩
  | .local _ .vmem, ⟨42, _⟩ => ⟨S64x32, .f32⟩
  | .local _ .vmem, ⟨43, _⟩ => ⟨S32x2, .f32⟩
  | .local _ .vmem, ⟨44, _⟩ => ⟨S1x2, .f32⟩
  | .local _ .vmem, ⟨45, _⟩ => ⟨S64x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v4 : Ref sig .tc := ⟨.hbm, 27, rfl⟩
abbrev main_cst_2 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_v8 : Ref sig .tc := ⟨.hbm, 35, rfl⟩
abbrev main_cst_4 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_5 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c : Ref sig .tc := ⟨.hbm, 46, rfl⟩
abbrev main_v17 : Ref sig .tc := ⟨.hbm, 47, rfl⟩
abbrev main_v18 : Ref sig .tc := ⟨.hbm, 48, rfl⟩
abbrev main_c_6 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_7 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_8 : Ref sig .tc := ⟨.hbm, 63, rfl⟩
abbrev main_v31 : Ref sig .tc := ⟨.hbm, 64, rfl⟩
abbrev main_cst_9 : Ref sig .tc := ⟨.hbm, 65, rfl⟩
abbrev main_v32 : Ref sig .tc := ⟨.hbm, 66, rfl⟩
abbrev main_v33 : Ref sig .tc := ⟨.hbm, 67, rfl⟩
abbrev main_c_10 : Ref sig .tc := ⟨.hbm, 68, rfl⟩
abbrev main_call2_cst : Ref sig .tc := ⟨.hbm, 69, rfl⟩
abbrev main_call2_v0 : Ref sig .tc := ⟨.hbm, 70, rfl⟩
abbrev main_call2_v1 : Ref sig .tc := ⟨.hbm, 71, rfl⟩
abbrev main_call2_cst_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_v7 : Ref sig .tc := ⟨.hbm, 78, rfl⟩
abbrev main_call2_cst_1 : Ref sig .tc := ⟨.hbm, 79, rfl⟩
abbrev main_call2_v8 : Ref sig .tc := ⟨.hbm, 80, rfl⟩
abbrev main_call2_cst_2 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_cst_3 : Ref sig .tc := ⟨.hbm, 85, rfl⟩
abbrev main_call2_v12 : Ref sig .tc := ⟨.hbm, 86, rfl⟩
abbrev main_call2_cst_4 : Ref sig .tc := ⟨.hbm, 87, rfl⟩
abbrev main_call2_call0_v0 : Ref sig .tc := ⟨.hbm, 88, rfl⟩
abbrev main_call2_call0_v1 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_c_11 : Ref sig .tc := ⟨.hbm, 98, rfl⟩
abbrev main_v42 : Ref sig .tc := ⟨.hbm, 99, rfl⟩
abbrev main_v43 : Ref sig .tc := ⟨.hbm, 100, rfl⟩
abbrev main_c_12 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_cst_13 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_cst_14 : Ref sig .tc := ⟨.hbm, 115, rfl⟩
abbrev main_v56 : Ref sig .tc := ⟨.hbm, 116, rfl⟩
abbrev main_cst_15 : Ref sig .tc := ⟨.hbm, 117, rfl⟩
abbrev main_v57 : Ref sig .tc := ⟨.hbm, 118, rfl⟩
abbrev main_v58 : Ref sig .tc := ⟨.hbm, 119, rfl⟩
abbrev main_c_16 : Ref sig .tc := ⟨.hbm, 120, rfl⟩
abbrev main_call3_cst : Ref sig .tc := ⟨.hbm, 121, rfl⟩
abbrev main_call3_v0 : Ref sig .tc := ⟨.hbm, 122, rfl⟩
abbrev main_call3_v1 : Ref sig .tc := ⟨.hbm, 123, rfl⟩
abbrev main_call3_cst_0 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_call3_v5 : Ref sig .tc := ⟨.hbm, 128, rfl⟩
abbrev main_call3_v6 : Ref sig .tc := ⟨.hbm, 129, rfl⟩
abbrev main_call3_v7 : Ref sig .tc := ⟨.hbm, 130, rfl⟩
abbrev main_call3_cst_1 : Ref sig .tc := ⟨.hbm, 131, rfl⟩
abbrev main_call3_v8 : Ref sig .tc := ⟨.hbm, 132, rfl⟩
abbrev main_call3_cst_2 : Ref sig .tc := ⟨.hbm, 133, rfl⟩
abbrev main_call3_v9 : Ref sig .tc := ⟨.hbm, 134, rfl⟩
abbrev main_call3_v10 : Ref sig .tc := ⟨.hbm, 135, rfl⟩
abbrev main_call3_v11 : Ref sig .tc := ⟨.hbm, 136, rfl⟩
abbrev main_call3_cst_3 : Ref sig .tc := ⟨.hbm, 137, rfl⟩
abbrev main_call3_v12 : Ref sig .tc := ⟨.hbm, 138, rfl⟩
abbrev main_call3_cst_4 : Ref sig .tc := ⟨.hbm, 139, rfl⟩
abbrev main_call3_call0_v0 : Ref sig .tc := ⟨.hbm, 140, rfl⟩
abbrev main_call3_call0_v1 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_c_17 : Ref sig .tc := ⟨.hbm, 150, rfl⟩
abbrev main_v67 : Ref sig .tc := ⟨.hbm, 151, rfl⟩
abbrev main_v68 : Ref sig .tc := ⟨.hbm, 152, rfl⟩
abbrev main_c_18 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_cst_19 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_cst_20 : Ref sig .tc := ⟨.hbm, 167, rfl⟩
abbrev main_v81 : Ref sig .tc := ⟨.hbm, 168, rfl⟩
abbrev main_cst_21 : Ref sig .tc := ⟨.hbm, 169, rfl⟩
abbrev main_v82 : Ref sig .tc := ⟨.hbm, 170, rfl⟩
abbrev main_v83 : Ref sig .tc := ⟨.hbm, 171, rfl⟩
abbrev main_c_22 : Ref sig .tc := ⟨.hbm, 172, rfl⟩
abbrev main_call4_cst : Ref sig .tc := ⟨.hbm, 173, rfl⟩
abbrev main_call4_v0 : Ref sig .tc := ⟨.hbm, 174, rfl⟩
abbrev main_call4_v1 : Ref sig .tc := ⟨.hbm, 175, rfl⟩
abbrev main_call4_cst_0 : Ref sig .tc := ⟨.hbm, 176, rfl⟩
abbrev main_call4_v2 : Ref sig .tc := ⟨.hbm, 177, rfl⟩
abbrev main_call4_v3 : Ref sig .tc := ⟨.hbm, 178, rfl⟩
abbrev main_call4_v4 : Ref sig .tc := ⟨.hbm, 179, rfl⟩
abbrev main_call4_v5 : Ref sig .tc := ⟨.hbm, 180, rfl⟩
abbrev main_call4_v6 : Ref sig .tc := ⟨.hbm, 181, rfl⟩
abbrev main_call4_v7 : Ref sig .tc := ⟨.hbm, 182, rfl⟩
abbrev main_call4_cst_1 : Ref sig .tc := ⟨.hbm, 183, rfl⟩
abbrev main_call4_v8 : Ref sig .tc := ⟨.hbm, 184, rfl⟩
abbrev main_call4_cst_2 : Ref sig .tc := ⟨.hbm, 185, rfl⟩
abbrev main_call4_v9 : Ref sig .tc := ⟨.hbm, 186, rfl⟩
abbrev main_call4_v10 : Ref sig .tc := ⟨.hbm, 187, rfl⟩
abbrev main_call4_v11 : Ref sig .tc := ⟨.hbm, 188, rfl⟩
abbrev main_call4_cst_3 : Ref sig .tc := ⟨.hbm, 189, rfl⟩
abbrev main_call4_v12 : Ref sig .tc := ⟨.hbm, 190, rfl⟩
abbrev main_call4_cst_4 : Ref sig .tc := ⟨.hbm, 191, rfl⟩
abbrev main_call4_call0_v0 : Ref sig .tc := ⟨.hbm, 192, rfl⟩
abbrev main_call4_call0_v1 : Ref sig .tc := ⟨.hbm, 193, rfl⟩
abbrev main_v84 : Ref sig .tc := ⟨.hbm, 194, rfl⟩
abbrev main_v85 : Ref sig .tc := ⟨.hbm, 195, rfl⟩
abbrev main_v86 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_cst_23 : Ref sig .tc := ⟨.hbm, 200, rfl⟩
abbrev main_v90 : Ref sig .tc := ⟨.hbm, 201, rfl⟩
abbrev main_cst_24 : Ref sig .tc := ⟨.hbm, 202, rfl⟩
abbrev main_v91 : Ref sig .tc := ⟨.hbm, 203, rfl⟩
abbrev main_v92 : Ref sig .tc := ⟨.hbm, 204, rfl⟩
abbrev main_v93 : Ref sig .tc := ⟨.hbm, 205, rfl⟩
abbrev main_cst_25 : Ref sig .tc := ⟨.hbm, 206, rfl⟩
abbrev main_call5_v0 : Ref sig .tc := ⟨.hbm, 207, rfl⟩
abbrev main_call5_v1 : Ref sig .tc := ⟨.hbm, 208, rfl⟩
abbrev main_v94 : Ref sig .tc := ⟨.hbm, 209, rfl⟩
abbrev main_cst_26 : Ref sig .tc := ⟨.hbm, 210, rfl⟩
abbrev main_v95 : Ref sig .tc := ⟨.hbm, 211, rfl⟩
abbrev main_v96 : Ref sig .tc := ⟨.hbm, 212, rfl⟩
abbrev main_v97 : Ref sig .tc := ⟨.hbm, 213, rfl⟩
abbrev main_v98 : Ref sig .tc := ⟨.hbm, 214, rfl⟩
abbrev main_v99 : Ref sig .tc := ⟨.hbm, 215, rfl⟩
abbrev main_v100 : Ref sig .tc := ⟨.hbm, 216, rfl⟩
abbrev main_v101 : Ref sig .tc := ⟨.hbm, 217, rfl⟩
abbrev main_v102 : Ref sig .tc := ⟨.hbm, 218, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg5_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem5_1 : DmaSem sig := 41
abbrev cc6_sem0_0 : DmaSem sig := 42
abbrev cc6_sem1_0 : DmaSem sig := 43
abbrev cc6_sem2_0 : DmaSem sig := 44
abbrev cc6_sem3_0 : DmaSem sig := 45

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S64x32 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S32x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  reducesTo_S50000x64_S64_d0 : S50000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  shapeCasts_S10000x64_S10000x64 : S10000x64.ShapeCasts S10000x64
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  reducesTo_S50000x32_S32_d0 : S50000x32.ReducesTo [0] S32
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S50000x32_0_1 : S1x32.BroadcastsInDim S50000x32 (![0, 1] : Fin 2 → Fin S50000x32.rank)
  shapeCasts_S10000x32_S10000x32 : S10000x32.ShapeCasts S10000x32
  bcast_S_S64x32 : S_.BroadcastsInDim S64x32 (![] : Fin 0 → Fin S64x32.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  shapeCasts_S2_S1x2 : S2.ShapeCasts S1x2
  shapeCasts_S64x32_S64x32 : S64x32.ShapeCasts S64x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x32_S10000x32_1_0_0_1_n_n_wf : DotDims.WF S10000x64 S64x32 S10000x32 [1] [0] [0] [1] [] []
  scatter_S64_S50000x1_S50000_n_0_0_1_wf : ScatterDims.WF S64 S50000x1 S50000 [] [0] [0] 1
  scatter_S64x32_S50000x1_S50000x32_1_0_0_1_wf : ScatterDims.WF S64x32 S50000x1 S50000x32 [1] [0] [0] 1
  dot_S64x32_S32x2_S64x2_1_0_0_1_n_n_wf : DotDims.WF S64x32 S32x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S50000x128.size a
  hwx1_5 : ∀ i : grid1.Coords, EltTy.bits .f32 = 32 ∨ (Rect.block (s := S50000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S50000x64.size a
  hwx2_3 : ∀ i : grid2.Coords, EltTy.bits .f32 = 32 ∨ (Rect.block (s := S50000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S50000x64.size a
  hwx3_5 : ∀ i : grid3.Coords, EltTy.bits .f32 = 32 ∨ (Rect.block (s := S50000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x32.size a ≤ S50000x32.size a
  hwx4_3 : ∀ i : grid4.Coords, EltTy.bits .f32 = 32 ∨ (Rect.block (s := S50000x32) S10000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S50000x32.size a
  hwx5_0 : ∀ i : grid5.Coords, EltTy.bits .f32 = 32 ∨ (Rect.block (s := S50000x32) S10000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x32.size a ≤ S50000x32.size a
  hwx5_5 : ∀ i : grid5.Coords, EltTy.bits .f32 = 32 ∨ (Rect.block (s := S50000x32) S10000x32.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S64x32.size a ≤ S64x32.size a
  hwx6_0 : ∀ i : grid6.Coords, EltTy.bits .f32 = 32 ∨ (Rect.block (s := S64x32) S64x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x2.size a ≤ S32x2.size a
  hwx6_1 : ∀ i : grid6.Coords, EltTy.bits .f32 = 32 ∨ (Rect.block (s := S32x2) S32x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x2.size a ≤ S64x2.size a
  hwx6_3 : ∀ i : grid6.Coords, EltTy.bits .f32 = 32 ∨ (Rect.block (s := S64x2) S64x2.size (cc6_transform_3 i) (hinb6_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x32_S50000x1_S50000x32_1_0_0_1 : ScatterDims S64x32 S50000x1 S50000x32 where
  updateWindowDims := [1]
  insertedWindowDims := [0]
  scatterDimsToOperandDims := [0]
  indexVectorDim := 1
  wf := scatter_S64x32_S50000x1_S50000x32_1_0_0_1_wf
def dot_S64x32_S32x2_S64x2_1_0_0_1_n_n : DotDims S64x32 S32x2 S64x2 where
  lhsContracting := [1]
  rhsContracting := [0]
  lhsNonContracting := [0]
  rhsNonContracting := [1]
  lhsBatch := []
  rhsBatch := []
  wf := dot_S64x32_S32x2_S64x2_1_0_0_1_n_n_wf

abbrev win0_0 : Pipeline.Window sig grid0 :=
  Pipeline.Window.ofSpec (Memref.whole main_v28) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v55) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v78) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v80) S10000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v80) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v86) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v87) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v88) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v89) S10000x32.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v100) S64x32.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg16) S32x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v101) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v102) S64x2.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩
abbrev S800000x64 : Shape := ⟨2, ![800000, 64]⟩
abbrev S50000x32 : Shape := ⟨2, ![50000, 32]⟩
abbrev S1x32 : Shape := ⟨2, ![1, 32]⟩
abbrev S64x1 : Shape := ⟨2, ![64, 1]⟩
abbrev S64x2 : Shape := ⟨2, ![64, 2]⟩
abbrev S1x2 : Shape := ⟨2, ![1, 2]⟩

abbrev nBuf : Space → Nat
  | .hbm => 281
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S50000, .i32⟩
  | 4 => ⟨S128x128, .f32⟩
  | 5 => ⟨S128, .f32⟩
  | 6 => ⟨S128, .f32⟩
  | 7 => ⟨S128, .f32⟩
  | 8 => ⟨S128x64, .f32⟩
  | 9 => ⟨S64, .f32⟩
  | 10 => ⟨S64, .f32⟩
  | 11 => ⟨S64, .f32⟩
  | 12 => ⟨S64x32, .f32⟩
  | 13 => ⟨S32, .f32⟩
  | 14 => ⟨S32, .f32⟩
  | 15 => ⟨S32, .f32⟩
  | 16 => ⟨S32x2, .f32⟩
  | 17 => ⟨S2, .f32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S_, .f32⟩
  | 26 => ⟨S50000, .f32⟩
  | 27 => ⟨S50000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S_, .f32⟩
  | 34 => ⟨S50000, .f32⟩
  | 35 => ⟨S50000, .f32⟩
  | 36 => ⟨S_, .f32⟩
  | 37 => ⟨S50000, .f32⟩
  | 38 => ⟨S50000, .f32⟩
  | 39 => ⟨S50000x1, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S_, .f32⟩
  | 56 => ⟨S50000x128, .f32⟩
  | 57 => ⟨S800000x1, .i32⟩
  | 58 => ⟨S50000x128, .f32⟩
  | 59 => ⟨S50000x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S128, .f32⟩
  | 67 => ⟨S_, .f32⟩
  | 68 => ⟨S128, .f32⟩
  | 69 => ⟨S128, .f32⟩
  | 70 => ⟨S_, .i32⟩
  | 71 => ⟨S_, .f32⟩
  | 72 => ⟨S128, .f32⟩
  | 73 => ⟨S1x128, .f32⟩
  | 74 => ⟨S_, .f32⟩
  | 75 => ⟨S1x128, .f32⟩
  | 76 => ⟨S1x128, .f32⟩
  | 77 => ⟨S50000x128, .f32⟩
  | 78 => ⟨S50000x128, .f32⟩
  | 79 => ⟨S50000x128, .f32⟩
  | 80 => ⟨S_, .f32⟩
  | 81 => ⟨S_, .f32⟩
  | 82 => ⟨S_, .f32⟩
  | 83 => ⟨S_, .f32⟩
  | 84 => ⟨S128, .f32⟩
  | 85 => ⟨S128, .f32⟩
  | 86 => ⟨S128, .f32⟩
  | 87 => ⟨S_, .f32⟩
  | 88 => ⟨S_, .i1⟩
  | 89 => ⟨S_, .f32⟩
  | 90 => ⟨S_, .f32⟩
  | 91 => ⟨S128, .f32⟩
  | 92 => ⟨S128, .f32⟩
  | 93 => ⟨S1x128, .f32⟩
  | 94 => ⟨S50000x128, .f32⟩
  | 95 => ⟨S50000x128, .f32⟩
  | 96 => ⟨S_, .f32⟩
  | 97 => ⟨S128, .f32⟩
  | 98 => ⟨S128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S50000x128, .f32⟩
  | 111 => ⟨S50000x128, .i1⟩
  | 112 => ⟨S_, .f32⟩
  | 113 => ⟨S50000x128, .f32⟩
  | 114 => ⟨S50000x128, .f32⟩
  | 115 => ⟨S50000x128, .f32⟩
  | 116 => ⟨S50000x128, .f32⟩
  | 117 => ⟨S50000x128, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x128, .f32⟩
  | 127 => ⟨S_, .f32⟩
  | _ => ⟨S50000x128, .f32⟩

abbrev hbmTy0_1 (i : Nat) : BufTy := match i % 128 with
  | 0 => ⟨S50000x128, .f32⟩
  | 1 => ⟨S800000x1, .i32⟩
  | 2 => ⟨S50000x128, .f32⟩
  | 3 => ⟨S50000x128, .f32⟩
  | 4 => ⟨S50000x128, .f32⟩
  | 5 => ⟨S50000x64, .f32⟩
  | 6 => ⟨S1x64, .f32⟩
  | 7 => ⟨S50000x64, .f32⟩
  | 8 => ⟨S50000x64, .f32⟩
  | 9 => ⟨S_, .f32⟩
  | 10 => ⟨S64, .f32⟩
  | 11 => ⟨S_, .f32⟩
  | 12 => ⟨S64, .f32⟩
  | 13 => ⟨S64, .f32⟩
  | 14 => ⟨S_, .i32⟩
  | 15 => ⟨S_, .f32⟩
  | 16 => ⟨S64, .f32⟩
  | 17 => ⟨S1x64, .f32⟩
  | 18 => ⟨S_, .f32⟩
  | 19 => ⟨S1x64, .f32⟩
  | 20 => ⟨S1x64, .f32⟩
  | 21 => ⟨S50000x64, .f32⟩
  | 22 => ⟨S50000x64, .f32⟩
  | 23 => ⟨S50000x64, .f32⟩
  | 24 => ⟨S_, .f32⟩
  | 25 => ⟨S_, .f32⟩
  | 26 => ⟨S_, .f32⟩
  | 27 => ⟨S_, .f32⟩
  | 28 => ⟨S64, .f32⟩
  | 29 => ⟨S64, .f32⟩
  | 30 => ⟨S64, .f32⟩
  | 31 => ⟨S_, .f32⟩
  | 32 => ⟨S_, .i1⟩
  | 33 => ⟨S_, .f32⟩
  | 34 => ⟨S_, .f32⟩
  | 35 => ⟨S64, .f32⟩
  | 36 => ⟨S64, .f32⟩
  | 37 => ⟨S1x64, .f32⟩
  | 38 => ⟨S50000x64, .f32⟩
  | 39 => ⟨S50000x64, .f32⟩
  | 40 => ⟨S_, .f32⟩
  | 41 => ⟨S64, .f32⟩
  | 42 => ⟨S64, .f32⟩
  | 43 => ⟨S64, .f32⟩
  | 44 => ⟨S1x64, .f32⟩
  | 45 => ⟨S50000x64, .f32⟩
  | 46 => ⟨S50000x64, .f32⟩
  | 47 => ⟨S1x64, .f32⟩
  | 48 => ⟨S50000x64, .f32⟩
  | 49 => ⟨S50000x64, .f32⟩
  | 50 => ⟨S1x64, .f32⟩
  | 51 => ⟨S50000x64, .f32⟩
  | 52 => ⟨S50000x64, .f32⟩
  | 53 => ⟨S_, .f32⟩
  | 54 => ⟨S50000x64, .f32⟩
  | 55 => ⟨S50000x64, .i1⟩
  | 56 => ⟨S_, .f32⟩
  | 57 => ⟨S50000x64, .f32⟩
  | 58 => ⟨S50000x64, .f32⟩
  | 59 => ⟨S50000x64, .f32⟩
  | 60 => ⟨S50000x64, .f32⟩
  | 61 => ⟨S50000x64, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x64, .f32⟩
  | 71 => ⟨S_, .f32⟩
  | 72 => ⟨S50000x64, .f32⟩
  | 73 => ⟨S800000x1, .i32⟩
  | 74 => ⟨S50000x64, .f32⟩
  | 75 => ⟨S50000x64, .f32⟩
  | 76 => ⟨S50000x64, .f32⟩
  | 77 => ⟨S50000x32, .f32⟩
  | 78 => ⟨S1x32, .f32⟩
  | 79 => ⟨S50000x32, .f32⟩
  | 80 => ⟨S50000x32, .f32⟩
  | 81 => ⟨S_, .f32⟩
  | 82 => ⟨S32, .f32⟩
  | 83 => ⟨S_, .f32⟩
  | 84 => ⟨S32, .f32⟩
  | 85 => ⟨S32, .f32⟩
  | 86 => ⟨S_, .i32⟩
  | 87 => ⟨S_, .f32⟩
  | 88 => ⟨S32, .f32⟩
  | 89 => ⟨S1x32, .f32⟩
  | 90 => ⟨S_, .f32⟩
  | 91 => ⟨S1x32, .f32⟩
  | 92 => ⟨S1x32, .f32⟩
  | 93 => ⟨S50000x32, .f32⟩
  | 94 => ⟨S50000x32, .f32⟩
  | 95 => ⟨S50000x32, .f32⟩
  | 96 => ⟨S_, .f32⟩
  | 97 => ⟨S_, .f32⟩
  | 98 => ⟨S_, .f32⟩
  | 99 => ⟨S_, .f32⟩
  | 100 => ⟨S32, .f32⟩
  | 101 => ⟨S32, .f32⟩
  | 102 => ⟨S32, .f32⟩
  | 103 => ⟨S_, .f32⟩
  | 104 => ⟨S_, .i1⟩
  | 105 => ⟨S_, .f32⟩
  | 106 => ⟨S_, .f32⟩
  | 107 => ⟨S32, .f32⟩
  | 108 => ⟨S32, .f32⟩
  | 109 => ⟨S1x32, .f32⟩
  | 110 => ⟨S50000x32, .f32⟩
  | 111 => ⟨S50000x32, .f32⟩
  | 112 => ⟨S_, .f32⟩
  | 113 => ⟨S32, .f32⟩
  | 114 => ⟨S32, .f32⟩
  | 115 => ⟨S32, .f32⟩
  | 116 => ⟨S1x32, .f32⟩
  | 117 => ⟨S50000x32, .f32⟩
  | 118 => ⟨S50000x32, .f32⟩
  | 119 => ⟨S1x32, .f32⟩
  | 120 => ⟨S50000x32, .f32⟩
  | 121 => ⟨S50000x32, .f32⟩
  | 122 => ⟨S1x32, .f32⟩
  | 123 => ⟨S50000x32, .f32⟩
  | 124 => ⟨S50000x32, .f32⟩
  | 125 => ⟨S_, .f32⟩
  | 126 => ⟨S50000x32, .f32⟩
  | 127 => ⟨S50000x32, .i1⟩
  | _ => ⟨S50000x128, .f32⟩

abbrev hbmTy0_2 (i : Nat) : BufTy := match i % 128 with
  | 0 => ⟨S_, .f32⟩
  | 1 => ⟨S50000x32, .f32⟩
  | 2 => ⟨S50000x32, .f32⟩
  | 3 => ⟨S50000x32, .f32⟩
  | 4 => ⟨S_, .f32⟩
  | 5 => ⟨S50000, .f32⟩
  | 6 => ⟨S_, .f32⟩
  | 7 => ⟨S64, .f32⟩
  | 8 => ⟨S50000x1, .i32⟩
  | 9 => ⟨S64, .f32⟩
  | 10 => ⟨S_, .f32⟩
  | 11 => ⟨S_, .f32⟩
  | 12 => ⟨S64, .f32⟩
  | 13 => ⟨S64, .f32⟩
  | 14 => ⟨S_, .f32⟩
  | 15 => ⟨S64x32, .f32⟩
  | 16 => ⟨S50000x1, .i32⟩
  | 17 => ⟨S64x32, .f32⟩
  | 18 => ⟨S64x1, .f32⟩
  | 19 => ⟨S64x32, .f32⟩
  | 20 => ⟨S64x32, .f32⟩
  | 21 => ⟨S64x2, .f32⟩
  | 22 => ⟨S1x2, .f32⟩
  | 23 => ⟨S64x2, .f32⟩
  | 24 => ⟨S64x2, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v4 : Ref sig .tc := ⟨.hbm, 27, rfl⟩
abbrev main_cst_2 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_v8 : Ref sig .tc := ⟨.hbm, 35, rfl⟩
abbrev main_cst_4 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_5 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c : Ref sig .tc := ⟨.hbm, 46, rfl⟩
abbrev main_v17 : Ref sig .tc := ⟨.hbm, 47, rfl⟩
abbrev main_v18 : Ref sig .tc := ⟨.hbm, 48, rfl⟩
abbrev main_c_6 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_7 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_8 : Ref sig .tc := ⟨.hbm, 65, rfl⟩
abbrev main_v33 : Ref sig .tc := ⟨.hbm, 66, rfl⟩
abbrev main_cst_9 : Ref sig .tc := ⟨.hbm, 67, rfl⟩
abbrev main_v34 : Ref sig .tc := ⟨.hbm, 68, rfl⟩
abbrev main_v35 : Ref sig .tc := ⟨.hbm, 69, rfl⟩
abbrev main_c_10 : Ref sig .tc := ⟨.hbm, 70, rfl⟩
abbrev main_call2_cst : Ref sig .tc := ⟨.hbm, 71, rfl⟩
abbrev main_call2_v0 : Ref sig .tc := ⟨.hbm, 72, rfl⟩
abbrev main_call2_v1 : Ref sig .tc := ⟨.hbm, 73, rfl⟩
abbrev main_call2_cst_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_v6 : Ref sig .tc := ⟨.hbm, 79, rfl⟩
abbrev main_call2_v7 : Ref sig .tc := ⟨.hbm, 80, rfl⟩
abbrev main_call2_cst_1 : Ref sig .tc := ⟨.hbm, 81, rfl⟩
abbrev main_call2_v8 : Ref sig .tc := ⟨.hbm, 82, rfl⟩
abbrev main_call2_cst_2 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_cst_3 : Ref sig .tc := ⟨.hbm, 87, rfl⟩
abbrev main_call2_v12 : Ref sig .tc := ⟨.hbm, 88, rfl⟩
abbrev main_call2_cst_4 : Ref sig .tc := ⟨.hbm, 89, rfl⟩
abbrev main_call2_call0_v0 : Ref sig .tc := ⟨.hbm, 90, rfl⟩
abbrev main_call2_call0_v1 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_cst_11 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_cst_12 : Ref sig .tc := ⟨.hbm, 109, rfl⟩
abbrev main_v52 : Ref sig .tc := ⟨.hbm, 110, rfl⟩
abbrev main_v53 : Ref sig .tc := ⟨.hbm, 111, rfl⟩
abbrev main_cst_13 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_c_14 : Ref sig .tc := ⟨.hbm, 118, rfl⟩
abbrev main_v59 : Ref sig .tc := ⟨.hbm, 119, rfl⟩
abbrev main_v60 : Ref sig .tc := ⟨.hbm, 120, rfl⟩
abbrev main_c_15 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_cst_16 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_cst_17 : Ref sig .tc := ⟨.hbm, 137, rfl⟩
abbrev main_v75 : Ref sig .tc := ⟨.hbm, 138, rfl⟩
abbrev main_cst_18 : Ref sig .tc := ⟨.hbm, 139, rfl⟩
abbrev main_v76 : Ref sig .tc := ⟨.hbm, 140, rfl⟩
abbrev main_v77 : Ref sig .tc := ⟨.hbm, 141, rfl⟩
abbrev main_c_19 : Ref sig .tc := ⟨.hbm, 142, rfl⟩
abbrev main_call4_cst : Ref sig .tc := ⟨.hbm, 143, rfl⟩
abbrev main_call4_v0 : Ref sig .tc := ⟨.hbm, 144, rfl⟩
abbrev main_call4_v1 : Ref sig .tc := ⟨.hbm, 145, rfl⟩
abbrev main_call4_cst_0 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_v6 : Ref sig .tc := ⟨.hbm, 151, rfl⟩
abbrev main_call4_v7 : Ref sig .tc := ⟨.hbm, 152, rfl⟩
abbrev main_call4_cst_1 : Ref sig .tc := ⟨.hbm, 153, rfl⟩
abbrev main_call4_v8 : Ref sig .tc := ⟨.hbm, 154, rfl⟩
abbrev main_call4_cst_2 : Ref sig .tc := ⟨.hbm, 155, rfl⟩
abbrev main_call4_v9 : Ref sig .tc := ⟨.hbm, 156, rfl⟩
abbrev main_call4_v10 : Ref sig .tc := ⟨.hbm, 157, rfl⟩
abbrev main_call4_v11 : Ref sig .tc := ⟨.hbm, 158, rfl⟩
abbrev main_call4_cst_3 : Ref sig .tc := ⟨.hbm, 159, rfl⟩
abbrev main_call4_v12 : Ref sig .tc := ⟨.hbm, 160, rfl⟩
abbrev main_call4_cst_4 : Ref sig .tc := ⟨.hbm, 161, rfl⟩
abbrev main_call4_call0_v0 : Ref sig .tc := ⟨.hbm, 162, rfl⟩
abbrev main_call4_call0_v1 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_cst_20 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_cst_21 : Ref sig .tc := ⟨.hbm, 181, rfl⟩
abbrev main_v94 : Ref sig .tc := ⟨.hbm, 182, rfl⟩
abbrev main_v95 : Ref sig .tc := ⟨.hbm, 183, rfl⟩
abbrev main_cst_22 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_c_23 : Ref sig .tc := ⟨.hbm, 190, rfl⟩
abbrev main_v101 : Ref sig .tc := ⟨.hbm, 191, rfl⟩
abbrev main_v102 : Ref sig .tc := ⟨.hbm, 192, rfl⟩
abbrev main_c_24 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_cst_25 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_cst_26 : Ref sig .tc := ⟨.hbm, 209, rfl⟩
abbrev main_v117 : Ref sig .tc := ⟨.hbm, 210, rfl⟩
abbrev main_cst_27 : Ref sig .tc := ⟨.hbm, 211, rfl⟩
abbrev main_v118 : Ref sig .tc := ⟨.hbm, 212, rfl⟩
abbrev main_v119 : Ref sig .tc := ⟨.hbm, 213, rfl⟩
abbrev main_c_28 : Ref sig .tc := ⟨.hbm, 214, rfl⟩
abbrev main_call6_cst : Ref sig .tc := ⟨.hbm, 215, rfl⟩
abbrev main_call6_v0 : Ref sig .tc := ⟨.hbm, 216, rfl⟩
abbrev main_call6_v1 : Ref sig .tc := ⟨.hbm, 217, rfl⟩
abbrev main_call6_cst_0 : Ref sig .tc := ⟨.hbm, 218, rfl⟩
abbrev main_call6_v2 : Ref sig .tc := ⟨.hbm, 219, rfl⟩
abbrev main_call6_v3 : Ref sig .tc := ⟨.hbm, 220, rfl⟩
abbrev main_call6_v4 : Ref sig .tc := ⟨.hbm, 221, rfl⟩
abbrev main_call6_v5 : Ref sig .tc := ⟨.hbm, 222, rfl⟩
abbrev main_call6_v6 : Ref sig .tc := ⟨.hbm, 223, rfl⟩
abbrev main_call6_v7 : Ref sig .tc := ⟨.hbm, 224, rfl⟩
abbrev main_call6_cst_1 : Ref sig .tc := ⟨.hbm, 225, rfl⟩
abbrev main_call6_v8 : Ref sig .tc := ⟨.hbm, 226, rfl⟩
abbrev main_call6_cst_2 : Ref sig .tc := ⟨.hbm, 227, rfl⟩
abbrev main_call6_v9 : Ref sig .tc := ⟨.hbm, 228, rfl⟩
abbrev main_call6_v10 : Ref sig .tc := ⟨.hbm, 229, rfl⟩
abbrev main_call6_v11 : Ref sig .tc := ⟨.hbm, 230, rfl⟩
abbrev main_call6_cst_3 : Ref sig .tc := ⟨.hbm, 231, rfl⟩
abbrev main_call6_v12 : Ref sig .tc := ⟨.hbm, 232, rfl⟩
abbrev main_call6_cst_4 : Ref sig .tc := ⟨.hbm, 233, rfl⟩
abbrev main_call6_call0_v0 : Ref sig .tc := ⟨.hbm, 234, rfl⟩
abbrev main_call6_call0_v1 : Ref sig .tc := ⟨.hbm, 235, rfl⟩
abbrev main_v120 : Ref sig .tc := ⟨.hbm, 236, rfl⟩
abbrev main_v121 : Ref sig .tc := ⟨.hbm, 237, rfl⟩
abbrev main_v122 : Ref sig .tc := ⟨.hbm, 238, rfl⟩
abbrev main_v123 : Ref sig .tc := ⟨.hbm, 239, rfl⟩
abbrev main_cst_29 : Ref sig .tc := ⟨.hbm, 240, rfl⟩
abbrev main_v124 : Ref sig .tc := ⟨.hbm, 241, rfl⟩
abbrev main_v125 : Ref sig .tc := ⟨.hbm, 242, rfl⟩
abbrev main_v126 : Ref sig .tc := ⟨.hbm, 243, rfl⟩
abbrev main_v127 : Ref sig .tc := ⟨.hbm, 244, rfl⟩
abbrev main_v128 : Ref sig .tc := ⟨.hbm, 245, rfl⟩
abbrev main_v129 : Ref sig .tc := ⟨.hbm, 246, rfl⟩
abbrev main_v130 : Ref sig .tc := ⟨.hbm, 247, rfl⟩
abbrev main_v131 : Ref sig .tc := ⟨.hbm, 248, rfl⟩
abbrev main_v132 : Ref sig .tc := ⟨.hbm, 249, rfl⟩
abbrev main_v133 : Ref sig .tc := ⟨.hbm, 250, rfl⟩
abbrev main_v134 : Ref sig .tc := ⟨.hbm, 251, rfl⟩
abbrev main_v135 : Ref sig .tc := ⟨.hbm, 252, rfl⟩
abbrev main_cst_30 : Ref sig .tc := ⟨.hbm, 253, rfl⟩
abbrev main_v136 : Ref sig .tc := ⟨.hbm, 254, rfl⟩
abbrev main_v137 : Ref sig .tc := ⟨.hbm, 255, rfl⟩
abbrev main_cst_31 : Ref sig .tc := ⟨.hbm, 256, rfl⟩
abbrev main_v138 : Ref sig .tc := ⟨.hbm, 257, rfl⟩
abbrev main_v139 : Ref sig .tc := ⟨.hbm, 258, rfl⟩
abbrev main_v140 : Ref sig .tc := ⟨.hbm, 259, rfl⟩
abbrev main_cst_32 : Ref sig .tc := ⟨.hbm, 260, rfl⟩
abbrev main_v141 : Ref sig .tc := ⟨.hbm, 261, rfl⟩
abbrev main_cst_33 : Ref sig .tc := ⟨.hbm, 262, rfl⟩
abbrev main_v142 : Ref sig .tc := ⟨.hbm, 263, rfl⟩
abbrev main_v143 : Ref sig .tc := ⟨.hbm, 264, rfl⟩
abbrev main_v144 : Ref sig .tc := ⟨.hbm, 265, rfl⟩
abbrev main_cst_34 : Ref sig .tc := ⟨.hbm, 266, rfl⟩
abbrev main_call8_v0 : Ref sig .tc := ⟨.hbm, 267, rfl⟩
abbrev main_call8_v1 : Ref sig .tc := ⟨.hbm, 268, rfl⟩
abbrev main_v145 : Ref sig .tc := ⟨.hbm, 269, rfl⟩
abbrev main_cst_35 : Ref sig .tc := ⟨.hbm, 270, rfl⟩
abbrev main_v146 : Ref sig .tc := ⟨.hbm, 271, rfl⟩
abbrev main_v147 : Ref sig .tc := ⟨.hbm, 272, rfl⟩
abbrev main_v148 : Ref sig .tc := ⟨.hbm, 273, rfl⟩
abbrev main_v149 : Ref sig .tc := ⟨.hbm, 274, rfl⟩
abbrev main_v150 : Ref sig .tc := ⟨.hbm, 275, rfl⟩
abbrev main_v151 : Ref sig .tc := ⟨.hbm, 276, rfl⟩
abbrev main_v152 : Ref sig .tc := ⟨.hbm, 277, rfl⟩
abbrev main_v153 : Ref sig .tc := ⟨.hbm, 278, rfl⟩
abbrev main_v154 : Ref sig .tc := ⟨.hbm, 279, rfl⟩
abbrev main_v155 : Ref sig .tc := ⟨.hbm, 280, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  bcast_S_S64 : S_.BroadcastsInDim S64 (![] : Fin 0 → Fin S64.rank)
  bcast_S_S1x64 : S_.BroadcastsInDim S1x64 (![] : Fin 0 → Fin S1x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S32_d0 : S50000x32.ReducesTo [0] S32
  bcast_S_S32 : S_.BroadcastsInDim S32 (![] : Fin 0 → Fin S32.rank)
  bcast_S_S1x32 : S_.BroadcastsInDim S1x32 (![] : Fin 0 → Fin S1x32.rank)
  bcast_S_S50000x32 : S_.BroadcastsInDim S50000x32 (![] : Fin 0 → Fin S50000x32.rank)
  bcast_S_S64x32 : S_.BroadcastsInDim S64x32 (![] : Fin 0 → Fin S64x32.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x32_S50000x32_1_0_0_1_n_n_wf : DotDims.WF S50000x64 S64x32 S50000x32 [1] [0] [0] [1] [] []
  scatter_S64_S50000x1_S50000_n_0_0_1_wf : ScatterDims.WF S64 S50000x1 S50000 [] [0] [0] 1
  scatter_S64x32_S50000x1_S50000x32_1_0_0_1_wf : ScatterDims.WF S64x32 S50000x1 S50000x32 [1] [0] [0] 1
  dot_S64x32_S32x2_S64x2_1_0_0_1_n_n_wf : DotDims.WF S64x32 S32x2 S64x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x32_S50000x1_S50000x32_1_0_0_1 : ScatterDims S64x32 S50000x1 S50000x32 where
  updateWindowDims := [1]
  insertedWindowDims := [0]
  scatterDimsToOperandDims := [0]
  indexVectorDim := 1
  wf := scatter_S64x32_S50000x1_S50000x32_1_0_0_1_wf
def dot_S64x32_S32x2_S64x2_1_0_0_1_n_n : DotDims S64x32 S32x2 S64x2 where
  lhsContracting := [1]
  rhsContracting := [0]
  lhsNonContracting := [0]
  rhsNonContracting := [1]
  lhsBatch := []
  rhsBatch := []
  wf := dot_S64x32_S32x2_S64x2_1_0_0_1_n_n_wf

class Facts : Prop extends Facts₀ where

variable [Facts]
-- ==== Proof.KernelRun.lean ====
/-
  The idealized kernel's run with its result named: every weakly fair execution of @main terminates without a
  fault, the argument arrays end as launched, and the result array ends at the contents the last region's
  write-backs leave — the value of the fold through @main's host stretches and regions at the last boundary.
-/
import proofs.«126871_j30021821399140_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Named

set_option backward.isDefEq.respectTransparency.types false in
/-- The run of @main from any memory with zero counters: it terminates, nothing faults, the result array holds
    the last boundary's contents and every argument array its launch contents. -/
theorem run : θ_run defs (onTc (τ := τ) (main (F := F))) ⟨m, fun _ => 0, ρ⟩ (fun r => ∀ c : Dev nD,
      r.2.mem ((c.tc : Thread nD τ).loc main_v102) = W26 m ρ c (Proc.devRef .tc main_v102)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h c =>
      ⟨h c _ (mem_uc main_v102 (by decide)),
       (h c _ (mem_uc main_arg0 (by decide))).trans (W26_main_arg0 m ρ c),
       (h c _ (mem_uc main_arg1 (by decide))).trans (W26_main_arg1 m ρ c),
       (h c _ (mem_uc main_arg2 (by decide))).trans (W26_main_arg2 m ρ c),
       (h c _ (mem_uc main_arg3 (by decide))).trans (W26_main_arg3 m ρ c),
       (h c _ (mem_uc main_arg4 (by decide))).trans (W26_main_arg4 m ρ c),
       (h c _ (mem_uc main_arg5 (by decide))).trans (W26_main_arg5 m ρ c),
       (h c _ (mem_uc main_arg6 (by decide))).trans (W26_main_arg6 m ρ c),
       (h c _ (mem_uc main_arg7 (by decide))).trans (W26_main_arg7 m ρ c),
       (h c _ (mem_uc main_arg8 (by decide))).trans (W26_main_arg8 m ρ c),
       (h c _ (mem_uc main_arg9 (by decide))).trans (W26_main_arg9 m ρ c),
       (h c _ (mem_uc main_arg10 (by decide))).trans (W26_main_arg10 m ρ c),
       (h c _ (mem_uc main_arg11 (by decide))).trans (W26_main_arg11 m ρ c),
       (h c _ (mem_uc main_arg12 (by decide))).trans (W26_main_arg12 m ρ c),
       (h c _ (mem_uc main_arg13 (by decide))).trans (W26_main_arg13 m ρ c),
       (h c _ (mem_uc main_arg14 (by decide))).trans (W26_main_arg14 m ρ c),
       (h c _ (mem_uc main_arg15 (by decide))).trans (W26_main_arg15 m ρ c),
       (h c _ (mem_uc main_arg16 (by decide))).trans (W26_main_arg16 m ρ c),
       (h c _ (mem_uc main_arg17 (by decide))).trans (W26_main_arg17 m ρ c)⟩)

end Named

end Cert.KernelIdeal.Gen

end
-- ==== Proof.RefOps.lean ====
/- The reference program's @main as lists of its host operations, in order, every module-local function's body
   written out at its call site over that call's buffers. The 263 operations are cut into fourteen consecutive
   lists: the normalised aggregation before a layer (cP0, cP1, cP2), a layer's matrix product and bias (cL1, cL2,
   cL3), its column mean and variance (cS1, cS2, cS3), the normalisation and leaky rectifier (cB1, cB2, cB3), the
   mean pooling (cP3) and the last matrix product and bias (cC). `ops` is their concatenation. -/
import proofs.«126871_j30021821399140_1_alg».proof.ReferenceIdeal
import Idealize.ShloMosaic.Lib.StableHlo.Run

set_option maxRecDepth 16384

noncomputable section

namespace Cert.ReferenceIdeal.RefRun

open Cert.ReferenceIdeal Idealize.ShloMosaic Idealize.ShloMosaic.TcCoe Idealize.SL.Sem Idealize.ShloMosaic.StableHlo

/-- The contents after two lines run one after the other: the second line's fold over the first's. -/
theorem after_append {τ' : Topo} {sig' : RefSig} {Val : EltTy → Type} (l₁ l₂ : List (HloOp τ' sig' Val))
    (V : Valuation τ' sig' Val) : after (l₁ ++ l₂) V = after l₂ (after l₁ V) := by
  induction l₁ generalizing V with
  | nil => rfl
  | cons op l ih => exact ih (op.result V)

variable {F : FTy → Type} [FloatOps F] [Facts]
open Facts₀ Facts

/-- The degree counts, their inverse square roots, and the first normalised aggregation of the features (through main_v28). -/
abbrev cP0 : List (HloOp τ sig (Elt F)) :=
  [ StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.unary main_arg1 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.TRef.unary (.of main_cst_1 : StableHlo.TRef sig ⟨S_, .f32⟩) main_call0.v0 id,
    StableHlo.TRef.unary main_call0.v0 main_call0.v1 (broadcastInDim S50000 ![] bcast_S_S50000),
    StableHlo.TRef.binary main_call0.v1 (.of main_v3 : StableHlo.TRef sig ⟨S50000, .f32⟩) main_call0.v2 maximumf,
    StableHlo.nullary main_cst_2 (constant S_ .f32 0x00000000#32),
    StableHlo.unary main_cst_2 main_v5 (broadcastInDim S50000 ![] bcast_S_S50000 : (⟨S_, .f32⟩ : BufTy).Contents (Elt F) → (⟨S50000, .f32⟩ : BufTy).Contents (Elt F)),
    StableHlo.unary main_arg2 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v0 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.TRef.unary (.of main_cst_3 : StableHlo.TRef sig ⟨S_, .f32⟩) main_call1.v0 id,
    StableHlo.TRef.unary main_call1.v0 main_call1.v1 (broadcastInDim S50000 ![] bcast_S_S50000),
    StableHlo.TRef.binary main_call1.v1 (.of main_v7 : StableHlo.TRef sig ⟨S50000, .f32⟩) main_call1.v2 maximumf,
    StableHlo.nullary main_cst_4 (constant S_ .f32 0xBF000000#32),
    StableHlo.unary main_cst_4 main_v9 (broadcastInDim S50000 ![] bcast_S_S50000 : (⟨S_, .f32⟩ : BufTy).Contents (Elt F) → (⟨S50000, .f32⟩ : BufTy).Contents (Elt F)),
    StableHlo.binary main_v4 main_v9 main_v10 (Host.powf : (⟨S50000, .f32⟩ : BufTy).Contents (Elt F) → (⟨S50000, .f32⟩ : BufTy).Contents (Elt F) → (⟨S50000, .f32⟩ : BufTy).Contents (Elt F)),
    StableHlo.unary main_v10 main_v11 (broadcastInDim S50000x1 ![0] bcast_S50000_S50000x1_0 : (⟨S50000, .f32⟩ : BufTy).Contents (Elt F) → (⟨S50000x1, .f32⟩ : BufTy).Contents (Elt F)),
    StableHlo.nullary main_cst_5 (constant S_ .f32 0xBF000000#32),
    StableHlo.unary main_cst_5 main_v12 (broadcastInDim S50000 ![] bcast_S_S50000 : (⟨S_, .f32⟩ : BufTy).Contents (Elt F) → (⟨S50000, .f32⟩ : BufTy).Contents (Elt F)),
    StableHlo.binary main_v8 main_v12 main_v13 (Host.powf : (⟨S50000, .f32⟩ : BufTy).Contents (Elt F) → (⟨S50000, .f32⟩ : BufTy).Contents (Elt F) → (⟨S50000, .f32⟩ : BufTy).Contents (Elt F)),
    StableHlo.unary main_v13 main_v14 (broadcastInDim S50000x1 ![0] bcast_S50000_S50000x1_0 : (⟨S50000, .f32⟩ : BufTy).Contents (Elt F) → (⟨S50000x1, .f32⟩ : BufTy).Contents (Elt F)),
    StableHlo.unary main_v11 main_v15 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v15 main_v16 (mulf : (⟨S50000x128, .f32⟩ : BufTy).Contents (Elt F) → (⟨S50000x128, .f32⟩ : BufTy).Contents (Elt F) → (⟨S50000x128, .f32⟩ : BufTy).Contents (Elt F)),
    StableHlo.nullary main_c (constantI S_ 32 0#32),
    StableHlo.unary main_c main_v17 (broadcastInDim S800000 ![] bcast_S_S800000 : (⟨S_, .i32⟩ : BufTy).Contents (Elt F) → (⟨S800000, .i32⟩ : BufTy).Contents (Elt F)),
    StableHlo.binary main_arg1 main_v17 main_v18 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v19 (broadcastInDim S800000 ![] bcast_S_S800000 : (⟨S_, .i32⟩ : BufTy).Contents (Elt F) → (⟨S800000, .i32⟩ : BufTy).Contents (Elt F)),
    StableHlo.binary main_arg1 main_v19 main_v20 (addi : (⟨S800000, .i32⟩ : BufTy).Contents (Elt F) → (⟨S800000, .i32⟩ : BufTy).Contents (Elt F) → (⟨S800000, .i32⟩ : BufTy).Contents (Elt F)),
    StableHlo.ternary main_v18 main_v20 main_arg1 main_v21 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v21 main_v22 (broadcastInDim S800000x1 ![0] bcast_S800000_S800000x1_0 : (⟨S800000, .i32⟩ : BufTy).Contents (Elt F) → (⟨S800000x1, .i32⟩ : BufTy).Contents (Elt F)),
    StableHlo.binary main_v16 main_v22 main_v23 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_7 (constant S_ .f32 0x00000000#32),
    StableHlo.unary main_cst_7 main_v24 (broadcastInDim S50000x128 ![] bcast_S_S50000x128 : (⟨S_, .f32⟩ : BufTy).Contents (Elt F) → (⟨S50000x128, .f32⟩ : BufTy).Contents (Elt F)),
    StableHlo.unary main_arg2 main_v25 (broadcastInDim S800000x1 ![0] bcast_S800000_S800000x1_0 : (⟨S800000, .i32⟩ : BufTy).Contents (Elt F) → (⟨S800000x1, .i32⟩ : BufTy).Contents (Elt F)),
    StableHlo.ternary main_v24 main_v25 main_v23 main_v26 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v14 main_v27 (broadcastInDim S50000x128 ![0, 1] bcast_S50000x1_S50000x128_0_1 : (⟨S50000x1, .f32⟩ : BufTy).Contents (Elt F) → (⟨S50000x128, .f32⟩ : BufTy).Contents (Elt F)),
    StableHlo.binary main_v26 main_v27 main_v28 (mulf : (⟨S50000x128, .f32⟩ : BufTy).Contents (Elt F) → (⟨S50000x128, .f32⟩ : BufTy).Contents (Elt F) → (⟨S50000x128, .f32⟩ : BufTy).Contents (Elt F)) ]

/-- Layer 1: the matrix product with the weights and the broadcast bias (main_v29 … main_v32). -/
abbrev cL1 : List (HloOp τ sig (Elt F)) :=
  [ StableHlo.binary main_v28 main_arg4 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S50000x128 ![0, 1] bcast_S1x128_S50000x128_0_1 : (⟨S1x128, .f32⟩ : BufTy).Contents (Elt F) → (⟨S50000x128, .f32⟩ : BufTy).Contents (Elt F)),
    StableHlo.binary main_v29 main_v31 main_v32 (addf : (⟨S50000x128, .f32⟩ : BufTy).Contents (Elt F) → (⟨S50000x128, .f32⟩ : BufTy).Contents (Elt F) → (⟨S50000x128, .f32⟩ : BufTy).Contents (Elt F)) ]

/-- Layer 1: the column mean and the column variance (main_cst_8 … main_v36). -/
abbrev cS1 : List (HloOp τ sig (Elt F)) :=
  [ StableHlo.nullary main_cst_8 (constant S_ .f32 0x00000000#32),
    StableHlo.binary main_v32 main_cst_8 main_v33 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v34 (broadcastInDim S128 ![] bcast_S_S128 : (⟨S_, .f32⟩ : BufTy).Contents (Elt F) → (⟨S128, .f32⟩ : BufTy).Contents (Elt F)),
    StableHlo.binary main_v33 main_v34 main_v35 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call2.cst (constant S_ .f32 0x00000000#32),
    StableHlo.TRef.binary (.of main_v32 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v32 : StableHlo.TRef sig ⟨S50000x128, .f32⟩) main_call2.v4 main_call2.v5 subf,
    StableHlo.TRef.binary main_call2.v5 main_call2.v5 main_call2.v6 mulf,
    StableHlo.TRef.unary (.of main_c_10 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- Layer 1: centring, scaling by the inverse standard deviation, the affine map and the leaky rectifier (main_v37 … main_v56). -/
abbrev cB1 : List (HloOp τ sig (Elt F)) :=
  [ StableHlo.unary main_v35 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S50000x128 ![0, 1] bcast_S1x128_S50000x128_0_1 : (⟨S1x128, .f32⟩ : BufTy).Contents (Elt F) → (⟨S50000x128, .f32⟩ : BufTy).Contents (Elt F)),
    StableHlo.binary main_v32 main_v38 main_v39 (subf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v40 (broadcastInDim S128 ![] bcast_S_S128 : (⟨S_, .f32⟩ : BufTy).Contents (Elt F) → (⟨S128, .f32⟩ : BufTy).Contents (Elt F)),
    StableHlo.binary main_v36 main_v40 main_v41 (addf : (⟨S128, .f32⟩ : BufTy).Contents (Elt F) → (⟨S128, .f32⟩ : BufTy).Contents (Elt F) → (⟨S128, .f32⟩ : BufTy).Contents (Elt F)),
    StableHlo.unary main_v41 main_v42 (Host.rsqrt : (⟨S128, .f32⟩ : BufTy).Contents (Elt F) → (⟨S128, .f32⟩ : BufTy).Contents (Elt F)),
    StableHlo.unary main_v42 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v39 main_v44 main_v45 (mulf : (⟨S50000x128, .f32⟩ : BufTy).Contents (Elt F) → (⟨S50000x128, .f32⟩ : BufTy).Contents (Elt F) → (⟨S50000x128, .f32⟩ : BufTy).Contents (Elt F)),
    StableHlo.unary main_arg6 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v47 main_v48 (mulf : (⟨S50000x128, .f32⟩ : BufTy).Contents (Elt F) → (⟨S50000x128, .f32⟩ : BufTy).Contents (Elt F) → (⟨S50000x128, .f32⟩ : BufTy).Contents (Elt F)),
    StableHlo.unary main_arg7 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v50 main_v51 (addf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x00000000#32),
    StableHlo.unary main_cst_12 main_v52 (broadcastInDim S50000x128 ![] bcast_S_S50000x128 : (⟨S_, .f32⟩ : BufTy).Contents (Elt F) → (⟨S50000x128, .f32⟩ : BufTy).Contents (Elt F)),
    StableHlo.binary main_v51 main_v52 main_v53 (cmpf .ogt : (⟨S50000x128, .f32⟩ : BufTy).Contents (Elt F) → (⟨S50000x128, .f32⟩ : BufTy).Contents (Elt F) → (⟨S50000x128, .i1⟩ : BufTy).Contents (Elt F)),
    StableHlo.nullary main_cst_13 (constant S_ .f32 0x3E4CCCCD#32),
    StableHlo.unary main_cst_13 main_v54 (broadcastInDim S50000x128 ![] bcast_S_S50000x128 : (⟨S_, .f32⟩ : BufTy).Contents (Elt F) → (⟨S50000x128, .f32⟩ : BufTy).Contents (Elt F)),
    StableHlo.binary main_v54 main_v51 main_v55 (mulf : (⟨S50000x128, .f32⟩ : BufTy).Contents (Elt F) → (⟨S50000x128, .f32⟩ : BufTy).Contents (Elt F) → (⟨S50000x128, .f32⟩ : BufTy).Contents (Elt F)),
    StableHlo.TRef.ternary (.of main_v53 : StableHlo.TRef sig ⟨S50000x128, .i1⟩) (.of main_v51 : StableHlo.TRef sig ⟨S50000x128, .f32⟩) (.of main_v55 : StableHlo.TRef sig ⟨S50000x128, .f32⟩) main_call3.v0 select ]

/-- The normalised aggregation before layer 2 (main_v57 … main_v70). -/
abbrev cP1 : List (HloOp τ sig (Elt F)) :=
  [ StableHlo.unary main_v11 main_v57 (broadcastInDim S50000x128 ![0, 1] bcast_S50000x1_S50000x128_0_1 : (⟨S50000x1, .f32⟩ : BufTy).Contents (Elt F) → (⟨S50000x128, .f32⟩ : BufTy).Contents (Elt F)),
    StableHlo.binary main_v56 main_v57 main_v58 (mulf : (⟨S50000x128, .f32⟩ : BufTy).Contents (Elt F) → (⟨S50000x128, .f32⟩ : BufTy).Contents (Elt F) → (⟨S50000x128, .f32⟩ : BufTy).Contents (Elt F)),
    StableHlo.nullary main_c_14 (constantI S_ 32 0#32),
    StableHlo.unary main_c_14 main_v59 (broadcastInDim S800000 ![] bcast_S_S800000 : (⟨S_, .i32⟩ : BufTy).Contents (Elt F) → (⟨S800000, .i32⟩ : BufTy).Contents (Elt F)),
    StableHlo.binary main_arg1 main_v59 main_v60 (cmpi .slt : (⟨S800000, .i32⟩ : BufTy).Contents (Elt F) → (⟨S800000, .i32⟩ : BufTy).Contents (Elt F) → (⟨S800000, .i1⟩ : BufTy).Contents (Elt F)),
    StableHlo.nullary main_c_15 (constantI S_ 32 50000#32),
    StableHlo.unary main_c_15 main_v61 (broadcastInDim S800000 ![] bcast_S_S800000 : (⟨S_, .i32⟩ : BufTy).Contents (Elt F) → (⟨S800000, .i32⟩ : BufTy).Contents (Elt F)),
    StableHlo.binary main_arg1 main_v61 main_v62 (addi : (⟨S800000, .i32⟩ : BufTy).Contents (Elt F) → (⟨S800000, .i32⟩ : BufTy).Contents (Elt F) → (⟨S800000, .i32⟩ : BufTy).Contents (Elt F)),
    StableHlo.ternary main_v60 main_v62 main_arg1 main_v63 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v63 main_v64 (broadcastInDim S800000x1 ![0] bcast_S800000_S800000x1_0 : (⟨S800000, .i32⟩ : BufTy).Contents (Elt F) → (⟨S800000x1, .i32⟩ : BufTy).Contents (Elt F)),
    StableHlo.binary main_v58 main_v64 main_v65 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_16 (constant S_ .f32 0x00000000#32),
    StableHlo.unary main_cst_16 main_v66 (broadcastInDim S50000x128 ![] bcast_S_S50000x128 : (⟨S_, .f32⟩ : BufTy).Contents (Elt F) → (⟨S50000x128, .f32⟩ : BufTy).Contents (Elt F)),
    StableHlo.unary main_arg2 main_v67 (broadcastInDim S800000x1 ![0] bcast_S800000_S800000x1_0 : (⟨S800000, .i32⟩ : BufTy).Contents (Elt F) → (⟨S800000x1, .i32⟩ : BufTy).Contents (Elt F)),
    StableHlo.ternary main_v66 main_v67 main_v65 main_v68 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v14 main_v69 (broadcastInDim S50000x128 ![0, 1] bcast_S50000x1_S50000x128_0_1 : (⟨S50000x1, .f32⟩ : BufTy).Contents (Elt F) → (⟨S50000x128, .f32⟩ : BufTy).Contents (Elt F)),
    StableHlo.binary main_v68 main_v69 main_v70 (mulf : (⟨S50000x128, .f32⟩ : BufTy).Contents (Elt F) → (⟨S50000x128, .f32⟩ : BufTy).Contents (Elt F) → (⟨S50000x128, .f32⟩ : BufTy).Contents (Elt F)) ]

/-- Layer 2: the matrix product and the bias (main_v71 … main_v74). -/
abbrev cL2 : List (HloOp τ sig (Elt F)) :=
  [ StableHlo.binary main_v70 main_arg8 main_v71 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg9 main_v72 (broadcastInDim S1x64 ![1] bcast_S64_S1x64_1 : (⟨S64, .f32⟩ : BufTy).Contents (Elt F) → (⟨S1x64, .f32⟩ : BufTy).Contents (Elt F)),
    StableHlo.unary main_v72 main_v73 (broadcastInDim S50000x64 ![0, 1] bcast_S1x64_S50000x64_0_1 : (⟨S1x64, .f32⟩ : BufTy).Contents (Elt F) → (⟨S50000x64, .f32⟩ : BufTy).Contents (Elt F)),
    StableHlo.binary main_v71 main_v73 main_v74 (addf : (⟨S50000x64, .f32⟩ : BufTy).Contents (Elt F) → (⟨S50000x64, .f32⟩ : BufTy).Contents (Elt F) → (⟨S50000x64, .f32⟩ : BufTy).Contents (Elt F)) ]

/-- Layer 2: the column mean and variance (main_cst_17 … main_v78). -/
abbrev cS2 : List (HloOp τ sig (Elt F)) :=
  [ StableHlo.nullary main_cst_17 (constant S_ .f32 0x00000000#32),
    StableHlo.binary main_v74 main_cst_17 main_v75 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_18 (constant S_ .f32 0x47435000#32),
    StableHlo.unary main_cst_18 main_v76 (broadcastInDim S64 ![] bcast_S_S64 : (⟨S_, .f32⟩ : BufTy).Contents (Elt F) → (⟨S64, .f32⟩ : BufTy).Contents (Elt F)),
    StableHlo.binary main_v75 main_v76 main_v77 (Host.divf : (⟨S64, .f32⟩ : BufTy).Contents (Elt F) → (⟨S64, .f32⟩ : BufTy).Contents (Elt F) → (⟨S64, .f32⟩ : BufTy).Contents (Elt F)),
    StableHlo.nullary main_c_19 (constantI S_ 32 0#32),
    StableHlo.TRef.nullary main_call4.cst (constant S_ .f32 0x00000000#32),
    StableHlo.TRef.binary (.of main_v74 : StableHlo.TRef sig ⟨S50000x64, .f32⟩) main_call4.cst main_call4.v0 (fun x v => Host.reduceAdd x v reducesTo_S50000x64_S64_d0 h_S_),
    StableHlo.TRef.unary main_call4.v0 main_call4.v1 (broadcastInDim S1x64 ![1] bcast_S64_S1x64_1),
    StableHlo.TRef.nullary main_call4.cst_0 (constant S_ .f32 0x47435000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S50000x64 ![0, 1] bcast_S1x64_S50000x64_0_1),
    StableHlo.TRef.binary (.of main_v74 : StableHlo.TRef sig ⟨S50000x64, .f32⟩) main_call4.v4 main_call4.v5 subf,
    StableHlo.TRef.binary main_call4.v5 main_call4.v5 main_call4.v6 mulf,
    StableHlo.TRef.unary (.of main_c_19 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b) ]

/-- Layer 2: the normalisation and the leaky rectifier (main_v79 … main_v98). -/
abbrev cB2 : List (HloOp τ sig (Elt F)) :=
  [ StableHlo.unary main_v77 main_v79 (broadcastInDim S1x64 ![1] bcast_S64_S1x64_1 : (⟨S64, .f32⟩ : BufTy).Contents (Elt F) → (⟨S1x64, .f32⟩ : BufTy).Contents (Elt F)),
    StableHlo.unary main_v79 main_v80 (broadcastInDim S50000x64 ![0, 1] bcast_S1x64_S50000x64_0_1 : (⟨S1x64, .f32⟩ : BufTy).Contents (Elt F) → (⟨S50000x64, .f32⟩ : BufTy).Contents (Elt F)),
    StableHlo.binary main_v74 main_v80 main_v81 (subf : (⟨S50000x64, .f32⟩ : BufTy).Contents (Elt F) → (⟨S50000x64, .f32⟩ : BufTy).Contents (Elt F) → (⟨S50000x64, .f32⟩ : BufTy).Contents (Elt F)),
    StableHlo.nullary main_cst_20 (constant S_ .f32 0x3727C5AC#32),
    StableHlo.unary main_cst_20 main_v82 (broadcastInDim S64 ![] bcast_S_S64 : (⟨S_, .f32⟩ : BufTy).Contents (Elt F) → (⟨S64, .f32⟩ : BufTy).Contents (Elt F)),
    StableHlo.binary main_v78 main_v82 main_v83 (addf : (⟨S64, .f32⟩ : BufTy).Contents (Elt F) → (⟨S64, .f32⟩ : BufTy).Contents (Elt F) → (⟨S64, .f32⟩ : BufTy).Contents (Elt F)),
    StableHlo.unary main_v83 main_v84 (Host.rsqrt : (⟨S64, .f32⟩ : BufTy).Contents (Elt F) → (⟨S64, .f32⟩ : BufTy).Contents (Elt F)),
    StableHlo.unary main_v84 main_v85 (broadcastInDim S1x64 ![1] bcast_S64_S1x64_1 : (⟨S64, .f32⟩ : BufTy).Contents (Elt F) → (⟨S1x64, .f32⟩ : BufTy).Contents (Elt F)),
    StableHlo.unary main_v85 main_v86 (broadcastInDim S50000x64 ![0, 1] bcast_S1x64_S50000x64_0_1 : (⟨S1x64, .f32⟩ : BufTy).Contents (Elt F) → (⟨S50000x64, .f32⟩ : BufTy).Contents (Elt F)),
    StableHlo.binary main_v81 main_v86 main_v87 (mulf : (⟨S50000x64, .f32⟩ : BufTy).Contents (Elt F) → (⟨S50000x64, .f32⟩ : BufTy).Contents (Elt F) → (⟨S50000x64, .f32⟩ : BufTy).Contents (Elt F)),
    StableHlo.unary main_arg10 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S50000x64 ![0, 1] bcast_S1x64_S50000x64_0_1 : (⟨S1x64, .f32⟩ : BufTy).Contents (Elt F) → (⟨S50000x64, .f32⟩ : BufTy).Contents (Elt F)),
    StableHlo.binary main_v87 main_v89 main_v90 (mulf : (⟨S50000x64, .f32⟩ : BufTy).Contents (Elt F) → (⟨S50000x64, .f32⟩ : BufTy).Contents (Elt F) → (⟨S50000x64, .f32⟩ : BufTy).Contents (Elt F)),
    StableHlo.unary main_arg11 main_v91 (broadcastInDim S1x64 ![1] bcast_S64_S1x64_1 : (⟨S64, .f32⟩ : BufTy).Contents (Elt F) → (⟨S1x64, .f32⟩ : BufTy).Contents (Elt F)),
    StableHlo.unary main_v91 main_v92 (broadcastInDim S50000x64 ![0, 1] bcast_S1x64_S50000x64_0_1 : (⟨S1x64, .f32⟩ : BufTy).Contents (Elt F) → (⟨S50000x64, .f32⟩ : BufTy).Contents (Elt F)),
    StableHlo.binary main_v90 main_v92 main_v93 (addf : (⟨S50000x64, .f32⟩ : BufTy).Contents (Elt F) → (⟨S50000x64, .f32⟩ : BufTy).Contents (Elt F) → (⟨S50000x64, .f32⟩ : BufTy).Contents (Elt F)),
    StableHlo.nullary main_cst_21 (constant S_ .f32 0x00000000#32),
    StableHlo.unary main_cst_21 main_v94 (broadcastInDim S50000x64 ![] bcast_S_S50000x64 : (⟨S_, .f32⟩ : BufTy).Contents (Elt F) → (⟨S50000x64, .f32⟩ : BufTy).Contents (Elt F)),
    StableHlo.binary main_v93 main_v94 main_v95 (cmpf .ogt : (⟨S50000x64, .f32⟩ : BufTy).Contents (Elt F) → (⟨S50000x64, .f32⟩ : BufTy).Contents (Elt F) → (⟨S50000x64, .i1⟩ : BufTy).Contents (Elt F)),
    StableHlo.nullary main_cst_22 (constant S_ .f32 0x3E4CCCCD#32),
    StableHlo.unary main_cst_22 main_v96 (broadcastInDim S50000x64 ![] bcast_S_S50000x64 : (⟨S_, .f32⟩ : BufTy).Contents (Elt F) → (⟨S50000x64, .f32⟩ : BufTy).Contents (Elt F)),
    StableHlo.binary main_v96 main_v93 main_v97 (mulf : (⟨S50000x64, .f32⟩ : BufTy).Contents (Elt F) → (⟨S50000x64, .f32⟩ : BufTy).Contents (Elt F) → (⟨S50000x64, .f32⟩ : BufTy).Contents (Elt F)),
    StableHlo.TRef.ternary (.of main_v95 : StableHlo.TRef sig ⟨S50000x64, .i1⟩) (.of main_v93 : StableHlo.TRef sig ⟨S50000x64, .f32⟩) (.of main_v97 : StableHlo.TRef sig ⟨S50000x64, .f32⟩) main_call5.v0 select ]

/-- The normalised aggregation before layer 3 (main_v99 … main_v112). -/
abbrev cP2 : List (HloOp τ sig (Elt F)) :=
  [ StableHlo.unary main_v11 main_v99 (broadcastInDim S50000x64 ![0, 1] bcast_S50000x1_S50000x64_0_1 : (⟨S50000x1, .f32⟩ : BufTy).Contents (Elt F) → (⟨S50000x64, .f32⟩ : BufTy).Contents (Elt F)),
    StableHlo.binary main_v98 main_v99 main_v100 (mulf : (⟨S50000x64, .f32⟩ : BufTy).Contents (Elt F) → (⟨S50000x64, .f32⟩ : BufTy).Contents (Elt F) → (⟨S50000x64, .f32⟩ : BufTy).Contents (Elt F)),
    StableHlo.nullary main_c_23 (constantI S_ 32 0#32),
    StableHlo.unary main_c_23 main_v101 (broadcastInDim S800000 ![] bcast_S_S800000 : (⟨S_, .i32⟩ : BufTy).Contents (Elt F) → (⟨S800000, .i32⟩ : BufTy).Contents (Elt F)),
    StableHlo.binary main_arg1 main_v101 main_v102 (cmpi .slt : (⟨S800000, .i32⟩ : BufTy).Contents (Elt F) → (⟨S800000, .i32⟩ : BufTy).Contents (Elt F) → (⟨S800000, .i1⟩ : BufTy).Contents (Elt F)),
    StableHlo.nullary main_c_24 (constantI S_ 32 50000#32),
    StableHlo.unary main_c_24 main_v103 (broadcastInDim S800000 ![] bcast_S_S800000 : (⟨S_, .i32⟩ : BufTy).Contents (Elt F) → (⟨S800000, .i32⟩ : BufTy).Contents (Elt F)),
    StableHlo.binary main_arg1 main_v103 main_v104 (addi : (⟨S800000, .i32⟩ : BufTy).Contents (Elt F) → (⟨S800000, .i32⟩ : BufTy).Contents (Elt F) → (⟨S800000, .i32⟩ : BufTy).Contents (Elt F)),
    StableHlo.ternary main_v102 main_v104 main_arg1 main_v105 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v105 main_v106 (broadcastInDim S800000x1 ![0] bcast_S800000_S800000x1_0 : (⟨S800000, .i32⟩ : BufTy).Contents (Elt F) → (⟨S800000x1, .i32⟩ : BufTy).Contents (Elt F)),
    StableHlo.binary main_v100 main_v106 main_v107 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_25 (constant S_ .f32 0x00000000#32),
    StableHlo.unary main_cst_25 main_v108 (broadcastInDim S50000x64 ![] bcast_S_S50000x64 : (⟨S_, .f32⟩ : BufTy).Contents (Elt F) → (⟨S50000x64, .f32⟩ : BufTy).Contents (Elt F)),
    StableHlo.unary main_arg2 main_v109 (broadcastInDim S800000x1 ![0] bcast_S800000_S800000x1_0 : (⟨S800000, .i32⟩ : BufTy).Contents (Elt F) → (⟨S800000x1, .i32⟩ : BufTy).Contents (Elt F)),
    StableHlo.ternary main_v108 main_v109 main_v107 main_v110 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.unary main_v14 main_v111 (broadcastInDim S50000x64 ![0, 1] bcast_S50000x1_S50000x64_0_1 : (⟨S50000x1, .f32⟩ : BufTy).Contents (Elt F) → (⟨S50000x64, .f32⟩ : BufTy).Contents (Elt F)),
    StableHlo.binary main_v110 main_v111 main_v112 (mulf : (⟨S50000x64, .f32⟩ : BufTy).Contents (Elt F) → (⟨S50000x64, .f32⟩ : BufTy).Contents (Elt F) → (⟨S50000x64, .f32⟩ : BufTy).Contents (Elt F)) ]

/-- Layer 3: the matrix product and the bias (main_v113 … main_v116). -/
abbrev cL3 : List (HloOp τ sig (Elt F)) :=
  [ StableHlo.binary main_v112 main_arg12 main_v113 ((fun l r => Host.dotGeneral dot_S50000x64_S64x32_S50000x32_1_0_0_1_n_n none l r) : (⟨S50000x64, .f32⟩ : BufTy).Contents (Elt F) → (⟨S64x32, .f32⟩ : BufTy).Contents (Elt F) → (⟨S50000x32, .f32⟩ : BufTy).Contents (Elt F)),
    StableHlo.unary main_arg13 main_v114 (broadcastInDim S1x32 ![1] bcast_S32_S1x32_1 : (⟨S32, .f32⟩ : BufTy).Contents (Elt F) → (⟨S1x32, .f32⟩ : BufTy).Contents (Elt F)),
    StableHlo.unary main_v114 main_v115 (broadcastInDim S50000x32 ![0, 1] bcast_S1x32_S50000x32_0_1 : (⟨S1x32, .f32⟩ : BufTy).Contents (Elt F) → (⟨S50000x32, .f32⟩ : BufTy).Contents (Elt F)),
    StableHlo.binary main_v113 main_v115 main_v116 (addf : (⟨S50000x32, .f32⟩ : BufTy).Contents (Elt F) → (⟨S50000x32, .f32⟩ : BufTy).Contents (Elt F) → (⟨S50000x32, .f32⟩ : BufTy).Contents (Elt F)) ]

/-- Layer 3: the column mean and variance (main_cst_26 … main_v120). -/
abbrev cS3 : List (HloOp τ sig (Elt F)) :=
  [ StableHlo.nullary main_cst_26 (constant S_ .f32 0x00000000#32),
    StableHlo.binary main_v116 main_cst_26 main_v117 ((fun x v => Host.reduceAdd x v reducesTo_S50000x32_S32_d0 h_S_) : (⟨S50000x32, .f32⟩ : BufTy).Contents (Elt F) → (⟨S_, .f32⟩ : BufTy).Contents (Elt F) → (⟨S32, .f32⟩ : BufTy).Contents (Elt F)),
    StableHlo.nullary main_cst_27 (constant S_ .f32 0x47435000#32),
    StableHlo.unary main_cst_27 main_v118 (broadcastInDim S32 ![] bcast_S_S32 : (⟨S_, .f32⟩ : BufTy).Contents (Elt F) → (⟨S32, .f32⟩ : BufTy).Contents (Elt F)),
    StableHlo.binary main_v117 main_v118 main_v119 (Host.divf : (⟨S32, .f32⟩ : BufTy).Contents (Elt F) → (⟨S32, .f32⟩ : BufTy).Contents (Elt F) → (⟨S32, .f32⟩ : BufTy).Contents (Elt F)),
    StableHlo.nullary main_c_28 (constantI S_ 32 0#32),
    StableHlo.TRef.nullary main_call6.cst (constant S_ .f32 0x00000000#32),
    StableHlo.TRef.binary (.of main_v116 : StableHlo.TRef sig ⟨S50000x32, .f32⟩) main_call6.cst main_call6.v0 (fun x v => Host.reduceAdd x v reducesTo_S50000x32_S32_d0 h_S_),
    StableHlo.TRef.unary main_call6.v0 main_call6.v1 (broadcastInDim S1x32 ![1] bcast_S32_S1x32_1),
    StableHlo.TRef.nullary main_call6.cst_0 (constant S_ .f32 0x47435000#32),
    StableHlo.TRef.unary main_call6.cst_0 main_call6.v2 (broadcastInDim S1x32 ![] bcast_S_S1x32),
    StableHlo.TRef.binary main_call6.v1 main_call6.v2 main_call6.v3 Host.divf,
    StableHlo.TRef.unary main_call6.v3 main_call6.v4 (broadcastInDim S50000x32 ![0, 1] bcast_S1x32_S50000x32_0_1),
    StableHlo.TRef.binary (.of main_v116 : StableHlo.TRef sig ⟨S50000x32, .f32⟩) main_call6.v4 main_call6.v5 subf,
    StableHlo.TRef.binary main_call6.v5 main_call6.v5 main_call6.v6 mulf,
    StableHlo.TRef.unary (.of main_c_28 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x32_S32_d0 h_S_),
    StableHlo.TRef.unary main_call6.v8 main_call6.v10 (broadcastInDim S32 ![] bcast_S_S32),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S32 ![] bcast_S_S32),
    StableHlo.TRef.ternary main_call6.v12 main_call6.v11 main_call6.call0.v1 main_call6.call0.v2 (fun p a b => select (broadcastInDim S32 ![] bcast_S_S32 p) a b) ]

/-- Layer 3: the normalisation and the leaky rectifier (main_v121 … main_v140). -/
abbrev cB3 : List (HloOp τ sig (Elt F)) :=
  [ StableHlo.unary main_v119 main_v121 (broadcastInDim S1x32 ![1] bcast_S32_S1x32_1 : (⟨S32, .f32⟩ : BufTy).Contents (Elt F) → (⟨S1x32, .f32⟩ : BufTy).Contents (Elt F)),
    StableHlo.unary main_v121 main_v122 (broadcastInDim S50000x32 ![0, 1] bcast_S1x32_S50000x32_0_1 : (⟨S1x32, .f32⟩ : BufTy).Contents (Elt F) → (⟨S50000x32, .f32⟩ : BufTy).Contents (Elt F)),
    StableHlo.binary main_v116 main_v122 main_v123 (subf : (⟨S50000x32, .f32⟩ : BufTy).Contents (Elt F) → (⟨S50000x32, .f32⟩ : BufTy).Contents (Elt F) → (⟨S50000x32, .f32⟩ : BufTy).Contents (Elt F)),
    StableHlo.nullary main_cst_29 (constant S_ .f32 0x3727C5AC#32),
    StableHlo.unary main_cst_29 main_v124 (broadcastInDim S32 ![] bcast_S_S32 : (⟨S_, .f32⟩ : BufTy).Contents (Elt F) → (⟨S32, .f32⟩ : BufTy).Contents (Elt F)),
    StableHlo.binary main_v120 main_v124 main_v125 (addf : (⟨S32, .f32⟩ : BufTy).Contents (Elt F) → (⟨S32, .f32⟩ : BufTy).Contents (Elt F) → (⟨S32, .f32⟩ : BufTy).Contents (Elt F)),
    StableHlo.unary main_v125 main_v126 (Host.rsqrt : (⟨S32, .f32⟩ : BufTy).Contents (Elt F) → (⟨S32, .f32⟩ : BufTy).Contents (Elt F)),
    StableHlo.unary main_v126 main_v127 (broadcastInDim S1x32 ![1] bcast_S32_S1x32_1 : (⟨S32, .f32⟩ : BufTy).Contents (Elt F) → (⟨S1x32, .f32⟩ : BufTy).Contents (Elt F)),
    StableHlo.unary main_v127 main_v128 (broadcastInDim S50000x32 ![0, 1] bcast_S1x32_S50000x32_0_1 : (⟨S1x32, .f32⟩ : BufTy).Contents (Elt F) → (⟨S50000x32, .f32⟩ : BufTy).Contents (Elt F)),
    StableHlo.binary main_v123 main_v128 main_v129 (mulf : (⟨S50000x32, .f32⟩ : BufTy).Contents (Elt F) → (⟨S50000x32, .f32⟩ : BufTy).Contents (Elt F) → (⟨S50000x32, .f32⟩ : BufTy).Contents (Elt F)),
    StableHlo.unary main_arg14 main_v130 (broadcastInDim S1x32 ![1] bcast_S32_S1x32_1 : (⟨S32, .f32⟩ : BufTy).Contents (Elt F) → (⟨S1x32, .f32⟩ : BufTy).Contents (Elt F)),
    StableHlo.unary main_v130 main_v131 (broadcastInDim S50000x32 ![0, 1] bcast_S1x32_S50000x32_0_1 : (⟨S1x32, .f32⟩ : BufTy).Contents (Elt F) → (⟨S50000x32, .f32⟩ : BufTy).Contents (Elt F)),
    StableHlo.binary main_v129 main_v131 main_v132 (mulf : (⟨S50000x32, .f32⟩ : BufTy).Contents (Elt F) → (⟨S50000x32, .f32⟩ : BufTy).Contents (Elt F) → (⟨S50000x32, .f32⟩ : BufTy).Contents (Elt F)),
    StableHlo.unary main_arg15 main_v133 (broadcastInDim S1x32 ![1] bcast_S32_S1x32_1 : (⟨S32, .f32⟩ : BufTy).Contents (Elt F) → (⟨S1x32, .f32⟩ : BufTy).Contents (Elt F)),
    StableHlo.unary main_v133 main_v134 (broadcastInDim S50000x32 ![0, 1] bcast_S1x32_S50000x32_0_1 : (⟨S1x32, .f32⟩ : BufTy).Contents (Elt F) → (⟨S50000x32, .f32⟩ : BufTy).Contents (Elt F)),
    StableHlo.binary main_v132 main_v134 main_v135 (addf : (⟨S50000x32, .f32⟩ : BufTy).Contents (Elt F) → (⟨S50000x32, .f32⟩ : BufTy).Contents (Elt F) → (⟨S50000x32, .f32⟩ : BufTy).Contents (Elt F)),
    StableHlo.nullary main_cst_30 (constant S_ .f32 0x00000000#32),
    StableHlo.unary main_cst_30 main_v136 (broadcastInDim S50000x32 ![] bcast_S_S50000x32 : (⟨S_, .f32⟩ : BufTy).Contents (Elt F) → (⟨S50000x32, .f32⟩ : BufTy).Contents (Elt F)),
    StableHlo.binary main_v135 main_v136 main_v137 (cmpf .ogt : (⟨S50000x32, .f32⟩ : BufTy).Contents (Elt F) → (⟨S50000x32, .f32⟩ : BufTy).Contents (Elt F) → (⟨S50000x32, .i1⟩ : BufTy).Contents (Elt F)),
    StableHlo.nullary main_cst_31 (constant S_ .f32 0x3E4CCCCD#32),
    StableHlo.unary main_cst_31 main_v138 (broadcastInDim S50000x32 ![] bcast_S_S50000x32 : (⟨S_, .f32⟩ : BufTy).Contents (Elt F) → (⟨S50000x32, .f32⟩ : BufTy).Contents (Elt F)),
    StableHlo.binary main_v138 main_v135 main_v139 (mulf : (⟨S50000x32, .f32⟩ : BufTy).Contents (Elt F) → (⟨S50000x32, .f32⟩ : BufTy).Contents (Elt F) → (⟨S50000x32, .f32⟩ : BufTy).Contents (Elt F)),
    StableHlo.TRef.ternary (.of main_v137 : StableHlo.TRef sig ⟨S50000x32, .i1⟩) (.of main_v135 : StableHlo.TRef sig ⟨S50000x32, .f32⟩) (.of main_v139 : StableHlo.TRef sig ⟨S50000x32, .f32⟩) main_call7.v0 select ]

/-- The mean pooling over the graphs (main_cst_32 … main_v151). -/
abbrev cP3 : List (HloOp τ sig (Elt F)) :=
  [ StableHlo.nullary main_cst_32 (constant S_ .f32 0x3F800000#32),
    StableHlo.unary main_cst_32 main_v141 (broadcastInDim S50000 ![] bcast_S_S50000 : (⟨S_, .f32⟩ : BufTy).Contents (Elt F) → (⟨S50000, .f32⟩ : BufTy).Contents (Elt F)),
    StableHlo.nullary main_cst_33 (constant S_ .f32 0x00000000#32),
    StableHlo.unary main_cst_33 main_v142 (broadcastInDim S64 ![] bcast_S_S64 : (⟨S_, .f32⟩ : BufTy).Contents (Elt F) → (⟨S64, .f32⟩ : BufTy).Contents (Elt F)),
    StableHlo.unary main_arg3 main_v143 (broadcastInDim S50000x1 ![0] bcast_S50000_S50000x1_0 : (⟨S50000, .i32⟩ : BufTy).Contents (Elt F) → (⟨S50000x1, .i32⟩ : BufTy).Contents (Elt F)),
    StableHlo.ternary main_v142 main_v143 main_v141 main_v144 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_34 (constant S_ .f32 0x3F800000#32),
    StableHlo.TRef.unary (.of main_cst_34 : StableHlo.TRef sig ⟨S_, .f32⟩) main_call8.v0 id,
    StableHlo.TRef.unary main_call8.v0 main_call8.v1 (broadcastInDim S64 ![] bcast_S_S64),
    StableHlo.TRef.binary main_call8.v1 (.of main_v144 : StableHlo.TRef sig ⟨S64, .f32⟩) main_call8.v2 maximumf,
    StableHlo.nullary main_cst_35 (constant S_ .f32 0x00000000#32),
    StableHlo.unary main_cst_35 main_v146 (broadcastInDim S64x32 ![] bcast_S_S64x32 : (⟨S_, .f32⟩ : BufTy).Contents (Elt F) → (⟨S64x32, .f32⟩ : BufTy).Contents (Elt F)),
    StableHlo.unary main_arg3 main_v147 (broadcastInDim S50000x1 ![0] bcast_S50000_S50000x1_0 : (⟨S50000, .i32⟩ : BufTy).Contents (Elt F) → (⟨S50000x1, .i32⟩ : BufTy).Contents (Elt F)),
    StableHlo.ternary main_v146 main_v147 main_v140 main_v148 ((fun x i u => Host.scatterAdd scatter_S64x32_S50000x1_S50000x32_1_0_0_1 x i u) : (⟨S64x32, .f32⟩ : BufTy).Contents (Elt F) → (⟨S50000x1, .i32⟩ : BufTy).Contents (Elt F) → (⟨S50000x32, .f32⟩ : BufTy).Contents (Elt F) → (⟨S64x32, .f32⟩ : BufTy).Contents (Elt F)),
    StableHlo.unary main_v145 main_v149 (broadcastInDim S64x1 ![0] bcast_S64_S64x1_0 : (⟨S64, .f32⟩ : BufTy).Contents (Elt F) → (⟨S64x1, .f32⟩ : BufTy).Contents (Elt F)),
    StableHlo.unary main_v149 main_v150 (broadcastInDim S64x32 ![0, 1] bcast_S64x1_S64x32_0_1 : (⟨S64x1, .f32⟩ : BufTy).Contents (Elt F) → (⟨S64x32, .f32⟩ : BufTy).Contents (Elt F)),
    StableHlo.binary main_v148 main_v150 main_v151 (Host.divf : (⟨S64x32, .f32⟩ : BufTy).Contents (Elt F) → (⟨S64x32, .f32⟩ : BufTy).Contents (Elt F) → (⟨S64x32, .f32⟩ : BufTy).Contents (Elt F)) ]

/-- The last matrix product and bias (main_v152 … main_v155). -/
abbrev cC : List (HloOp τ sig (Elt F)) :=
  [ StableHlo.binary main_v151 main_arg16 main_v152 ((fun l r => Host.dotGeneral dot_S64x32_S32x2_S64x2_1_0_0_1_n_n none l r) : (⟨S64x32, .f32⟩ : BufTy).Contents (Elt F) → (⟨S32x2, .f32⟩ : BufTy).Contents (Elt F) → (⟨S64x2, .f32⟩ : BufTy).Contents (Elt F)),
    StableHlo.unary main_arg17 main_v153 (broadcastInDim S1x2 ![1] bcast_S2_S1x2_1 : (⟨S2, .f32⟩ : BufTy).Contents (Elt F) → (⟨S1x2, .f32⟩ : BufTy).Contents (Elt F)),
    StableHlo.unary main_v153 main_v154 (broadcastInDim S64x2 ![0, 1] bcast_S1x2_S64x2_0_1 : (⟨S1x2, .f32⟩ : BufTy).Contents (Elt F) → (⟨S64x2, .f32⟩ : BufTy).Contents (Elt F)),
    StableHlo.binary main_v152 main_v154 main_v155 (addf : (⟨S64x2, .f32⟩ : BufTy).Contents (Elt F) → (⟨S64x2, .f32⟩ : BufTy).Contents (Elt F) → (⟨S64x2, .f32⟩ : BufTy).Contents (Elt F)) ]

/-- @main's 263 operations, in order. -/
abbrev ops : List (HloOp τ sig (Elt F)) :=
  cP0 ++ (cL1 ++ (cS1 ++ (cB1 ++ (cP1 ++ (cL2 ++ (cS2 ++ (cB2 ++ (cP2 ++ (cL3 ++ (cS3 ++ (cB3 ++ (cP3 ++ cC))))))))))))

end Cert.ReferenceIdeal.RefRun

end
-- ==== Proof.RefRun.lean ====
/- The reference program's run: @main is the straight line of the operations `ops` (the four printed windows, each the
   straight line of its own operations with every module-local function's body written out at its call; the windows'
   lists concatenated are `ops`), the signature scopes no buffer and no semaphore, every operation touches
   TensorCore buffers only and determines what it writes. Hence every weakly fair execution terminates with every
   buffer at the fold of the operations over the launch contents (`run`); no operation writes an argument
   (`arg_kept`), so the arguments end unchanged (`frame`). -/
import proofs.«126871_j30021821399140_1_alg».proof.Proof.RefOps

set_option maxRecDepth 16384

noncomputable section

namespace Cert.ReferenceIdeal.RefRun

open Cert.ReferenceIdeal Idealize.ShloMosaic Idealize.ShloMosaic.TcCoe Idealize.SL.Sem Idealize.ShloMosaic.StableHlo

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

variable {F : FTy → Type} [FloatOps F] [Facts]
open Facts₀ Facts

/-! ## @main is the straight line `ops` -/

/-- The operations of @main's printed window 0, in order, the calls written out. -/
abbrev w0 : List (HloOp τ sig (Elt F)) :=
  [ StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.unary main_arg1 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.TRef.unary (.of main_cst_1 : StableHlo.TRef sig ⟨S_, .f32⟩) main_call0.v0 id,
    StableHlo.TRef.unary main_call0.v0 main_call0.v1 (broadcastInDim S50000 ![] bcast_S_S50000),
    StableHlo.TRef.binary main_call0.v1 (.of main_v3 : StableHlo.TRef sig ⟨S50000, .f32⟩) main_call0.v2 maximumf,
    StableHlo.nullary main_cst_2 (constant S_ .f32 0x00000000#32),
    StableHlo.unary main_cst_2 main_v5 (broadcastInDim S50000 ![] bcast_S_S50000 : (⟨S_, .f32⟩ : BufTy).Contents (Elt F) → (⟨S50000, .f32⟩ : BufTy).Contents (Elt F)),
    StableHlo.unary main_arg2 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v0 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.TRef.unary (.of main_cst_3 : StableHlo.TRef sig ⟨S_, .f32⟩) main_call1.v0 id,
    StableHlo.TRef.unary main_call1.v0 main_call1.v1 (broadcastInDim S50000 ![] bcast_S_S50000),
    StableHlo.TRef.binary main_call1.v1 (.of main_v7 : StableHlo.TRef sig ⟨S50000, .f32⟩) main_call1.v2 maximumf,
    StableHlo.nullary main_cst_4 (constant S_ .f32 0xBF000000#32),
    StableHlo.unary main_cst_4 main_v9 (broadcastInDim S50000 ![] bcast_S_S50000 : (⟨S_, .f32⟩ : BufTy).Contents (Elt F) → (⟨S50000, .f32⟩ : BufTy).Contents (Elt F)),
    StableHlo.binary main_v4 main_v9 main_v10 (Host.powf : (⟨S50000, .f32⟩ : BufTy).Contents (Elt F) → (⟨S50000, .f32⟩ : BufTy).Contents (Elt F) → (⟨S50000, .f32⟩ : BufTy).Contents (Elt F)),
    StableHlo.unary main_v10 main_v11 (broadcastInDim S50000x1 ![0] bcast_S50000_S50000x1_0 : (⟨S50000, .f32⟩ : BufTy).Contents (Elt F) → (⟨S50000x1, .f32⟩ : BufTy).Contents (Elt F)),
    StableHlo.nullary main_cst_5 (constant S_ .f32 0xBF000000#32),
    StableHlo.unary main_cst_5 main_v12 (broadcastInDim S50000 ![] bcast_S_S50000 : (⟨S_, .f32⟩ : BufTy).Contents (Elt F) → (⟨S50000, .f32⟩ : BufTy).Contents (Elt F)),
    StableHlo.binary main_v8 main_v12 main_v13 (Host.powf : (⟨S50000, .f32⟩ : BufTy).Contents (Elt F) → (⟨S50000, .f32⟩ : BufTy).Contents (Elt F) → (⟨S50000, .f32⟩ : BufTy).Contents (Elt F)),
    StableHlo.unary main_v13 main_v14 (broadcastInDim S50000x1 ![0] bcast_S50000_S50000x1_0 : (⟨S50000, .f32⟩ : BufTy).Contents (Elt F) → (⟨S50000x1, .f32⟩ : BufTy).Contents (Elt F)),
    StableHlo.unary main_v11 main_v15 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v15 main_v16 (mulf : (⟨S50000x128, .f32⟩ : BufTy).Contents (Elt F) → (⟨S50000x128, .f32⟩ : BufTy).Contents (Elt F) → (⟨S50000x128, .f32⟩ : BufTy).Contents (Elt F)),
    StableHlo.nullary main_c (constantI S_ 32 0#32),
    StableHlo.unary main_c main_v17 (broadcastInDim S800000 ![] bcast_S_S800000 : (⟨S_, .i32⟩ : BufTy).Contents (Elt F) → (⟨S800000, .i32⟩ : BufTy).Contents (Elt F)),
    StableHlo.binary main_arg1 main_v17 main_v18 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v19 (broadcastInDim S800000 ![] bcast_S_S800000 : (⟨S_, .i32⟩ : BufTy).Contents (Elt F) → (⟨S800000, .i32⟩ : BufTy).Contents (Elt F)),
    StableHlo.binary main_arg1 main_v19 main_v20 (addi : (⟨S800000, .i32⟩ : BufTy).Contents (Elt F) → (⟨S800000, .i32⟩ : BufTy).Contents (Elt F) → (⟨S800000, .i32⟩ : BufTy).Contents (Elt F)),
    StableHlo.ternary main_v18 main_v20 main_arg1 main_v21 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v21 main_v22 (broadcastInDim S800000x1 ![0] bcast_S800000_S800000x1_0 : (⟨S800000, .i32⟩ : BufTy).Contents (Elt F) → (⟨S800000x1, .i32⟩ : BufTy).Contents (Elt F)),
    StableHlo.binary main_v16 main_v22 main_v23 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_7 (constant S_ .f32 0x00000000#32),
    StableHlo.unary main_cst_7 main_v24 (broadcastInDim S50000x128 ![] bcast_S_S50000x128 : (⟨S_, .f32⟩ : BufTy).Contents (Elt F) → (⟨S50000x128, .f32⟩ : BufTy).Contents (Elt F)),
    StableHlo.unary main_arg2 main_v25 (broadcastInDim S800000x1 ![0] bcast_S800000_S800000x1_0 : (⟨S800000, .i32⟩ : BufTy).Contents (Elt F) → (⟨S800000x1, .i32⟩ : BufTy).Contents (Elt F)),
    StableHlo.ternary main_v24 main_v25 main_v23 main_v26 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v14 main_v27 (broadcastInDim S50000x128 ![0, 1] bcast_S50000x1_S50000x128_0_1 : (⟨S50000x1, .f32⟩ : BufTy).Contents (Elt F) → (⟨S50000x128, .f32⟩ : BufTy).Contents (Elt F)),
    StableHlo.binary main_v26 main_v27 main_v28 (mulf : (⟨S50000x128, .f32⟩ : BufTy).Contents (Elt F) → (⟨S50000x128, .f32⟩ : BufTy).Contents (Elt F) → (⟨S50000x128, .f32⟩ : BufTy).Contents (Elt F)),
    StableHlo.binary main_v28 main_arg4 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S50000x128 ![0, 1] bcast_S1x128_S50000x128_0_1 : (⟨S1x128, .f32⟩ : BufTy).Contents (Elt F) → (⟨S50000x128, .f32⟩ : BufTy).Contents (Elt F)),
    StableHlo.binary main_v29 main_v31 main_v32 (addf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x00000000#32),
    StableHlo.binary main_v32 main_cst_8 main_v33 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v34 (broadcastInDim S128 ![] bcast_S_S128 : (⟨S_, .f32⟩ : BufTy).Contents (Elt F) → (⟨S128, .f32⟩ : BufTy).Contents (Elt F)),
    StableHlo.binary main_v33 main_v34 main_v35 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call2.cst (constant S_ .f32 0x00000000#32),
    StableHlo.TRef.binary (.of main_v32 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v32 : StableHlo.TRef sig ⟨S50000x128, .f32⟩) main_call2.v4 main_call2.v5 subf,
    StableHlo.TRef.binary main_call2.v5 main_call2.v5 main_call2.v6 mulf,
    StableHlo.TRef.unary (.of main_c_10 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v35 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S50000x128 ![0, 1] bcast_S1x128_S50000x128_0_1 : (⟨S1x128, .f32⟩ : BufTy).Contents (Elt F) → (⟨S50000x128, .f32⟩ : BufTy).Contents (Elt F)),
    StableHlo.binary main_v32 main_v38 main_v39 (subf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v40 (broadcastInDim S128 ![] bcast_S_S128 : (⟨S_, .f32⟩ : BufTy).Contents (Elt F) → (⟨S128, .f32⟩ : BufTy).Contents (Elt F)),
    StableHlo.binary main_v36 main_v40 main_v41 (addf : (⟨S128, .f32⟩ : BufTy).Contents (Elt F) → (⟨S128, .f32⟩ : BufTy).Contents (Elt F) → (⟨S128, .f32⟩ : BufTy).Contents (Elt F)),
    StableHlo.unary main_v41 main_v42 (Host.rsqrt : (⟨S128, .f32⟩ : BufTy).Contents (Elt F) → (⟨S128, .f32⟩ : BufTy).Contents (Elt F)),
    StableHlo.unary main_v42 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v39 main_v44 main_v45 (mulf : (⟨S50000x128, .f32⟩ : BufTy).Contents (Elt F) → (⟨S50000x128, .f32⟩ : BufTy).Contents (Elt F) → (⟨S50000x128, .f32⟩ : BufTy).Contents (Elt F)) ]

/-- The operations of @main's printed window 1, in order, the calls written out. -/
abbrev w1 : List (HloOp τ sig (Elt F)) :=
  [ StableHlo.unary main_arg6 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v47 main_v48 (mulf : (⟨S50000x128, .f32⟩ : BufTy).Contents (Elt F) → (⟨S50000x128, .f32⟩ : BufTy).Contents (Elt F) → (⟨S50000x128, .f32⟩ : BufTy).Contents (Elt F)),
    StableHlo.unary main_arg7 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v50 main_v51 (addf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x00000000#32),
    StableHlo.unary main_cst_12 main_v52 (broadcastInDim S50000x128 ![] bcast_S_S50000x128 : (⟨S_, .f32⟩ : BufTy).Contents (Elt F) → (⟨S50000x128, .f32⟩ : BufTy).Contents (Elt F)),
    StableHlo.binary main_v51 main_v52 main_v53 (cmpf .ogt : (⟨S50000x128, .f32⟩ : BufTy).Contents (Elt F) → (⟨S50000x128, .f32⟩ : BufTy).Contents (Elt F) → (⟨S50000x128, .i1⟩ : BufTy).Contents (Elt F)),
    StableHlo.nullary main_cst_13 (constant S_ .f32 0x3E4CCCCD#32),
    StableHlo.unary main_cst_13 main_v54 (broadcastInDim S50000x128 ![] bcast_S_S50000x128 : (⟨S_, .f32⟩ : BufTy).Contents (Elt F) → (⟨S50000x128, .f32⟩ : BufTy).Contents (Elt F)),
    StableHlo.binary main_v54 main_v51 main_v55 (mulf : (⟨S50000x128, .f32⟩ : BufTy).Contents (Elt F) → (⟨S50000x128, .f32⟩ : BufTy).Contents (Elt F) → (⟨S50000x128, .f32⟩ : BufTy).Contents (Elt F)),
    StableHlo.TRef.ternary (.of main_v53 : StableHlo.TRef sig ⟨S50000x128, .i1⟩) (.of main_v51 : StableHlo.TRef sig ⟨S50000x128, .f32⟩) (.of main_v55 : StableHlo.TRef sig ⟨S50000x128, .f32⟩) main_call3.v0 select,
    StableHlo.unary main_v11 main_v57 (broadcastInDim S50000x128 ![0, 1] bcast_S50000x1_S50000x128_0_1 : (⟨S50000x1, .f32⟩ : BufTy).Contents (Elt F) → (⟨S50000x128, .f32⟩ : BufTy).Contents (Elt F)),
    StableHlo.binary main_v56 main_v57 main_v58 (mulf : (⟨S50000x128, .f32⟩ : BufTy).Contents (Elt F) → (⟨S50000x128, .f32⟩ : BufTy).Contents (Elt F) → (⟨S50000x128, .f32⟩ : BufTy).Contents (Elt F)),
    StableHlo.nullary main_c_14 (constantI S_ 32 0#32),
    StableHlo.unary main_c_14 main_v59 (broadcastInDim S800000 ![] bcast_S_S800000 : (⟨S_, .i32⟩ : BufTy).Contents (Elt F) → (⟨S800000, .i32⟩ : BufTy).Contents (Elt F)),
    StableHlo.binary main_arg1 main_v59 main_v60 (cmpi .slt : (⟨S800000, .i32⟩ : BufTy).Contents (Elt F) → (⟨S800000, .i32⟩ : BufTy).Contents (Elt F) → (⟨S800000, .i1⟩ : BufTy).Contents (Elt F)),
    StableHlo.nullary main_c_15 (constantI S_ 32 50000#32),
    StableHlo.unary main_c_15 main_v61 (broadcastInDim S800000 ![] bcast_S_S800000 : (⟨S_, .i32⟩ : BufTy).Contents (Elt F) → (⟨S800000, .i32⟩ : BufTy).Contents (Elt F)),
    StableHlo.binary main_arg1 main_v61 main_v62 (addi : (⟨S800000, .i32⟩ : BufTy).Contents (Elt F) → (⟨S800000, .i32⟩ : BufTy).Contents (Elt F) → (⟨S800000, .i32⟩ : BufTy).Contents (Elt F)),
    StableHlo.ternary main_v60 main_v62 main_arg1 main_v63 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v63 main_v64 (broadcastInDim S800000x1 ![0] bcast_S800000_S800000x1_0 : (⟨S800000, .i32⟩ : BufTy).Contents (Elt F) → (⟨S800000x1, .i32⟩ : BufTy).Contents (Elt F)),
    StableHlo.binary main_v58 main_v64 main_v65 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_16 (constant S_ .f32 0x00000000#32),
    StableHlo.unary main_cst_16 main_v66 (broadcastInDim S50000x128 ![] bcast_S_S50000x128 : (⟨S_, .f32⟩ : BufTy).Contents (Elt F) → (⟨S50000x128, .f32⟩ : BufTy).Contents (Elt F)),
    StableHlo.unary main_arg2 main_v67 (broadcastInDim S800000x1 ![0] bcast_S800000_S800000x1_0 : (⟨S800000, .i32⟩ : BufTy).Contents (Elt F) → (⟨S800000x1, .i32⟩ : BufTy).Contents (Elt F)),
    StableHlo.ternary main_v66 main_v67 main_v65 main_v68 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v14 main_v69 (broadcastInDim S50000x128 ![0, 1] bcast_S50000x1_S50000x128_0_1 : (⟨S50000x1, .f32⟩ : BufTy).Contents (Elt F) → (⟨S50000x128, .f32⟩ : BufTy).Contents (Elt F)),
    StableHlo.binary main_v68 main_v69 main_v70 (mulf : (⟨S50000x128, .f32⟩ : BufTy).Contents (Elt F) → (⟨S50000x128, .f32⟩ : BufTy).Contents (Elt F) → (⟨S50000x128, .f32⟩ : BufTy).Contents (Elt F)),
    StableHlo.binary main_v70 main_arg8 main_v71 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg9 main_v72 (broadcastInDim S1x64 ![1] bcast_S64_S1x64_1 : (⟨S64, .f32⟩ : BufTy).Contents (Elt F) → (⟨S1x64, .f32⟩ : BufTy).Contents (Elt F)),
    StableHlo.unary main_v72 main_v73 (broadcastInDim S50000x64 ![0, 1] bcast_S1x64_S50000x64_0_1 : (⟨S1x64, .f32⟩ : BufTy).Contents (Elt F) → (⟨S50000x64, .f32⟩ : BufTy).Contents (Elt F)),
    StableHlo.binary main_v71 main_v73 main_v74 (addf : (⟨S50000x64, .f32⟩ : BufTy).Contents (Elt F) → (⟨S50000x64, .f32⟩ : BufTy).Contents (Elt F) → (⟨S50000x64, .f32⟩ : BufTy).Contents (Elt F)),
    StableHlo.nullary main_cst_17 (constant S_ .f32 0x00000000#32),
    StableHlo.binary main_v74 main_cst_17 main_v75 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_18 (constant S_ .f32 0x47435000#32),
    StableHlo.unary main_cst_18 main_v76 (broadcastInDim S64 ![] bcast_S_S64 : (⟨S_, .f32⟩ : BufTy).Contents (Elt F) → (⟨S64, .f32⟩ : BufTy).Contents (Elt F)),
    StableHlo.binary main_v75 main_v76 main_v77 (Host.divf : (⟨S64, .f32⟩ : BufTy).Contents (Elt F) → (⟨S64, .f32⟩ : BufTy).Contents (Elt F) → (⟨S64, .f32⟩ : BufTy).Contents (Elt F)),
    StableHlo.nullary main_c_19 (constantI S_ 32 0#32),
    StableHlo.TRef.nullary main_call4.cst (constant S_ .f32 0x00000000#32),
    StableHlo.TRef.binary (.of main_v74 : StableHlo.TRef sig ⟨S50000x64, .f32⟩) main_call4.cst main_call4.v0 (fun x v => Host.reduceAdd x v reducesTo_S50000x64_S64_d0 h_S_),
    StableHlo.TRef.unary main_call4.v0 main_call4.v1 (broadcastInDim S1x64 ![1] bcast_S64_S1x64_1),
    StableHlo.TRef.nullary main_call4.cst_0 (constant S_ .f32 0x47435000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S50000x64 ![0, 1] bcast_S1x64_S50000x64_0_1),
    StableHlo.TRef.binary (.of main_v74 : StableHlo.TRef sig ⟨S50000x64, .f32⟩) main_call4.v4 main_call4.v5 subf,
    StableHlo.TRef.binary main_call4.v5 main_call4.v5 main_call4.v6 mulf,
    StableHlo.TRef.unary (.of main_c_19 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v77 main_v79 (broadcastInDim S1x64 ![1] bcast_S64_S1x64_1 : (⟨S64, .f32⟩ : BufTy).Contents (Elt F) → (⟨S1x64, .f32⟩ : BufTy).Contents (Elt F)),
    StableHlo.unary main_v79 main_v80 (broadcastInDim S50000x64 ![0, 1] bcast_S1x64_S50000x64_0_1 : (⟨S1x64, .f32⟩ : BufTy).Contents (Elt F) → (⟨S50000x64, .f32⟩ : BufTy).Contents (Elt F)),
    StableHlo.binary main_v74 main_v80 main_v81 (subf : (⟨S50000x64, .f32⟩ : BufTy).Contents (Elt F) → (⟨S50000x64, .f32⟩ : BufTy).Contents (Elt F) → (⟨S50000x64, .f32⟩ : BufTy).Contents (Elt F)),
    StableHlo.nullary main_cst_20 (constant S_ .f32 0x3727C5AC#32),
    StableHlo.unary main_cst_20 main_v82 (broadcastInDim S64 ![] bcast_S_S64 : (⟨S_, .f32⟩ : BufTy).Contents (Elt F) → (⟨S64, .f32⟩ : BufTy).Contents (Elt F)),
    StableHlo.binary main_v78 main_v82 main_v83 (addf : (⟨S64, .f32⟩ : BufTy).Contents (Elt F) → (⟨S64, .f32⟩ : BufTy).Contents (Elt F) → (⟨S64, .f32⟩ : BufTy).Contents (Elt F)),
    StableHlo.unary main_v83 main_v84 (Host.rsqrt : (⟨S64, .f32⟩ : BufTy).Contents (Elt F) → (⟨S64, .f32⟩ : BufTy).Contents (Elt F)),
    StableHlo.unary main_v84 main_v85 (broadcastInDim S1x64 ![1] bcast_S64_S1x64_1 : (⟨S64, .f32⟩ : BufTy).Contents (Elt F) → (⟨S1x64, .f32⟩ : BufTy).Contents (Elt F)),
    StableHlo.unary main_v85 main_v86 (broadcastInDim S50000x64 ![0, 1] bcast_S1x64_S50000x64_0_1 : (⟨S1x64, .f32⟩ : BufTy).Contents (Elt F) → (⟨S50000x64, .f32⟩ : BufTy).Contents (Elt F)),
    StableHlo.binary main_v81 main_v86 main_v87 (mulf : (⟨S50000x64, .f32⟩ : BufTy).Contents (Elt F) → (⟨S50000x64, .f32⟩ : BufTy).Contents (Elt F) → (⟨S50000x64, .f32⟩ : BufTy).Contents (Elt F)),
    StableHlo.unary main_arg10 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S50000x64 ![0, 1] bcast_S1x64_S50000x64_0_1 : (⟨S1x64, .f32⟩ : BufTy).Contents (Elt F) → (⟨S50000x64, .f32⟩ : BufTy).Contents (Elt F)),
    StableHlo.binary main_v87 main_v89 main_v90 (mulf : (⟨S50000x64, .f32⟩ : BufTy).Contents (Elt F) → (⟨S50000x64, .f32⟩ : BufTy).Contents (Elt F) → (⟨S50000x64, .f32⟩ : BufTy).Contents (Elt F)),
    StableHlo.unary main_arg11 main_v91 (broadcastInDim S1x64 ![1] bcast_S64_S1x64_1 : (⟨S64, .f32⟩ : BufTy).Contents (Elt F) → (⟨S1x64, .f32⟩ : BufTy).Contents (Elt F)),
    StableHlo.unary main_v91 main_v92 (broadcastInDim S50000x64 ![0, 1] bcast_S1x64_S50000x64_0_1 : (⟨S1x64, .f32⟩ : BufTy).Contents (Elt F) → (⟨S50000x64, .f32⟩ : BufTy).Contents (Elt F)),
    StableHlo.binary main_v90 main_v92 main_v93 (addf : (⟨S50000x64, .f32⟩ : BufTy).Contents (Elt F) → (⟨S50000x64, .f32⟩ : BufTy).Contents (Elt F) → (⟨S50000x64, .f32⟩ : BufTy).Contents (Elt F)),
    StableHlo.nullary main_cst_21 (constant S_ .f32 0x00000000#32),
    StableHlo.unary main_cst_21 main_v94 (broadcastInDim S50000x64 ![] bcast_S_S50000x64 : (⟨S_, .f32⟩ : BufTy).Contents (Elt F) → (⟨S50000x64, .f32⟩ : BufTy).Contents (Elt F)),
    StableHlo.binary main_v93 main_v94 main_v95 (cmpf .ogt : (⟨S50000x64, .f32⟩ : BufTy).Contents (Elt F) → (⟨S50000x64, .f32⟩ : BufTy).Contents (Elt F) → (⟨S50000x64, .i1⟩ : BufTy).Contents (Elt F)) ]

/-- The operations of @main's printed window 2, in order, the calls written out. -/
abbrev w2 : List (HloOp τ sig (Elt F)) :=
  [ StableHlo.nullary main_cst_22 (constant S_ .f32 0x3E4CCCCD#32),
    StableHlo.unary main_cst_22 main_v96 (broadcastInDim S50000x64 ![] bcast_S_S50000x64 : (⟨S_, .f32⟩ : BufTy).Contents (Elt F) → (⟨S50000x64, .f32⟩ : BufTy).Contents (Elt F)),
    StableHlo.binary main_v96 main_v93 main_v97 (mulf : (⟨S50000x64, .f32⟩ : BufTy).Contents (Elt F) → (⟨S50000x64, .f32⟩ : BufTy).Contents (Elt F) → (⟨S50000x64, .f32⟩ : BufTy).Contents (Elt F)),
    StableHlo.TRef.ternary (.of main_v95 : StableHlo.TRef sig ⟨S50000x64, .i1⟩) (.of main_v93 : StableHlo.TRef sig ⟨S50000x64, .f32⟩) (.of main_v97 : StableHlo.TRef sig ⟨S50000x64, .f32⟩) main_call5.v0 select,
    StableHlo.unary main_v11 main_v99 (broadcastInDim S50000x64 ![0, 1] bcast_S50000x1_S50000x64_0_1 : (⟨S50000x1, .f32⟩ : BufTy).Contents (Elt F) → (⟨S50000x64, .f32⟩ : BufTy).Contents (Elt F)),
    StableHlo.binary main_v98 main_v99 main_v100 (mulf : (⟨S50000x64, .f32⟩ : BufTy).Contents (Elt F) → (⟨S50000x64, .f32⟩ : BufTy).Contents (Elt F) → (⟨S50000x64, .f32⟩ : BufTy).Contents (Elt F)),
    StableHlo.nullary main_c_23 (constantI S_ 32 0#32),
    StableHlo.unary main_c_23 main_v101 (broadcastInDim S800000 ![] bcast_S_S800000 : (⟨S_, .i32⟩ : BufTy).Contents (Elt F) → (⟨S800000, .i32⟩ : BufTy).Contents (Elt F)),
    StableHlo.binary main_arg1 main_v101 main_v102 (cmpi .slt : (⟨S800000, .i32⟩ : BufTy).Contents (Elt F) → (⟨S800000, .i32⟩ : BufTy).Contents (Elt F) → (⟨S800000, .i1⟩ : BufTy).Contents (Elt F)),
    StableHlo.nullary main_c_24 (constantI S_ 32 50000#32),
    StableHlo.unary main_c_24 main_v103 (broadcastInDim S800000 ![] bcast_S_S800000 : (⟨S_, .i32⟩ : BufTy).Contents (Elt F) → (⟨S800000, .i32⟩ : BufTy).Contents (Elt F)),
    StableHlo.binary main_arg1 main_v103 main_v104 (addi : (⟨S800000, .i32⟩ : BufTy).Contents (Elt F) → (⟨S800000, .i32⟩ : BufTy).Contents (Elt F) → (⟨S800000, .i32⟩ : BufTy).Contents (Elt F)),
    StableHlo.ternary main_v102 main_v104 main_arg1 main_v105 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v105 main_v106 (broadcastInDim S800000x1 ![0] bcast_S800000_S800000x1_0 : (⟨S800000, .i32⟩ : BufTy).Contents (Elt F) → (⟨S800000x1, .i32⟩ : BufTy).Contents (Elt F)),
    StableHlo.binary main_v100 main_v106 main_v107 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_25 (constant S_ .f32 0x00000000#32),
    StableHlo.unary main_cst_25 main_v108 (broadcastInDim S50000x64 ![] bcast_S_S50000x64 : (⟨S_, .f32⟩ : BufTy).Contents (Elt F) → (⟨S50000x64, .f32⟩ : BufTy).Contents (Elt F)),
    StableHlo.unary main_arg2 main_v109 (broadcastInDim S800000x1 ![0] bcast_S800000_S800000x1_0 : (⟨S800000, .i32⟩ : BufTy).Contents (Elt F) → (⟨S800000x1, .i32⟩ : BufTy).Contents (Elt F)),
    StableHlo.ternary main_v108 main_v109 main_v107 main_v110 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.unary main_v14 main_v111 (broadcastInDim S50000x64 ![0, 1] bcast_S50000x1_S50000x64_0_1 : (⟨S50000x1, .f32⟩ : BufTy).Contents (Elt F) → (⟨S50000x64, .f32⟩ : BufTy).Contents (Elt F)),
    StableHlo.binary main_v110 main_v111 main_v112 (mulf : (⟨S50000x64, .f32⟩ : BufTy).Contents (Elt F) → (⟨S50000x64, .f32⟩ : BufTy).Contents (Elt F) → (⟨S50000x64, .f32⟩ : BufTy).Contents (Elt F)),
    StableHlo.binary main_v112 main_arg12 main_v113 ((fun l r => Host.dotGeneral dot_S50000x64_S64x32_S50000x32_1_0_0_1_n_n none l r) : (⟨S50000x64, .f32⟩ : BufTy).Contents (Elt F) → (⟨S64x32, .f32⟩ : BufTy).Contents (Elt F) → (⟨S50000x32, .f32⟩ : BufTy).Contents (Elt F)),
    StableHlo.unary main_arg13 main_v114 (broadcastInDim S1x32 ![1] bcast_S32_S1x32_1 : (⟨S32, .f32⟩ : BufTy).Contents (Elt F) → (⟨S1x32, .f32⟩ : BufTy).Contents (Elt F)),
    StableHlo.unary main_v114 main_v115 (broadcastInDim S50000x32 ![0, 1] bcast_S1x32_S50000x32_0_1 : (⟨S1x32, .f32⟩ : BufTy).Contents (Elt F) → (⟨S50000x32, .f32⟩ : BufTy).Contents (Elt F)),
    StableHlo.binary main_v113 main_v115 main_v116 (addf : (⟨S50000x32, .f32⟩ : BufTy).Contents (Elt F) → (⟨S50000x32, .f32⟩ : BufTy).Contents (Elt F) → (⟨S50000x32, .f32⟩ : BufTy).Contents (Elt F)),
    StableHlo.nullary main_cst_26 (constant S_ .f32 0x00000000#32),
    StableHlo.binary main_v116 main_cst_26 main_v117 ((fun x v => Host.reduceAdd x v reducesTo_S50000x32_S32_d0 h_S_) : (⟨S50000x32, .f32⟩ : BufTy).Contents (Elt F) → (⟨S_, .f32⟩ : BufTy).Contents (Elt F) → (⟨S32, .f32⟩ : BufTy).Contents (Elt F)),
    StableHlo.nullary main_cst_27 (constant S_ .f32 0x47435000#32),
    StableHlo.unary main_cst_27 main_v118 (broadcastInDim S32 ![] bcast_S_S32 : (⟨S_, .f32⟩ : BufTy).Contents (Elt F) → (⟨S32, .f32⟩ : BufTy).Contents (Elt F)),
    StableHlo.binary main_v117 main_v118 main_v119 (Host.divf : (⟨S32, .f32⟩ : BufTy).Contents (Elt F) → (⟨S32, .f32⟩ : BufTy).Contents (Elt F) → (⟨S32, .f32⟩ : BufTy).Contents (Elt F)),
    StableHlo.nullary main_c_28 (constantI S_ 32 0#32),
    StableHlo.TRef.nullary main_call6.cst (constant S_ .f32 0x00000000#32),
    StableHlo.TRef.binary (.of main_v116 : StableHlo.TRef sig ⟨S50000x32, .f32⟩) main_call6.cst main_call6.v0 (fun x v => Host.reduceAdd x v reducesTo_S50000x32_S32_d0 h_S_),
    StableHlo.TRef.unary main_call6.v0 main_call6.v1 (broadcastInDim S1x32 ![1] bcast_S32_S1x32_1),
    StableHlo.TRef.nullary main_call6.cst_0 (constant S_ .f32 0x47435000#32),
    StableHlo.TRef.unary main_call6.cst_0 main_call6.v2 (broadcastInDim S1x32 ![] bcast_S_S1x32),
    StableHlo.TRef.binary main_call6.v1 main_call6.v2 main_call6.v3 Host.divf,
    StableHlo.TRef.unary main_call6.v3 main_call6.v4 (broadcastInDim S50000x32 ![0, 1] bcast_S1x32_S50000x32_0_1),
    StableHlo.TRef.binary (.of main_v116 : StableHlo.TRef sig ⟨S50000x32, .f32⟩) main_call6.v4 main_call6.v5 subf,
    StableHlo.TRef.binary main_call6.v5 main_call6.v5 main_call6.v6 mulf,
    StableHlo.TRef.unary (.of main_c_28 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x32_S32_d0 h_S_),
    StableHlo.TRef.unary main_call6.v8 main_call6.v10 (broadcastInDim S32 ![] bcast_S_S32),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S32 ![] bcast_S_S32),
    StableHlo.TRef.ternary main_call6.v12 main_call6.v11 main_call6.call0.v1 main_call6.call0.v2 (fun p a b => select (broadcastInDim S32 ![] bcast_S_S32 p) a b),
    StableHlo.unary main_v119 main_v121 (broadcastInDim S1x32 ![1] bcast_S32_S1x32_1 : (⟨S32, .f32⟩ : BufTy).Contents (Elt F) → (⟨S1x32, .f32⟩ : BufTy).Contents (Elt F)),
    StableHlo.unary main_v121 main_v122 (broadcastInDim S50000x32 ![0, 1] bcast_S1x32_S50000x32_0_1 : (⟨S1x32, .f32⟩ : BufTy).Contents (Elt F) → (⟨S50000x32, .f32⟩ : BufTy).Contents (Elt F)),
    StableHlo.binary main_v116 main_v122 main_v123 (subf : (⟨S50000x32, .f32⟩ : BufTy).Contents (Elt F) → (⟨S50000x32, .f32⟩ : BufTy).Contents (Elt F) → (⟨S50000x32, .f32⟩ : BufTy).Contents (Elt F)),
    StableHlo.nullary main_cst_29 (constant S_ .f32 0x3727C5AC#32),
    StableHlo.unary main_cst_29 main_v124 (broadcastInDim S32 ![] bcast_S_S32 : (⟨S_, .f32⟩ : BufTy).Contents (Elt F) → (⟨S32, .f32⟩ : BufTy).Contents (Elt F)),
    StableHlo.binary main_v120 main_v124 main_v125 (addf : (⟨S32, .f32⟩ : BufTy).Contents (Elt F) → (⟨S32, .f32⟩ : BufTy).Contents (Elt F) → (⟨S32, .f32⟩ : BufTy).Contents (Elt F)),
    StableHlo.unary main_v125 main_v126 (Host.rsqrt : (⟨S32, .f32⟩ : BufTy).Contents (Elt F) → (⟨S32, .f32⟩ : BufTy).Contents (Elt F)),
    StableHlo.unary main_v126 main_v127 (broadcastInDim S1x32 ![1] bcast_S32_S1x32_1 : (⟨S32, .f32⟩ : BufTy).Contents (Elt F) → (⟨S1x32, .f32⟩ : BufTy).Contents (Elt F)),
    StableHlo.unary main_v127 main_v128 (broadcastInDim S50000x32 ![0, 1] bcast_S1x32_S50000x32_0_1 : (⟨S1x32, .f32⟩ : BufTy).Contents (Elt F) → (⟨S50000x32, .f32⟩ : BufTy).Contents (Elt F)),
    StableHlo.binary main_v123 main_v128 main_v129 (mulf : (⟨S50000x32, .f32⟩ : BufTy).Contents (Elt F) → (⟨S50000x32, .f32⟩ : BufTy).Contents (Elt F) → (⟨S50000x32, .f32⟩ : BufTy).Contents (Elt F)),
    StableHlo.unary main_arg14 main_v130 (broadcastInDim S1x32 ![1] bcast_S32_S1x32_1 : (⟨S32, .f32⟩ : BufTy).Contents (Elt F) → (⟨S1x32, .f32⟩ : BufTy).Contents (Elt F)),
    StableHlo.unary main_v130 main_v131 (broadcastInDim S50000x32 ![0, 1] bcast_S1x32_S50000x32_0_1 : (⟨S1x32, .f32⟩ : BufTy).Contents (Elt F) → (⟨S50000x32, .f32⟩ : BufTy).Contents (Elt F)),
    StableHlo.binary main_v129 main_v131 main_v132 (mulf : (⟨S50000x32, .f32⟩ : BufTy).Contents (Elt F) → (⟨S50000x32, .f32⟩ : BufTy).Contents (Elt F) → (⟨S50000x32, .f32⟩ : BufTy).Contents (Elt F)),
    StableHlo.unary main_arg15 main_v133 (broadcastInDim S1x32 ![1] bcast_S32_S1x32_1 : (⟨S32, .f32⟩ : BufTy).Contents (Elt F) → (⟨S1x32, .f32⟩ : BufTy).Contents (Elt F)),
    StableHlo.unary main_v133 main_v134 (broadcastInDim S50000x32 ![0, 1] bcast_S1x32_S50000x32_0_1 : (⟨S1x32, .f32⟩ : BufTy).Contents (Elt F) → (⟨S50000x32, .f32⟩ : BufTy).Contents (Elt F)),
    StableHlo.binary main_v132 main_v134 main_v135 (addf : (⟨S50000x32, .f32⟩ : BufTy).Contents (Elt F) → (⟨S50000x32, .f32⟩ : BufTy).Contents (Elt F) → (⟨S50000x32, .f32⟩ : BufTy).Contents (Elt F)),
    StableHlo.nullary main_cst_30 (constant S_ .f32 0x00000000#32),
    StableHlo.unary main_cst_30 main_v136 (broadcastInDim S50000x32 ![] bcast_S_S50000x32 : (⟨S_, .f32⟩ : BufTy).Contents (Elt F) → (⟨S50000x32, .f32⟩ : BufTy).Contents (Elt F)),
    StableHlo.binary main_v135 main_v136 main_v137 (cmpf .ogt : (⟨S50000x32, .f32⟩ : BufTy).Contents (Elt F) → (⟨S50000x32, .f32⟩ : BufTy).Contents (Elt F) → (⟨S50000x32, .i1⟩ : BufTy).Contents (Elt F)),
    StableHlo.nullary main_cst_31 (constant S_ .f32 0x3E4CCCCD#32),
    StableHlo.unary main_cst_31 main_v138 (broadcastInDim S50000x32 ![] bcast_S_S50000x32 : (⟨S_, .f32⟩ : BufTy).Contents (Elt F) → (⟨S50000x32, .f32⟩ : BufTy).Contents (Elt F)),
    StableHlo.binary main_v138 main_v135 main_v139 (mulf : (⟨S50000x32, .f32⟩ : BufTy).Contents (Elt F) → (⟨S50000x32, .f32⟩ : BufTy).Contents (Elt F) → (⟨S50000x32, .f32⟩ : BufTy).Contents (Elt F)),
    StableHlo.TRef.ternary (.of main_v137 : StableHlo.TRef sig ⟨S50000x32, .i1⟩) (.of main_v135 : StableHlo.TRef sig ⟨S50000x32, .f32⟩) (.of main_v139 : StableHlo.TRef sig ⟨S50000x32, .f32⟩) main_call7.v0 select,
    StableHlo.nullary main_cst_32 (constant S_ .f32 0x3F800000#32),
    StableHlo.unary main_cst_32 main_v141 (broadcastInDim S50000 ![] bcast_S_S50000 : (⟨S_, .f32⟩ : BufTy).Contents (Elt F) → (⟨S50000, .f32⟩ : BufTy).Contents (Elt F)),
    StableHlo.nullary main_cst_33 (constant S_ .f32 0x00000000#32),
    StableHlo.unary main_cst_33 main_v142 (broadcastInDim S64 ![] bcast_S_S64 : (⟨S_, .f32⟩ : BufTy).Contents (Elt F) → (⟨S64, .f32⟩ : BufTy).Contents (Elt F)),
    StableHlo.unary main_arg3 main_v143 (broadcastInDim S50000x1 ![0] bcast_S50000_S50000x1_0 : (⟨S50000, .i32⟩ : BufTy).Contents (Elt F) → (⟨S50000x1, .i32⟩ : BufTy).Contents (Elt F)) ]

/-- The operations of @main's printed window 3, in order, the calls written out. -/
abbrev w3 : List (HloOp τ sig (Elt F)) :=
  [ StableHlo.ternary main_v142 main_v143 main_v141 main_v144 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_34 (constant S_ .f32 0x3F800000#32),
    StableHlo.TRef.unary (.of main_cst_34 : StableHlo.TRef sig ⟨S_, .f32⟩) main_call8.v0 id,
    StableHlo.TRef.unary main_call8.v0 main_call8.v1 (broadcastInDim S64 ![] bcast_S_S64),
    StableHlo.TRef.binary main_call8.v1 (.of main_v144 : StableHlo.TRef sig ⟨S64, .f32⟩) main_call8.v2 maximumf,
    StableHlo.nullary main_cst_35 (constant S_ .f32 0x00000000#32),
    StableHlo.unary main_cst_35 main_v146 (broadcastInDim S64x32 ![] bcast_S_S64x32 : (⟨S_, .f32⟩ : BufTy).Contents (Elt F) → (⟨S64x32, .f32⟩ : BufTy).Contents (Elt F)),
    StableHlo.unary main_arg3 main_v147 (broadcastInDim S50000x1 ![0] bcast_S50000_S50000x1_0 : (⟨S50000, .i32⟩ : BufTy).Contents (Elt F) → (⟨S50000x1, .i32⟩ : BufTy).Contents (Elt F)),
    StableHlo.ternary main_v146 main_v147 main_v140 main_v148 ((fun x i u => Host.scatterAdd scatter_S64x32_S50000x1_S50000x32_1_0_0_1 x i u) : (⟨S64x32, .f32⟩ : BufTy).Contents (Elt F) → (⟨S50000x1, .i32⟩ : BufTy).Contents (Elt F) → (⟨S50000x32, .f32⟩ : BufTy).Contents (Elt F) → (⟨S64x32, .f32⟩ : BufTy).Contents (Elt F)),
    StableHlo.unary main_v145 main_v149 (broadcastInDim S64x1 ![0] bcast_S64_S64x1_0 : (⟨S64, .f32⟩ : BufTy).Contents (Elt F) → (⟨S64x1, .f32⟩ : BufTy).Contents (Elt F)),
    StableHlo.unary main_v149 main_v150 (broadcastInDim S64x32 ![0, 1] bcast_S64x1_S64x32_0_1 : (⟨S64x1, .f32⟩ : BufTy).Contents (Elt F) → (⟨S64x32, .f32⟩ : BufTy).Contents (Elt F)),
    StableHlo.binary main_v148 main_v150 main_v151 (Host.divf : (⟨S64x32, .f32⟩ : BufTy).Contents (Elt F) → (⟨S64x32, .f32⟩ : BufTy).Contents (Elt F) → (⟨S64x32, .f32⟩ : BufTy).Contents (Elt F)),
    StableHlo.binary main_v151 main_arg16 main_v152 ((fun l r => Host.dotGeneral dot_S64x32_S32x2_S64x2_1_0_0_1_n_n none l r) : (⟨S64x32, .f32⟩ : BufTy).Contents (Elt F) → (⟨S32x2, .f32⟩ : BufTy).Contents (Elt F) → (⟨S64x2, .f32⟩ : BufTy).Contents (Elt F)),
    StableHlo.unary main_arg17 main_v153 (broadcastInDim S1x2 ![1] bcast_S2_S1x2_1 : (⟨S2, .f32⟩ : BufTy).Contents (Elt F) → (⟨S1x2, .f32⟩ : BufTy).Contents (Elt F)),
    StableHlo.unary main_v153 main_v154 (broadcastInDim S64x2 ![0, 1] bcast_S1x2_S64x2_0_1 : (⟨S1x2, .f32⟩ : BufTy).Contents (Elt F) → (⟨S64x2, .f32⟩ : BufTy).Contents (Elt F)),
    StableHlo.binary main_v152 main_v154 main_v155 (addf : (⟨S64x2, .f32⟩ : BufTy).Contents (Elt F) → (⟨S64x2, .f32⟩ : BufTy).Contents (Elt F) → (⟨S64x2, .f32⟩ : BufTy).Contents (Elt F)) ]

/-- Window 0 is the straight line of its operations: the functions' definitions unfolded at their calls, both sides
    are one chain of steps once sequencing is reassociated. -/
theorem part0_eq (c : Dev nD) : main_part0 (F := F) c = seq w0 := by
  simp only [main_part0, fn_clip.body, fn_var.body, fn_where.body, seq, bind_assoc, pure_bind]
  rfl

/-- Window 1 is the straight line of its operations: the functions' definitions unfolded at their calls, both sides
    are one chain of steps once sequencing is reassociated. -/
theorem part1_eq (c : Dev nD) : main_part1 (F := F) c = seq w1 := by
  simp only [main_part1, fn_where_0.body, fn_var_1.body, fn_where_2.body, seq, bind_assoc, pure_bind]
  rfl

/-- Window 2 is the straight line of its operations: the functions' definitions unfolded at their calls, both sides
    are one chain of steps once sequencing is reassociated. -/
theorem part2_eq (c : Dev nD) : main_part2 (F := F) c = seq w2 := by
  simp only [main_part2, fn_where_3.body, fn_var_4.body, fn_where_5.body, fn_where_6.body, seq, bind_assoc, pure_bind]
  rfl

/-- Window 3 is the straight line of its operations: the functions' definitions unfolded at their calls, both sides
    are one chain of steps once sequencing is reassociated. -/
theorem part3_eq (c : Dev nD) : main_part3 (F := F) c = seq w3 := by
  simp only [main_part3, fn_clip_7.body, seq, bind_assoc, pure_bind]

/-- The four windows' operations, concatenated, are `ops`. -/
theorem windows_eq : (w0 ++ (w1 ++ (w2 ++ w3)) : List (HloOp τ sig (Elt F))) = ops := rfl

/-- @main runs its windows in order, so it is the straight line of all the operations. -/
theorem main_eq (c : Dev nD) : main (F := F) c = seq ops := by
  rw [← windows_eq]
  simp only [seq_append, ← part0_eq c, ← part1_eq c, ← part2_eq c, ← part3_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-- The buffers `cP0` writes, in order. -/
abbrev cP0_W : List (Ref sig .tc) := [main_cst, main_v0, main_cst_0, main_v1, main_v2, main_v3, main_cst_1, main_call0_v0, main_call0_v1, main_v4, main_cst_2, main_v5, main_v6, main_v7, main_cst_3, main_call1_v0, main_call1_v1, main_v8, main_cst_4, main_v9, main_v10, main_v11, main_cst_5, main_v12, main_v13, main_v14, main_v15, main_v16, main_c, main_v17, main_v18, main_c_6, main_v19, main_v20, main_v21, main_v22, main_v23, main_cst_7, main_v24, main_v25, main_v26, main_v27, main_v28]
theorem cP0_writes : (cP0 : List (HloOp τ sig (Elt F))).Forall fun op => op.writes ⊆ (cP0_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem cP0_sub : (cP0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub .., nullary_bufs_sub .., unary_bufs_sub .., binary_bufs_sub .., unary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub ..⟩
theorem cP0_fresh : (cP0 : List (HloOp τ sig (Elt F))).Forall fun op => op.fresh = ∅ := by
  simp only [List.Forall]; repeat' constructor

/-- The buffers `cL1` writes, in order. -/
abbrev cL1_W : List (Ref sig .tc) := [main_v29, main_v30, main_v31, main_v32]
theorem cL1_writes : (cL1 : List (HloOp τ sig (Elt F))).Forall fun op => op.writes ⊆ (cL1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem cL1_sub : (cL1 : List (HloOp τ sig (Elt F))).Forall fun op => op.bufs ⊆ tcRefs τ sig :=
  ⟨binary_bufs_sub .., unary_bufs_sub .., unary_bufs_sub .., binary_bufs_sub ..⟩
theorem cL1_fresh : (cL1 : List (HloOp τ sig (Elt F))).Forall fun op => op.fresh = ∅ := by
  simp only [List.Forall]; repeat' constructor

/-- The buffers `cS1` writes, in order. -/
abbrev cS1_W : List (Ref sig .tc) := [main_cst_8, main_v33, main_cst_9, main_v34, main_v35, main_c_10, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v36]
theorem cS1_writes : (cS1 : List (HloOp τ sig (Elt F))).Forall fun op => op.writes ⊆ (cS1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem cS1_sub : (cS1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem cS1_fresh : (cS1 : List (HloOp τ sig (Elt F))).Forall fun op => op.fresh = ∅ := by
  simp only [List.Forall]; repeat' constructor

/-- The buffers `cB1` writes, in order. -/
abbrev cB1_W : List (Ref sig .tc) := [main_v37, main_v38, main_v39, main_cst_11, main_v40, main_v41, main_v42, main_v43, main_v44, main_v45, main_v46, main_v47, main_v48, main_v49, main_v50, main_v51, main_cst_12, main_v52, main_v53, main_cst_13, main_v54, main_v55, main_v56]
theorem cB1_writes : (cB1 : List (HloOp τ sig (Elt F))).Forall fun op => op.writes ⊆ (cB1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem cB1_sub : (cB1 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
theorem cB1_fresh : (cB1 : List (HloOp τ sig (Elt F))).Forall fun op => op.fresh = ∅ := by
  simp only [List.Forall]; repeat' constructor

/-- The buffers `cP1` writes, in order. -/
abbrev cP1_W : List (Ref sig .tc) := [main_v57, main_v58, main_c_14, main_v59, main_v60, main_c_15, main_v61, main_v62, main_v63, main_v64, main_v65, main_cst_16, main_v66, main_v67, main_v68, main_v69, main_v70]
theorem cP1_writes : (cP1 : List (HloOp τ sig (Elt F))).Forall fun op => op.writes ⊆ (cP1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem cP1_sub : (cP1 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub ..⟩
theorem cP1_fresh : (cP1 : List (HloOp τ sig (Elt F))).Forall fun op => op.fresh = ∅ := by
  simp only [List.Forall]; repeat' constructor

/-- The buffers `cL2` writes, in order. -/
abbrev cL2_W : List (Ref sig .tc) := [main_v71, main_v72, main_v73, main_v74]
theorem cL2_writes : (cL2 : List (HloOp τ sig (Elt F))).Forall fun op => op.writes ⊆ (cL2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem cL2_sub : (cL2 : List (HloOp τ sig (Elt F))).Forall fun op => op.bufs ⊆ tcRefs τ sig :=
  ⟨binary_bufs_sub .., unary_bufs_sub .., unary_bufs_sub .., binary_bufs_sub ..⟩
theorem cL2_fresh : (cL2 : List (HloOp τ sig (Elt F))).Forall fun op => op.fresh = ∅ := by
  simp only [List.Forall]; repeat' constructor

/-- The buffers `cS2` writes, in order. -/
abbrev cS2_W : List (Ref sig .tc) := [main_cst_17, main_v75, main_cst_18, main_v76, main_v77, main_c_19, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v78]
theorem cS2_writes : (cS2 : List (HloOp τ sig (Elt F))).Forall fun op => op.writes ⊆ (cS2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem cS2_sub : (cS2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem cS2_fresh : (cS2 : List (HloOp τ sig (Elt F))).Forall fun op => op.fresh = ∅ := by
  simp only [List.Forall]; repeat' constructor

/-- The buffers `cB2` writes, in order. -/
abbrev cB2_W : List (Ref sig .tc) := [main_v79, main_v80, main_v81, main_cst_20, main_v82, main_v83, main_v84, main_v85, main_v86, main_v87, main_v88, main_v89, main_v90, main_v91, main_v92, main_v93, main_cst_21, main_v94, main_v95, main_cst_22, main_v96, main_v97, main_v98]
theorem cB2_writes : (cB2 : List (HloOp τ sig (Elt F))).Forall fun op => op.writes ⊆ (cB2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem cB2_sub : (cB2 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
theorem cB2_fresh : (cB2 : List (HloOp τ sig (Elt F))).Forall fun op => op.fresh = ∅ := by
  simp only [List.Forall]; repeat' constructor

/-- The buffers `cP2` writes, in order. -/
abbrev cP2_W : List (Ref sig .tc) := [main_v99, main_v100, main_c_23, main_v101, main_v102, main_c_24, main_v103, main_v104, main_v105, main_v106, main_v107, main_cst_25, main_v108, main_v109, main_v110, main_v111, main_v112]
theorem cP2_writes : (cP2 : List (HloOp τ sig (Elt F))).Forall fun op => op.writes ⊆ (cP2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem cP2_sub : (cP2 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub ..⟩
theorem cP2_fresh : (cP2 : List (HloOp τ sig (Elt F))).Forall fun op => op.fresh = ∅ := by
  simp only [List.Forall]; repeat' constructor

/-- The buffers `cL3` writes, in order. -/
abbrev cL3_W : List (Ref sig .tc) := [main_v113, main_v114, main_v115, main_v116]
theorem cL3_writes : (cL3 : List (HloOp τ sig (Elt F))).Forall fun op => op.writes ⊆ (cL3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem cL3_sub : (cL3 : List (HloOp τ sig (Elt F))).Forall fun op => op.bufs ⊆ tcRefs τ sig :=
  ⟨binary_bufs_sub .., unary_bufs_sub .., unary_bufs_sub .., binary_bufs_sub ..⟩
theorem cL3_fresh : (cL3 : List (HloOp τ sig (Elt F))).Forall fun op => op.fresh = ∅ := by
  simp only [List.Forall]; repeat' constructor

/-- The buffers `cS3` writes, in order. -/
abbrev cS3_W : List (Ref sig .tc) := [main_cst_26, main_v117, main_cst_27, main_v118, main_v119, main_c_28, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v120]
theorem cS3_writes : (cS3 : List (HloOp τ sig (Elt F))).Forall fun op => op.writes ⊆ (cS3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem cS3_sub : (cS3 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem cS3_fresh : (cS3 : List (HloOp τ sig (Elt F))).Forall fun op => op.fresh = ∅ := by
  simp only [List.Forall]; repeat' constructor

/-- The buffers `cB3` writes, in order. -/
abbrev cB3_W : List (Ref sig .tc) := [main_v121, main_v122, main_v123, main_cst_29, main_v124, main_v125, main_v126, main_v127, main_v128, main_v129, main_v130, main_v131, main_v132, main_v133, main_v134, main_v135, main_cst_30, main_v136, main_v137, main_cst_31, main_v138, main_v139, main_v140]
theorem cB3_writes : (cB3 : List (HloOp τ sig (Elt F))).Forall fun op => op.writes ⊆ (cB3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem cB3_sub : (cB3 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
theorem cB3_fresh : (cB3 : List (HloOp τ sig (Elt F))).Forall fun op => op.fresh = ∅ := by
  simp only [List.Forall]; repeat' constructor

/-- The buffers `cP3` writes, in order. -/
abbrev cP3_W : List (Ref sig .tc) := [main_cst_32, main_v141, main_cst_33, main_v142, main_v143, main_v144, main_cst_34, main_call8_v0, main_call8_v1, main_v145, main_cst_35, main_v146, main_v147, main_v148, main_v149, main_v150, main_v151]
theorem cP3_writes : (cP3 : List (HloOp τ sig (Elt F))).Forall fun op => op.writes ⊆ (cP3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem cP3_sub : (cP3 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem cP3_fresh : (cP3 : List (HloOp τ sig (Elt F))).Forall fun op => op.fresh = ∅ := by
  simp only [List.Forall]; repeat' constructor

/-- The buffers `cC` writes, in order. -/
abbrev cC_W : List (Ref sig .tc) := [main_v152, main_v153, main_v154, main_v155]
theorem cC_writes : (cC : List (HloOp τ sig (Elt F))).Forall fun op => op.writes ⊆ (cC_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem cC_sub : (cC : List (HloOp τ sig (Elt F))).Forall fun op => op.bufs ⊆ tcRefs τ sig :=
  ⟨binary_bufs_sub .., unary_bufs_sub .., unary_bufs_sub .., binary_bufs_sub ..⟩
theorem cC_fresh : (cC : List (HloOp τ sig (Elt F))).Forall fun op => op.fresh = ∅ := by
  simp only [List.Forall]; repeat' constructor

/-- Every operation touches TensorCore buffers only. -/
theorem ops_sub : (ops : List (HloOp τ sig (Elt F))).Forall fun op => op.bufs ⊆ tcRefs τ sig :=
  forall_append cP0_sub (forall_append cL1_sub (forall_append cS1_sub (forall_append cB1_sub (forall_append cP1_sub (forall_append cL2_sub (forall_append cS2_sub (forall_append cB2_sub (forall_append cP2_sub (forall_append cL3_sub (forall_append cS3_sub (forall_append cB3_sub (forall_append cP3_sub (cC_sub)))))))))))))

/-- Every operation determines what it writes. -/
theorem ops_fresh : ∀ op ∈ (ops : List (HloOp τ sig (Elt F))), op.fresh = ∅ :=
  List.forall_iff_forall_mem.mp (forall_append cP0_fresh (forall_append cL1_fresh (forall_append cS1_fresh (forall_append cB1_fresh (forall_append cP1_fresh (forall_append cL2_fresh (forall_append cS2_fresh (forall_append cB2_fresh (forall_append cP2_fresh (forall_append cL3_fresh (forall_append cS3_fresh (forall_append cB3_fresh (forall_append cP3_fresh (cC_fresh))))))))))))))

/-- Every buffer an operation writes, in order: the 263 values of @main and of the calls' bodies. -/
abbrev ops_W : List (Ref sig .tc) :=
  cP0_W ++ (cL1_W ++ (cS1_W ++ (cB1_W ++ (cP1_W ++ (cL2_W ++ (cS2_W ++ (cB2_W ++ (cP2_W ++ (cL3_W ++ (cS3_W ++ (cB3_W ++ (cP3_W ++ (cC_W)))))))))))))

theorem cP0_keep (r : Ref sig .tc) (h : r ∉ cP0_W) (V : Valuation τ sig (Elt F)) :
    after cP0 V (Proc.devRef .tc r) = V (Proc.devRef .tc r) := after_of_writes_sub cP0 V cP0_writes h
theorem cL1_keep (r : Ref sig .tc) (h : r ∉ cL1_W) (V : Valuation τ sig (Elt F)) :
    after cL1 V (Proc.devRef .tc r) = V (Proc.devRef .tc r) := after_of_writes_sub cL1 V cL1_writes h
theorem cS1_keep (r : Ref sig .tc) (h : r ∉ cS1_W) (V : Valuation τ sig (Elt F)) :
    after cS1 V (Proc.devRef .tc r) = V (Proc.devRef .tc r) := after_of_writes_sub cS1 V cS1_writes h
theorem cB1_keep (r : Ref sig .tc) (h : r ∉ cB1_W) (V : Valuation τ sig (Elt F)) :
    after cB1 V (Proc.devRef .tc r) = V (Proc.devRef .tc r) := after_of_writes_sub cB1 V cB1_writes h
theorem cP1_keep (r : Ref sig .tc) (h : r ∉ cP1_W) (V : Valuation τ sig (Elt F)) :
    after cP1 V (Proc.devRef .tc r) = V (Proc.devRef .tc r) := after_of_writes_sub cP1 V cP1_writes h
theorem cL2_keep (r : Ref sig .tc) (h : r ∉ cL2_W) (V : Valuation τ sig (Elt F)) :
    after cL2 V (Proc.devRef .tc r) = V (Proc.devRef .tc r) := after_of_writes_sub cL2 V cL2_writes h
theorem cS2_keep (r : Ref sig .tc) (h : r ∉ cS2_W) (V : Valuation τ sig (Elt F)) :
    after cS2 V (Proc.devRef .tc r) = V (Proc.devRef .tc r) := after_of_writes_sub cS2 V cS2_writes h
theorem cB2_keep (r : Ref sig .tc) (h : r ∉ cB2_W) (V : Valuation τ sig (Elt F)) :
    after cB2 V (Proc.devRef .tc r) = V (Proc.devRef .tc r) := after_of_writes_sub cB2 V cB2_writes h
theorem cP2_keep (r : Ref sig .tc) (h : r ∉ cP2_W) (V : Valuation τ sig (Elt F)) :
    after cP2 V (Proc.devRef .tc r) = V (Proc.devRef .tc r) := after_of_writes_sub cP2 V cP2_writes h
theorem cL3_keep (r : Ref sig .tc) (h : r ∉ cL3_W) (V : Valuation τ sig (Elt F)) :
    after cL3 V (Proc.devRef .tc r) = V (Proc.devRef .tc r) := after_of_writes_sub cL3 V cL3_writes h
theorem cS3_keep (r : Ref sig .tc) (h : r ∉ cS3_W) (V : Valuation τ sig (Elt F)) :
    after cS3 V (Proc.devRef .tc r) = V (Proc.devRef .tc r) := after_of_writes_sub cS3 V cS3_writes h
theorem cB3_keep (r : Ref sig .tc) (h : r ∉ cB3_W) (V : Valuation τ sig (Elt F)) :
    after cB3 V (Proc.devRef .tc r) = V (Proc.devRef .tc r) := after_of_writes_sub cB3 V cB3_writes h
theorem cP3_keep (r : Ref sig .tc) (h : r ∉ cP3_W) (V : Valuation τ sig (Elt F)) :
    after cP3 V (Proc.devRef .tc r) = V (Proc.devRef .tc r) := after_of_writes_sub cP3 V cP3_writes h
theorem cC_keep (r : Ref sig .tc) (h : r ∉ cC_W) (V : Valuation τ sig (Elt F)) :
    after cC V (Proc.devRef .tc r) = V (Proc.devRef .tc r) := after_of_writes_sub cC V cC_writes h

/-- A buffer no operation writes holds its launch contents after the whole line. -/
theorem ops_keep (r : Ref sig .tc) (h : r ∉ ops_W) (V : Valuation τ sig (Elt F)) :
    after ops V (Proc.devRef .tc r) = V (Proc.devRef .tc r) := by
  simp only [ops_W, List.mem_append, not_or] at h
  obtain ⟨h0, h1, h2, h3, h4, h5, h6, h7, h8, h9, h10, h11, h12, h13⟩ := h
  simp only [ops, after_append]
  rw [cC_keep r h13, cP3_keep r h12, cB3_keep r h11, cS3_keep r h10, cL3_keep r h9, cP2_keep r h8, cB2_keep r h7, cS2_keep r h6, cL2_keep r h5, cP1_keep r h4, cB1_keep r h3, cS1_keep r h2, cL1_keep r h1, cP0_keep r h0]

/-! ## The run -/

/-- On every device, for any float values, from any memory with zero counters: every weakly fair execution of @main
    terminates, and every final state has each buffer of each device at the fold of the operations over the device's
    launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## The arguments are kept -/

theorem arg_kept0 (V : Valuation τ sig (Elt F)) : after ops V (Proc.devRef .tc main_arg0) = V (Proc.devRef .tc main_arg0) :=
  ops_keep main_arg0 (by decide) V
theorem arg_kept1 (V : Valuation τ sig (Elt F)) : after ops V (Proc.devRef .tc main_arg1) = V (Proc.devRef .tc main_arg1) :=
  ops_keep main_arg1 (by decide) V
theorem arg_kept2 (V : Valuation τ sig (Elt F)) : after ops V (Proc.devRef .tc main_arg2) = V (Proc.devRef .tc main_arg2) :=
  ops_keep main_arg2 (by decide) V
theorem arg_kept3 (V : Valuation τ sig (Elt F)) : after ops V (Proc.devRef .tc main_arg3) = V (Proc.devRef .tc main_arg3) :=
  ops_keep main_arg3 (by decide) V
theorem arg_kept4 (V : Valuation τ sig (Elt F)) : after ops V (Proc.devRef .tc main_arg4) = V (Proc.devRef .tc main_arg4) :=
  ops_keep main_arg4 (by decide) V
theorem arg_kept5 (V : Valuation τ sig (Elt F)) : after ops V (Proc.devRef .tc main_arg5) = V (Proc.devRef .tc main_arg5) :=
  ops_keep main_arg5 (by decide) V
theorem arg_kept6 (V : Valuation τ sig (Elt F)) : after ops V (Proc.devRef .tc main_arg6) = V (Proc.devRef .tc main_arg6) :=
  ops_keep main_arg6 (by decide) V
theorem arg_kept7 (V : Valuation τ sig (Elt F)) : after ops V (Proc.devRef .tc main_arg7) = V (Proc.devRef .tc main_arg7) :=
  ops_keep main_arg7 (by decide) V
theorem arg_kept8 (V : Valuation τ sig (Elt F)) : after ops V (Proc.devRef .tc main_arg8) = V (Proc.devRef .tc main_arg8) :=
  ops_keep main_arg8 (by decide) V
theorem arg_kept9 (V : Valuation τ sig (Elt F)) : after ops V (Proc.devRef .tc main_arg9) = V (Proc.devRef .tc main_arg9) :=
  ops_keep main_arg9 (by decide) V
theorem arg_kept10 (V : Valuation τ sig (Elt F)) : after ops V (Proc.devRef .tc main_arg10) = V (Proc.devRef .tc main_arg10) :=
  ops_keep main_arg10 (by decide) V
theorem arg_kept11 (V : Valuation τ sig (Elt F)) : after ops V (Proc.devRef .tc main_arg11) = V (Proc.devRef .tc main_arg11) :=
  ops_keep main_arg11 (by decide) V
theorem arg_kept12 (V : Valuation τ sig (Elt F)) : after ops V (Proc.devRef .tc main_arg12) = V (Proc.devRef .tc main_arg12) :=
  ops_keep main_arg12 (by decide) V
theorem arg_kept13 (V : Valuation τ sig (Elt F)) : after ops V (Proc.devRef .tc main_arg13) = V (Proc.devRef .tc main_arg13) :=
  ops_keep main_arg13 (by decide) V
theorem arg_kept14 (V : Valuation τ sig (Elt F)) : after ops V (Proc.devRef .tc main_arg14) = V (Proc.devRef .tc main_arg14) :=
  ops_keep main_arg14 (by decide) V
theorem arg_kept15 (V : Valuation τ sig (Elt F)) : after ops V (Proc.devRef .tc main_arg15) = V (Proc.devRef .tc main_arg15) :=
  ops_keep main_arg15 (by decide) V
theorem arg_kept16 (V : Valuation τ sig (Elt F)) : after ops V (Proc.devRef .tc main_arg16) = V (Proc.devRef .tc main_arg16) :=
  ops_keep main_arg16 (by decide) V
theorem arg_kept17 (V : Valuation τ sig (Elt F)) : after ops V (Proc.devRef .tc main_arg17) = V (Proc.devRef .tc main_arg17) :=
  ops_keep main_arg17 (by decide) V

/-- The reference's frame: every weakly fair execution terminates, nothing faulting, and the eighteen argument arrays
    end holding their launch contents. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(h c main_arg0).trans (arg_kept0 (launchContents m c)),
      (h c main_arg1).trans (arg_kept1 (launchContents m c)),
      (h c main_arg2).trans (arg_kept2 (launchContents m c)),
      (h c main_arg3).trans (arg_kept3 (launchContents m c)),
      (h c main_arg4).trans (arg_kept4 (launchContents m c)),
      (h c main_arg5).trans (arg_kept5 (launchContents m c)),
      (h c main_arg6).trans (arg_kept6 (launchContents m c)),
      (h c main_arg7).trans (arg_kept7 (launchContents m c)),
      (h c main_arg8).trans (arg_kept8 (launchContents m c)),
      (h c main_arg9).trans (arg_kept9 (launchContents m c)),
      (h c main_arg10).trans (arg_kept10 (launchContents m c)),
      (h c main_arg11).trans (arg_kept11 (launchContents m c)),
      (h c main_arg12).trans (arg_kept12 (launchContents m c)),
      (h c main_arg13).trans (arg_kept13 (launchContents m c)),
      (h c main_arg14).trans (arg_kept14 (launchContents m c)),
      (h c main_arg15).trans (arg_kept15 (launchContents m c)),
      (h c main_arg16).trans (arg_kept16 (launchContents m c)),
      (h c main_arg17).trans (arg_kept17 (launchContents m c))⟩)
    (run m ρ)

end Cert.ReferenceIdeal.RefRun

end
-- ==== Proof.KeepA.lean ====
/-
  Buffers of the idealized kernel's @main that nothing writes between two boundaries of its fold keep their contents:
  the weights, biases and edge lists read by the first two layers, back to the launch memory.
-/
import proofs.«126871_j30021821399140_1_alg».proof.Proof.Gen.KernelIdeal.Frame

set_option maxRecDepth 16384

noncomputable section

namespace Cert.KernelIdeal.Gen

open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- No host operation and no region between the two boundaries writes this buffer: it holds there what it held before. -/
theorem keep_arg4_5_m (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- No host operation and no region between the two boundaries writes this buffer: it holds there what it held before. -/
theorem keep_arg6_6_m (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := StableHlo.after_of_forall_not_mem (b := Proc.devRef .tc main_arg6) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- No host operation and no region between the two boundaries writes this buffer: it holds there what it held before. -/
theorem keep_arg7_6_m (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := StableHlo.after_of_forall_not_mem (b := Proc.devRef .tc main_arg7) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- No host operation and no region between the two boundaries writes this buffer: it holds there what it held before. -/
theorem keep_arg1_10_m (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg1) := StableHlo.after_of_forall_not_mem (b := Proc.devRef .tc main_arg1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- No host operation and no region between the two boundaries writes this buffer: it holds there what it held before. -/
theorem keep_arg2_10_m (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := StableHlo.after_of_forall_not_mem (b := Proc.devRef .tc main_arg2) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- No host operation and no region between the two boundaries writes this buffer: it holds there what it held before. -/
theorem keep_arg9_10_m (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := StableHlo.after_of_forall_not_mem (b := Proc.devRef .tc main_arg9) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := StableHlo.after_of_forall_not_mem (b := Proc.devRef .tc main_arg9) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- No host operation and no region between the two boundaries writes this buffer: it holds there what it held before. -/
theorem keep_arg8_11_m (c : Dev nD) : W11 m ρ c (Proc.devRef .tc main_arg8) = m ((c : Thread nD τ).loc main_arg8) :=
  calc W11 m ρ c (Proc.devRef .tc main_arg8)
    _ = W10 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := StableHlo.after_of_forall_not_mem (b := Proc.devRef .tc main_arg8) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := StableHlo.after_of_forall_not_mem (b := Proc.devRef .tc main_arg8) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- No host operation and no region between the two boundaries writes this buffer: it holds there what it held before. -/
theorem keep_arg10_12_m (c : Dev nD) : W12 m ρ c (Proc.devRef .tc main_arg10) = m ((c : Thread nD τ).loc main_arg10) :=
  calc W12 m ρ c (Proc.devRef .tc main_arg10)
    _ = W11 m ρ c (Proc.devRef .tc main_arg10) := W12_of_ne m ρ c main_arg10 (by decide)
    _ = W10 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := StableHlo.after_of_forall_not_mem (b := Proc.devRef .tc main_arg10) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := StableHlo.after_of_forall_not_mem (b := Proc.devRef .tc main_arg10) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- No host operation and no region between the two boundaries writes this buffer: it holds there what it held before. -/
theorem keep_arg11_12_m (c : Dev nD) : W12 m ρ c (Proc.devRef .tc main_arg11) = m ((c : Thread nD τ).loc main_arg11) :=
  calc W12 m ρ c (Proc.devRef .tc main_arg11)
    _ = W11 m ρ c (Proc.devRef .tc main_arg11) := W12_of_ne m ρ c main_arg11 (by decide)
    _ = W10 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := StableHlo.after_of_forall_not_mem (b := Proc.devRef .tc main_arg11) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := StableHlo.after_of_forall_not_mem (b := Proc.devRef .tc main_arg11) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg11) := StableHlo.after_of_forall_not_mem (b := Proc.devRef .tc main_arg11) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

end Cert.KernelIdeal.Gen

end
-- ==== Proof.KeepB.lean ====
/-
  Buffers of the idealized kernel's @main that nothing writes between two boundaries of its fold keep their contents:
  the arguments read by the third layer, the pooling and the classifier, back to the launch memory.
-/
import proofs.«126871_j30021821399140_1_alg».proof.Proof.Gen.KernelIdeal.Frame

set_option maxRecDepth 16384

noncomputable section

namespace Cert.KernelIdeal.Gen

open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- No host operation and no region between the two boundaries writes this buffer: it holds there what it held before. -/
theorem keep_arg1_16_m (c : Dev nD) : W16 m ρ c (Proc.devRef .tc main_arg1) = m ((c : Thread nD τ).loc main_arg1) :=
  calc W16 m ρ c (Proc.devRef .tc main_arg1)
    _ = W15 m ρ c (Proc.devRef .tc main_arg1) := W16_of_ne m ρ c main_arg1 (by decide)
    _ = W14 m ρ c (Proc.devRef .tc main_arg1) := StableHlo.after_of_forall_not_mem (b := Proc.devRef .tc main_arg1) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg1) := StableHlo.after_of_forall_not_mem (b := Proc.devRef .tc main_arg1) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg1) := W12_of_ne m ρ c main_arg1 (by decide)
    _ = W10 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg1) := StableHlo.after_of_forall_not_mem (b := Proc.devRef .tc main_arg1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- No host operation and no region between the two boundaries writes this buffer: it holds there what it held before. -/
theorem keep_arg2_16_m (c : Dev nD) : W16 m ρ c (Proc.devRef .tc main_arg2) = m ((c : Thread nD τ).loc main_arg2) :=
  calc W16 m ρ c (Proc.devRef .tc main_arg2)
    _ = W15 m ρ c (Proc.devRef .tc main_arg2) := W16_of_ne m ρ c main_arg2 (by decide)
    _ = W14 m ρ c (Proc.devRef .tc main_arg2) := StableHlo.after_of_forall_not_mem (b := Proc.devRef .tc main_arg2) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg2) := StableHlo.after_of_forall_not_mem (b := Proc.devRef .tc main_arg2) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := StableHlo.after_of_forall_not_mem (b := Proc.devRef .tc main_arg2) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- No host operation and no region between the two boundaries writes this buffer: it holds there what it held before. -/
theorem keep_arg13_16_m (c : Dev nD) : W16 m ρ c (Proc.devRef .tc main_arg13) = m ((c : Thread nD τ).loc main_arg13) :=
  calc W16 m ρ c (Proc.devRef .tc main_arg13)
    _ = W15 m ρ c (Proc.devRef .tc main_arg13) := W16_of_ne m ρ c main_arg13 (by decide)
    _ = W14 m ρ c (Proc.devRef .tc main_arg13) := StableHlo.after_of_forall_not_mem (b := Proc.devRef .tc main_arg13) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg13) := StableHlo.after_of_forall_not_mem (b := Proc.devRef .tc main_arg13) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg13) := W12_of_ne m ρ c main_arg13 (by decide)
    _ = W10 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg13) := W10_of_ne m ρ c main_arg13 (by decide)
    _ = W8 m ρ c (Proc.devRef .tc main_arg13) := StableHlo.after_of_forall_not_mem (b := Proc.devRef .tc main_arg13) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg13) := StableHlo.after_of_forall_not_mem (b := Proc.devRef .tc main_arg13) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := StableHlo.after_of_forall_not_mem (b := Proc.devRef .tc main_arg13) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg13) := StableHlo.after_of_forall_not_mem (b := Proc.devRef .tc main_arg13) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := StableHlo.after_of_forall_not_mem (b := Proc.devRef .tc main_arg13) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

/-- No host operation and no region between the two boundaries writes this buffer: it holds there what it held before. -/
theorem keep_arg12_17_m (c : Dev nD) : W17 m ρ c (Proc.devRef .tc main_arg12) = m ((c : Thread nD τ).loc main_arg12) :=
  calc W17 m ρ c (Proc.devRef .tc main_arg12)
    _ = W16 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg12) := W16_of_ne m ρ c main_arg12 (by decide)
    _ = W14 m ρ c (Proc.devRef .tc main_arg12) := StableHlo.after_of_forall_not_mem (b := Proc.devRef .tc main_arg12) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg12) := StableHlo.after_of_forall_not_mem (b := Proc.devRef .tc main_arg12) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg12) := W12_of_ne m ρ c main_arg12 (by decide)
    _ = W10 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := StableHlo.after_of_forall_not_mem (b := Proc.devRef .tc main_arg12) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := StableHlo.after_of_forall_not_mem (b := Proc.devRef .tc main_arg12) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg12) := StableHlo.after_of_forall_not_mem (b := Proc.devRef .tc main_arg12) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := StableHlo.after_of_forall_not_mem (b := Proc.devRef .tc main_arg12) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

/-- No host operation and no region between the two boundaries writes this buffer: it holds there what it held before. -/
theorem keep_arg14_18_m (c : Dev nD) : W18 m ρ c (Proc.devRef .tc main_arg14) = m ((c : Thread nD τ).loc main_arg14) :=
  calc W18 m ρ c (Proc.devRef .tc main_arg14)
    _ = W17 m ρ c (Proc.devRef .tc main_arg14) := W18_of_ne m ρ c main_arg14 (by decide)
    _ = W16 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg14) := W16_of_ne m ρ c main_arg14 (by decide)
    _ = W14 m ρ c (Proc.devRef .tc main_arg14) := StableHlo.after_of_forall_not_mem (b := Proc.devRef .tc main_arg14) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg14) := StableHlo.after_of_forall_not_mem (b := Proc.devRef .tc main_arg14) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg14) := W12_of_ne m ρ c main_arg14 (by decide)
    _ = W10 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg14) := W10_of_ne m ρ c main_arg14 (by decide)
    _ = W8 m ρ c (Proc.devRef .tc main_arg14) := StableHlo.after_of_forall_not_mem (b := Proc.devRef .tc main_arg14) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg14) := StableHlo.after_of_forall_not_mem (b := Proc.devRef .tc main_arg14) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := StableHlo.after_of_forall_not_mem (b := Proc.devRef .tc main_arg14) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg14) := StableHlo.after_of_forall_not_mem (b := Proc.devRef .tc main_arg14) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := StableHlo.after_of_forall_not_mem (b := Proc.devRef .tc main_arg14) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

/-- No host operation and no region between the two boundaries writes this buffer: it holds there what it held before. -/
theorem keep_arg15_18_m (c : Dev nD) : W18 m ρ c (Proc.devRef .tc main_arg15) = m ((c : Thread nD τ).loc main_arg15) :=
  calc W18 m ρ c (Proc.devRef .tc main_arg15)
    _ = W17 m ρ c (Proc.devRef .tc main_arg15) := W18_of_ne m ρ c main_arg15 (by decide)
    _ = W16 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg15) := W16_of_ne m ρ c main_arg15 (by decide)
    _ = W14 m ρ c (Proc.devRef .tc main_arg15) := StableHlo.after_of_forall_not_mem (b := Proc.devRef .tc main_arg15) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg15) := StableHlo.after_of_forall_not_mem (b := Proc.devRef .tc main_arg15) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg15) := W12_of_ne m ρ c main_arg15 (by decide)
    _ = W10 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg15) := W10_of_ne m ρ c main_arg15 (by decide)
    _ = W8 m ρ c (Proc.devRef .tc main_arg15) := StableHlo.after_of_forall_not_mem (b := Proc.devRef .tc main_arg15) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg15) := StableHlo.after_of_forall_not_mem (b := Proc.devRef .tc main_arg15) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := StableHlo.after_of_forall_not_mem (b := Proc.devRef .tc main_arg15) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg15) := StableHlo.after_of_forall_not_mem (b := Proc.devRef .tc main_arg15) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := StableHlo.after_of_forall_not_mem (b := Proc.devRef .tc main_arg15) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

/-- No host operation and no region between the two boundaries writes this buffer: it holds there what it held before. -/
theorem keep_arg3_22_m (c : Dev nD) : W22 m ρ c (Proc.devRef .tc main_arg3) = m ((c : Thread nD τ).loc main_arg3) :=
  calc W22 m ρ c (Proc.devRef .tc main_arg3)
    _ = W21 m ρ c (Proc.devRef .tc main_arg3) := W22_of_ne m ρ c main_arg3 (by decide)
    _ = W20 m ρ c (Proc.devRef .tc main_arg3) := StableHlo.after_of_forall_not_mem (b := Proc.devRef .tc main_arg3) _ _ (List.forall_iff_forall_mem.mp (by
          simp only [hostOps5_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg3) := StableHlo.after_of_forall_not_mem (b := Proc.devRef .tc main_arg3) _ _ (List.forall_iff_forall_mem.mp (by
          simp only [hostOps5_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 m ρ c (Proc.devRef .tc main_arg3) := StableHlo.after_of_forall_not_mem (b := Proc.devRef .tc main_arg3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg3) := W18_of_ne m ρ c main_arg3 (by decide)
    _ = W16 m ρ c (Proc.devRef .tc main_arg3) := StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg3) := W16_of_ne m ρ c main_arg3 (by decide)
    _ = W14 m ρ c (Proc.devRef .tc main_arg3) := StableHlo.after_of_forall_not_mem (b := Proc.devRef .tc main_arg3) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg3) := StableHlo.after_of_forall_not_mem (b := Proc.devRef .tc main_arg3) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg3) := W12_of_ne m ρ c main_arg3 (by decide)
    _ = W10 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg3) := W10_of_ne m ρ c main_arg3 (by decide)
    _ = W8 m ρ c (Proc.devRef .tc main_arg3) := StableHlo.after_of_forall_not_mem (b := Proc.devRef .tc main_arg3) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg3) := StableHlo.after_of_forall_not_mem (b := Proc.devRef .tc main_arg3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := StableHlo.after_of_forall_not_mem (b := Proc.devRef .tc main_arg3) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- No host operation and no region between the two boundaries writes this buffer: it holds there what it held before. -/
theorem keep_arg17_22_m (c : Dev nD) : W22 m ρ c (Proc.devRef .tc main_arg17) = m ((c : Thread nD τ).loc main_arg17) :=
  calc W22 m ρ c (Proc.devRef .tc main_arg17)
    _ = W21 m ρ c (Proc.devRef .tc main_arg17) := W22_of_ne m ρ c main_arg17 (by decide)
    _ = W20 m ρ c (Proc.devRef .tc main_arg17) := StableHlo.after_of_forall_not_mem (b := Proc.devRef .tc main_arg17) _ _ (List.forall_iff_forall_mem.mp (by
          simp only [hostOps5_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg17) := StableHlo.after_of_forall_not_mem (b := Proc.devRef .tc main_arg17) _ _ (List.forall_iff_forall_mem.mp (by
          simp only [hostOps5_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 m ρ c (Proc.devRef .tc main_arg17) := StableHlo.after_of_forall_not_mem (b := Proc.devRef .tc main_arg17) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg17) := W18_of_ne m ρ c main_arg17 (by decide)
    _ = W16 m ρ c (Proc.devRef .tc main_arg17) := StableHlo.after_of_forall_not_mem (b := Proc.devRef .tc main_arg17) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg17) := W16_of_ne m ρ c main_arg17 (by decide)
    _ = W14 m ρ c (Proc.devRef .tc main_arg17) := StableHlo.after_of_forall_not_mem (b := Proc.devRef .tc main_arg17) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg17) := StableHlo.after_of_forall_not_mem (b := Proc.devRef .tc main_arg17) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg17) := W12_of_ne m ρ c main_arg17 (by decide)
    _ = W10 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg17) := W10_of_ne m ρ c main_arg17 (by decide)
    _ = W8 m ρ c (Proc.devRef .tc main_arg17) := StableHlo.after_of_forall_not_mem (b := Proc.devRef .tc main_arg17) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg17) := StableHlo.after_of_forall_not_mem (b := Proc.devRef .tc main_arg17) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := StableHlo.after_of_forall_not_mem (b := Proc.devRef .tc main_arg17) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg17) := StableHlo.after_of_forall_not_mem (b := Proc.devRef .tc main_arg17) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := StableHlo.after_of_forall_not_mem (b := Proc.devRef .tc main_arg17) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

/-- No host operation and no region between the two boundaries writes this buffer: it holds there what it held before. -/
theorem keep_arg16_25_m (c : Dev nD) : W25 m ρ c (Proc.devRef .tc main_arg16) = m ((c : Thread nD τ).loc main_arg16) :=
  calc W25 m ρ c (Proc.devRef .tc main_arg16)
    _ = W24 m ρ c (Proc.devRef .tc main_arg16) := StableHlo.after_of_forall_not_mem (b := Proc.devRef .tc main_arg16) _ _ (List.forall_iff_forall_mem.mp (by
          simp only [hostOps6_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg16) := StableHlo.after_of_forall_not_mem (b := Proc.devRef .tc main_arg16) _ _ (List.forall_iff_forall_mem.mp (by
          simp only [hostOps6_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W22 m ρ c (Proc.devRef .tc main_arg16) := StableHlo.after_of_forall_not_mem (b := Proc.devRef .tc main_arg16) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg16) := W22_of_ne m ρ c main_arg16 (by decide)
    _ = W20 m ρ c (Proc.devRef .tc main_arg16) := StableHlo.after_of_forall_not_mem (b := Proc.devRef .tc main_arg16) _ _ (List.forall_iff_forall_mem.mp (by
          simp only [hostOps5_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg16) := StableHlo.after_of_forall_not_mem (b := Proc.devRef .tc main_arg16) _ _ (List.forall_iff_forall_mem.mp (by
          simp only [hostOps5_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 m ρ c (Proc.devRef .tc main_arg16) := StableHlo.after_of_forall_not_mem (b := Proc.devRef .tc main_arg16) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg16) := W18_of_ne m ρ c main_arg16 (by decide)
    _ = W16 m ρ c (Proc.devRef .tc main_arg16) := StableHlo.after_of_forall_not_mem (b := Proc.devRef .tc main_arg16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg16) := W16_of_ne m ρ c main_arg16 (by decide)
    _ = W14 m ρ c (Proc.devRef .tc main_arg16) := StableHlo.after_of_forall_not_mem (b := Proc.devRef .tc main_arg16) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg16) := StableHlo.after_of_forall_not_mem (b := Proc.devRef .tc main_arg16) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg16) := W12_of_ne m ρ c main_arg16 (by decide)
    _ = W10 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg16) := W10_of_ne m ρ c main_arg16 (by decide)
    _ = W8 m ρ c (Proc.devRef .tc main_arg16) := StableHlo.after_of_forall_not_mem (b := Proc.devRef .tc main_arg16) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg16) := StableHlo.after_of_forall_not_mem (b := Proc.devRef .tc main_arg16) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := StableHlo.after_of_forall_not_mem (b := Proc.devRef .tc main_arg16) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg16) := StableHlo.after_of_forall_not_mem (b := Proc.devRef .tc main_arg16) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := StableHlo.after_of_forall_not_mem (b := Proc.devRef .tc main_arg16) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

end Cert.KernelIdeal.Gen

end
-- ==== Proof.KeepC.lean ====
/-
  Intermediate arrays of the idealized kernel's @main — a layer's pre-activation and the two degree norms — keep their
  contents from the boundary after they are written to the boundary where they are read again.
-/
import proofs.«126871_j30021821399140_1_alg».proof.Proof.Gen.KernelIdeal.Frame

set_option maxRecDepth 16384

noncomputable section

namespace Cert.KernelIdeal.Gen

open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- No host operation and no region between the two boundaries writes this buffer: it holds there what it held before. -/
theorem keep_v30_9_6 (c : Dev nD) : W9 m ρ c (Proc.devRef .tc main_v30) = W6 m ρ c (Proc.devRef .tc main_v30) :=
  calc W9 m ρ c (Proc.devRef .tc main_v30)
    _ = W8 m ρ c (Proc.devRef .tc main_v30) := StableHlo.after_of_forall_not_mem (b := Proc.devRef .tc main_v30) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v30) := StableHlo.after_of_forall_not_mem (b := Proc.devRef .tc main_v30) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v30) := StableHlo.after_of_forall_not_mem (b := Proc.devRef .tc main_v30) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- No host operation and no region between the two boundaries writes this buffer: it holds there what it held before. -/
theorem keep_v11_10_5 (c : Dev nD) : W10 m ρ c (Proc.devRef .tc main_v11) = W5 m ρ c (Proc.devRef .tc main_v11) :=
  calc W10 m ρ c (Proc.devRef .tc main_v11)
    _ = W9 m ρ c (Proc.devRef .tc main_v11) := W10_of_ne m ρ c main_v11 (by decide)
    _ = W8 m ρ c (Proc.devRef .tc main_v11) := StableHlo.after_of_forall_not_mem (b := Proc.devRef .tc main_v11) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v11) := StableHlo.after_of_forall_not_mem (b := Proc.devRef .tc main_v11) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v11) := W6_of_ne m ρ c main_v11 (by decide)

/-- No host operation and no region between the two boundaries writes this buffer: it holds there what it held before. -/
theorem keep_v14_10_5 (c : Dev nD) : W10 m ρ c (Proc.devRef .tc main_v14) = W5 m ρ c (Proc.devRef .tc main_v14) :=
  calc W10 m ρ c (Proc.devRef .tc main_v14)
    _ = W9 m ρ c (Proc.devRef .tc main_v14) := W10_of_ne m ρ c main_v14 (by decide)
    _ = W8 m ρ c (Proc.devRef .tc main_v14) := StableHlo.after_of_forall_not_mem (b := Proc.devRef .tc main_v14) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v14) := StableHlo.after_of_forall_not_mem (b := Proc.devRef .tc main_v14) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v14) := StableHlo.after_of_forall_not_mem (b := Proc.devRef .tc main_v14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v14) := W6_of_ne m ρ c main_v14 (by decide)

/-- No host operation and no region between the two boundaries writes this buffer: it holds there what it held before. -/
theorem keep_v55_15_12 (c : Dev nD) : W15 m ρ c (Proc.devRef .tc main_v55) = W12 m ρ c (Proc.devRef .tc main_v55) :=
  calc W15 m ρ c (Proc.devRef .tc main_v55)
    _ = W14 m ρ c (Proc.devRef .tc main_v55) := StableHlo.after_of_forall_not_mem (b := Proc.devRef .tc main_v55) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v55) := StableHlo.after_of_forall_not_mem (b := Proc.devRef .tc main_v55) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_v55) := StableHlo.after_of_forall_not_mem (b := Proc.devRef .tc main_v55) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- No host operation and no region between the two boundaries writes this buffer: it holds there what it held before. -/
theorem keep_v11_16_5 (c : Dev nD) : W16 m ρ c (Proc.devRef .tc main_v11) = W5 m ρ c (Proc.devRef .tc main_v11) :=
  calc W16 m ρ c (Proc.devRef .tc main_v11)
    _ = W15 m ρ c (Proc.devRef .tc main_v11) := W16_of_ne m ρ c main_v11 (by decide)
    _ = W14 m ρ c (Proc.devRef .tc main_v11) := StableHlo.after_of_forall_not_mem (b := Proc.devRef .tc main_v11) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v11) := StableHlo.after_of_forall_not_mem (b := Proc.devRef .tc main_v11) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_v11) := StableHlo.after_of_forall_not_mem (b := Proc.devRef .tc main_v11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v11) := W12_of_ne m ρ c main_v11 (by decide)
    _ = W10 m ρ c (Proc.devRef .tc main_v11) := StableHlo.after_of_forall_not_mem (b := Proc.devRef .tc main_v11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v11) := W10_of_ne m ρ c main_v11 (by decide)
    _ = W8 m ρ c (Proc.devRef .tc main_v11) := StableHlo.after_of_forall_not_mem (b := Proc.devRef .tc main_v11) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v11) := StableHlo.after_of_forall_not_mem (b := Proc.devRef .tc main_v11) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v11) := W6_of_ne m ρ c main_v11 (by decide)

/-- No host operation and no region between the two boundaries writes this buffer: it holds there what it held before. -/
theorem keep_v14_16_5 (c : Dev nD) : W16 m ρ c (Proc.devRef .tc main_v14) = W5 m ρ c (Proc.devRef .tc main_v14) :=
  calc W16 m ρ c (Proc.devRef .tc main_v14)
    _ = W15 m ρ c (Proc.devRef .tc main_v14) := W16_of_ne m ρ c main_v14 (by decide)
    _ = W14 m ρ c (Proc.devRef .tc main_v14) := StableHlo.after_of_forall_not_mem (b := Proc.devRef .tc main_v14) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v14) := StableHlo.after_of_forall_not_mem (b := Proc.devRef .tc main_v14) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_v14) := StableHlo.after_of_forall_not_mem (b := Proc.devRef .tc main_v14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v14) := W12_of_ne m ρ c main_v14 (by decide)
    _ = W10 m ρ c (Proc.devRef .tc main_v14) := StableHlo.after_of_forall_not_mem (b := Proc.devRef .tc main_v14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v14) := W10_of_ne m ρ c main_v14 (by decide)
    _ = W8 m ρ c (Proc.devRef .tc main_v14) := StableHlo.after_of_forall_not_mem (b := Proc.devRef .tc main_v14) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v14) := StableHlo.after_of_forall_not_mem (b := Proc.devRef .tc main_v14) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v14) := StableHlo.after_of_forall_not_mem (b := Proc.devRef .tc main_v14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v14) := W6_of_ne m ρ c main_v14 (by decide)

/-- No host operation and no region between the two boundaries writes this buffer: it holds there what it held before. -/
theorem keep_v80_21_18 (c : Dev nD) : W21 m ρ c (Proc.devRef .tc main_v80) = W18 m ρ c (Proc.devRef .tc main_v80) :=
  calc W21 m ρ c (Proc.devRef .tc main_v80)
    _ = W20 m ρ c (Proc.devRef .tc main_v80) := StableHlo.after_of_forall_not_mem (b := Proc.devRef .tc main_v80) _ _ (List.forall_iff_forall_mem.mp (by
          simp only [hostOps5_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_v80) := StableHlo.after_of_forall_not_mem (b := Proc.devRef .tc main_v80) _ _ (List.forall_iff_forall_mem.mp (by
          simp only [hostOps5_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 m ρ c (Proc.devRef .tc main_v80) := StableHlo.after_of_forall_not_mem (b := Proc.devRef .tc main_v80) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Gen

end
-- ==== Proof.BridgeBase.lean ====
/-
  The two idealized programs' buffer contents on one TensorCore, as the types the stage lemmas speak about.
-/
import proofs.«126871_j30021821399140_1_alg».proof.KernelIdeal
import proofs.«126871_j30021821399140_1_alg».proof.ReferenceIdeal
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo

/-- Buffer contents of the idealized kernel's program. -/
abbrev KV := Valuation Cert.KernelIdeal.τ Cert.KernelIdeal.sig (Elt Ideal)
/-- Buffer contents of the idealized reference's program. -/
abbrev RV := Valuation Cert.ReferenceIdeal.τ Cert.ReferenceIdeal.sig (Elt Ideal)

end Cert.Bridge

end
-- ==== Proof.StageP0.lean ====
/-
  The first stretch of both programs: the two degree norms (a scatter-add of ones over the edge list, clamped below by one,
  raised to the power -1/2, as a column) and the first aggregation (the features scaled by the source norm, gathered along
  the edges, scatter-added at the destinations, scaled by the destination norm). Both programs spell it with the same host
  operations in the same order, so from equal arguments they leave equal arrays.
-/
import proofs.«126871_j30021821399140_1_alg».proof.KernelIdeal
import proofs.«126871_j30021821399140_1_alg».proof.ReferenceIdeal
import proofs.«126871_j30021821399140_1_alg».proof.Proof.Gen.KernelIdeal
import proofs.«126871_j30021821399140_1_alg».proof.Proof.Gen.ReferenceIdeal
import proofs.«126871_j30021821399140_1_alg».proof.Proof.Gen.KernelIdeal.Launch
import proofs.«126871_j30021821399140_1_alg».proof.Proof.RefOps
import proofs.«126871_j30021821399140_1_alg».proof.Proof.BridgeBase

import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo

/-- The kernel's buffers after its first five host stretches, from contents `Vk`. -/
abbrev kP0 (Vk : KV) : KV := after (Cert.KernelIdeal.Gen.hostOps0_4 (F := Ideal)) (after (Cert.KernelIdeal.Gen.hostOps0_3 (F := Ideal)) (after (Cert.KernelIdeal.Gen.hostOps0_2 (F := Ideal)) (after (Cert.KernelIdeal.Gen.hostOps0_1 (F := Ideal)) (after (Cert.KernelIdeal.Gen.hostOps0 (F := Ideal)) (Vk)))))

/-- The first layer's aggregated, normalised features. -/
theorem stageP0_v28 (Vk : KV) (Vr : RV) (h0 : Vr (Proc.devRef .tc Cert.ReferenceIdeal.main_arg0) = Vk (Proc.devRef .tc Cert.KernelIdeal.main_arg0)) (h1 : Vr (Proc.devRef .tc Cert.ReferenceIdeal.main_arg1) = Vk (Proc.devRef .tc Cert.KernelIdeal.main_arg1)) (h2 : Vr (Proc.devRef .tc Cert.ReferenceIdeal.main_arg2) = Vk (Proc.devRef .tc Cert.KernelIdeal.main_arg2)) :
    after (Cert.ReferenceIdeal.RefRun.cP0 (F := Ideal)) Vr (Proc.devRef .tc Cert.ReferenceIdeal.main_v28) = kP0 Vk (Proc.devRef .tc Cert.KernelIdeal.main_v28) := by
  simp only [kP0, Cert.ReferenceIdeal.RefRun.cP0, Cert.KernelIdeal.Gen.hostOps0, Cert.KernelIdeal.Gen.hostOps0_1, Cert.KernelIdeal.Gen.hostOps0_2, Cert.KernelIdeal.Gen.hostOps0_3, Cert.KernelIdeal.Gen.hostOps0_4]
  after_results_simp
  simp only [h0, h1, h2]
  rfl

/-- The source-side norm column. -/
theorem stageP0_v11 (Vk : KV) (Vr : RV) (h0 : Vr (Proc.devRef .tc Cert.ReferenceIdeal.main_arg0) = Vk (Proc.devRef .tc Cert.KernelIdeal.main_arg0)) (h1 : Vr (Proc.devRef .tc Cert.ReferenceIdeal.main_arg1) = Vk (Proc.devRef .tc Cert.KernelIdeal.main_arg1)) (h2 : Vr (Proc.devRef .tc Cert.ReferenceIdeal.main_arg2) = Vk (Proc.devRef .tc Cert.KernelIdeal.main_arg2)) :
    after (Cert.ReferenceIdeal.RefRun.cP0 (F := Ideal)) Vr (Proc.devRef .tc Cert.ReferenceIdeal.main_v11) = kP0 Vk (Proc.devRef .tc Cert.KernelIdeal.main_v11) := by
  simp only [kP0, Cert.ReferenceIdeal.RefRun.cP0, Cert.KernelIdeal.Gen.hostOps0, Cert.KernelIdeal.Gen.hostOps0_1, Cert.KernelIdeal.Gen.hostOps0_2, Cert.KernelIdeal.Gen.hostOps0_3, Cert.KernelIdeal.Gen.hostOps0_4]
  after_results_simp
  simp only [h0, h1, h2]
  rfl

/-- The destination-side norm column. -/
theorem stageP0_v14 (Vk : KV) (Vr : RV) (h0 : Vr (Proc.devRef .tc Cert.ReferenceIdeal.main_arg0) = Vk (Proc.devRef .tc Cert.KernelIdeal.main_arg0)) (h1 : Vr (Proc.devRef .tc Cert.ReferenceIdeal.main_arg1) = Vk (Proc.devRef .tc Cert.KernelIdeal.main_arg1)) (h2 : Vr (Proc.devRef .tc Cert.ReferenceIdeal.main_arg2) = Vk (Proc.devRef .tc Cert.KernelIdeal.main_arg2)) :
    after (Cert.ReferenceIdeal.RefRun.cP0 (F := Ideal)) Vr (Proc.devRef .tc Cert.ReferenceIdeal.main_v14) = kP0 Vk (Proc.devRef .tc Cert.KernelIdeal.main_v14) := by
  simp only [kP0, Cert.ReferenceIdeal.RefRun.cP0, Cert.KernelIdeal.Gen.hostOps0, Cert.KernelIdeal.Gen.hostOps0_1, Cert.KernelIdeal.Gen.hostOps0_2, Cert.KernelIdeal.Gen.hostOps0_3, Cert.KernelIdeal.Gen.hostOps0_4]
  after_results_simp
  simp only [h0, h1, h2]
  rfl

/-- The row form the kernel's host program gives this vector before a region reads it: the same entries, as one row. -/
theorem rowP0_v29 (Vk : KV) :
    kP0 Vk (Proc.devRef .tc Cert.KernelIdeal.main_v29) = shapeCast Cert.KernelIdeal.S1x128 (Vk (Proc.devRef .tc Cert.KernelIdeal.main_arg5)) Cert.KernelIdeal.Facts₀.shapeCasts_S128_S1x128 := by
  simp only [kP0, Cert.KernelIdeal.Gen.hostOps0, Cert.KernelIdeal.Gen.hostOps0_1, Cert.KernelIdeal.Gen.hostOps0_2, Cert.KernelIdeal.Gen.hostOps0_3, Cert.KernelIdeal.Gen.hostOps0_4]
  after_results_simp
  rfl

end Cert.Bridge

end
-- ==== Proof.StageP1.lean ====
/-
  The second aggregation: the first layer's activations scaled by the source norm, gathered along the edges, scatter-added at
  the destinations, scaled by the destination norm — the same host operations in both programs.
-/
import proofs.«126871_j30021821399140_1_alg».proof.KernelIdeal
import proofs.«126871_j30021821399140_1_alg».proof.ReferenceIdeal
import proofs.«126871_j30021821399140_1_alg».proof.Proof.Gen.KernelIdeal
import proofs.«126871_j30021821399140_1_alg».proof.Proof.Gen.ReferenceIdeal
import proofs.«126871_j30021821399140_1_alg».proof.Proof.Gen.KernelIdeal.Launch
import proofs.«126871_j30021821399140_1_alg».proof.Proof.RefOps
import proofs.«126871_j30021821399140_1_alg».proof.Proof.BridgeBase

import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo

/-- The kernel's buffers after the host stretch between its second and third regions, from contents `Vk`. -/
abbrev kP1 (Vk : KV) : KV := after (Cert.KernelIdeal.Gen.hostOps2 (F := Ideal)) (Vk)

/-- The second layer's aggregated, normalised features. -/
theorem stageP1_v53 (Vk : KV) (Vr : RV) (h0 : Vr (Proc.devRef .tc Cert.ReferenceIdeal.main_v56) = Vk (Proc.devRef .tc Cert.KernelIdeal.main_v39)) (h1 : Vr (Proc.devRef .tc Cert.ReferenceIdeal.main_v11) = Vk (Proc.devRef .tc Cert.KernelIdeal.main_v11)) (h2 : Vr (Proc.devRef .tc Cert.ReferenceIdeal.main_v14) = Vk (Proc.devRef .tc Cert.KernelIdeal.main_v14)) (h3 : Vr (Proc.devRef .tc Cert.ReferenceIdeal.main_arg1) = Vk (Proc.devRef .tc Cert.KernelIdeal.main_arg1)) (h4 : Vr (Proc.devRef .tc Cert.ReferenceIdeal.main_arg2) = Vk (Proc.devRef .tc Cert.KernelIdeal.main_arg2)) :
    after (Cert.ReferenceIdeal.RefRun.cP1 (F := Ideal)) Vr (Proc.devRef .tc Cert.ReferenceIdeal.main_v70) = kP1 Vk (Proc.devRef .tc Cert.KernelIdeal.main_v53) := by
  simp only [kP1, Cert.ReferenceIdeal.RefRun.cP1, Cert.KernelIdeal.Gen.hostOps2]
  after_results_simp
  simp only [h0, h1, h2, h3, h4]
  rfl

/-- The row form the kernel's host program gives this vector before a region reads it: the same entries, as one row. -/
theorem rowP1_v54 (Vk : KV) :
    kP1 Vk (Proc.devRef .tc Cert.KernelIdeal.main_v54) = shapeCast Cert.KernelIdeal.S1x64 (Vk (Proc.devRef .tc Cert.KernelIdeal.main_arg9)) Cert.KernelIdeal.Facts₀.shapeCasts_S64_S1x64 := by
  simp only [kP1, Cert.KernelIdeal.Gen.hostOps2]
  after_results_simp
  rfl

end Cert.Bridge

end
-- ==== Proof.StageP2.lean ====
/-
  The third aggregation (width 64): scale by the source norm, gather along the edges, scatter-add at the destinations, scale by
  the destination norm — the same host operations in both programs.
-/
import proofs.«126871_j30021821399140_1_alg».proof.KernelIdeal
import proofs.«126871_j30021821399140_1_alg».proof.ReferenceIdeal
import proofs.«126871_j30021821399140_1_alg».proof.Proof.Gen.KernelIdeal
import proofs.«126871_j30021821399140_1_alg».proof.Proof.Gen.ReferenceIdeal
import proofs.«126871_j30021821399140_1_alg».proof.Proof.Gen.KernelIdeal.Launch
import proofs.«126871_j30021821399140_1_alg».proof.Proof.RefOps
import proofs.«126871_j30021821399140_1_alg».proof.Proof.BridgeBase

import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo

/-- The kernel's buffers after the host stretch between its fourth and fifth regions, from contents `Vk`. -/
abbrev kP2 (Vk : KV) : KV := after (Cert.KernelIdeal.Gen.hostOps4 (F := Ideal)) (Vk)

/-- The third layer's aggregated, normalised features. -/
theorem stageP2_v78 (Vk : KV) (Vr : RV) (h0 : Vr (Proc.devRef .tc Cert.ReferenceIdeal.main_v98) = Vk (Proc.devRef .tc Cert.KernelIdeal.main_v64)) (h1 : Vr (Proc.devRef .tc Cert.ReferenceIdeal.main_v11) = Vk (Proc.devRef .tc Cert.KernelIdeal.main_v11)) (h2 : Vr (Proc.devRef .tc Cert.ReferenceIdeal.main_v14) = Vk (Proc.devRef .tc Cert.KernelIdeal.main_v14)) (h3 : Vr (Proc.devRef .tc Cert.ReferenceIdeal.main_arg1) = Vk (Proc.devRef .tc Cert.KernelIdeal.main_arg1)) (h4 : Vr (Proc.devRef .tc Cert.ReferenceIdeal.main_arg2) = Vk (Proc.devRef .tc Cert.KernelIdeal.main_arg2)) :
    after (Cert.ReferenceIdeal.RefRun.cP2 (F := Ideal)) Vr (Proc.devRef .tc Cert.ReferenceIdeal.main_v112) = kP2 Vk (Proc.devRef .tc Cert.KernelIdeal.main_v78) := by
  simp only [kP2, Cert.ReferenceIdeal.RefRun.cP2, Cert.KernelIdeal.Gen.hostOps4]
  after_results_simp
  simp only [h0, h1, h2, h3, h4]
  rfl

/-- The row form the kernel's host program gives this vector before a region reads it: the same entries, as one row. -/
theorem rowP2_v79 (Vk : KV) :
    kP2 Vk (Proc.devRef .tc Cert.KernelIdeal.main_v79) = shapeCast Cert.KernelIdeal.S1x32 (Vk (Proc.devRef .tc Cert.KernelIdeal.main_arg13)) Cert.KernelIdeal.Facts₀.shapeCasts_S32_S1x32 := by
  simp only [kP2, Cert.KernelIdeal.Gen.hostOps4]
  after_results_simp
  rfl

end Cert.Bridge

end
-- ==== Proof.StageP3.lean ====
/-
  The mean pooling: the node count of each graph (a scatter-add of ones over the graph ids, clamped below by one) and the
  per-graph sum of the last layer's activations divided by it — the same host operations in both programs.
-/
import proofs.«126871_j30021821399140_1_alg».proof.KernelIdeal
import proofs.«126871_j30021821399140_1_alg».proof.ReferenceIdeal
import proofs.«126871_j30021821399140_1_alg».proof.Proof.Gen.KernelIdeal
import proofs.«126871_j30021821399140_1_alg».proof.Proof.Gen.ReferenceIdeal
import proofs.«126871_j30021821399140_1_alg».proof.Proof.Gen.KernelIdeal.Launch
import proofs.«126871_j30021821399140_1_alg».proof.Proof.RefOps
import proofs.«126871_j30021821399140_1_alg».proof.Proof.BridgeBase

import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo

/-- The kernel's buffers after the three host stretches between its sixth and seventh regions, from contents `Vk`. -/
abbrev kP3 (Vk : KV) : KV := after (Cert.KernelIdeal.Gen.hostOps6_2 (F := Ideal)) (after (Cert.KernelIdeal.Gen.hostOps6_1 (F := Ideal)) (after (Cert.KernelIdeal.Gen.hostOps6 (F := Ideal)) (Vk)))

/-- The per-graph mean of the last layer's activations. -/
theorem stageP3_v100 (Vk : KV) (Vr : RV) (h0 : Vr (Proc.devRef .tc Cert.ReferenceIdeal.main_v140) = Vk (Proc.devRef .tc Cert.KernelIdeal.main_v89)) (h1 : Vr (Proc.devRef .tc Cert.ReferenceIdeal.main_arg3) = Vk (Proc.devRef .tc Cert.KernelIdeal.main_arg3)) :
    after (Cert.ReferenceIdeal.RefRun.cP3 (F := Ideal)) Vr (Proc.devRef .tc Cert.ReferenceIdeal.main_v151) = kP3 Vk (Proc.devRef .tc Cert.KernelIdeal.main_v100) := by
  simp only [kP3, Cert.ReferenceIdeal.RefRun.cP3, Cert.KernelIdeal.Gen.hostOps6, Cert.KernelIdeal.Gen.hostOps6_1, Cert.KernelIdeal.Gen.hostOps6_2]
  after_results_simp
  simp only [h0, h1]
  rfl

/-- The row form the kernel's host program gives this vector before a region reads it: the same entries, as one row. -/
theorem rowP3_v101 (Vk : KV) :
    kP3 Vk (Proc.devRef .tc Cert.KernelIdeal.main_v101) = shapeCast Cert.KernelIdeal.S1x2 (Vk (Proc.devRef .tc Cert.KernelIdeal.main_arg17)) Cert.KernelIdeal.Facts₀.shapeCasts_S2_S1x2 := by
  simp only [kP3, Cert.KernelIdeal.Gen.hostOps6, Cert.KernelIdeal.Gen.hostOps6_1, Cert.KernelIdeal.Gen.hostOps6_2]
  after_results_simp
  rfl

end Cert.Bridge

end
-- ==== Proof.StageS1.lean ====
/-
  The column statistics of the first layer: the mean (the column sums over the 50000 rows divided by 50000) and the biased variance
  (the mean of the squared deviations from the column mean). Both programs compute them with the same host operations from
  the layer's pre-activation, so from equal pre-activations they leave equal vectors.
-/
import proofs.«126871_j30021821399140_1_alg».proof.KernelIdeal
import proofs.«126871_j30021821399140_1_alg».proof.ReferenceIdeal
import proofs.«126871_j30021821399140_1_alg».proof.Proof.Gen.KernelIdeal
import proofs.«126871_j30021821399140_1_alg».proof.Proof.Gen.ReferenceIdeal
import proofs.«126871_j30021821399140_1_alg».proof.Proof.Gen.KernelIdeal.Launch
import proofs.«126871_j30021821399140_1_alg».proof.Proof.RefOps
import proofs.«126871_j30021821399140_1_alg».proof.Proof.BridgeBase

import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo

/-- The kernel's buffers after the three host stretches between its first and second regions, from contents `Vk`. -/
abbrev kS1 (Vk : KV) : KV := after (Cert.KernelIdeal.Gen.hostOps1_2 (F := Ideal)) (after (Cert.KernelIdeal.Gen.hostOps1_1 (F := Ideal)) (after (Cert.KernelIdeal.Gen.hostOps1 (F := Ideal)) (Vk)))

/-- The column means of the first layer's pre-activation. -/
theorem stageS1_v33 (Vk : KV) (Vr : RV) (h0 : Vr (Proc.devRef .tc Cert.ReferenceIdeal.main_v32) = Vk (Proc.devRef .tc Cert.KernelIdeal.main_v30)) :
    after (Cert.ReferenceIdeal.RefRun.cS1 (F := Ideal)) Vr (Proc.devRef .tc Cert.ReferenceIdeal.main_v35) = kS1 Vk (Proc.devRef .tc Cert.KernelIdeal.main_v33) := by
  simp only [kS1, Cert.ReferenceIdeal.RefRun.cS1, Cert.KernelIdeal.Gen.hostOps1, Cert.KernelIdeal.Gen.hostOps1_1, Cert.KernelIdeal.Gen.hostOps1_2]
  after_results_simp
  simp only [h0] <;> rfl

/-- The column variances of the first layer's pre-activation. -/
theorem stageS1_v34 (Vk : KV) (Vr : RV) (h0 : Vr (Proc.devRef .tc Cert.ReferenceIdeal.main_v32) = Vk (Proc.devRef .tc Cert.KernelIdeal.main_v30)) :
    after (Cert.ReferenceIdeal.RefRun.cS1 (F := Ideal)) Vr (Proc.devRef .tc Cert.ReferenceIdeal.main_v36) = kS1 Vk (Proc.devRef .tc Cert.KernelIdeal.main_v34) := by
  simp only [kS1, Cert.ReferenceIdeal.RefRun.cS1, Cert.KernelIdeal.Gen.hostOps1, Cert.KernelIdeal.Gen.hostOps1_1, Cert.KernelIdeal.Gen.hostOps1_2]
  after_results_simp
  simp only [h0] <;> rfl

/-- The row form the kernel's host program gives this vector before a region reads it: the same entries, as one row. -/
theorem rowS1_v35 (Vk : KV) :
    kS1 Vk (Proc.devRef .tc Cert.KernelIdeal.main_v35) = shapeCast Cert.KernelIdeal.S1x128 (kS1 Vk (Proc.devRef .tc Cert.KernelIdeal.main_v33)) Cert.KernelIdeal.Facts₀.shapeCasts_S128_S1x128 := by
  simp only [kS1, Cert.KernelIdeal.Gen.hostOps1, Cert.KernelIdeal.Gen.hostOps1_1, Cert.KernelIdeal.Gen.hostOps1_2]
  after_results_simp
  rfl

/-- The row form the kernel's host program gives this vector before a region reads it: the same entries, as one row. -/
theorem rowS1_v36 (Vk : KV) :
    kS1 Vk (Proc.devRef .tc Cert.KernelIdeal.main_v36) = shapeCast Cert.KernelIdeal.S1x128 (kS1 Vk (Proc.devRef .tc Cert.KernelIdeal.main_v34)) Cert.KernelIdeal.Facts₀.shapeCasts_S128_S1x128 := by
  simp only [kS1, Cert.KernelIdeal.Gen.hostOps1, Cert.KernelIdeal.Gen.hostOps1_1, Cert.KernelIdeal.Gen.hostOps1_2]
  after_results_simp
  rfl

/-- The row form the kernel's host program gives this vector before a region reads it: the same entries, as one row. -/
theorem rowS1_v37 (Vk : KV) :
    kS1 Vk (Proc.devRef .tc Cert.KernelIdeal.main_v37) = shapeCast Cert.KernelIdeal.S1x128 (Vk (Proc.devRef .tc Cert.KernelIdeal.main_arg6)) Cert.KernelIdeal.Facts₀.shapeCasts_S128_S1x128 := by
  simp only [kS1, Cert.KernelIdeal.Gen.hostOps1, Cert.KernelIdeal.Gen.hostOps1_1, Cert.KernelIdeal.Gen.hostOps1_2]
  after_results_simp
  rfl

/-- The row form the kernel's host program gives this vector before a region reads it: the same entries, as one row. -/
theorem rowS1_v38 (Vk : KV) :
    kS1 Vk (Proc.devRef .tc Cert.KernelIdeal.main_v38) = shapeCast Cert.KernelIdeal.S1x128 (Vk (Proc.devRef .tc Cert.KernelIdeal.main_arg7)) Cert.KernelIdeal.Facts₀.shapeCasts_S128_S1x128 := by
  simp only [kS1, Cert.KernelIdeal.Gen.hostOps1, Cert.KernelIdeal.Gen.hostOps1_1, Cert.KernelIdeal.Gen.hostOps1_2]
  after_results_simp
  rfl

end Cert.Bridge

end
-- ==== Proof.StageS2.lean ====
/-
  The column statistics of the second layer (width 64): mean and biased variance over the 50000 rows, by the same host
  operations in both programs.
-/
import proofs.«126871_j30021821399140_1_alg».proof.KernelIdeal
import proofs.«126871_j30021821399140_1_alg».proof.ReferenceIdeal
import proofs.«126871_j30021821399140_1_alg».proof.Proof.Gen.KernelIdeal
import proofs.«126871_j30021821399140_1_alg».proof.Proof.Gen.ReferenceIdeal
import proofs.«126871_j30021821399140_1_alg».proof.Proof.Gen.KernelIdeal.Launch
import proofs.«126871_j30021821399140_1_alg».proof.Proof.RefOps
import proofs.«126871_j30021821399140_1_alg».proof.Proof.BridgeBase

import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo

/-- The kernel's buffers after the three host stretches between its third and fourth regions, from contents `Vk`. -/
abbrev kS2 (Vk : KV) : KV := after (Cert.KernelIdeal.Gen.hostOps3_2 (F := Ideal)) (after (Cert.KernelIdeal.Gen.hostOps3_1 (F := Ideal)) (after (Cert.KernelIdeal.Gen.hostOps3 (F := Ideal)) (Vk)))

/-- The column means of the second layer's pre-activation. -/
theorem stageS2_v58 (Vk : KV) (Vr : RV) (h0 : Vr (Proc.devRef .tc Cert.ReferenceIdeal.main_v74) = Vk (Proc.devRef .tc Cert.KernelIdeal.main_v55)) :
    after (Cert.ReferenceIdeal.RefRun.cS2 (F := Ideal)) Vr (Proc.devRef .tc Cert.ReferenceIdeal.main_v77) = kS2 Vk (Proc.devRef .tc Cert.KernelIdeal.main_v58) := by
  simp only [kS2, Cert.ReferenceIdeal.RefRun.cS2, Cert.KernelIdeal.Gen.hostOps3, Cert.KernelIdeal.Gen.hostOps3_1, Cert.KernelIdeal.Gen.hostOps3_2]
  after_results_simp
  simp only [h0] <;> rfl

/-- The column variances of the second layer's pre-activation. -/
theorem stageS2_v59 (Vk : KV) (Vr : RV) (h0 : Vr (Proc.devRef .tc Cert.ReferenceIdeal.main_v74) = Vk (Proc.devRef .tc Cert.KernelIdeal.main_v55)) :
    after (Cert.ReferenceIdeal.RefRun.cS2 (F := Ideal)) Vr (Proc.devRef .tc Cert.ReferenceIdeal.main_v78) = kS2 Vk (Proc.devRef .tc Cert.KernelIdeal.main_v59) := by
  simp only [kS2, Cert.ReferenceIdeal.RefRun.cS2, Cert.KernelIdeal.Gen.hostOps3, Cert.KernelIdeal.Gen.hostOps3_1, Cert.KernelIdeal.Gen.hostOps3_2]
  after_results_simp
  simp only [h0] <;> rfl

/-- The row form the kernel's host program gives this vector before a region reads it: the same entries, as one row. -/
theorem rowS2_v60 (Vk : KV) :
    kS2 Vk (Proc.devRef .tc Cert.KernelIdeal.main_v60) = shapeCast Cert.KernelIdeal.S1x64 (kS2 Vk (Proc.devRef .tc Cert.KernelIdeal.main_v58)) Cert.KernelIdeal.Facts₀.shapeCasts_S64_S1x64 := by
  simp only [kS2, Cert.KernelIdeal.Gen.hostOps3, Cert.KernelIdeal.Gen.hostOps3_1, Cert.KernelIdeal.Gen.hostOps3_2]
  after_results_simp
  rfl

/-- The row form the kernel's host program gives this vector before a region reads it: the same entries, as one row. -/
theorem rowS2_v61 (Vk : KV) :
    kS2 Vk (Proc.devRef .tc Cert.KernelIdeal.main_v61) = shapeCast Cert.KernelIdeal.S1x64 (kS2 Vk (Proc.devRef .tc Cert.KernelIdeal.main_v59)) Cert.KernelIdeal.Facts₀.shapeCasts_S64_S1x64 := by
  simp only [kS2, Cert.KernelIdeal.Gen.hostOps3, Cert.KernelIdeal.Gen.hostOps3_1, Cert.KernelIdeal.Gen.hostOps3_2]
  after_results_simp
  rfl

/-- The row form the kernel's host program gives this vector before a region reads it: the same entries, as one row. -/
theorem rowS2_v62 (Vk : KV) :
    kS2 Vk (Proc.devRef .tc Cert.KernelIdeal.main_v62) = shapeCast Cert.KernelIdeal.S1x64 (Vk (Proc.devRef .tc Cert.KernelIdeal.main_arg10)) Cert.KernelIdeal.Facts₀.shapeCasts_S64_S1x64 := by
  simp only [kS2, Cert.KernelIdeal.Gen.hostOps3, Cert.KernelIdeal.Gen.hostOps3_1, Cert.KernelIdeal.Gen.hostOps3_2]
  after_results_simp
  rfl

/-- The row form the kernel's host program gives this vector before a region reads it: the same entries, as one row. -/
theorem rowS2_v63 (Vk : KV) :
    kS2 Vk (Proc.devRef .tc Cert.KernelIdeal.main_v63) = shapeCast Cert.KernelIdeal.S1x64 (Vk (Proc.devRef .tc Cert.KernelIdeal.main_arg11)) Cert.KernelIdeal.Facts₀.shapeCasts_S64_S1x64 := by
  simp only [kS2, Cert.KernelIdeal.Gen.hostOps3, Cert.KernelIdeal.Gen.hostOps3_1, Cert.KernelIdeal.Gen.hostOps3_2]
  after_results_simp
  rfl

end Cert.Bridge

end
-- ==== Proof.StageS3.lean ====
/-
  The column statistics of the third layer (width 32): mean and biased variance over the 50000 rows, by the same host
  operations in both programs.
-/
import proofs.«126871_j30021821399140_1_alg».proof.KernelIdeal
import proofs.«126871_j30021821399140_1_alg».proof.ReferenceIdeal
import proofs.«126871_j30021821399140_1_alg».proof.Proof.Gen.KernelIdeal
import proofs.«126871_j30021821399140_1_alg».proof.Proof.Gen.ReferenceIdeal
import proofs.«126871_j30021821399140_1_alg».proof.Proof.Gen.KernelIdeal.Launch
import proofs.«126871_j30021821399140_1_alg».proof.Proof.RefOps
import proofs.«126871_j30021821399140_1_alg».proof.Proof.BridgeBase

import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo

/-- The kernel's buffers after the three host stretches between its fifth and sixth regions, from contents `Vk`. -/
abbrev kS3 (Vk : KV) : KV := after (Cert.KernelIdeal.Gen.hostOps5_2 (F := Ideal)) (after (Cert.KernelIdeal.Gen.hostOps5_1 (F := Ideal)) (after (Cert.KernelIdeal.Gen.hostOps5 (F := Ideal)) (Vk)))

/-- The column means of the third layer's pre-activation. -/
theorem stageS3_v83 (Vk : KV) (Vr : RV) (h0 : Vr (Proc.devRef .tc Cert.ReferenceIdeal.main_v116) = Vk (Proc.devRef .tc Cert.KernelIdeal.main_v80)) :
    after (Cert.ReferenceIdeal.RefRun.cS3 (F := Ideal)) Vr (Proc.devRef .tc Cert.ReferenceIdeal.main_v119) = kS3 Vk (Proc.devRef .tc Cert.KernelIdeal.main_v83) := by
  simp only [kS3, Cert.ReferenceIdeal.RefRun.cS3, Cert.KernelIdeal.Gen.hostOps5, Cert.KernelIdeal.Gen.hostOps5_1, Cert.KernelIdeal.Gen.hostOps5_2]
  after_results_simp
  simp only [h0] <;> rfl

/-- The column variances of the third layer's pre-activation. -/
theorem stageS3_v84 (Vk : KV) (Vr : RV) (h0 : Vr (Proc.devRef .tc Cert.ReferenceIdeal.main_v116) = Vk (Proc.devRef .tc Cert.KernelIdeal.main_v80)) :
    after (Cert.ReferenceIdeal.RefRun.cS3 (F := Ideal)) Vr (Proc.devRef .tc Cert.ReferenceIdeal.main_v120) = kS3 Vk (Proc.devRef .tc Cert.KernelIdeal.main_v84) := by
  simp only [kS3, Cert.ReferenceIdeal.RefRun.cS3, Cert.KernelIdeal.Gen.hostOps5, Cert.KernelIdeal.Gen.hostOps5_1, Cert.KernelIdeal.Gen.hostOps5_2]
  after_results_simp
  simp only [h0] <;> rfl

/-- The row form the kernel's host program gives this vector before a region reads it: the same entries, as one row. -/
theorem rowS3_v85 (Vk : KV) :
    kS3 Vk (Proc.devRef .tc Cert.KernelIdeal.main_v85) = shapeCast Cert.KernelIdeal.S1x32 (kS3 Vk (Proc.devRef .tc Cert.KernelIdeal.main_v83)) Cert.KernelIdeal.Facts₀.shapeCasts_S32_S1x32 := by
  simp only [kS3, Cert.KernelIdeal.Gen.hostOps5, Cert.KernelIdeal.Gen.hostOps5_1, Cert.KernelIdeal.Gen.hostOps5_2]
  after_results_simp
  rfl

/-- The row form the kernel's host program gives this vector before a region reads it: the same entries, as one row. -/
theorem rowS3_v86 (Vk : KV) :
    kS3 Vk (Proc.devRef .tc Cert.KernelIdeal.main_v86) = shapeCast Cert.KernelIdeal.S1x32 (kS3 Vk (Proc.devRef .tc Cert.KernelIdeal.main_v84)) Cert.KernelIdeal.Facts₀.shapeCasts_S32_S1x32 := by
  simp only [kS3, Cert.KernelIdeal.Gen.hostOps5, Cert.KernelIdeal.Gen.hostOps5_1, Cert.KernelIdeal.Gen.hostOps5_2]
  after_results_simp
  rfl

/-- The row form the kernel's host program gives this vector before a region reads it: the same entries, as one row. -/
theorem rowS3_v87 (Vk : KV) :
    kS3 Vk (Proc.devRef .tc Cert.KernelIdeal.main_v87) = shapeCast Cert.KernelIdeal.S1x32 (Vk (Proc.devRef .tc Cert.KernelIdeal.main_arg14)) Cert.KernelIdeal.Facts₀.shapeCasts_S32_S1x32 := by
  simp only [kS3, Cert.KernelIdeal.Gen.hostOps5, Cert.KernelIdeal.Gen.hostOps5_1, Cert.KernelIdeal.Gen.hostOps5_2]
  after_results_simp
  rfl

/-- The row form the kernel's host program gives this vector before a region reads it: the same entries, as one row. -/
theorem rowS3_v88 (Vk : KV) :
    kS3 Vk (Proc.devRef .tc Cert.KernelIdeal.main_v88) = shapeCast Cert.KernelIdeal.S1x32 (Vk (Proc.devRef .tc Cert.KernelIdeal.main_arg15)) Cert.KernelIdeal.Facts₀.shapeCasts_S32_S1x32 := by
  simp only [kS3, Cert.KernelIdeal.Gen.hostOps5, Cert.KernelIdeal.Gen.hostOps5_1, Cert.KernelIdeal.Gen.hostOps5_2]
  after_results_simp
  rfl

end Cert.Bridge

end
-- ==== Proof.RefRead.lean ====
/-
  The pieces of the idealized reference's @main that face a kernel region, each read back as one term of its inputs:
  a layer's pre-activation `x · W + b` (the bias broadcast over the rows), and the batch normalisation followed by the leaky
  rectifier, `xn = (y - mean) · rsqrt (var + eps) · g + beta`, then `xn` where it is positive and `0.2 · xn` elsewhere
  (mean, var, g, beta broadcast over the rows).
-/
import proofs.«126871_j30021821399140_1_alg».proof.ReferenceIdeal
import proofs.«126871_j30021821399140_1_alg».proof.Proof.Gen.ReferenceIdeal
import proofs.«126871_j30021821399140_1_alg».proof.Proof.RefOps
import Idealize.ShloMosaic.Lib.StableHlo.Run
import Idealize.ShloMosaic.PureOps.Ideal

set_option maxRecDepth 16384

noncomputable section

namespace Cert.ReferenceIdeal.RefRun

open Cert.ReferenceIdeal Cert.ReferenceIdeal.Facts₀ Idealize.ShloMosaic Idealize.ShloMosaic.TcCoe Idealize.SL.Sem Idealize.ShloMosaic.StableHlo

/-- The first layer's pre-activation: the rows of `X` times `Wt`, plus the bias `b` on every row. -/
def affine1 (X : FVec Ideal S50000x128 .f32) (Wt : FVec Ideal S128x128 .f32) (b : FVec Ideal S128 .f32) : FVec Ideal S50000x128 .f32 :=
  addf (Host.dotGeneral dot_S50000x128_S128x128_S50000x128_1_0_0_1_n_n none X Wt)
    (broadcastInDim S50000x128 ![0, 1] bcast_S1x128_S50000x128_0_1 (broadcastInDim S1x128 ![1] bcast_S128_S1x128_1 b))
/-- The piece `cL1` leaves that term of its three inputs in its result buffer. -/
theorem read_cL1 (V : Valuation τ sig (Elt Ideal)) :
    after (cL1 (F := Ideal)) V (Proc.devRef .tc main_v32) = affine1 (V (Proc.devRef .tc main_v28)) (V (Proc.devRef .tc main_arg4)) (V (Proc.devRef .tc main_arg5)) := by
  simp only [cL1, affine1]
  after_results_simp <;> rfl

/-- The second layer's pre-activation: the rows of `X` times `Wt`, plus the bias `b` on every row. -/
def affine2 (X : FVec Ideal S50000x128 .f32) (Wt : FVec Ideal S128x64 .f32) (b : FVec Ideal S64 .f32) : FVec Ideal S50000x64 .f32 :=
  addf (Host.dotGeneral dot_S50000x128_S128x64_S50000x64_1_0_0_1_n_n none X Wt)
    (broadcastInDim S50000x64 ![0, 1] bcast_S1x64_S50000x64_0_1 (broadcastInDim S1x64 ![1] bcast_S64_S1x64_1 b))
/-- The piece `cL2` leaves that term of its three inputs in its result buffer. -/
theorem read_cL2 (V : Valuation τ sig (Elt Ideal)) :
    after (cL2 (F := Ideal)) V (Proc.devRef .tc main_v74) = affine2 (V (Proc.devRef .tc main_v70)) (V (Proc.devRef .tc main_arg8)) (V (Proc.devRef .tc main_arg9)) := by
  simp only [cL2, affine2]
  after_results_simp <;> rfl

/-- The third layer's pre-activation: the rows of `X` times `Wt`, plus the bias `b` on every row. -/
def affine3 (X : FVec Ideal S50000x64 .f32) (Wt : FVec Ideal S64x32 .f32) (b : FVec Ideal S32 .f32) : FVec Ideal S50000x32 .f32 :=
  addf (Host.dotGeneral dot_S50000x64_S64x32_S50000x32_1_0_0_1_n_n none X Wt)
    (broadcastInDim S50000x32 ![0, 1] bcast_S1x32_S50000x32_0_1 (broadcastInDim S1x32 ![1] bcast_S32_S1x32_1 b))
/-- The piece `cL3` leaves that term of its three inputs in its result buffer. -/
theorem read_cL3 (V : Valuation τ sig (Elt Ideal)) :
    after (cL3 (F := Ideal)) V (Proc.devRef .tc main_v116) = affine3 (V (Proc.devRef .tc main_v112)) (V (Proc.devRef .tc main_arg12)) (V (Proc.devRef .tc main_arg13)) := by
  simp only [cL3, affine3]
  after_results_simp <;> rfl

/-- The classifier's output: the rows of `X` times `Wt`, plus the bias `b` on every row. -/
def affineC (X : FVec Ideal S64x32 .f32) (Wt : FVec Ideal S32x2 .f32) (b : FVec Ideal S2 .f32) : FVec Ideal S64x2 .f32 :=
  addf (Host.dotGeneral dot_S64x32_S32x2_S64x2_1_0_0_1_n_n none X Wt)
    (broadcastInDim S64x2 ![0, 1] bcast_S1x2_S64x2_0_1 (broadcastInDim S1x2 ![1] bcast_S2_S1x2_1 b))
/-- The piece `cC` leaves that term of its three inputs in its result buffer. -/
theorem read_cC (V : Valuation τ sig (Elt Ideal)) :
    after (cC (F := Ideal)) V (Proc.devRef .tc main_v155) = affineC (V (Proc.devRef .tc main_v151)) (V (Proc.devRef .tc main_arg16)) (V (Proc.devRef .tc main_arg17)) := by
  simp only [cC, affineC]
  after_results_simp <;> rfl

/-- Batch normalisation with the column statistics `mu`, `var`, scale `g` and shift `beta`, then the leaky rectifier. -/
def norm1 (Y : FVec Ideal S50000x128 .f32) (mu var g beta : FVec Ideal S128 .f32) : FVec Ideal S50000x128 .f32 :=
  let bc := fun x : FVec Ideal S128 .f32 => broadcastInDim S50000x128 ![0, 1] bcast_S1x128_S50000x128_0_1 (broadcastInDim S1x128 ![1] bcast_S128_S1x128_1 x)
  let xn := addf (mulf (mulf (subf Y (bc mu)) (bc (Host.rsqrt (addf var (broadcastInDim S128 ![] bcast_S_S128 (constant S_ .f32 0x3727C5AC#32)))))) (bc g)) (bc beta)
  select (cmpf .ogt xn (broadcastInDim S50000x128 ![] bcast_S_S50000x128 (constant S_ .f32 0x00000000#32))) xn
    (mulf (broadcastInDim S50000x128 ![] bcast_S_S50000x128 (constant S_ .f32 0x3E4CCCCD#32)) xn)
/-- The piece `cB1` leaves that term of its five inputs in its result buffer. -/
theorem read_cB1 (V : Valuation τ sig (Elt Ideal)) :
    after (cB1 (F := Ideal)) V (Proc.devRef .tc main_call3.v0.ref) = norm1 (V (Proc.devRef .tc main_v32)) (V (Proc.devRef .tc main_v35)) (V (Proc.devRef .tc main_v36)) (V (Proc.devRef .tc main_arg6)) (V (Proc.devRef .tc main_arg7)) := by
  simp only [cB1, norm1]
  after_results_simp
  rfl

/-- Batch normalisation with the column statistics `mu`, `var`, scale `g` and shift `beta`, then the leaky rectifier. -/
def norm2 (Y : FVec Ideal S50000x64 .f32) (mu var g beta : FVec Ideal S64 .f32) : FVec Ideal S50000x64 .f32 :=
  let bc := fun x : FVec Ideal S64 .f32 => broadcastInDim S50000x64 ![0, 1] bcast_S1x64_S50000x64_0_1 (broadcastInDim S1x64 ![1] bcast_S64_S1x64_1 x)
  let xn := addf (mulf (mulf (subf Y (bc mu)) (bc (Host.rsqrt (addf var (broadcastInDim S64 ![] bcast_S_S64 (constant S_ .f32 0x3727C5AC#32)))))) (bc g)) (bc beta)
  select (cmpf .ogt xn (broadcastInDim S50000x64 ![] bcast_S_S50000x64 (constant S_ .f32 0x00000000#32))) xn
    (mulf (broadcastInDim S50000x64 ![] bcast_S_S50000x64 (constant S_ .f32 0x3E4CCCCD#32)) xn)
/-- The piece `cB2` leaves that term of its five inputs in its result buffer. -/
theorem read_cB2 (V : Valuation τ sig (Elt Ideal)) :
    after (cB2 (F := Ideal)) V (Proc.devRef .tc main_call5.v0.ref) = norm2 (V (Proc.devRef .tc main_v74)) (V (Proc.devRef .tc main_v77)) (V (Proc.devRef .tc main_v78)) (V (Proc.devRef .tc main_arg10)) (V (Proc.devRef .tc main_arg11)) := by
  simp only [cB2, norm2]
  after_results_simp
  rfl

/-- Batch normalisation with the column statistics `mu`, `var`, scale `g` and shift `beta`, then the leaky rectifier. -/
def norm3 (Y : FVec Ideal S50000x32 .f32) (mu var g beta : FVec Ideal S32 .f32) : FVec Ideal S50000x32 .f32 :=
  let bc := fun x : FVec Ideal S32 .f32 => broadcastInDim S50000x32 ![0, 1] bcast_S1x32_S50000x32_0_1 (broadcastInDim S1x32 ![1] bcast_S32_S1x32_1 x)
  let xn := addf (mulf (mulf (subf Y (bc mu)) (bc (Host.rsqrt (addf var (broadcastInDim S32 ![] bcast_S_S32 (constant S_ .f32 0x3727C5AC#32)))))) (bc g)) (bc beta)
  select (cmpf .ogt xn (broadcastInDim S50000x32 ![] bcast_S_S50000x32 (constant S_ .f32 0x00000000#32))) xn
    (mulf (broadcastInDim S50000x32 ![] bcast_S_S50000x32 (constant S_ .f32 0x3E4CCCCD#32)) xn)
/-- The piece `cB3` leaves that term of its five inputs in its result buffer. -/
theorem read_cB3 (V : Valuation τ sig (Elt Ideal)) :
    after (cB3 (F := Ideal)) V (Proc.devRef .tc main_call7.v0.ref) = norm3 (V (Proc.devRef .tc main_v116)) (V (Proc.devRef .tc main_v119)) (V (Proc.devRef .tc main_v120)) (V (Proc.devRef .tc main_arg14)) (V (Proc.devRef .tc main_arg15)) := by
  simp only [cB3, norm3]
  after_results_simp
  rfl

end Cert.ReferenceIdeal.RefRun

end
-- ==== Proof.LibNormIdx.lean ====
/-
  Batch normalisation followed by a leaky rectifier, read one entry at a time. For a matrix `y` with `d` columns and
  per-column vectors `mu`, `var`, `g`, `beta`, the entry at row `r`, column `q` of the result is

      xn = (y r q - mu q) * rsqrt (var q + eps) * g q + beta q,     result = if xn > zero then xn else slope * xn,

  with `eps`, `zero`, `slope` three float words. Two whole-array spellings of it are read at an index here and shown
  to be that entry: the one a kernel body computes on a block of rows, its four vectors being one-row matrices
  repeated down the block's rows, and the one a host program computes on the whole matrix, each vector first made a
  one-row matrix and then repeated down all rows. All at the ideal values, where a float is an extended real; the two
  reciprocal square roots are then one function and a float word is one extended real wherever it is written. General
  in the extents.
-/
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal
import Idealize.ShloMosaic.PureOps.Ideal.Laws

noncomputable section

namespace Cert.LibNormIdx

open Idealize.ShloMosaic Idealize.ShloMosaic.ValueIdx

/-! ## One entry -/

/-- The normalised, scaled and shifted value of one entry `y` of a column with mean `mu`, variance `var`, scale `g`
    and shift `beta`; `e` is the word of the stabilising constant added to the variance. -/
def normed (e : BitVec 32) (y mu var g beta : Ideal .f32) : Ideal .f32 :=
  (y - mu) * FloatOps.rsqrt (var + FloatOps.ofBits (F := Ideal) .f32 e) * g + beta

/-- The leaky rectifier of a value `x`: `x` itself where it exceeds the value of the word `z`, the value of the word
    `s` times `x` elsewhere. -/
def leaky (z s : BitVec 32) (x : Ideal .f32) : Ideal .f32 :=
  Scalar.select (FloatOps.cmpf .ogt x (FloatOps.ofBits (F := Ideal) .f32 z)) x (FloatOps.ofBits (F := Ideal) .f32 s * x)

/-- One entry of the result: the rectifier of the normalised value. -/
def entry (e z s : BitVec 32) (y mu var g beta : Ideal .f32) : Ideal .f32 :=
  leaky z s (normed e y mu var g beta)

/-! ## Index lemmas -/

/-- A reciprocal square root of a vector, read at an index, is the reciprocal square root of the entry there. -/
theorem rsqrt_apply {s : Shape} {φ : FTy} (x : FVec Ideal s φ) (i : s.Idx) : rsqrt x i = FloatOps.rsqrt (x i) := rfl

/-- The host's reciprocal square root of a vector, read at an index, is the same function of the entry there. -/
theorem hostRsqrt_apply {s : Shape} {φ : FTy} (x : FVec Ideal s φ) (i : s.Idx) :
    Host.rsqrt x i = FloatOps.rsqrt (x i) := rfl

/-- A vector of `d` entries laid out as a one-row matrix (a broadcast along axis 1) reads, at `(u, t)`, the vector
    at `t`, whatever the unit coordinate `u`. -/
theorem broadcastInDim_row_apply {α : Type} {d : ℕ} (h : (⟨1, ![d]⟩ : Shape).BroadcastsInDim ⟨2, ![1, d]⟩ ![1])
    (x : (⟨1, ![d]⟩ : Shape).Idx → α) (u : Fin 1) (t : Fin d) :
    broadcastInDim ⟨2, ![1, d]⟩ ![1] h x (ix2 u t) = x (ix1 t) := by
  refine broadcastInDim_apply ![1] h x (ix2 u t) (ix1 t) fun a => ?_
  match a with
  | ⟨0, _⟩ =>
    show t.val = if d = 1 then 0 else t.val
    split
    · have := t.isLt; omega
    · rfl

/-- A vector of `d` entries made a one-row matrix and then repeated down `n` rows reads, at `(r, t)`, the vector at
    `t`. -/
theorem broadcastInDim_rows_apply {α : Type} {n d : ℕ} (h1 : (⟨1, ![d]⟩ : Shape).BroadcastsInDim ⟨2, ![1, d]⟩ ![1])
    (h2 : (⟨2, ![1, d]⟩ : Shape).BroadcastsInDim ⟨2, ![n, d]⟩ ![0, 1]) (x : (⟨1, ![d]⟩ : Shape).Idx → α)
    (r : Fin n) (t : Fin d) :
    broadcastInDim ⟨2, ![n, d]⟩ ![0, 1] h2 (broadcastInDim ⟨2, ![1, d]⟩ ![1] h1 x) (ix2 r t) = x (ix1 t) :=
  (broadcastInDim_oneRow_apply h2 _ r t).trans (broadcastInDim_row_apply h1 x 0 t)

/-! ## The kernel's spelling, on a block of `a` rows -/

/-- What a kernel body computes from a block `v0` of `a` rows and the four vectors as one-row matrices `v2` (means),
    `v4` (variances), `v6` (scales), `v8` (shifts): each one-row matrix repeated down the block's rows, the
    arithmetic entry by entry. The shape casts are between equal shapes. -/
def kernelSide {a b : ℕ} (h0 : (⟨2, ![a, b]⟩ : Shape).ShapeCasts ⟨2, ![a, b]⟩)
    (h1 : (⟨2, ![1, b]⟩ : Shape).ShapeCasts ⟨2, ![1, b]⟩) (hb : (⟨2, ![1, b]⟩ : Shape).Broadcasts ⟨2, ![a, b]⟩)
    (e z s : BitVec 32) (v0 : FVec Ideal ⟨2, ![a, b]⟩ .f32) (v2 v4 v6 v8 : FVec Ideal ⟨2, ![1, b]⟩ .f32) :
    FVec Ideal ⟨2, ![a, b]⟩ .f32 :=
  have xn : FVec Ideal ⟨2, ![a, b]⟩ .f32 :=
    addf (mulf (mulf (subf (shapeCast ⟨2, ![a, b]⟩ v0 h0) (broadcastTo ⟨2, ![a, b]⟩ (shapeCast ⟨2, ![1, b]⟩ v2 h1) hb))
      (broadcastTo ⟨2, ![a, b]⟩ (rsqrt (addf (shapeCast ⟨2, ![1, b]⟩ v4 h1)
        (broadcast ⟨2, ![1, b]⟩ (Scalar.ofBits (F := Ideal) .f32 e)))) hb))
      (broadcastTo ⟨2, ![a, b]⟩ (shapeCast ⟨2, ![1, b]⟩ v6 h1) hb))
      (broadcastTo ⟨2, ![a, b]⟩ (shapeCast ⟨2, ![1, b]⟩ v8 h1) hb)
  select (cmpf .ogt xn (broadcast ⟨2, ![a, b]⟩ (Scalar.ofBits (F := Ideal) .f32 z))) xn
    (mulf (broadcast ⟨2, ![a, b]⟩ (Scalar.ofBits (F := Ideal) .f32 s)) xn)

/-- The kernel's spelling read at `(p, q)`: the entry of the block's `(p, q)` and of column `q` of each one-row
    matrix. -/
theorem kernelSide_apply {a b : ℕ} (h0 : (⟨2, ![a, b]⟩ : Shape).ShapeCasts ⟨2, ![a, b]⟩)
    (h1 : (⟨2, ![1, b]⟩ : Shape).ShapeCasts ⟨2, ![1, b]⟩) (hb : (⟨2, ![1, b]⟩ : Shape).Broadcasts ⟨2, ![a, b]⟩)
    (e z s : BitVec 32) (v0 : FVec Ideal ⟨2, ![a, b]⟩ .f32) (v2 v4 v6 v8 : FVec Ideal ⟨2, ![1, b]⟩ .f32)
    (p : Fin a) (q : Fin b) :
    kernelSide h0 h1 hb e z s v0 v2 v4 v6 v8 (ix2 p q)
      = entry e z s (v0 (ix2 p q)) (v2 (ix2 (0 : Fin 1) q)) (v4 (ix2 (0 : Fin 1) q)) (v6 (ix2 (0 : Fin 1) q))
          (v8 (ix2 (0 : Fin 1) q)) := by
  have hrow : ∀ v : FVec Ideal ⟨2, ![1, b]⟩ .f32, broadcastTo ⟨2, ![a, b]⟩ v hb (ix2 p q) = v (ix2 (0 : Fin 1) q) :=
    fun v => broadcastTo_1b_ab_apply v hb p q
  unfold kernelSide entry leaky normed
  simp only [shapeCast_self, select_apply, cmpf_apply, mulf_apply, addf_apply, subf_apply, broadcast_apply, hrow,
    rsqrt_apply]

/-! ## The host's spelling, on the whole matrix of `n` rows -/

/-- What a host program computes from the matrix `Y` and the four vectors: each vector made a one-row matrix and
    repeated down all rows, the constants broadcast from scalars, the arithmetic entry by entry. -/
def hostSide {n d : ℕ} (h1 : (⟨1, ![d]⟩ : Shape).BroadcastsInDim ⟨2, ![1, d]⟩ ![1])
    (h2 : (⟨2, ![1, d]⟩ : Shape).BroadcastsInDim ⟨2, ![n, d]⟩ ![0, 1])
    (hs1 : (⟨0, ![]⟩ : Shape).BroadcastsInDim ⟨1, ![d]⟩ ![]) (hs2 : (⟨0, ![]⟩ : Shape).BroadcastsInDim ⟨2, ![n, d]⟩ ![])
    (e z s : BitVec 32) (Y : FVec Ideal ⟨2, ![n, d]⟩ .f32) (mu var g beta : FVec Ideal ⟨1, ![d]⟩ .f32) :
    FVec Ideal ⟨2, ![n, d]⟩ .f32 :=
  have xn : FVec Ideal ⟨2, ![n, d]⟩ .f32 :=
    addf (mulf (mulf (subf Y (broadcastInDim ⟨2, ![n, d]⟩ ![0, 1] h2 (broadcastInDim ⟨2, ![1, d]⟩ ![1] h1 mu)))
      (broadcastInDim ⟨2, ![n, d]⟩ ![0, 1] h2 (broadcastInDim ⟨2, ![1, d]⟩ ![1] h1
        (Host.rsqrt (addf var (broadcastInDim ⟨1, ![d]⟩ ![] hs1 (constant (F := Ideal) ⟨0, ![]⟩ .f32 e)))))))
      (broadcastInDim ⟨2, ![n, d]⟩ ![0, 1] h2 (broadcastInDim ⟨2, ![1, d]⟩ ![1] h1 g)))
      (broadcastInDim ⟨2, ![n, d]⟩ ![0, 1] h2 (broadcastInDim ⟨2, ![1, d]⟩ ![1] h1 beta))
  select (cmpf .ogt xn (broadcastInDim ⟨2, ![n, d]⟩ ![] hs2 (constant (F := Ideal) ⟨0, ![]⟩ .f32 z))) xn
    (mulf (broadcastInDim ⟨2, ![n, d]⟩ ![] hs2 (constant (F := Ideal) ⟨0, ![]⟩ .f32 s)) xn)

/-- The host's spelling read at `(r, q)`: the entry of the matrix's `(r, q)` and of each vector at `q`. -/
theorem hostSide_apply {n d : ℕ} (h1 : (⟨1, ![d]⟩ : Shape).BroadcastsInDim ⟨2, ![1, d]⟩ ![1])
    (h2 : (⟨2, ![1, d]⟩ : Shape).BroadcastsInDim ⟨2, ![n, d]⟩ ![0, 1])
    (hs1 : (⟨0, ![]⟩ : Shape).BroadcastsInDim ⟨1, ![d]⟩ ![]) (hs2 : (⟨0, ![]⟩ : Shape).BroadcastsInDim ⟨2, ![n, d]⟩ ![])
    (e z s : BitVec 32) (Y : FVec Ideal ⟨2, ![n, d]⟩ .f32) (mu var g beta : FVec Ideal ⟨1, ![d]⟩ .f32)
    (r : Fin n) (q : Fin d) :
    hostSide h1 h2 hs1 hs2 e z s Y mu var g beta (ix2 r q)
      = entry e z s (Y (ix2 r q)) (mu (ix1 q)) (var (ix1 q)) (g (ix1 q)) (beta (ix1 q)) := by
  have hrows : ∀ x : FVec Ideal ⟨1, ![d]⟩ .f32,
      broadcastInDim ⟨2, ![n, d]⟩ ![0, 1] h2 (broadcastInDim ⟨2, ![1, d]⟩ ![1] h1 x) (ix2 r q) = x (ix1 q) :=
    fun x => broadcastInDim_rows_apply h1 h2 x r q
  unfold hostSide entry leaky normed
  simp only [select_apply, cmpf_apply, mulf_apply, addf_apply, subf_apply, hrows, hostRsqrt_apply,
    broadcastInDim_scalar_apply, constant_apply]
  rfl

end Cert.LibNormIdx

end
-- ==== Proof.NormStage1.lean ====
/-
  The batch-normalisation and leaky-rectifier region of width 128 (region 1 of the kernel's @main), whole array. The
  region's grid has 5 points; point t takes rows 10000 t … 10000 t + 9999 of the [50000, 128] input and the whole of four
  one-row matrices (column means, column variances, scales, shifts), and writes the same rows of the output: every entry
  is normalised with its column's mean and variance, scaled, shifted, and passed through the leaky rectifier. The five
  blocks tile the output, so after the region the output array holds, entry by entry, what the host's whole-array
  spelling of the same arithmetic gives: that spelling broadcasts each vector to a one-row matrix and then down all
  50000 rows, where the kernel repeats a one-row matrix down a block's 10000 rows; read at an entry the two are the same
  expression in the same order, so no property of the numbers is used.
-/
import proofs.«126871_j30021821399140_1_alg».proof.Proof.Gen.KernelIdeal.Frame
import proofs.«126871_j30021821399140_1_alg».proof.Proof.Gen.ReferenceIdeal
import proofs.«126871_j30021821399140_1_alg».proof.Proof.LibNormIdx
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.NormStage

open Idealize.ShloMosaic Idealize.ShloMosaic.TcCoe Idealize.SL.Sem Idealize.ShloMosaic.ValueIdx
open Idealize.ShloMosaic.Pipeline (Dat)
open Cert.KernelIdeal Cert.KernelIdeal.Gen
open Cert.LibNormIdx

/-! ## The two whole-array spellings -/

/-- A vector of 128 entries as the one-row matrix a row-major reshape to [1, 128] leaves. -/
abbrev row1 (x : FVec Ideal S128 .f32) : FVec Ideal S1x128 .f32 :=
  shapeCast S1x128 x Facts₀.shapeCasts_S128_S1x128

/-- The host's spelling on the whole [50000, 128] matrix `Y` with column means `mu`, column variances `var`, scales
    `g` and shifts `beta`: each vector broadcast to a one-row matrix and then down all rows; the normalised, scaled
    and shifted matrix; the rectifier as a selection between it and its multiple. -/
def ref1 (Y : FVec Ideal Cert.ReferenceIdeal.S50000x128 .f32) (mu var g beta : FVec Ideal Cert.ReferenceIdeal.S128 .f32) :
    FVec Ideal Cert.ReferenceIdeal.S50000x128 .f32 :=
  have xn : FVec Ideal Cert.ReferenceIdeal.S50000x128 .f32 :=
    addf (mulf (mulf
      (subf Y (broadcastInDim Cert.ReferenceIdeal.S50000x128 ![0, 1] Cert.ReferenceIdeal.Facts₀.bcast_S1x128_S50000x128_0_1
        (broadcastInDim Cert.ReferenceIdeal.S1x128 ![1] Cert.ReferenceIdeal.Facts₀.bcast_S128_S1x128_1 mu)))
      (broadcastInDim Cert.ReferenceIdeal.S50000x128 ![0, 1] Cert.ReferenceIdeal.Facts₀.bcast_S1x128_S50000x128_0_1
        (broadcastInDim Cert.ReferenceIdeal.S1x128 ![1] Cert.ReferenceIdeal.Facts₀.bcast_S128_S1x128_1
          (Host.rsqrt (F := Ideal) (addf var (broadcastInDim Cert.ReferenceIdeal.S128 ![] Cert.ReferenceIdeal.Facts₀.bcast_S_S128
            (constant (F := Ideal) Cert.ReferenceIdeal.S_ .f32 0x3727C5AC#32)))))))
      (broadcastInDim Cert.ReferenceIdeal.S50000x128 ![0, 1] Cert.ReferenceIdeal.Facts₀.bcast_S1x128_S50000x128_0_1
        (broadcastInDim Cert.ReferenceIdeal.S1x128 ![1] Cert.ReferenceIdeal.Facts₀.bcast_S128_S1x128_1 g)))
      (broadcastInDim Cert.ReferenceIdeal.S50000x128 ![0, 1] Cert.ReferenceIdeal.Facts₀.bcast_S1x128_S50000x128_0_1
        (broadcastInDim Cert.ReferenceIdeal.S1x128 ![1] Cert.ReferenceIdeal.Facts₀.bcast_S128_S1x128_1 beta))
  select
    (cmpf .ogt xn (broadcastInDim Cert.ReferenceIdeal.S50000x128 ![] Cert.ReferenceIdeal.Facts₀.bcast_S_S50000x128
      (constant (F := Ideal) Cert.ReferenceIdeal.S_ .f32 0x00000000#32)))
    xn
    (mulf (broadcastInDim Cert.ReferenceIdeal.S50000x128 ![] Cert.ReferenceIdeal.Facts₀.bcast_S_S50000x128
      (constant (F := Ideal) Cert.ReferenceIdeal.S_ .f32 0x3E4CCCCD#32)) xn)

/-- The host's spelling at row `r`, column `q`: one entry. -/
theorem ref1_apply (Y : FVec Ideal Cert.ReferenceIdeal.S50000x128 .f32) (mu var g beta : FVec Ideal Cert.ReferenceIdeal.S128 .f32)
    (r : Fin 50000) (q : Fin 128) :
    ref1 Y mu var g beta (ix2 r q)
      = entry 0x3727C5AC#32 0x00000000#32 0x3E4CCCCD#32 (Y (ix2 r q)) (mu (ix1 q)) (var (ix1 q)) (g (ix1 q))
          (beta (ix1 q)) :=
  hostSide_apply (n := 50000) (d := 128) Cert.ReferenceIdeal.Facts₀.bcast_S128_S1x128_1 Cert.ReferenceIdeal.Facts₀.bcast_S1x128_S50000x128_0_1
    Cert.ReferenceIdeal.Facts₀.bcast_S_S128 Cert.ReferenceIdeal.Facts₀.bcast_S_S50000x128 0x3727C5AC#32 0x00000000#32 0x3E4CCCCD#32
    Y mu var g beta r q

/-- The kernel body's value at row `p`, column `q` of a block, from the block of the input and the four one-row
    matrices: one entry. -/
theorem pay1_apply (v0 : Vec Ideal S10000x128 .f32) (v2 v4 v6 v8 : Vec Ideal S1x128 .f32) (p : Fin 10000) (q : Fin 128) :
    k1_pay1 (F := Ideal) v0 v2 v4 v6 v8 (ix2 p q)
      = entry 0x3727C5AC#32 0x00000000#32 0x3E4CCCCD#32 (v0 (ix2 p q)) (v2 (ix2 (0 : Fin 1) q)) (v4 (ix2 (0 : Fin 1) q))
          (v6 (ix2 (0 : Fin 1) q)) (v8 (ix2 (0 : Fin 1) q)) :=
  kernelSide_apply (a := 10000) (b := 128) Facts₀.shapeCasts_S10000x128_S10000x128 Facts₀.shapeCasts_S1x128_S1x128
    Facts₀.broadcasts_S1x128_S10000x128 0x3727C5AC#32 0x00000000#32 0x3E4CCCCD#32 v0 v2 v4 v6 v8 p q

/-! ## Blocks and rows -/

theorem hz1 : (![0, 0] : Fin 2 → Nat) = fun _ => 0 := funext fun a => by fin_cases a <;> rfl

/-- The printed index maps, decided over the grid's five points: the input's and the output's block of rows is the
    point's number, every one-row matrix is taken whole at every point. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section Region
variable (V : (c : Dev nD) → (b : Ref sig .tc) → Buf (Elt Ideal) ((c : Thread nD τ).loc b)) (c : Dev nD)
  (Y : FVec Ideal S50000x128 .f32) (mu var g beta : FVec Ideal S128 .f32)

/-- What point `t` writes back is block `t` of the host's spelling of the region's input arrays. -/
theorem flushed1 (hY : V c main_v30 = Y) (hmu : V c main_v35 = row1 mu) (hvar : V c main_v36 = row1 var)
    (hg : V c main_v37 = row1 g) (hbeta : V c main_v38 = row1 beta) (t : Fin cfg1.N) :
    (dat1 (F := Ideal) V c).flushed 5 t
      = ((cfg1.win 5).blk t).view.read (Elt Ideal) (ref1 Y mu var g beta) := by
  show (cfg1.win 5).cut (grid1.coords t) ((dat1 (F := Ideal) V c).after 5 t) = _
  rw [after1_5]
  unfold out1_5
  rw [View.canon_unit_zero hz1]
  simp only [View.ld_unit_zero (S := S10000x128) hz1, View.ld_unit_zero (S := S1x128) hz1]
  obtain ⟨e00, e01, e10, e11, e20, e21, e30, e31, e40, e41, e50, e51⟩ := idx1 t
  have hN : t.val < 5 := lt_of_lt_of_eq t.isLt N_1
  funext j
  obtain ⟨p, q, rfl⟩ : ∃ (p : Fin 10000) (q : Fin 128), j = ix2 p q := ⟨j 0, j 1, eq_ix2 j⟩
  have hp : p.val < 10000 := p.isLt
  show k1_pay1 (F := Ideal) (iblk1 V c 0 t) (iblk1 V c 1 t) (iblk1 V c 2 t) (iblk1 V c 3 t) (iblk1 V c 4 t) (ix2 p q)
    = ref1 Y mu var g beta (((cfg1.win 5).blk t).view.emb (ix2 p q))
  refine (pay1_apply (iblk1 V c 0 t) (iblk1 V c 1 t) (iblk1 V c 2 t) (iblk1 V c 3 t) (iblk1 V c 4 t) p q).trans ?_
  have hr : ((cfg1.win 5).blk t).view.emb (ix2 p q) = ix2 (⟨t.val * 10000 + p.val, by omega⟩ : Fin 50000) q := by
    funext a; apply Fin.ext
    match a with
    | ⟨0, _⟩ => show win1_5.index t (0 : Fin 2) * 10000 + 1 * p.val = t.val * 10000 + p.val; rw [e50]; omega
    | ⟨1, _⟩ => show win1_5.index t (1 : Fin 2) * 128 + 1 * q.val = q.val; rw [e51]; omega
  have h0 : ((cfg1.win 0).blk t).view.emb (ix2 p q) = ix2 (⟨t.val * 10000 + p.val, by omega⟩ : Fin 50000) q := by
    funext a; apply Fin.ext
    match a with
    | ⟨0, _⟩ => show win1_0.index t (0 : Fin 2) * 10000 + 1 * p.val = t.val * 10000 + p.val; rw [e00]; omega
    | ⟨1, _⟩ => show win1_0.index t (1 : Fin 2) * 128 + 1 * q.val = q.val; rw [e01]; omega
  have h1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; rw [e10]
    | ⟨1, _⟩ => show win1_1.index t (1 : Fin 2) * 128 + 1 * q.val = q.val; rw [e11]; omega
  have h2 : ((cfg1.win 2).blk t).view.emb (ix2 (0 : Fin 1) q) = ix2 (0 : Fin 1) q := by
    funext a; apply Fin.ext
    match a with
    | ⟨0, _⟩ => show win1_2.index t (0 : Fin 2) * 1 + 1 * 0 = 0; rw [e20]
    | ⟨1, _⟩ => show win1_2.index t (1 : Fin 2) * 128 + 1 * q.val = q.val; rw [e21]; omega
  have h3 : ((cfg1.win 3).blk t).view.emb (ix2 (0 : Fin 1) q) = ix2 (0 : Fin 1) q := by
    funext a; apply Fin.ext
    match a with
    | ⟨0, _⟩ => show win1_3.index t (0 : Fin 2) * 1 + 1 * 0 = 0; rw [e30]
    | ⟨1, _⟩ => show win1_3.index t (1 : Fin 2) * 128 + 1 * q.val = q.val; rw [e31]; omega
  have h4 : ((cfg1.win 4).blk t).view.emb (ix2 (0 : Fin 1) q) = ix2 (0 : Fin 1) q := by
    funext a; apply Fin.ext
    match a with
    | ⟨0, _⟩ => show win1_4.index t (0 : Fin 2) * 1 + 1 * 0 = 0; rw [e40]
    | ⟨1, _⟩ => show win1_4.index t (1 : Fin 2) * 128 + 1 * q.val = q.val; rw [e41]; omega
  rw [hr, ref1_apply]
  show entry 0x3727C5AC#32 0x00000000#32 0x3E4CCCCD#32
      (V c main_v30 (((cfg1.win 0).blk t).view.emb (ix2 p q)))
      (V c main_v35 (((cfg1.win 1).blk t).view.emb (ix2 (0 : Fin 1) q)))
      (V c main_v36 (((cfg1.win 2).blk t).view.emb (ix2 (0 : Fin 1) q)))
      (V c main_v37 (((cfg1.win 3).blk t).view.emb (ix2 (0 : Fin 1) q)))
      (V c main_v38 (((cfg1.win 4).blk t).view.emb (ix2 (0 : Fin 1) q))) = _
  rw [h0, h1, h2, h3, h4, hY, hmu, hvar, hg, hbeta]
  show entry _ _ _ _ (shapeCast S1x128 mu Facts₀.shapeCasts_S128_S1x128 (ix2 (0 : Fin 1) q))
      (shapeCast S1x128 var Facts₀.shapeCasts_S128_S1x128 (ix2 (0 : Fin 1) q))
      (shapeCast S1x128 g Facts₀.shapeCasts_S128_S1x128 (ix2 (0 : Fin 1) q))
      (shapeCast S1x128 beta Facts₀.shapeCasts_S128_S1x128 (ix2 (0 : Fin 1) q)) = _
  rw [shapeCast_a_1a_apply mu, shapeCast_a_1a_apply var, shapeCast_a_1a_apply g, shapeCast_a_1a_apply beta]

/-- Every row of the output lies in some point's block: row `r` in block `r / 10000`. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 5 := N_1
  let t : Fin cfg1.N := ⟨(i 0).val / 10000, by rw [hN]; omega⟩
  obtain ⟨-, -, -, -, -, -, -, -, -, -, e50, e51⟩ := idx1 t
  refine ⟨t, flush1_5 t, ?_⟩
  show i ∈ ((View.whole main_v39).slice (win1_5.rect t)).set
  rw [View.set_slice_whole, Rect.mem_set_unit]
  intro a
  match a with
  | ⟨0, _⟩ =>
    show win1_5.index t (0 : Fin 2) * 10000 ≤ (i 0).val ∧ (i 0).val < win1_5.index t (0 : Fin 2) * 10000 + 10000
    rw [e50]; show (i 0).val / 10000 * 10000 ≤ (i 0).val ∧ (i 0).val < (i 0).val / 10000 * 10000 + 10000; omega
  | ⟨1, _⟩ =>
    show win1_5.index t (1 : Fin 2) * 128 ≤ (i 1).val ∧ (i 1).val < win1_5.index t (1 : Fin 2) * 128 + 128
    rw [e51]; omega

/-- THE REGION'S OUTPUT ARRAY after its five points: the host's spelling of the region's input arrays. -/
theorem region1 (hY : V c main_v30 = Y) (hmu : V c main_v35 = row1 mu) (hvar : V c main_v36 = row1 var)
    (hg : V c main_v37 = row1 g) (hbeta : V c main_v38 = row1 beta) :
    (dat1 (F := Ideal) V c).arrAt 5 cfg1.N = ref1 Y mu var g beta :=
  (dat1 (F := Ideal) V c).arrAt_eq_of_cover 5 (ref1 Y mu var g beta)
    (fun t _ => flushed1 V c Y mu var g beta hY hmu hvar hg hbeta t) (fun i => cover1 i)

end Region

end Cert.KernelIdeal.NormStage

end
-- ==== Proof.StepB1.lean ====
/-
  The normalisation region of layer 1 against the reference: from equal pre-activations, column statistics, scales and shifts, the
  kernel's region (which reads the four vectors as rows its host program reshaped) leaves in its output array what the reference's
  pointwise chain leaves in its result: the batch-normalised, leaky-rectified activations.
-/
import proofs.«126871_j30021821399140_1_alg».proof.Proof.Gen.KernelIdeal.Frame
import proofs.«126871_j30021821399140_1_alg».proof.Proof.Gen.ReferenceIdeal
import proofs.«126871_j30021821399140_1_alg».proof.Proof.RefOps
import proofs.«126871_j30021821399140_1_alg».proof.Proof.RefRead
import proofs.«126871_j30021821399140_1_alg».proof.Proof.StageS1
import proofs.«126871_j30021821399140_1_alg».proof.Proof.NormStage1
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)

/-- Layer 1: the reference's normalise-and-rectify piece and the kernel's region 1 agree. -/
theorem stepB1 (c : Dev Cert.KernelIdeal.nD) (Vr : RV)
    (hY : Vr (Proc.devRef .tc Cert.ReferenceIdeal.main_v32) = Cert.KernelIdeal.Gen.W9 m ρ c (Proc.devRef .tc Cert.KernelIdeal.main_v30))
    (hmu : Vr (Proc.devRef .tc Cert.ReferenceIdeal.main_v35) = Cert.KernelIdeal.Gen.W9 m ρ c (Proc.devRef .tc Cert.KernelIdeal.main_v33))
    (hvar : Vr (Proc.devRef .tc Cert.ReferenceIdeal.main_v36) = Cert.KernelIdeal.Gen.W9 m ρ c (Proc.devRef .tc Cert.KernelIdeal.main_v34))
    (hg : Vr (Proc.devRef .tc Cert.ReferenceIdeal.main_arg6) = Cert.KernelIdeal.Gen.W6 m ρ c (Proc.devRef .tc Cert.KernelIdeal.main_arg6))
    (hbeta : Vr (Proc.devRef .tc Cert.ReferenceIdeal.main_arg7) = Cert.KernelIdeal.Gen.W6 m ρ c (Proc.devRef .tc Cert.KernelIdeal.main_arg7)) :
    after (Cert.ReferenceIdeal.RefRun.cB1 (F := Ideal)) Vr (Proc.devRef .tc Cert.ReferenceIdeal.main_v56) = Cert.KernelIdeal.Gen.W10 m ρ c (Proc.devRef .tc Cert.KernelIdeal.main_v39) := by
  show after (Cert.ReferenceIdeal.RefRun.cB1 (F := Ideal)) Vr (Proc.devRef .tc Cert.ReferenceIdeal.main_call3.v0.ref) = _
  rw [Cert.ReferenceIdeal.RefRun.read_cB1, hY, hmu, hvar, hg, hbeta]
  exact ((Cert.KernelIdeal.Gen.W10_arr m ρ c 5).trans ((Cert.KernelIdeal.NormStage.region1 (Cert.KernelIdeal.Gen.V9 m ρ) c _ _ _ _ _ rfl
    (rowS1_v35 (Cert.KernelIdeal.Gen.W6 m ρ c)) (rowS1_v36 (Cert.KernelIdeal.Gen.W6 m ρ c))
    (rowS1_v37 (Cert.KernelIdeal.Gen.W6 m ρ c)) (rowS1_v38 (Cert.KernelIdeal.Gen.W6 m ρ c))).trans rfl)).symm

end Cert.Bridge

end
-- ==== Proof.NormStage3.lean ====
/-
  The batch-normalisation and leaky-rectifier region of width 64 (region 3 of the kernel's @main), whole array. The
  region's grid has 5 points; point t takes rows 10000 t … 10000 t + 9999 of the [50000, 64] input and the whole of four
  one-row matrices (column means, column variances, scales, shifts), and writes the same rows of the output: every entry
  is normalised with its column's mean and variance, scaled, shifted, and passed through the leaky rectifier. The five
  blocks tile the output, so after the region the output array holds, entry by entry, what the host's whole-array
  spelling of the same arithmetic gives: that spelling broadcasts each vector to a one-row matrix and then down all
  50000 rows, where the kernel repeats a one-row matrix down a block's 10000 rows; read at an entry the two are the same
  expression in the same order, so no property of the numbers is used.
-/
import proofs.«126871_j30021821399140_1_alg».proof.Proof.Gen.KernelIdeal.Frame
import proofs.«126871_j30021821399140_1_alg».proof.Proof.Gen.ReferenceIdeal
import proofs.«126871_j30021821399140_1_alg».proof.Proof.LibNormIdx
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.NormStage

open Idealize.ShloMosaic Idealize.ShloMosaic.TcCoe Idealize.SL.Sem Idealize.ShloMosaic.ValueIdx
open Idealize.ShloMosaic.Pipeline (Dat)
open Cert.KernelIdeal Cert.KernelIdeal.Gen
open Cert.LibNormIdx

/-! ## The two whole-array spellings -/

/-- A vector of 64 entries as the one-row matrix a row-major reshape to [1, 64] leaves. -/
abbrev row3 (x : FVec Ideal S64 .f32) : FVec Ideal S1x64 .f32 :=
  shapeCast S1x64 x Facts₀.shapeCasts_S64_S1x64

/-- The host's spelling on the whole [50000, 64] matrix `Y` with column means `mu`, column variances `var`, scales
    `g` and shifts `beta`: each vector broadcast to a one-row matrix and then down all rows; the normalised, scaled
    and shifted matrix; the rectifier as a selection between it and its multiple. -/
def ref3 (Y : FVec Ideal Cert.ReferenceIdeal.S50000x64 .f32) (mu var g beta : FVec Ideal Cert.ReferenceIdeal.S64 .f32) :
    FVec Ideal Cert.ReferenceIdeal.S50000x64 .f32 :=
  have xn : FVec Ideal Cert.ReferenceIdeal.S50000x64 .f32 :=
    addf (mulf (mulf
      (subf Y (broadcastInDim Cert.ReferenceIdeal.S50000x64 ![0, 1] Cert.ReferenceIdeal.Facts₀.bcast_S1x64_S50000x64_0_1
        (broadcastInDim Cert.ReferenceIdeal.S1x64 ![1] Cert.ReferenceIdeal.Facts₀.bcast_S64_S1x64_1 mu)))
      (broadcastInDim Cert.ReferenceIdeal.S50000x64 ![0, 1] Cert.ReferenceIdeal.Facts₀.bcast_S1x64_S50000x64_0_1
        (broadcastInDim Cert.ReferenceIdeal.S1x64 ![1] Cert.ReferenceIdeal.Facts₀.bcast_S64_S1x64_1
          (Host.rsqrt (F := Ideal) (addf var (broadcastInDim Cert.ReferenceIdeal.S64 ![] Cert.ReferenceIdeal.Facts₀.bcast_S_S64
            (constant (F := Ideal) Cert.ReferenceIdeal.S_ .f32 0x3727C5AC#32)))))))
      (broadcastInDim Cert.ReferenceIdeal.S50000x64 ![0, 1] Cert.ReferenceIdeal.Facts₀.bcast_S1x64_S50000x64_0_1
        (broadcastInDim Cert.ReferenceIdeal.S1x64 ![1] Cert.ReferenceIdeal.Facts₀.bcast_S64_S1x64_1 g)))
      (broadcastInDim Cert.ReferenceIdeal.S50000x64 ![0, 1] Cert.ReferenceIdeal.Facts₀.bcast_S1x64_S50000x64_0_1
        (broadcastInDim Cert.ReferenceIdeal.S1x64 ![1] Cert.ReferenceIdeal.Facts₀.bcast_S64_S1x64_1 beta))
  select
    (cmpf .ogt xn (broadcastInDim Cert.ReferenceIdeal.S50000x64 ![] Cert.ReferenceIdeal.Facts₀.bcast_S_S50000x64
      (constant (F := Ideal) Cert.ReferenceIdeal.S_ .f32 0x00000000#32)))
    xn
    (mulf (broadcastInDim Cert.ReferenceIdeal.S50000x64 ![] Cert.ReferenceIdeal.Facts₀.bcast_S_S50000x64
      (constant (F := Ideal) Cert.ReferenceIdeal.S_ .f32 0x3E4CCCCD#32)) xn)

/-- The host's spelling at row `r`, column `q`: one entry. -/
theorem ref3_apply (Y : FVec Ideal Cert.ReferenceIdeal.S50000x64 .f32) (mu var g beta : FVec Ideal Cert.ReferenceIdeal.S64 .f32)
    (r : Fin 50000) (q : Fin 64) :
    ref3 Y mu var g beta (ix2 r q)
      = entry 0x3727C5AC#32 0x00000000#32 0x3E4CCCCD#32 (Y (ix2 r q)) (mu (ix1 q)) (var (ix1 q)) (g (ix1 q))
          (beta (ix1 q)) :=
  hostSide_apply (n := 50000) (d := 64) Cert.ReferenceIdeal.Facts₀.bcast_S64_S1x64_1 Cert.ReferenceIdeal.Facts₀.bcast_S1x64_S50000x64_0_1
    Cert.ReferenceIdeal.Facts₀.bcast_S_S64 Cert.ReferenceIdeal.Facts₀.bcast_S_S50000x64 0x3727C5AC#32 0x00000000#32 0x3E4CCCCD#32
    Y mu var g beta r q

/-- The kernel body's value at row `p`, column `q` of a block, from the block of the input and the four one-row
    matrices: one entry. -/
theorem pay3_apply (v0 : Vec Ideal S10000x64 .f32) (v2 v4 v6 v8 : Vec Ideal S1x64 .f32) (p : Fin 10000) (q : Fin 64) :
    k3_pay1 (F := Ideal) v0 v2 v4 v6 v8 (ix2 p q)
      = entry 0x3727C5AC#32 0x00000000#32 0x3E4CCCCD#32 (v0 (ix2 p q)) (v2 (ix2 (0 : Fin 1) q)) (v4 (ix2 (0 : Fin 1) q))
          (v6 (ix2 (0 : Fin 1) q)) (v8 (ix2 (0 : Fin 1) q)) :=
  kernelSide_apply (a := 10000) (b := 64) Facts₀.shapeCasts_S10000x64_S10000x64 Facts₀.shapeCasts_S1x64_S1x64
    Facts₀.broadcasts_S1x64_S10000x64 0x3727C5AC#32 0x00000000#32 0x3E4CCCCD#32 v0 v2 v4 v6 v8 p q

/-! ## Blocks and rows -/

theorem hz3 : (![0, 0] : Fin 2 → Nat) = fun _ => 0 := funext fun a => by fin_cases a <;> rfl

/-- The printed index maps, decided over the grid's five points: the input's and the output's block of rows is the
    point's number, every one-row matrix is taken whole at every point. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

section Region
variable (V : (c : Dev nD) → (b : Ref sig .tc) → Buf (Elt Ideal) ((c : Thread nD τ).loc b)) (c : Dev nD)
  (Y : FVec Ideal S50000x64 .f32) (mu var g beta : FVec Ideal S64 .f32)

/-- What point `t` writes back is block `t` of the host's spelling of the region's input arrays. -/
theorem flushed3 (hY : V c main_v55 = Y) (hmu : V c main_v60 = row3 mu) (hvar : V c main_v61 = row3 var)
    (hg : V c main_v62 = row3 g) (hbeta : V c main_v63 = row3 beta) (t : Fin cfg3.N) :
    (dat3 (F := Ideal) V c).flushed 5 t
      = ((cfg3.win 5).blk t).view.read (Elt Ideal) (ref3 Y mu var g beta) := by
  show (cfg3.win 5).cut (grid3.coords t) ((dat3 (F := Ideal) V c).after 5 t) = _
  rw [after3_5]
  unfold out3_5
  rw [View.canon_unit_zero hz3]
  simp only [View.ld_unit_zero (S := S10000x64) hz3, View.ld_unit_zero (S := S1x64) hz3]
  obtain ⟨e00, e01, e10, e11, e20, e21, e30, e31, e40, e41, e50, e51⟩ := idx3 t
  have hN : t.val < 5 := lt_of_lt_of_eq t.isLt N_3
  funext j
  obtain ⟨p, q, rfl⟩ : ∃ (p : Fin 10000) (q : Fin 64), j = ix2 p q := ⟨j 0, j 1, eq_ix2 j⟩
  have hp : p.val < 10000 := p.isLt
  show k3_pay1 (F := Ideal) (iblk3 V c 0 t) (iblk3 V c 1 t) (iblk3 V c 2 t) (iblk3 V c 3 t) (iblk3 V c 4 t) (ix2 p q)
    = ref3 Y mu var g beta (((cfg3.win 5).blk t).view.emb (ix2 p q))
  refine (pay3_apply (iblk3 V c 0 t) (iblk3 V c 1 t) (iblk3 V c 2 t) (iblk3 V c 3 t) (iblk3 V c 4 t) p q).trans ?_
  have hr : ((cfg3.win 5).blk t).view.emb (ix2 p q) = ix2 (⟨t.val * 10000 + p.val, by omega⟩ : Fin 50000) q := by
    funext a; apply Fin.ext
    match a with
    | ⟨0, _⟩ => show win3_5.index t (0 : Fin 2) * 10000 + 1 * p.val = t.val * 10000 + p.val; rw [e50]; omega
    | ⟨1, _⟩ => show win3_5.index t (1 : Fin 2) * 64 + 1 * q.val = q.val; rw [e51]; omega
  have h0 : ((cfg3.win 0).blk t).view.emb (ix2 p q) = ix2 (⟨t.val * 10000 + p.val, by omega⟩ : Fin 50000) q := by
    funext a; apply Fin.ext
    match a with
    | ⟨0, _⟩ => show win3_0.index t (0 : Fin 2) * 10000 + 1 * p.val = t.val * 10000 + p.val; rw [e00]; omega
    | ⟨1, _⟩ => show win3_0.index t (1 : Fin 2) * 64 + 1 * q.val = q.val; rw [e01]; omega
  have h1 : ((cfg3.win 1).blk t).view.emb (ix2 (0 : Fin 1) q) = ix2 (0 : Fin 1) q := by
    funext a; apply Fin.ext
    match a with
    | ⟨0, _⟩ => show win3_1.index t (0 : Fin 2) * 1 + 1 * 0 = 0; rw [e10]
    | ⟨1, _⟩ => show win3_1.index t (1 : Fin 2) * 64 + 1 * q.val = q.val; rw [e11]; omega
  have h2 : ((cfg3.win 2).blk t).view.emb (ix2 (0 : Fin 1) q) = ix2 (0 : Fin 1) q := by
    funext a; apply Fin.ext
    match a with
    | ⟨0, _⟩ => show win3_2.index t (0 : Fin 2) * 1 + 1 * 0 = 0; rw [e20]
    | ⟨1, _⟩ => show win3_2.index t (1 : Fin 2) * 64 + 1 * q.val = q.val; rw [e21]; omega
  have h3 : ((cfg3.win 3).blk t).view.emb (ix2 (0 : Fin 1) q) = ix2 (0 : Fin 1) q := by
    funext a; apply Fin.ext
    match a with
    | ⟨0, _⟩ => show win3_3.index t (0 : Fin 2) * 1 + 1 * 0 = 0; rw [e30]
    | ⟨1, _⟩ => show win3_3.index t (1 : Fin 2) * 64 + 1 * q.val = q.val; rw [e31]; omega
  have h4 : ((cfg3.win 4).blk t).view.emb (ix2 (0 : Fin 1) q) = ix2 (0 : Fin 1) q := by
    funext a; apply Fin.ext
    match a with
    | ⟨0, _⟩ => show win3_4.index t (0 : Fin 2) * 1 + 1 * 0 = 0; rw [e40]
    | ⟨1, _⟩ => show win3_4.index t (1 : Fin 2) * 64 + 1 * q.val = q.val; rw [e41]; omega
  rw [hr, ref3_apply]
  show entry 0x3727C5AC#32 0x00000000#32 0x3E4CCCCD#32
      (V c main_v55 (((cfg3.win 0).blk t).view.emb (ix2 p q)))
      (V c main_v60 (((cfg3.win 1).blk t).view.emb (ix2 (0 : Fin 1) q)))
      (V c main_v61 (((cfg3.win 2).blk t).view.emb (ix2 (0 : Fin 1) q)))
      (V c main_v62 (((cfg3.win 3).blk t).view.emb (ix2 (0 : Fin 1) q)))
      (V c main_v63 (((cfg3.win 4).blk t).view.emb (ix2 (0 : Fin 1) q))) = _
  rw [h0, h1, h2, h3, h4, hY, hmu, hvar, hg, hbeta]
  show entry _ _ _ _ (shapeCast S1x64 mu Facts₀.shapeCasts_S64_S1x64 (ix2 (0 : Fin 1) q))
      (shapeCast S1x64 var Facts₀.shapeCasts_S64_S1x64 (ix2 (0 : Fin 1) q))
      (shapeCast S1x64 g Facts₀.shapeCasts_S64_S1x64 (ix2 (0 : Fin 1) q))
      (shapeCast S1x64 beta Facts₀.shapeCasts_S64_S1x64 (ix2 (0 : Fin 1) q)) = _
  rw [shapeCast_a_1a_apply mu, shapeCast_a_1a_apply var, shapeCast_a_1a_apply g, shapeCast_a_1a_apply beta]

/-- Every row of the output lies in some point's block: row `r` in block `r / 10000`. -/
theorem cover3 (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  have hN : cfg3.N = 5 := N_3
  let t : Fin cfg3.N := ⟨(i 0).val / 10000, by rw [hN]; omega⟩
  obtain ⟨-, -, -, -, -, -, -, -, -, -, e50, e51⟩ := idx3 t
  refine ⟨t, flush3_5 t, ?_⟩
  show i ∈ ((View.whole main_v64).slice (win3_5.rect t)).set
  rw [View.set_slice_whole, Rect.mem_set_unit]
  intro a
  match a with
  | ⟨0, _⟩ =>
    show win3_5.index t (0 : Fin 2) * 10000 ≤ (i 0).val ∧ (i 0).val < win3_5.index t (0 : Fin 2) * 10000 + 10000
    rw [e50]; show (i 0).val / 10000 * 10000 ≤ (i 0).val ∧ (i 0).val < (i 0).val / 10000 * 10000 + 10000; omega
  | ⟨1, _⟩ =>
    show win3_5.index t (1 : Fin 2) * 64 ≤ (i 1).val ∧ (i 1).val < win3_5.index t (1 : Fin 2) * 64 + 64
    rw [e51]; omega

/-- THE REGION'S OUTPUT ARRAY after its five points: the host's spelling of the region's input arrays. -/
theorem region3 (hY : V c main_v55 = Y) (hmu : V c main_v60 = row3 mu) (hvar : V c main_v61 = row3 var)
    (hg : V c main_v62 = row3 g) (hbeta : V c main_v63 = row3 beta) :
    (dat3 (F := Ideal) V c).arrAt 5 cfg3.N = ref3 Y mu var g beta :=
  (dat3 (F := Ideal) V c).arrAt_eq_of_cover 5 (ref3 Y mu var g beta)
    (fun t _ => flushed3 V c Y mu var g beta hY hmu hvar hg hbeta t) (fun i => cover3 i)

end Region

end Cert.KernelIdeal.NormStage

end
-- ==== Proof.StepB2.lean ====
/-
  The normalisation region of layer 2 against the reference: from equal pre-activations, column statistics, scales and shifts, the
  kernel's region (which reads the four vectors as rows its host program reshaped) leaves in its output array what the reference's
  pointwise chain leaves in its result: the batch-normalised, leaky-rectified activations.
-/
import proofs.«126871_j30021821399140_1_alg».proof.Proof.Gen.KernelIdeal.Frame
import proofs.«126871_j30021821399140_1_alg».proof.Proof.Gen.ReferenceIdeal
import proofs.«126871_j30021821399140_1_alg».proof.Proof.RefOps
import proofs.«126871_j30021821399140_1_alg».proof.Proof.RefRead
import proofs.«126871_j30021821399140_1_alg».proof.Proof.StageS2
import proofs.«126871_j30021821399140_1_alg».proof.Proof.NormStage3
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)

/-- Layer 2: the reference's normalise-and-rectify piece and the kernel's region 3 agree. -/
theorem stepB2 (c : Dev Cert.KernelIdeal.nD) (Vr : RV)
    (hY : Vr (Proc.devRef .tc Cert.ReferenceIdeal.main_v74) = Cert.KernelIdeal.Gen.W15 m ρ c (Proc.devRef .tc Cert.KernelIdeal.main_v55))
    (hmu : Vr (Proc.devRef .tc Cert.ReferenceIdeal.main_v77) = Cert.KernelIdeal.Gen.W15 m ρ c (Proc.devRef .tc Cert.KernelIdeal.main_v58))
    (hvar : Vr (Proc.devRef .tc Cert.ReferenceIdeal.main_v78) = Cert.KernelIdeal.Gen.W15 m ρ c (Proc.devRef .tc Cert.KernelIdeal.main_v59))
    (hg : Vr (Proc.devRef .tc Cert.ReferenceIdeal.main_arg10) = Cert.KernelIdeal.Gen.W12 m ρ c (Proc.devRef .tc Cert.KernelIdeal.main_arg10))
    (hbeta : Vr (Proc.devRef .tc Cert.ReferenceIdeal.main_arg11) = Cert.KernelIdeal.Gen.W12 m ρ c (Proc.devRef .tc Cert.KernelIdeal.main_arg11)) :
    after (Cert.ReferenceIdeal.RefRun.cB2 (F := Ideal)) Vr (Proc.devRef .tc Cert.ReferenceIdeal.main_v98) = Cert.KernelIdeal.Gen.W16 m ρ c (Proc.devRef .tc Cert.KernelIdeal.main_v64) := by
  show after (Cert.ReferenceIdeal.RefRun.cB2 (F := Ideal)) Vr (Proc.devRef .tc Cert.ReferenceIdeal.main_call5.v0.ref) = _
  rw [Cert.ReferenceIdeal.RefRun.read_cB2, hY, hmu, hvar, hg, hbeta]
  exact ((Cert.KernelIdeal.Gen.W16_arr m ρ c 5).trans ((Cert.KernelIdeal.NormStage.region3 (Cert.KernelIdeal.Gen.V15 m ρ) c _ _ _ _ _ rfl
    (rowS2_v60 (Cert.KernelIdeal.Gen.W12 m ρ c)) (rowS2_v61 (Cert.KernelIdeal.Gen.W12 m ρ c))
    (rowS2_v62 (Cert.KernelIdeal.Gen.W12 m ρ c)) (rowS2_v63 (Cert.KernelIdeal.Gen.W12 m ρ c))).trans rfl)).symm

end Cert.Bridge

end
-- ==== Proof.NormStage5.lean ====
/-
  The batch-normalisation and leaky-rectifier region of width 32 (region 5 of the kernel's @main), whole array. The
  region's grid has 5 points; point t takes rows 10000 t … 10000 t + 9999 of the [50000, 32] input and the whole of four
  one-row matrices (column means, column variances, scales, shifts), and writes the same rows of the output: every entry
  is normalised with its column's mean and variance, scaled, shifted, and passed through the leaky rectifier. The five
  blocks tile the output, so after the region the output array holds, entry by entry, what the host's whole-array
  spelling of the same arithmetic gives: that spelling broadcasts each vector to a one-row matrix and then down all
  50000 rows, where the kernel repeats a one-row matrix down a block's 10000 rows; read at an entry the two are the same
  expression in the same order, so no property of the numbers is used.
-/
import proofs.«126871_j30021821399140_1_alg».proof.Proof.Gen.KernelIdeal.Frame
import proofs.«126871_j30021821399140_1_alg».proof.Proof.Gen.ReferenceIdeal
import proofs.«126871_j30021821399140_1_alg».proof.Proof.LibNormIdx
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.NormStage

open Idealize.ShloMosaic Idealize.ShloMosaic.TcCoe Idealize.SL.Sem Idealize.ShloMosaic.ValueIdx
open Idealize.ShloMosaic.Pipeline (Dat)
open Cert.KernelIdeal Cert.KernelIdeal.Gen
open Cert.LibNormIdx

/-! ## The two whole-array spellings -/

/-- A vector of 32 entries as the one-row matrix a row-major reshape to [1, 32] leaves. -/
abbrev row5 (x : FVec Ideal S32 .f32) : FVec Ideal S1x32 .f32 :=
  shapeCast S1x32 x Facts₀.shapeCasts_S32_S1x32

/-- The host's spelling on the whole [50000, 32] matrix `Y` with column means `mu`, column variances `var`, scales
    `g` and shifts `beta`: each vector broadcast to a one-row matrix and then down all rows; the normalised, scaled
    and shifted matrix; the rectifier as a selection between it and its multiple. -/
def ref5 (Y : FVec Ideal Cert.ReferenceIdeal.S50000x32 .f32) (mu var g beta : FVec Ideal Cert.ReferenceIdeal.S32 .f32) :
    FVec Ideal Cert.ReferenceIdeal.S50000x32 .f32 :=
  have xn : FVec Ideal Cert.ReferenceIdeal.S50000x32 .f32 :=
    addf (mulf (mulf
      (subf Y (broadcastInDim Cert.ReferenceIdeal.S50000x32 ![0, 1] Cert.ReferenceIdeal.Facts₀.bcast_S1x32_S50000x32_0_1
        (broadcastInDim Cert.ReferenceIdeal.S1x32 ![1] Cert.ReferenceIdeal.Facts₀.bcast_S32_S1x32_1 mu)))
      (broadcastInDim Cert.ReferenceIdeal.S50000x32 ![0, 1] Cert.ReferenceIdeal.Facts₀.bcast_S1x32_S50000x32_0_1
        (broadcastInDim Cert.ReferenceIdeal.S1x32 ![1] Cert.ReferenceIdeal.Facts₀.bcast_S32_S1x32_1
          (Host.rsqrt (F := Ideal) (addf var (broadcastInDim Cert.ReferenceIdeal.S32 ![] Cert.ReferenceIdeal.Facts₀.bcast_S_S32
            (constant (F := Ideal) Cert.ReferenceIdeal.S_ .f32 0x3727C5AC#32)))))))
      (broadcastInDim Cert.ReferenceIdeal.S50000x32 ![0, 1] Cert.ReferenceIdeal.Facts₀.bcast_S1x32_S50000x32_0_1
        (broadcastInDim Cert.ReferenceIdeal.S1x32 ![1] Cert.ReferenceIdeal.Facts₀.bcast_S32_S1x32_1 g)))
      (broadcastInDim Cert.ReferenceIdeal.S50000x32 ![0, 1] Cert.ReferenceIdeal.Facts₀.bcast_S1x32_S50000x32_0_1
        (broadcastInDim Cert.ReferenceIdeal.S1x32 ![1] Cert.ReferenceIdeal.Facts₀.bcast_S32_S1x32_1 beta))
  select
    (cmpf .ogt xn (broadcastInDim Cert.ReferenceIdeal.S50000x32 ![] Cert.ReferenceIdeal.Facts₀.bcast_S_S50000x32
      (constant (F := Ideal) Cert.ReferenceIdeal.S_ .f32 0x00000000#32)))
    xn
    (mulf (broadcastInDim Cert.ReferenceIdeal.S50000x32 ![] Cert.ReferenceIdeal.Facts₀.bcast_S_S50000x32
      (constant (F := Ideal) Cert.ReferenceIdeal.S_ .f32 0x3E4CCCCD#32)) xn)

/-- The host's spelling at row `r`, column `q`: one entry. -/
theorem ref5_apply (Y : FVec Ideal Cert.ReferenceIdeal.S50000x32 .f32) (mu var g beta : FVec Ideal Cert.ReferenceIdeal.S32 .f32)
    (r : Fin 50000) (q : Fin 32) :
    ref5 Y mu var g beta (ix2 r q)
      = entry 0x3727C5AC#32 0x00000000#32 0x3E4CCCCD#32 (Y (ix2 r q)) (mu (ix1 q)) (var (ix1 q)) (g (ix1 q))
          (beta (ix1 q)) :=
  hostSide_apply (n := 50000) (d := 32) Cert.ReferenceIdeal.Facts₀.bcast_S32_S1x32_1 Cert.ReferenceIdeal.Facts₀.bcast_S1x32_S50000x32_0_1
    Cert.ReferenceIdeal.Facts₀.bcast_S_S32 Cert.ReferenceIdeal.Facts₀.bcast_S_S50000x32 0x3727C5AC#32 0x00000000#32 0x3E4CCCCD#32
    Y mu var g beta r q

/-- The kernel body's value at row `p`, column `q` of a block, from the block of the input and the four one-row
    matrices: one entry. -/
theorem pay5_apply (v0 : Vec Ideal S10000x32 .f32) (v2 v4 v6 v8 : Vec Ideal S1x32 .f32) (p : Fin 10000) (q : Fin 32) :
    k5_pay1 (F := Ideal) v0 v2 v4 v6 v8 (ix2 p q)
      = entry 0x3727C5AC#32 0x00000000#32 0x3E4CCCCD#32 (v0 (ix2 p q)) (v2 (ix2 (0 : Fin 1) q)) (v4 (ix2 (0 : Fin 1) q))
          (v6 (ix2 (0 : Fin 1) q)) (v8 (ix2 (0 : Fin 1) q)) :=
  kernelSide_apply (a := 10000) (b := 32) Facts₀.shapeCasts_S10000x32_S10000x32 Facts₀.shapeCasts_S1x32_S1x32
    Facts₀.broadcasts_S1x32_S10000x32 0x3727C5AC#32 0x00000000#32 0x3E4CCCCD#32 v0 v2 v4 v6 v8 p q

/-! ## Blocks and rows -/

theorem hz5 : (![0, 0] : Fin 2 → Nat) = fun _ => 0 := funext fun a => by fin_cases a <;> rfl

/-- The printed index maps, decided over the grid's five points: the input's and the output's block of rows is the
    point's number, every one-row matrix is taken whole at every point. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

section Region
variable (V : (c : Dev nD) → (b : Ref sig .tc) → Buf (Elt Ideal) ((c : Thread nD τ).loc b)) (c : Dev nD)
  (Y : FVec Ideal S50000x32 .f32) (mu var g beta : FVec Ideal S32 .f32)

/-- What point `t` writes back is block `t` of the host's spelling of the region's input arrays. -/
theorem flushed5 (hY : V c main_v80 = Y) (hmu : V c main_v85 = row5 mu) (hvar : V c main_v86 = row5 var)
    (hg : V c main_v87 = row5 g) (hbeta : V c main_v88 = row5 beta) (t : Fin cfg5.N) :
    (dat5 (F := Ideal) V c).flushed 5 t
      = ((cfg5.win 5).blk t).view.read (Elt Ideal) (ref5 Y mu var g beta) := by
  show (cfg5.win 5).cut (grid5.coords t) ((dat5 (F := Ideal) V c).after 5 t) = _
  rw [after5_5]
  unfold out5_5
  rw [View.canon_unit_zero hz5]
  simp only [View.ld_unit_zero (S := S10000x32) hz5, View.ld_unit_zero (S := S1x32) hz5]
  obtain ⟨e00, e01, e10, e11, e20, e21, e30, e31, e40, e41, e50, e51⟩ := idx5 t
  have hN : t.val < 5 := lt_of_lt_of_eq t.isLt N_5
  funext j
  obtain ⟨p, q, rfl⟩ : ∃ (p : Fin 10000) (q : Fin 32), j = ix2 p q := ⟨j 0, j 1, eq_ix2 j⟩
  have hp : p.val < 10000 := p.isLt
  show k5_pay1 (F := Ideal) (iblk5 V c 0 t) (iblk5 V c 1 t) (iblk5 V c 2 t) (iblk5 V c 3 t) (iblk5 V c 4 t) (ix2 p q)
    = ref5 Y mu var g beta (((cfg5.win 5).blk t).view.emb (ix2 p q))
  refine (pay5_apply (iblk5 V c 0 t) (iblk5 V c 1 t) (iblk5 V c 2 t) (iblk5 V c 3 t) (iblk5 V c 4 t) p q).trans ?_
  have hr : ((cfg5.win 5).blk t).view.emb (ix2 p q) = ix2 (⟨t.val * 10000 + p.val, by omega⟩ : Fin 50000) q := by
    funext a; apply Fin.ext
    match a with
    | ⟨0, _⟩ => show win5_5.index t (0 : Fin 2) * 10000 + 1 * p.val = t.val * 10000 + p.val; rw [e50]; omega
    | ⟨1, _⟩ => show win5_5.index t (1 : Fin 2) * 32 + 1 * q.val = q.val; rw [e51]; omega
  have h0 : ((cfg5.win 0).blk t).view.emb (ix2 p q) = ix2 (⟨t.val * 10000 + p.val, by omega⟩ : Fin 50000) q := by
    funext a; apply Fin.ext
    match a with
    | ⟨0, _⟩ => show win5_0.index t (0 : Fin 2) * 10000 + 1 * p.val = t.val * 10000 + p.val; rw [e00]; omega
    | ⟨1, _⟩ => show win5_0.index t (1 : Fin 2) * 32 + 1 * q.val = q.val; rw [e01]; omega
  have h1 : ((cfg5.win 1).blk t).view.emb (ix2 (0 : Fin 1) q) = ix2 (0 : Fin 1) q := by
    funext a; apply Fin.ext
    match a with
    | ⟨0, _⟩ => show win5_1.index t (0 : Fin 2) * 1 + 1 * 0 = 0; rw [e10]
    | ⟨1, _⟩ => show win5_1.index t (1 : Fin 2) * 32 + 1 * q.val = q.val; rw [e11]; omega
  have h2 : ((cfg5.win 2).blk t).view.emb (ix2 (0 : Fin 1) q) = ix2 (0 : Fin 1) q := by
    funext a; apply Fin.ext
    match a with
    | ⟨0, _⟩ => show win5_2.index t (0 : Fin 2) * 1 + 1 * 0 = 0; rw [e20]
    | ⟨1, _⟩ => show win5_2.index t (1 : Fin 2) * 32 + 1 * q.val = q.val; rw [e21]; omega
  have h3 : ((cfg5.win 3).blk t).view.emb (ix2 (0 : Fin 1) q) = ix2 (0 : Fin 1) q := by
    funext a; apply Fin.ext
    match a with
    | ⟨0, _⟩ => show win5_3.index t (0 : Fin 2) * 1 + 1 * 0 = 0; rw [e30]
    | ⟨1, _⟩ => show win5_3.index t (1 : Fin 2) * 32 + 1 * q.val = q.val; rw [e31]; omega
  have h4 : ((cfg5.win 4).blk t).view.emb (ix2 (0 : Fin 1) q) = ix2 (0 : Fin 1) q := by
    funext a; apply Fin.ext
    match a with
    | ⟨0, _⟩ => show win5_4.index t (0 : Fin 2) * 1 + 1 * 0 = 0; rw [e40]
    | ⟨1, _⟩ => show win5_4.index t (1 : Fin 2) * 32 + 1 * q.val = q.val; rw [e41]; omega
  rw [hr, ref5_apply]
  show entry 0x3727C5AC#32 0x00000000#32 0x3E4CCCCD#32
      (V c main_v80 (((cfg5.win 0).blk t).view.emb (ix2 p q)))
      (V c main_v85 (((cfg5.win 1).blk t).view.emb (ix2 (0 : Fin 1) q)))
      (V c main_v86 (((cfg5.win 2).blk t).view.emb (ix2 (0 : Fin 1) q)))
      (V c main_v87 (((cfg5.win 3).blk t).view.emb (ix2 (0 : Fin 1) q)))
      (V c main_v88 (((cfg5.win 4).blk t).view.emb (ix2 (0 : Fin 1) q))) = _
  rw [h0, h1, h2, h3, h4, hY, hmu, hvar, hg, hbeta]
  show entry _ _ _ _ (shapeCast S1x32 mu Facts₀.shapeCasts_S32_S1x32 (ix2 (0 : Fin 1) q))
      (shapeCast S1x32 var Facts₀.shapeCasts_S32_S1x32 (ix2 (0 : Fin 1) q))
      (shapeCast S1x32 g Facts₀.shapeCasts_S32_S1x32 (ix2 (0 : Fin 1) q))
      (shapeCast S1x32 beta Facts₀.shapeCasts_S32_S1x32 (ix2 (0 : Fin 1) q)) = _
  rw [shapeCast_a_1a_apply mu, shapeCast_a_1a_apply var, shapeCast_a_1a_apply g, shapeCast_a_1a_apply beta]

/-- Every row of the output lies in some point's block: row `r` in block `r / 10000`. -/
theorem cover5 (i : S50000x32.Idx) :
    ∃ t : Fin cfg5.N, (cfg5.win 5).flush t = true ∧ i ∈ ((cfg5.win 5).blk t).view.set := by
  have hi0 : (i 0).val < 50000 := (i 0).isLt
  have hi1 : (i 1).val < 32 := (i 1).isLt
  have hN : cfg5.N = 5 := N_5
  let t : Fin cfg5.N := ⟨(i 0).val / 10000, by rw [hN]; omega⟩
  obtain ⟨-, -, -, -, -, -, -, -, -, -, e50, e51⟩ := idx5 t
  refine ⟨t, flush5_5 t, ?_⟩
  show i ∈ ((View.whole main_v89).slice (win5_5.rect t)).set
  rw [View.set_slice_whole, Rect.mem_set_unit]
  intro a
  match a with
  | ⟨0, _⟩ =>
    show win5_5.index t (0 : Fin 2) * 10000 ≤ (i 0).val ∧ (i 0).val < win5_5.index t (0 : Fin 2) * 10000 + 10000
    rw [e50]; show (i 0).val / 10000 * 10000 ≤ (i 0).val ∧ (i 0).val < (i 0).val / 10000 * 10000 + 10000; omega
  | ⟨1, _⟩ =>
    show win5_5.index t (1 : Fin 2) * 32 ≤ (i 1).val ∧ (i 1).val < win5_5.index t (1 : Fin 2) * 32 + 32
    rw [e51]; omega

/-- THE REGION'S OUTPUT ARRAY after its five points: the host's spelling of the region's input arrays. -/
theorem region5 (hY : V c main_v80 = Y) (hmu : V c main_v85 = row5 mu) (hvar : V c main_v86 = row5 var)
    (hg : V c main_v87 = row5 g) (hbeta : V c main_v88 = row5 beta) :
    (dat5 (F := Ideal) V c).arrAt 5 cfg5.N = ref5 Y mu var g beta :=
  (dat5 (F := Ideal) V c).arrAt_eq_of_cover 5 (ref5 Y mu var g beta)
    (fun t _ => flushed5 V c Y mu var g beta hY hmu hvar hg hbeta t) (fun i => cover5 i)

end Region

end Cert.KernelIdeal.NormStage

end
-- ==== Proof.StepB3.lean ====
/-
  The normalisation region of layer 3 against the reference: from equal pre-activations, column statistics, scales and shifts, the
  kernel's region (which reads the four vectors as rows its host program reshaped) leaves in its output array what the reference's
  pointwise chain leaves in its result: the batch-normalised, leaky-rectified activations.
-/
import proofs.«126871_j30021821399140_1_alg».proof.Proof.Gen.KernelIdeal.Frame
import proofs.«126871_j30021821399140_1_alg».proof.Proof.Gen.ReferenceIdeal
import proofs.«126871_j30021821399140_1_alg».proof.Proof.RefOps
import proofs.«126871_j30021821399140_1_alg».proof.Proof.RefRead
import proofs.«126871_j30021821399140_1_alg».proof.Proof.StageS3
import proofs.«126871_j30021821399140_1_alg».proof.Proof.NormStage5
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)

/-- Layer 3: the reference's normalise-and-rectify piece and the kernel's region 5 agree. -/
theorem stepB3 (c : Dev Cert.KernelIdeal.nD) (Vr : RV)
    (hY : Vr (Proc.devRef .tc Cert.ReferenceIdeal.main_v116) = Cert.KernelIdeal.Gen.W21 m ρ c (Proc.devRef .tc Cert.KernelIdeal.main_v80))
    (hmu : Vr (Proc.devRef .tc Cert.ReferenceIdeal.main_v119) = Cert.KernelIdeal.Gen.W21 m ρ c (Proc.devRef .tc Cert.KernelIdeal.main_v83))
    (hvar : Vr (Proc.devRef .tc Cert.ReferenceIdeal.main_v120) = Cert.KernelIdeal.Gen.W21 m ρ c (Proc.devRef .tc Cert.KernelIdeal.main_v84))
    (hg : Vr (Proc.devRef .tc Cert.ReferenceIdeal.main_arg14) = Cert.KernelIdeal.Gen.W18 m ρ c (Proc.devRef .tc Cert.KernelIdeal.main_arg14))
    (hbeta : Vr (Proc.devRef .tc Cert.ReferenceIdeal.main_arg15) = Cert.KernelIdeal.Gen.W18 m ρ c (Proc.devRef .tc Cert.KernelIdeal.main_arg15)) :
    after (Cert.ReferenceIdeal.RefRun.cB3 (F := Ideal)) Vr (Proc.devRef .tc Cert.ReferenceIdeal.main_v140) = Cert.KernelIdeal.Gen.W22 m ρ c (Proc.devRef .tc Cert.KernelIdeal.main_v89) := by
  show after (Cert.ReferenceIdeal.RefRun.cB3 (F := Ideal)) Vr (Proc.devRef .tc Cert.ReferenceIdeal.main_call7.v0.ref) = _
  rw [Cert.ReferenceIdeal.RefRun.read_cB3, hY, hmu, hvar, hg, hbeta]
  exact ((Cert.KernelIdeal.Gen.W22_arr m ρ c 5).trans ((Cert.KernelIdeal.NormStage.region5 (Cert.KernelIdeal.Gen.V21 m ρ) c _ _ _ _ _ rfl
    (rowS3_v85 (Cert.KernelIdeal.Gen.W18 m ρ c)) (rowS3_v86 (Cert.KernelIdeal.Gen.W18 m ρ c))
    (rowS3_v87 (Cert.KernelIdeal.Gen.W18 m ρ c)) (rowS3_v88 (Cert.KernelIdeal.Gen.W18 m ρ c))).trans rfl)).symm

end Cert.Bridge

end
-- ==== Proof.LibKernelIdx.lean ====
/-
  Operations of a kernel body read at an index given by coordinates: the two keepdims column layout forms
  (a vector made a column, [a] → [a, 1], and a column repeated along the lanes, [a, 1] → [a, b]), a lane sum of a
  matrix read at a row, and a matrix product accumulated into the zero splat read at an entry. General in the
  extents; the arithmetic ones at the ideal values, where a float is an extended real.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKernelIdx

open Idealize.ShloMosaic Idealize.ShloMosaic.ValueIdx

variable {α : Type}

/-! ## The keepdims column forms -/

/-- An `[a]` array cast to the column `[a, 1]` reads, at `(i, u)`, the operand at `i`, whatever the unit
    coordinate `u`: both row-major positions are `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p` (its unit coordinate
    written `u`, whatever it is). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-! ## A lane sum at a row -/

/-- The sum of an `[a, b]` matrix along its second axis, read at row `p`, is the sum of that row's entries. The
    accumulator's side condition is typed as a program spells it, an equation between two zero words. -/
theorem laneSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ v 0x00000000#32 h hφ hacc (ix1 p) = ∑ k : Fin b, v (ix2 p k) := by
  refine (Ideal.multiReduction_add_single v 0x00000000#32 h hφ hacc (ix1 p)).trans ?_
  refine Finset.sum_congr rfl fun k _ => congrArg v (funext fun ax => Fin.ext ?_)
  match ax with
  | ⟨0, _⟩ => rfl
  | ⟨1, _⟩ => rfl

/-! ## A matrix product at an entry -/

/-- The product of an `[m, k]` by a `[k, n]` matrix (the left operand's second axis contracted with the right
    operand's first, no batch axes) accumulated into the zero splat, read at `(p, j)`: the sum over the contracted
    coordinate of the products of the entries. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (p : Fin m) (j : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 p j)
      = ∑ c : Fin k, A (ix2 p c) * B (ix2 c j) := by
  show FloatOps.matmul _ prec A B _ (ix2 p j) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 p j)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 p j)
      ((contrEquiv1 _ k rfl rfl).symm c) = ix2 c j := by
    funext ax; apply Fin.ext
    match ax with
    | ⟨0, _⟩ => simp [DotDims.rhsIdx]; exact c2
    | ⟨1, _⟩ => simp [DotDims.rhsIdx]; rfl
  rw [l2, r2]

end Cert.LibKernelIdx

end
-- ==== Proof.LibHostDot.lean ====
/-
  The host's `dot_general` of an `[m, k]` by a `[k, n]` matrix (the left operand's second axis contracted with the
  right operand's first, no batch axes), at the ideal values, read at an entry: the sum over the contracted
  coordinate of the products of the entries. General in the extents.
-/
import Idealize.ShloMosaic.Lib.Pipeline.Value
import Idealize.ShloMosaic.Lib.ValueIdx
import Idealize.ShloMosaic.PureOps.Ideal.Laws

noncomputable section

open scoped BigOperators

namespace Cert.LibHostDot

open Idealize.ShloMosaic Idealize.ShloMosaic.ValueIdx

theorem dotGeneral_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (p : Fin m) (j : Fin n) :
    Host.dotGeneral (⟨[1], [0], [0], [1], [], [], w⟩ : DotDims ⟨2, ![m, k]⟩ ⟨2, ![k, n]⟩ ⟨2, ![m, n]⟩) prec A B (ix2 p j)
      = ∑ c : Fin k, A (ix2 p c) * B (ix2 c j) := by
  simp only [Host.dotGeneral]
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 p j)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 p j)
      ((contrEquiv1 _ k rfl rfl).symm c) = ix2 c j := by
    funext ax; apply Fin.ext
    match ax with
    | ⟨0, _⟩ => simp [DotDims.rhsIdx]; exact c2
    | ⟨1, _⟩ => simp [DotDims.rhsIdx]; rfl
  rw [l2, r2]

end Cert.LibHostDot

end
-- ==== Proof.LibAffineIdx.lean ====
/-
  An affine layer read at an entry, on both sides, at the ideal values (a float is an extended real). The host form:
  a `dot_general` of an `[M, k]` by a `[k, n]` matrix plus a bias vector `[n]` broadcast first to a row `[1, n]` and
  then down the rows. The kernel form: the product of a block `[m, k]` by the same `[k, n]` matrix accumulated into the
  zero splat, the operands passed through a change of float format (the identity on extended reals), plus a bias row
  `[1, n]` broadcast down the rows. Both read, at `(p, q)`, `(∑ c, A (p, c) * B (c, q)) + bias q`. General in the extents.
-/
import Idealize.ShloMosaic.Lib.Pipeline.Value
import Idealize.ShloMosaic.Lib.ValueIdx
import Idealize.ShloMosaic.Lib.ValueLayout
import Idealize.ShloMosaic.PureOps.Ideal.Laws
import proofs.«126871_j30021821399140_1_alg».proof.Proof.LibKernelIdx
import proofs.«126871_j30021821399140_1_alg».proof.Proof.LibHostDot

noncomputable section

open scoped BigOperators

namespace Cert.LibAffineIdx

open Idealize.ShloMosaic Idealize.ShloMosaic.ValueIdx

/-! ## The bias, broadcast, read at an entry -/

/-- A vector `[n]` broadcast to the row `[1, n]` (its axis sent to the second one) reads, at `(u, q)`, the vector at
    `q`, whatever the unit coordinate `u`. -/
theorem rowOfVec_apply {α : Type} {n : ℕ} (h : (⟨1, ![n]⟩ : Shape).BroadcastsInDim ⟨2, ![1, n]⟩ (![1] : Fin 1 → Fin 2))
    (b : (⟨1, ![n]⟩ : Shape).Idx → α) (u : Fin 1) (q : Fin n) :
    broadcastInDim ⟨2, ![1, n]⟩ ![1] h b (ix2 u q) = b (ix1 q) := by
  refine broadcastInDim_apply ![1] h b (ix2 u q) (ix1 q) fun a => ?_
  match a with
  | ⟨0, _⟩ =>
    show q.val = if n = 1 then 0 else q.val
    split
    · have := q.isLt; omega
    · rfl

/-- A row `[1, n]` broadcast down `M` rows by `broadcast_in_dim` (axes kept in place) reads, at `(p, q)`, the row at
    `(u, q)`, whatever the unit coordinate `u`. -/
theorem rowsOfRow_apply {α : Type} {M n : ℕ}
    (h : (⟨2, ![1, n]⟩ : Shape).BroadcastsInDim ⟨2, ![M, n]⟩ (![0, 1] : Fin 2 → Fin 2))
    (r : (⟨2, ![1, n]⟩ : Shape).Idx → α) (p : Fin M) (q : Fin n) (u : Fin 1) :
    broadcastInDim ⟨2, ![M, n]⟩ ![0, 1] h r (ix2 p q) = r (ix2 u q) := by
  refine broadcastInDim_apply ![0, 1] h r (ix2 p q) (ix2 u q) fun a => ?_
  match a with
  | ⟨0, _⟩ =>
    show u.val = if (1 : ℕ) = 1 then 0 else p.val
    rw [if_pos rfl]; omega
  | ⟨1, _⟩ =>
    show q.val = if n = 1 then 0 else q.val
    split
    · have := q.isLt; omega
    · rfl

/-- A row `[1, n]` broadcast down `m` rows by a vector broadcast reads, at `(p, q)`, the row at `(u, q)`, whatever the
    unit coordinate `u`. -/
theorem broadcastTo_1n_mn_apply {α : Type} {m n : ℕ} (r : (⟨2, ![1, n]⟩ : Shape).Idx → α)
    (h : (⟨2, ![1, n]⟩ : Shape).Broadcasts ⟨2, ![m, n]⟩) (p : Fin m) (q : Fin n) (u : Fin 1) :
    broadcastTo ⟨2, ![m, n]⟩ r h (ix2 p q) = r (ix2 u q) := by
  refine broadcastTo_apply r h (ix2 p q) (ix2 u q) fun a => ?_
  match a with
  | ⟨0, _⟩ =>
    show u.val = if (1 : ℕ) = 1 then 0 else p.val
    rw [if_pos rfl]; omega
  | ⟨1, _⟩ =>
    show q.val = if n = 1 then 0 else q.val
    split
    · have := q.isLt; omega
    · rfl

/-- A vector `[n]` cast to the row `[1, n]` reads, at `(u, q)`, the vector at `q`: both row-major positions are `q`. -/
theorem shapeCast_n_1n_apply {α : Type} {n : ℕ} (b : (⟨1, ![n]⟩ : Shape).Idx → α)
    (h : (⟨1, ![n]⟩ : Shape).ShapeCasts ⟨2, ![1, n]⟩) (u : Fin 1) (q : Fin n) :
    shapeCast ⟨2, ![1, n]⟩ b h (ix2 u q) = b (ix1 q) :=
  shapeCast_apply b h _ _ (by
    have hu : u.val = 0 := by omega
    rw [Shape.rowMajor_val_two, Shape.rowMajor_val_one]
    show q.val = u.val * n + q.val
    rw [hu, Nat.zero_mul, Nat.zero_add])

/-! ## The two forms of the layer at an entry -/

/-- The host form at `(p, q)`: the row of `A` against the column of `B`, plus the bias at `q`. -/
theorem hostAffine_apply {M k n : ℕ}
    (w : DotDims.WF ⟨2, ![M, k]⟩ ⟨2, ![k, n]⟩ ⟨2, ![M, n]⟩ [1] [0] [0] [1] [] [])
    (h1 : (⟨1, ![n]⟩ : Shape).BroadcastsInDim ⟨2, ![1, n]⟩ (![1] : Fin 1 → Fin 2))
    (h2 : (⟨2, ![1, n]⟩ : Shape).BroadcastsInDim ⟨2, ![M, n]⟩ (![0, 1] : Fin 2 → Fin 2))
    (A : FVec Ideal ⟨2, ![M, k]⟩ .f32) (B : FVec Ideal ⟨2, ![k, n]⟩ .f32) (b : FVec Ideal ⟨1, ![n]⟩ .f32)
    (p : Fin M) (q : Fin n) :
    addf (Host.dotGeneral (F := Ideal) (⟨[1], [0], [0], [1], [], [], w⟩ : DotDims ⟨2, ![M, k]⟩ ⟨2, ![k, n]⟩ ⟨2, ![M, n]⟩) none A B)
        (broadcastInDim ⟨2, ![M, n]⟩ ![0, 1] h2 (broadcastInDim ⟨2, ![1, n]⟩ ![1] h1 b)) (ix2 p q)
      = (∑ c : Fin k, A (ix2 p c) * B (ix2 c q)) + b (ix1 q) := by
  refine (addf_apply _ _ _).trans ?_
  rw [Cert.LibHostDot.dotGeneral_apply w none A B p q, rowsOfRow_apply h2 _ p q 0, rowOfVec_apply h1 b 0 q]

/-- The kernel form at `(p, q)` of a block: the row of the block against the column of `W`, plus the bias row at `q`. -/
theorem kernelAffine_apply {m k n : ℕ}
    (w : DotDims.WF ⟨2, ![m, k]⟩ ⟨2, ![k, n]⟩ ⟨2, ![m, n]⟩ [1] [0] [0] [1] [] [])
    (hx : (⟨2, ![m, k]⟩ : Shape).ShapeCasts ⟨2, ![m, k]⟩) (hr : (⟨2, ![1, n]⟩ : Shape).ShapeCasts ⟨2, ![1, n]⟩)
    (hb : (⟨2, ![1, n]⟩ : Shape).Broadcasts ⟨2, ![m, n]⟩) (hlt : FTy.bits .bf16 < FTy.bits .f32)
    (x : FVec Ideal ⟨2, ![m, k]⟩ .f32) (W : FVec Ideal ⟨2, ![k, n]⟩ .f32) (r : FVec Ideal ⟨2, ![1, n]⟩ .f32)
    (p : Fin m) (q : Fin n) :
    addf (matmul (⟨[1], [0], [0], [1], [], [], w⟩ : DotDims ⟨2, ![m, k]⟩ ⟨2, ![k, n]⟩ ⟨2, ![m, n]⟩) none
          (truncf .bf16 (shapeCast ⟨2, ![m, k]⟩ x hx) hlt) (truncf .bf16 W hlt)
          (constant (F := Ideal) ⟨2, ![m, n]⟩ .f32 0x00000000#32))
        (broadcastTo ⟨2, ![m, n]⟩ (shapeCast ⟨2, ![1, n]⟩ r hr) hb) (ix2 p q)
      = (∑ c : Fin k, x (ix2 p c) * W (ix2 c q)) + r (ix2 0 q) := by
  rw [shapeCast_self x hx, shapeCast_self r hr]
  refine (addf_apply _ _ _).trans ?_
  rw [Cert.LibKernelIdx.matmul_zero_apply w none (truncf .bf16 x hlt) (truncf .bf16 W hlt) p q,
    broadcastTo_1n_mn_apply r hb p q 0]
  rfl

/-! ## Rows in blocks -/

/-- The offsets `(0, 0)` of a rectangle of a rank-2 array, spelt as the constant zero function. -/
theorem zero_offsets2 : (![0, 0] : Fin 2 → Nat) = fun _ => 0 := funext fun a => by fin_cases a <;> rfl

/-- Row `r` of an array of `N * B` rows lies in the block of `B` rows numbered `r / B`. -/
theorem row_in_block {B r : ℕ} (hB : 0 < B) : r / B * B ≤ r ∧ r < r / B * B + B := by
  have h1 := Nat.div_add_mod r B
  have h2 := Nat.mod_lt r hB
  rw [Nat.mul_comm] at h1
  omega

end Cert.LibAffineIdx

end
-- ==== Proof.AffineStage0.lean ====
/-
  Layer 1's affine map, kernel region 0 against the reference's statements %29 … %32. The region runs over 5 grid
  points; at point `t` it reads rows `10000 t … 10000 t + 9999` of the `[50000, 128]` activations, the whole `[128, 128]` weight matrix and
  the whole `[1, 128]` bias row, and writes rows `10000 t … 10000 t + 9999` of the `[50000, 128]` result: the block times the weights,
  accumulated from zero, plus the bias row repeated down the rows. The reference is the `dot_general` of the whole
  activations by the weights plus the bias vector broadcast to a row and then down the rows. At the ideal values both
  are, at `(r, q)`, `(∑ j, x (r, j) * w (j, q)) + b q`; row `r` is written by the point `r / 10000`, and the 5 blocks
  cover the array, so the result array after the region is the reference's term.
-/
import proofs.«126871_j30021821399140_1_alg».proof.Proof.Gen.KernelIdeal.Frame
import proofs.«126871_j30021821399140_1_alg».proof.Proof.Gen.ReferenceIdeal
import proofs.«126871_j30021821399140_1_alg».proof.Proof.LibAffineIdx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.AffineStage

open Cert.KernelIdeal Cert.KernelIdeal.Gen

/-- The reference's layer: activations times weights, plus the bias vector as a row repeated down the rows. -/
abbrev layer0 (X : FVec Ideal S50000x128 .f32) (Wt : FVec Ideal S128x128 .f32) (b : FVec Ideal S128 .f32) : FVec Ideal S50000x128 .f32 :=
  addf (Host.dotGeneral (F := Ideal) Cert.ReferenceIdeal.dot_S50000x128_S128x128_S50000x128_1_0_0_1_n_n none X Wt)
      (broadcastInDim Cert.ReferenceIdeal.S50000x128 ![0, 1] Cert.ReferenceIdeal.Facts₀.bcast_S1x128_S50000x128_0_1
        (broadcastInDim Cert.ReferenceIdeal.S1x128 ![1] Cert.ReferenceIdeal.Facts₀.bcast_S128_S1x128_1 b))

/-! ## Both sides at an entry -/

/-- The reference's layer at `(r, q)`: row `r` of the activations against column `q` of the weights, plus `b q`. -/
theorem ref0_apply (X : FVec Ideal S50000x128 .f32) (Wt : FVec Ideal S128x128 .f32) (b : FVec Ideal S128 .f32)
    (r : Fin 50000) (q : Fin 128) :
    layer0 X Wt b (ix2 r q) = (∑ j : Fin 128, X (ix2 r j) * Wt (ix2 j q)) + b (ix1 q) :=
  Cert.LibAffineIdx.hostAffine_apply Cert.ReferenceIdeal.Facts₀.dot_S50000x128_S128x128_S50000x128_1_0_0_1_n_n_wf Cert.ReferenceIdeal.Facts₀.bcast_S128_S1x128_1
    Cert.ReferenceIdeal.Facts₀.bcast_S1x128_S50000x128_0_1 X Wt b r q

/-- The body's stored value at `(p, q)` of a block: row `p` of the block against column `q` of the weights, plus the
    bias row at `q` (the change of float format before the product is the identity on extended reals). -/
theorem pay0_apply (x0 : FVec Ideal S10000x128 .f32) (x1 : FVec Ideal S128x128 .f32) (x2 : FVec Ideal S1x128 .f32)
    (p : Fin 10000) (q : Fin 128) :
    k0_pay1 x0 x1 x2 (ix2 p q) = (∑ j : Fin 128, x0 (ix2 p j) * x1 (ix2 j q)) + x2 (ix2 0 q) := by
  unfold k0_pay1
  exact Cert.LibAffineIdx.kernelAffine_apply dot_S10000x128_S128x128_S10000x128_1_0_0_1_n_n_wf shapeCasts_S10000x128_S10000x128
    shapeCasts_S1x128_S1x128 broadcasts_S1x128_S10000x128 bitsLt_bf16_f32 x0 x1 x2 p q

/-- A block whose row `p` is row `r` of the activations, with the whole weights and the bias as a row: the stored value at
    `(p, q)` is the reference's layer at `(r, q)`. -/
theorem point0 (x0 : FVec Ideal S10000x128 .f32) (x1 : FVec Ideal S128x128 .f32) (x2 : FVec Ideal S1x128 .f32)
    (X : FVec Ideal S50000x128 .f32) (Wt : FVec Ideal S128x128 .f32) (b : FVec Ideal S128 .f32)
    (p : Fin 10000) (q : Fin 128) (r : Fin 50000)
    (h0 : ∀ j : Fin 128, x0 (ix2 p j) = X (ix2 r j)) (h1 : x1 = Wt) (h2 : x2 (ix2 0 q) = b (ix1 q)) :
    k0_pay1 x0 x1 x2 (ix2 p q) = layer0 X Wt b (ix2 r q) := by
  refine (pay0_apply x0 x1 x2 p q).trans (Eq.trans ?_ (ref0_apply X Wt b r q).symm)
  rw [h1, h2]
  exact congrArg (· + b (ix1 q)) (Finset.sum_congr rfl fun j _ => by rw [h0 j])

/-! ## The windows' blocks -/

variable (V : (c : Dev nD) → (b : Ref sig .tc) → Buf (Elt Ideal) ((c : Thread nD τ).loc b))

/-- The block indices, decided over the grid: the activations' and the result's blocks are numbered by the point along the
    rows; the weights' and the bias row's are the one whole block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the activations' block at point `t` is row `10000 t + p` of the activations. -/
theorem blkX0_apply (c : Dev nD) (t : Fin cfg0.N) (p : Fin 10000) (j : Fin 128) (r : Fin 50000)
    (hr : r.val = t.val * 10000 + p.val) :
    (iblk0 (F := Ideal) V c 0 t : Vec Ideal S10000x128 .f32) (ix2 p j) = (V c main_v28 : S50000x128.Idx → Elt Ideal .f32) (ix2 r j) := by
  obtain ⟨e0, e1, -⟩ := idx_facts0 t
  unfold iblk0
  rw [View.read_apply]
  show V c main_v28 _ = V c main_v28 _
  refine congrArg (V c main_v28) (funext fun a => Fin.ext ?_)
  match a with
  | ⟨0, _⟩ => show win0_0.index t (0 : Fin 2) * 10000 + 1 * p.val = r.val; rw [e0, hr]; omega
  | ⟨1, _⟩ => show win0_0.index t (1 : Fin 2) * 128 + 1 * j.val = j.val; rw [e1]; omega

/-- The weights' block at every point is the whole weight matrix. -/
theorem blkW0_eq (c : Dev nD) (t : Fin cfg0.N) :
    (iblk0 (F := Ideal) V c 1 t : Vec Ideal S128x128 .f32) = (V c main_arg4 : S128x128.Idx → Elt Ideal .f32) := by
  obtain ⟨-, -, e2, e3, -⟩ := idx_facts0 t
  funext x
  unfold iblk0
  rw [View.read_apply]
  show V c main_arg4 _ = V c main_arg4 _
  refine congrArg (V c main_arg4) (funext fun a => Fin.ext ?_)
  match a with
  | ⟨0, _⟩ => show win0_1.index t (0 : Fin 2) * 128 + 1 * (x 0).val = (x 0).val; rw [e2]; omega
  | ⟨1, _⟩ => show win0_1.index t (1 : Fin 2) * 128 + 1 * (x 1).val = (x 1).val; rw [e3]; omega

/-- The bias row's block at every point is the whole bias row. -/
theorem blkB0_eq (c : Dev nD) (t : Fin cfg0.N) :
    (iblk0 (F := Ideal) V c 2 t : Vec Ideal S1x128 .f32) = (V c main_v29 : S1x128.Idx → Elt Ideal .f32) := by
  obtain ⟨-, -, -, -, e4, e5, -⟩ := idx_facts0 t
  funext x
  unfold iblk0
  rw [View.read_apply]
  show V c main_v29 _ = V c main_v29 _
  refine congrArg (V c main_v29) (funext fun a => Fin.ext ?_)
  match a with
  | ⟨0, _⟩ => show win0_2.index t (0 : Fin 2) * 1 + 1 * (x 0).val = (x 0).val; rw [e4]; omega
  | ⟨1, _⟩ => show win0_2.index t (1 : Fin 2) * 128 + 1 * (x 1).val = (x 1).val; rw [e5]; omega

/-! ## From blocks to the array -/

/-- What point `t` writes back is rows `10000 t … 10000 t + 9999` of the reference's layer of the arrays the region finds. -/
theorem flushed0 (c : Dev nD)
    (X : FVec Ideal S50000x128 .f32) (Wt : FVec Ideal S128x128 .f32) (b : FVec Ideal S128 .f32)
    (hX : V c main_v28 = X) (hW : V c main_arg4 = Wt) (hb : V c main_v29 = shapeCast S1x128 b Cert.KernelIdeal.Facts₀.shapeCasts_S128_S1x128)
    (t : Fin cfg0.N) :
    (dat0 (F := Ideal) V c).flushed 3 t = ((cfg0.win 3).blk t).view.read (Elt Ideal) (layer0 X Wt b) := by
  show (cfg0.win 3).cut (grid0.coords t) ((dat0 V c).after 3 t) = _
  rw [after0_3]
  unfold out0_3
  rw [View.canon_unit_zero Cert.LibAffineIdx.zero_offsets2]
  simp only [View.ld_unit_zero (S := S10000x128) Cert.LibAffineIdx.zero_offsets2, View.ld_unit_zero (S := S128x128) Cert.LibAffineIdx.zero_offsets2, View.ld_unit_zero (S := S1x128) Cert.LibAffineIdx.zero_offsets2]
  funext j
  obtain ⟨-, -, -, -, -, -, e6, e7⟩ := idx_facts0 t
  have hp : (j 0).val < 10000 := (j 0).isLt
  have hq : (j 1).val < 128 := (j 1).isLt
  have ht : t.val < 5 := by have h := t.isLt; have hN : cfg0.N = 5 := N_0; omega
  have hj : (win0 3).xinj (grid0.coords t) j = ix2 (⟨(j 0).val, hp⟩ : Fin 10000) (⟨(j 1).val, hq⟩ : Fin 128) := by
    funext a
    match a with
    | ⟨0, _⟩ => rfl
    | ⟨1, _⟩ => rfl
  have hi : ((cfg0.win 3).blk t).view.emb j
      = ix2 (⟨t.val * 10000 + (j 0).val, by omega⟩ : Fin 50000) (⟨(j 1).val, hq⟩ : Fin 128) := by
    funext a; apply Fin.ext
    match a with
    | ⟨0, _⟩ => show win0_3.index t (0 : Fin 2) * 10000 + 1 * (j 0).val = t.val * 10000 + (j 0).val; rw [e6]; omega
    | ⟨1, _⟩ => show win0_3.index t (1 : Fin 2) * 128 + 1 * (j 1).val = (j 1).val; rw [e7]; omega
  show k0_pay1 (iblk0 V c 0 t) (iblk0 V c 1 t) (iblk0 V c 2 t) ((win0 3).xinj (grid0.coords t) j)
    = layer0 X Wt b (((cfg0.win 3).blk t).view.emb j)
  rw [hj, hi]
  refine point0 (iblk0 V c 0 t) (iblk0 V c 1 t) (iblk0 V c 2 t) X Wt b _ _ _ (fun k => ?_) ?_ ?_
  · exact (blkX0_apply V c t _ k _ rfl).trans (congrFun hX _)
  · exact (blkW0_eq V c t).trans hW
  · exact (congrFun ((blkB0_eq V c t).trans hb) _).trans
      (Cert.LibAffineIdx.shapeCast_n_1n_apply b Cert.KernelIdeal.Facts₀.shapeCasts_S128_S1x128 0 ⟨(j 1).val, hq⟩)

/-- An index of the result array is in point `t`'s block iff each coordinate is in the block's range on its axis. -/
theorem mem_blk0 (t : Fin cfg0.N) (i : S50000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v30).slice (win0_3.rect t)).set ↔ _
  rw [View.set_slice_whole, Rect.mem_set_unit]
  exact Iff.rfl

/-- Every index of the result array is in some point's block: row `r` is in the block of the point `r / 10000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 5 := N_0
  refine ⟨⟨(i 0).val / 10000, by omega⟩, flush0_3 _, ?_⟩
  rw [mem_blk0]
  obtain ⟨-, -, -, -, -, -, e6, e7⟩ := idx_facts0 ⟨(i 0).val / 10000, by omega⟩
  intro a
  match a with
  | ⟨0, _⟩ =>
    show win0_3.index _ (0 : Fin 2) * 10000 ≤ (i 0).val ∧ (i 0).val < win0_3.index _ (0 : Fin 2) * 10000 + 10000
    rw [e6]
    show (i 0).val / 10000 * 10000 ≤ (i 0).val ∧ (i 0).val < (i 0).val / 10000 * 10000 + 10000
    omega
  | ⟨1, _⟩ =>
    show win0_3.index _ (1 : Fin 2) * 128 ≤ (i 1).val ∧ (i 1).val < win0_3.index _ (1 : Fin 2) * 128 + 128
    rw [e7]; omega

/-- THE REGION'S RESULT: with the activations `X`, the weights `Wt` and the bias vector `b` cast to a row in the region's
    three input arrays, the result array after the region's 5 points is the reference's layer of `X`, `Wt`, `b`. -/
theorem region0 (c : Dev nD)
    (X : FVec Ideal S50000x128 .f32) (Wt : FVec Ideal S128x128 .f32) (b : FVec Ideal S128 .f32)
    (hX : V c main_v28 = X) (hW : V c main_arg4 = Wt) (hb : V c main_v29 = shapeCast S1x128 b Cert.KernelIdeal.Facts₀.shapeCasts_S128_S1x128) :
    (dat0 (F := Ideal) V c).arrAt 3 cfg0.N
      = addf (Host.dotGeneral (F := Ideal) Cert.ReferenceIdeal.dot_S50000x128_S128x128_S50000x128_1_0_0_1_n_n none X Wt)
      (broadcastInDim Cert.ReferenceIdeal.S50000x128 ![0, 1] Cert.ReferenceIdeal.Facts₀.bcast_S1x128_S50000x128_0_1
        (broadcastInDim Cert.ReferenceIdeal.S1x128 ![1] Cert.ReferenceIdeal.Facts₀.bcast_S128_S1x128_1 b)) :=
  (dat0 (F := Ideal) V c).arrAt_eq_of_cover 3 (layer0 X Wt b) (fun t _ => flushed0 V c X Wt b hX hW hb t) cover0

end Cert.KernelIdeal.AffineStage

end
-- ==== Proof.StepL1.lean ====
/-
  The matrix-product region of layer 1 against the reference: from equal inputs, weights and bias, the kernel's region (a product
  into a zero accumulator plus the bias row, block of rows by block of rows) leaves in its output array what the reference's
  dot_general plus the broadcast bias leaves in its result: x · W + b.
-/
import proofs.«126871_j30021821399140_1_alg».proof.Proof.Gen.KernelIdeal.Frame
import proofs.«126871_j30021821399140_1_alg».proof.Proof.Gen.ReferenceIdeal
import proofs.«126871_j30021821399140_1_alg».proof.Proof.RefOps
import proofs.«126871_j30021821399140_1_alg».proof.Proof.RefRead
import proofs.«126871_j30021821399140_1_alg».proof.Proof.StageP0
import proofs.«126871_j30021821399140_1_alg».proof.Proof.AffineStage0
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)

/-- Layer 1: the reference's product-and-bias piece and the kernel's region 0 agree. -/
theorem stepL1 (c : Dev Cert.KernelIdeal.nD) (Vr : RV)
    (hX : Vr (Proc.devRef .tc Cert.ReferenceIdeal.main_v28) = Cert.KernelIdeal.Gen.W5 m ρ c (Proc.devRef .tc Cert.KernelIdeal.main_v28))
    (hW : Vr (Proc.devRef .tc Cert.ReferenceIdeal.main_arg4) = Cert.KernelIdeal.Gen.W5 m ρ c (Proc.devRef .tc Cert.KernelIdeal.main_arg4))
    (hb : Vr (Proc.devRef .tc Cert.ReferenceIdeal.main_arg5) = Cert.KernelIdeal.Gen.W0 m ρ c (Proc.devRef .tc Cert.KernelIdeal.main_arg5)) :
    after (Cert.ReferenceIdeal.RefRun.cL1 (F := Ideal)) Vr (Proc.devRef .tc Cert.ReferenceIdeal.main_v32) = Cert.KernelIdeal.Gen.W6 m ρ c (Proc.devRef .tc Cert.KernelIdeal.main_v30) := by
  rw [Cert.ReferenceIdeal.RefRun.read_cL1, hX, hW, hb]
  exact ((Cert.KernelIdeal.Gen.W6_arr m ρ c 3).trans ((Cert.KernelIdeal.AffineStage.region0 (Cert.KernelIdeal.Gen.V5 m ρ) c _ _ _ rfl rfl
    (rowP0_v29 (Cert.KernelIdeal.Gen.W0 m ρ c))).trans rfl)).symm

end Cert.Bridge

end
-- ==== Proof.AffineStage2.lean ====
/-
  Layer 2's affine map, kernel region 2 against the reference's statements %71 … %74. The region runs over 5 grid
  points; at point `t` it reads rows `10000 t … 10000 t + 9999` of the `[50000, 128]` activations, the whole `[128, 64]` weight matrix and
  the whole `[1, 64]` bias row, and writes rows `10000 t … 10000 t + 9999` of the `[50000, 64]` result: the block times the weights,
  accumulated from zero, plus the bias row repeated down the rows. The reference is the `dot_general` of the whole
  activations by the weights plus the bias vector broadcast to a row and then down the rows. At the ideal values both
  are, at `(r, q)`, `(∑ j, x (r, j) * w (j, q)) + b q`; row `r` is written by the point `r / 10000`, and the 5 blocks
  cover the array, so the result array after the region is the reference's term.
-/
import proofs.«126871_j30021821399140_1_alg».proof.Proof.Gen.KernelIdeal.Frame
import proofs.«126871_j30021821399140_1_alg».proof.Proof.Gen.ReferenceIdeal
import proofs.«126871_j30021821399140_1_alg».proof.Proof.LibAffineIdx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.AffineStage

open Cert.KernelIdeal Cert.KernelIdeal.Gen

/-- The reference's layer: activations times weights, plus the bias vector as a row repeated down the rows. -/
abbrev layer2 (X : FVec Ideal S50000x128 .f32) (Wt : FVec Ideal S128x64 .f32) (b : FVec Ideal S64 .f32) : FVec Ideal S50000x64 .f32 :=
  addf (Host.dotGeneral (F := Ideal) Cert.ReferenceIdeal.dot_S50000x128_S128x64_S50000x64_1_0_0_1_n_n none X Wt)
      (broadcastInDim Cert.ReferenceIdeal.S50000x64 ![0, 1] Cert.ReferenceIdeal.Facts₀.bcast_S1x64_S50000x64_0_1
        (broadcastInDim Cert.ReferenceIdeal.S1x64 ![1] Cert.ReferenceIdeal.Facts₀.bcast_S64_S1x64_1 b))

/-! ## Both sides at an entry -/

/-- The reference's layer at `(r, q)`: row `r` of the activations against column `q` of the weights, plus `b q`. -/
theorem ref2_apply (X : FVec Ideal S50000x128 .f32) (Wt : FVec Ideal S128x64 .f32) (b : FVec Ideal S64 .f32)
    (r : Fin 50000) (q : Fin 64) :
    layer2 X Wt b (ix2 r q) = (∑ j : Fin 128, X (ix2 r j) * Wt (ix2 j q)) + b (ix1 q) :=
  Cert.LibAffineIdx.hostAffine_apply Cert.ReferenceIdeal.Facts₀.dot_S50000x128_S128x64_S50000x64_1_0_0_1_n_n_wf Cert.ReferenceIdeal.Facts₀.bcast_S64_S1x64_1
    Cert.ReferenceIdeal.Facts₀.bcast_S1x64_S50000x64_0_1 X Wt b r q

/-- The body's stored value at `(p, q)` of a block: row `p` of the block against column `q` of the weights, plus the
    bias row at `q` (the change of float format before the product is the identity on extended reals). -/
theorem pay2_apply (x0 : FVec Ideal S10000x128 .f32) (x1 : FVec Ideal S128x64 .f32) (x2 : FVec Ideal S1x64 .f32)
    (p : Fin 10000) (q : Fin 64) :
    k2_pay1 x0 x1 x2 (ix2 p q) = (∑ j : Fin 128, x0 (ix2 p j) * x1 (ix2 j q)) + x2 (ix2 0 q) := by
  unfold k2_pay1
  exact Cert.LibAffineIdx.kernelAffine_apply dot_S10000x128_S128x64_S10000x64_1_0_0_1_n_n_wf shapeCasts_S10000x128_S10000x128
    shapeCasts_S1x64_S1x64 broadcasts_S1x64_S10000x64 bitsLt_bf16_f32 x0 x1 x2 p q

/-- A block whose row `p` is row `r` of the activations, with the whole weights and the bias as a row: the stored value at
    `(p, q)` is the reference's layer at `(r, q)`. -/
theorem point2 (x0 : FVec Ideal S10000x128 .f32) (x1 : FVec Ideal S128x64 .f32) (x2 : FVec Ideal S1x64 .f32)
    (X : FVec Ideal S50000x128 .f32) (Wt : FVec Ideal S128x64 .f32) (b : FVec Ideal S64 .f32)
    (p : Fin 10000) (q : Fin 64) (r : Fin 50000)
    (h0 : ∀ j : Fin 128, x0 (ix2 p j) = X (ix2 r j)) (h1 : x1 = Wt) (h2 : x2 (ix2 0 q) = b (ix1 q)) :
    k2_pay1 x0 x1 x2 (ix2 p q) = layer2 X Wt b (ix2 r q) := by
  refine (pay2_apply x0 x1 x2 p q).trans (Eq.trans ?_ (ref2_apply X Wt b r q).symm)
  rw [h1, h2]
  exact congrArg (· + b (ix1 q)) (Finset.sum_congr rfl fun j _ => by rw [h0 j])

/-! ## The windows' blocks -/

variable (V : (c : Dev nD) → (b : Ref sig .tc) → Buf (Elt Ideal) ((c : Thread nD τ).loc b))

/-- The block indices, decided over the grid: the activations' and the result's blocks are numbered by the point along the
    rows; the weights' and the bias row's are the one whole block. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of the activations' block at point `t` is row `10000 t + p` of the activations. -/
theorem blkX2_apply (c : Dev nD) (t : Fin cfg2.N) (p : Fin 10000) (j : Fin 128) (r : Fin 50000)
    (hr : r.val = t.val * 10000 + p.val) :
    (iblk2 (F := Ideal) V c 0 t : Vec Ideal S10000x128 .f32) (ix2 p j) = (V c main_v53 : S50000x128.Idx → Elt Ideal .f32) (ix2 r j) := by
  obtain ⟨e0, e1, -⟩ := idx_facts2 t
  unfold iblk2
  rw [View.read_apply]
  show V c main_v53 _ = V c main_v53 _
  refine congrArg (V c main_v53) (funext fun a => Fin.ext ?_)
  match a with
  | ⟨0, _⟩ => show win2_0.index t (0 : Fin 2) * 10000 + 1 * p.val = r.val; rw [e0, hr]; omega
  | ⟨1, _⟩ => show win2_0.index t (1 : Fin 2) * 128 + 1 * j.val = j.val; rw [e1]; omega

/-- The weights' block at every point is the whole weight matrix. -/
theorem blkW2_eq (c : Dev nD) (t : Fin cfg2.N) :
    (iblk2 (F := Ideal) V c 1 t : Vec Ideal S128x64 .f32) = (V c main_arg8 : S128x64.Idx → Elt Ideal .f32) := by
  obtain ⟨-, -, e2, e3, -⟩ := idx_facts2 t
  funext x
  unfold iblk2
  rw [View.read_apply]
  show V c main_arg8 _ = V c main_arg8 _
  refine congrArg (V c main_arg8) (funext fun a => Fin.ext ?_)
  match a with
  | ⟨0, _⟩ => show win2_1.index t (0 : Fin 2) * 128 + 1 * (x 0).val = (x 0).val; rw [e2]; omega
  | ⟨1, _⟩ => show win2_1.index t (1 : Fin 2) * 64 + 1 * (x 1).val = (x 1).val; rw [e3]; omega

/-- The bias row's block at every point is the whole bias row. -/
theorem blkB2_eq (c : Dev nD) (t : Fin cfg2.N) :
    (iblk2 (F := Ideal) V c 2 t : Vec Ideal S1x64 .f32) = (V c main_v54 : S1x64.Idx → Elt Ideal .f32) := by
  obtain ⟨-, -, -, -, e4, e5, -⟩ := idx_facts2 t
  funext x
  unfold iblk2
  rw [View.read_apply]
  show V c main_v54 _ = V c main_v54 _
  refine congrArg (V c main_v54) (funext fun a => Fin.ext ?_)
  match a with
  | ⟨0, _⟩ => show win2_2.index t (0 : Fin 2) * 1 + 1 * (x 0).val = (x 0).val; rw [e4]; omega
  | ⟨1, _⟩ => show win2_2.index t (1 : Fin 2) * 64 + 1 * (x 1).val = (x 1).val; rw [e5]; omega

/-! ## From blocks to the array -/

/-- What point `t` writes back is rows `10000 t … 10000 t + 9999` of the reference's layer of the arrays the region finds. -/
theorem flushed2 (c : Dev nD)
    (X : FVec Ideal S50000x128 .f32) (Wt : FVec Ideal S128x64 .f32) (b : FVec Ideal S64 .f32)
    (hX : V c main_v53 = X) (hW : V c main_arg8 = Wt) (hb : V c main_v54 = shapeCast S1x64 b Cert.KernelIdeal.Facts₀.shapeCasts_S64_S1x64)
    (t : Fin cfg2.N) :
    (dat2 (F := Ideal) V c).flushed 3 t = ((cfg2.win 3).blk t).view.read (Elt Ideal) (layer2 X Wt b) := by
  show (cfg2.win 3).cut (grid2.coords t) ((dat2 V c).after 3 t) = _
  rw [after2_3]
  unfold out2_3
  rw [View.canon_unit_zero Cert.LibAffineIdx.zero_offsets2]
  simp only [View.ld_unit_zero (S := S10000x128) Cert.LibAffineIdx.zero_offsets2, View.ld_unit_zero (S := S128x64) Cert.LibAffineIdx.zero_offsets2, View.ld_unit_zero (S := S1x64) Cert.LibAffineIdx.zero_offsets2, View.ld_unit_zero (S := S10000x64) Cert.LibAffineIdx.zero_offsets2]
  funext j
  obtain ⟨-, -, -, -, -, -, e6, e7⟩ := idx_facts2 t
  have hp : (j 0).val < 10000 := (j 0).isLt
  have hq : (j 1).val < 64 := (j 1).isLt
  have ht : t.val < 5 := by have h := t.isLt; have hN : cfg2.N = 5 := N_2; omega
  have hj : (win2 3).xinj (grid2.coords t) j = ix2 (⟨(j 0).val, hp⟩ : Fin 10000) (⟨(j 1).val, hq⟩ : Fin 64) := by
    funext a
    match a with
    | ⟨0, _⟩ => rfl
    | ⟨1, _⟩ => rfl
  have hi : ((cfg2.win 3).blk t).view.emb j
      = ix2 (⟨t.val * 10000 + (j 0).val, by omega⟩ : Fin 50000) (⟨(j 1).val, hq⟩ : Fin 64) := by
    funext a; apply Fin.ext
    match a with
    | ⟨0, _⟩ => show win2_3.index t (0 : Fin 2) * 10000 + 1 * (j 0).val = t.val * 10000 + (j 0).val; rw [e6]; omega
    | ⟨1, _⟩ => show win2_3.index t (1 : Fin 2) * 64 + 1 * (j 1).val = (j 1).val; rw [e7]; omega
  show k2_pay1 (iblk2 V c 0 t) (iblk2 V c 1 t) (iblk2 V c 2 t) ((win2 3).xinj (grid2.coords t) j)
    = layer2 X Wt b (((cfg2.win 3).blk t).view.emb j)
  rw [hj, hi]
  refine point2 (iblk2 V c 0 t) (iblk2 V c 1 t) (iblk2 V c 2 t) X Wt b _ _ _ (fun k => ?_) ?_ ?_
  · exact (blkX2_apply V c t _ k _ rfl).trans (congrFun hX _)
  · exact (blkW2_eq V c t).trans hW
  · exact (congrFun ((blkB2_eq V c t).trans hb) _).trans
      (Cert.LibAffineIdx.shapeCast_n_1n_apply b Cert.KernelIdeal.Facts₀.shapeCasts_S64_S1x64 0 ⟨(j 1).val, hq⟩)

/-- An index of the result array is in point `t`'s block iff each coordinate is in the block's range on its axis. -/
theorem mem_blk2 (t : Fin cfg2.N) (i : S50000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v55).slice (win2_3.rect t)).set ↔ _
  rw [View.set_slice_whole, Rect.mem_set_unit]
  exact Iff.rfl

/-- Every index of the result array is in some point's block: row `r` is in the block of the point `r / 10000`. -/
theorem cover2 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 5 := N_2
  refine ⟨⟨(i 0).val / 10000, by omega⟩, flush2_3 _, ?_⟩
  rw [mem_blk2]
  obtain ⟨-, -, -, -, -, -, e6, e7⟩ := idx_facts2 ⟨(i 0).val / 10000, by omega⟩
  intro a
  match a with
  | ⟨0, _⟩ =>
    show win2_3.index _ (0 : Fin 2) * 10000 ≤ (i 0).val ∧ (i 0).val < win2_3.index _ (0 : Fin 2) * 10000 + 10000
    rw [e6]
    show (i 0).val / 10000 * 10000 ≤ (i 0).val ∧ (i 0).val < (i 0).val / 10000 * 10000 + 10000
    omega
  | ⟨1, _⟩ =>
    show win2_3.index _ (1 : Fin 2) * 64 ≤ (i 1).val ∧ (i 1).val < win2_3.index _ (1 : Fin 2) * 64 + 64
    rw [e7]; omega

/-- THE REGION'S RESULT: with the activations `X`, the weights `Wt` and the bias vector `b` cast to a row in the region's
    three input arrays, the result array after the region's 5 points is the reference's layer of `X`, `Wt`, `b`. -/
theorem region2 (c : Dev nD)
    (X : FVec Ideal S50000x128 .f32) (Wt : FVec Ideal S128x64 .f32) (b : FVec Ideal S64 .f32)
    (hX : V c main_v53 = X) (hW : V c main_arg8 = Wt) (hb : V c main_v54 = shapeCast S1x64 b Cert.KernelIdeal.Facts₀.shapeCasts_S64_S1x64) :
    (dat2 (F := Ideal) V c).arrAt 3 cfg2.N
      = addf (Host.dotGeneral (F := Ideal) Cert.ReferenceIdeal.dot_S50000x128_S128x64_S50000x64_1_0_0_1_n_n none X Wt)
      (broadcastInDim Cert.ReferenceIdeal.S50000x64 ![0, 1] Cert.ReferenceIdeal.Facts₀.bcast_S1x64_S50000x64_0_1
        (broadcastInDim Cert.ReferenceIdeal.S1x64 ![1] Cert.ReferenceIdeal.Facts₀.bcast_S64_S1x64_1 b)) :=
  (dat2 (F := Ideal) V c).arrAt_eq_of_cover 3 (layer2 X Wt b) (fun t _ => flushed2 V c X Wt b hX hW hb t) cover2

end Cert.KernelIdeal.AffineStage

end
-- ==== Proof.StepL2.lean ====
/-
  The matrix-product region of layer 2 against the reference: from equal inputs, weights and bias, the kernel's region (a product
  into a zero accumulator plus the bias row, block of rows by block of rows) leaves in its output array what the reference's
  dot_general plus the broadcast bias leaves in its result: x · W + b.
-/
import proofs.«126871_j30021821399140_1_alg».proof.Proof.Gen.KernelIdeal.Frame
import proofs.«126871_j30021821399140_1_alg».proof.Proof.Gen.ReferenceIdeal
import proofs.«126871_j30021821399140_1_alg».proof.Proof.RefOps
import proofs.«126871_j30021821399140_1_alg».proof.Proof.RefRead
import proofs.«126871_j30021821399140_1_alg».proof.Proof.StageP1
import proofs.«126871_j30021821399140_1_alg».proof.Proof.AffineStage2
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)

/-- Layer 2: the reference's product-and-bias piece and the kernel's region 2 agree. -/
theorem stepL2 (c : Dev Cert.KernelIdeal.nD) (Vr : RV)
    (hX : Vr (Proc.devRef .tc Cert.ReferenceIdeal.main_v70) = Cert.KernelIdeal.Gen.W11 m ρ c (Proc.devRef .tc Cert.KernelIdeal.main_v53))
    (hW : Vr (Proc.devRef .tc Cert.ReferenceIdeal.main_arg8) = Cert.KernelIdeal.Gen.W11 m ρ c (Proc.devRef .tc Cert.KernelIdeal.main_arg8))
    (hb : Vr (Proc.devRef .tc Cert.ReferenceIdeal.main_arg9) = Cert.KernelIdeal.Gen.W10 m ρ c (Proc.devRef .tc Cert.KernelIdeal.main_arg9)) :
    after (Cert.ReferenceIdeal.RefRun.cL2 (F := Ideal)) Vr (Proc.devRef .tc Cert.ReferenceIdeal.main_v74) = Cert.KernelIdeal.Gen.W12 m ρ c (Proc.devRef .tc Cert.KernelIdeal.main_v55) := by
  rw [Cert.ReferenceIdeal.RefRun.read_cL2, hX, hW, hb]
  exact ((Cert.KernelIdeal.Gen.W12_arr m ρ c 3).trans ((Cert.KernelIdeal.AffineStage.region2 (Cert.KernelIdeal.Gen.V11 m ρ) c _ _ _ rfl rfl
    (rowP1_v54 (Cert.KernelIdeal.Gen.W10 m ρ c))).trans rfl)).symm

end Cert.Bridge

end
-- ==== Proof.AffineStage4.lean ====
/-
  Layer 3's affine map, kernel region 4 against the reference's statements %113 … %116. The region runs over 5 grid
  points; at point `t` it reads rows `10000 t … 10000 t + 9999` of the `[50000, 64]` activations, the whole `[64, 32]` weight matrix and
  the whole `[1, 32]` bias row, and writes rows `10000 t … 10000 t + 9999` of the `[50000, 32]` result: the block times the weights,
  accumulated from zero, plus the bias row repeated down the rows. The reference is the `dot_general` of the whole
  activations by the weights plus the bias vector broadcast to a row and then down the rows. At the ideal values both
  are, at `(r, q)`, `(∑ j, x (r, j) * w (j, q)) + b q`; row `r` is written by the point `r / 10000`, and the 5 blocks
  cover the array, so the result array after the region is the reference's term.
-/
import proofs.«126871_j30021821399140_1_alg».proof.Proof.Gen.KernelIdeal.Frame
import proofs.«126871_j30021821399140_1_alg».proof.Proof.Gen.ReferenceIdeal
import proofs.«126871_j30021821399140_1_alg».proof.Proof.LibAffineIdx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.AffineStage

open Cert.KernelIdeal Cert.KernelIdeal.Gen

/-- The reference's layer: activations times weights, plus the bias vector as a row repeated down the rows. -/
abbrev layer4 (X : FVec Ideal S50000x64 .f32) (Wt : FVec Ideal S64x32 .f32) (b : FVec Ideal S32 .f32) : FVec Ideal S50000x32 .f32 :=
  addf (Host.dotGeneral (F := Ideal) Cert.ReferenceIdeal.dot_S50000x64_S64x32_S50000x32_1_0_0_1_n_n none X Wt)
      (broadcastInDim Cert.ReferenceIdeal.S50000x32 ![0, 1] Cert.ReferenceIdeal.Facts₀.bcast_S1x32_S50000x32_0_1
        (broadcastInDim Cert.ReferenceIdeal.S1x32 ![1] Cert.ReferenceIdeal.Facts₀.bcast_S32_S1x32_1 b))

/-! ## Both sides at an entry -/

/-- The reference's layer at `(r, q)`: row `r` of the activations against column `q` of the weights, plus `b q`. -/
theorem ref4_apply (X : FVec Ideal S50000x64 .f32) (Wt : FVec Ideal S64x32 .f32) (b : FVec Ideal S32 .f32)
    (r : Fin 50000) (q : Fin 32) :
    layer4 X Wt b (ix2 r q) = (∑ j : Fin 64, X (ix2 r j) * Wt (ix2 j q)) + b (ix1 q) :=
  Cert.LibAffineIdx.hostAffine_apply Cert.ReferenceIdeal.Facts₀.dot_S50000x64_S64x32_S50000x32_1_0_0_1_n_n_wf Cert.ReferenceIdeal.Facts₀.bcast_S32_S1x32_1
    Cert.ReferenceIdeal.Facts₀.bcast_S1x32_S50000x32_0_1 X Wt b r q

/-- The body's stored value at `(p, q)` of a block: row `p` of the block against column `q` of the weights, plus the
    bias row at `q` (the change of float format before the product is the identity on extended reals). -/
theorem pay4_apply (x0 : FVec Ideal S10000x64 .f32) (x1 : FVec Ideal S64x32 .f32) (x2 : FVec Ideal S1x32 .f32)
    (p : Fin 10000) (q : Fin 32) :
    k4_pay1 x0 x1 x2 (ix2 p q) = (∑ j : Fin 64, x0 (ix2 p j) * x1 (ix2 j q)) + x2 (ix2 0 q) := by
  unfold k4_pay1
  exact Cert.LibAffineIdx.kernelAffine_apply dot_S10000x64_S64x32_S10000x32_1_0_0_1_n_n_wf shapeCasts_S10000x64_S10000x64
    shapeCasts_S1x32_S1x32 broadcasts_S1x32_S10000x32 bitsLt_bf16_f32 x0 x1 x2 p q

/-- A block whose row `p` is row `r` of the activations, with the whole weights and the bias as a row: the stored value at
    `(p, q)` is the reference's layer at `(r, q)`. -/
theorem point4 (x0 : FVec Ideal S10000x64 .f32) (x1 : FVec Ideal S64x32 .f32) (x2 : FVec Ideal S1x32 .f32)
    (X : FVec Ideal S50000x64 .f32) (Wt : FVec Ideal S64x32 .f32) (b : FVec Ideal S32 .f32)
    (p : Fin 10000) (q : Fin 32) (r : Fin 50000)
    (h0 : ∀ j : Fin 64, x0 (ix2 p j) = X (ix2 r j)) (h1 : x1 = Wt) (h2 : x2 (ix2 0 q) = b (ix1 q)) :
    k4_pay1 x0 x1 x2 (ix2 p q) = layer4 X Wt b (ix2 r q) := by
  refine (pay4_apply x0 x1 x2 p q).trans (Eq.trans ?_ (ref4_apply X Wt b r q).symm)
  rw [h1, h2]
  exact congrArg (· + b (ix1 q)) (Finset.sum_congr rfl fun j _ => by rw [h0 j])

/-! ## The windows' blocks -/

variable (V : (c : Dev nD) → (b : Ref sig .tc) → Buf (Elt Ideal) ((c : Thread nD τ).loc b))

/-- The block indices, decided over the grid: the activations' and the result's blocks are numbered by the point along the
    rows; the weights' and the bias row's are the one whole block. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row `p` of the activations' block at point `t` is row `10000 t + p` of the activations. -/
theorem blkX4_apply (c : Dev nD) (t : Fin cfg4.N) (p : Fin 10000) (j : Fin 64) (r : Fin 50000)
    (hr : r.val = t.val * 10000 + p.val) :
    (iblk4 (F := Ideal) V c 0 t : Vec Ideal S10000x64 .f32) (ix2 p j) = (V c main_v78 : S50000x64.Idx → Elt Ideal .f32) (ix2 r j) := by
  obtain ⟨e0, e1, -⟩ := idx_facts4 t
  unfold iblk4
  rw [View.read_apply]
  show V c main_v78 _ = V c main_v78 _
  refine congrArg (V c main_v78) (funext fun a => Fin.ext ?_)
  match a with
  | ⟨0, _⟩ => show win4_0.index t (0 : Fin 2) * 10000 + 1 * p.val = r.val; rw [e0, hr]; omega
  | ⟨1, _⟩ => show win4_0.index t (1 : Fin 2) * 64 + 1 * j.val = j.val; rw [e1]; omega

/-- The weights' block at every point is the whole weight matrix. -/
theorem blkW4_eq (c : Dev nD) (t : Fin cfg4.N) :
    (iblk4 (F := Ideal) V c 1 t : Vec Ideal S64x32 .f32) = (V c main_arg12 : S64x32.Idx → Elt Ideal .f32) := by
  obtain ⟨-, -, e2, e3, -⟩ := idx_facts4 t
  funext x
  unfold iblk4
  rw [View.read_apply]
  show V c main_arg12 _ = V c main_arg12 _
  refine congrArg (V c main_arg12) (funext fun a => Fin.ext ?_)
  match a with
  | ⟨0, _⟩ => show win4_1.index t (0 : Fin 2) * 64 + 1 * (x 0).val = (x 0).val; rw [e2]; omega
  | ⟨1, _⟩ => show win4_1.index t (1 : Fin 2) * 32 + 1 * (x 1).val = (x 1).val; rw [e3]; omega

/-- The bias row's block at every point is the whole bias row. -/
theorem blkB4_eq (c : Dev nD) (t : Fin cfg4.N) :
    (iblk4 (F := Ideal) V c 2 t : Vec Ideal S1x32 .f32) = (V c main_v79 : S1x32.Idx → Elt Ideal .f32) := by
  obtain ⟨-, -, -, -, e4, e5, -⟩ := idx_facts4 t
  funext x
  unfold iblk4
  rw [View.read_apply]
  show V c main_v79 _ = V c main_v79 _
  refine congrArg (V c main_v79) (funext fun a => Fin.ext ?_)
  match a with
  | ⟨0, _⟩ => show win4_2.index t (0 : Fin 2) * 1 + 1 * (x 0).val = (x 0).val; rw [e4]; omega
  | ⟨1, _⟩ => show win4_2.index t (1 : Fin 2) * 32 + 1 * (x 1).val = (x 1).val; rw [e5]; omega

/-! ## From blocks to the array -/

/-- What point `t` writes back is rows `10000 t … 10000 t + 9999` of the reference's layer of the arrays the region finds. -/
theorem flushed4 (c : Dev nD)
    (X : FVec Ideal S50000x64 .f32) (Wt : FVec Ideal S64x32 .f32) (b : FVec Ideal S32 .f32)
    (hX : V c main_v78 = X) (hW : V c main_arg12 = Wt) (hb : V c main_v79 = shapeCast S1x32 b Cert.KernelIdeal.Facts₀.shapeCasts_S32_S1x32)
    (t : Fin cfg4.N) :
    (dat4 (F := Ideal) V c).flushed 3 t = ((cfg4.win 3).blk t).view.read (Elt Ideal) (layer4 X Wt b) := by
  show (cfg4.win 3).cut (grid4.coords t) ((dat4 V c).after 3 t) = _
  rw [after4_3]
  unfold out4_3
  rw [View.canon_unit_zero Cert.LibAffineIdx.zero_offsets2]
  simp only [View.ld_unit_zero (S := S10000x64) Cert.LibAffineIdx.zero_offsets2, View.ld_unit_zero (S := S64x32) Cert.LibAffineIdx.zero_offsets2, View.ld_unit_zero (S := S1x32) Cert.LibAffineIdx.zero_offsets2, View.ld_unit_zero (S := S10000x32) Cert.LibAffineIdx.zero_offsets2]
  funext j
  obtain ⟨-, -, -, -, -, -, e6, e7⟩ := idx_facts4 t
  have hp : (j 0).val < 10000 := (j 0).isLt
  have hq : (j 1).val < 32 := (j 1).isLt
  have ht : t.val < 5 := by have h := t.isLt; have hN : cfg4.N = 5 := N_4; omega
  have hj : (win4 3).xinj (grid4.coords t) j = ix2 (⟨(j 0).val, hp⟩ : Fin 10000) (⟨(j 1).val, hq⟩ : Fin 32) := by
    funext a
    match a with
    | ⟨0, _⟩ => rfl
    | ⟨1, _⟩ => rfl
  have hi : ((cfg4.win 3).blk t).view.emb j
      = ix2 (⟨t.val * 10000 + (j 0).val, by omega⟩ : Fin 50000) (⟨(j 1).val, hq⟩ : Fin 32) := by
    funext a; apply Fin.ext
    match a with
    | ⟨0, _⟩ => show win4_3.index t (0 : Fin 2) * 10000 + 1 * (j 0).val = t.val * 10000 + (j 0).val; rw [e6]; omega
    | ⟨1, _⟩ => show win4_3.index t (1 : Fin 2) * 32 + 1 * (j 1).val = (j 1).val; rw [e7]; omega
  show k4_pay1 (iblk4 V c 0 t) (iblk4 V c 1 t) (iblk4 V c 2 t) ((win4 3).xinj (grid4.coords t) j)
    = layer4 X Wt b (((cfg4.win 3).blk t).view.emb j)
  rw [hj, hi]
  refine point4 (iblk4 V c 0 t) (iblk4 V c 1 t) (iblk4 V c 2 t) X Wt b _ _ _ (fun k => ?_) ?_ ?_
  · exact (blkX4_apply V c t _ k _ rfl).trans (congrFun hX _)
  · exact (blkW4_eq V c t).trans hW
  · exact (congrFun ((blkB4_eq V c t).trans hb) _).trans
      (Cert.LibAffineIdx.shapeCast_n_1n_apply b Cert.KernelIdeal.Facts₀.shapeCasts_S32_S1x32 0 ⟨(j 1).val, hq⟩)

/-- An index of the result array is in point `t`'s block iff each coordinate is in the block's range on its axis. -/
theorem mem_blk4 (t : Fin cfg4.N) (i : S50000x32.Idx) :
    i ∈ ((cfg4.win 3).blk t).view.set ↔ ∀ a : Fin 2, win4_3.index t a * S10000x32.size a ≤ (i a).val
      ∧ (i a).val < win4_3.index t a * S10000x32.size a + S10000x32.size a := by
  show i ∈ ((View.whole main_v80).slice (win4_3.rect t)).set ↔ _
  rw [View.set_slice_whole, Rect.mem_set_unit]
  exact Iff.rfl

/-- Every index of the result array is in some point's block: row `r` is in the block of the point `r / 10000`. -/
theorem cover4 (i : S50000x32.Idx) :
    ∃ t : Fin cfg4.N, (cfg4.win 3).flush t = true ∧ i ∈ ((cfg4.win 3).blk t).view.set := by
  have hi0 : (i 0).val < 50000 := (i 0).isLt
  have hi1 : (i 1).val < 32 := (i 1).isLt
  have hN : cfg4.N = 5 := N_4
  refine ⟨⟨(i 0).val / 10000, by omega⟩, flush4_3 _, ?_⟩
  rw [mem_blk4]
  obtain ⟨-, -, -, -, -, -, e6, e7⟩ := idx_facts4 ⟨(i 0).val / 10000, by omega⟩
  intro a
  match a with
  | ⟨0, _⟩ =>
    show win4_3.index _ (0 : Fin 2) * 10000 ≤ (i 0).val ∧ (i 0).val < win4_3.index _ (0 : Fin 2) * 10000 + 10000
    rw [e6]
    show (i 0).val / 10000 * 10000 ≤ (i 0).val ∧ (i 0).val < (i 0).val / 10000 * 10000 + 10000
    omega
  | ⟨1, _⟩ =>
    show win4_3.index _ (1 : Fin 2) * 32 ≤ (i 1).val ∧ (i 1).val < win4_3.index _ (1 : Fin 2) * 32 + 32
    rw [e7]; omega

/-- THE REGION'S RESULT: with the activations `X`, the weights `Wt` and the bias vector `b` cast to a row in the region's
    three input arrays, the result array after the region's 5 points is the reference's layer of `X`, `Wt`, `b`. -/
theorem region4 (c : Dev nD)
    (X : FVec Ideal S50000x64 .f32) (Wt : FVec Ideal S64x32 .f32) (b : FVec Ideal S32 .f32)
    (hX : V c main_v78 = X) (hW : V c main_arg12 = Wt) (hb : V c main_v79 = shapeCast S1x32 b Cert.KernelIdeal.Facts₀.shapeCasts_S32_S1x32) :
    (dat4 (F := Ideal) V c).arrAt 3 cfg4.N
      = addf (Host.dotGeneral (F := Ideal) Cert.ReferenceIdeal.dot_S50000x64_S64x32_S50000x32_1_0_0_1_n_n none X Wt)
      (broadcastInDim Cert.ReferenceIdeal.S50000x32 ![0, 1] Cert.ReferenceIdeal.Facts₀.bcast_S1x32_S50000x32_0_1
        (broadcastInDim Cert.ReferenceIdeal.S1x32 ![1] Cert.ReferenceIdeal.Facts₀.bcast_S32_S1x32_1 b)) :=
  (dat4 (F := Ideal) V c).arrAt_eq_of_cover 3 (layer4 X Wt b) (fun t _ => flushed4 V c X Wt b hX hW hb t) cover4

end Cert.KernelIdeal.AffineStage

end
-- ==== Proof.StepL3.lean ====
/-
  The matrix-product region of layer 3 against the reference: from equal inputs, weights and bias, the kernel's region (a product
  into a zero accumulator plus the bias row, block of rows by block of rows) leaves in its output array what the reference's
  dot_general plus the broadcast bias leaves in its result: x · W + b.
-/
import proofs.«126871_j30021821399140_1_alg».proof.Proof.Gen.KernelIdeal.Frame
import proofs.«126871_j30021821399140_1_alg».proof.Proof.Gen.ReferenceIdeal
import proofs.«126871_j30021821399140_1_alg».proof.Proof.RefOps
import proofs.«126871_j30021821399140_1_alg».proof.Proof.RefRead
import proofs.«126871_j30021821399140_1_alg».proof.Proof.StageP2
import proofs.«126871_j30021821399140_1_alg».proof.Proof.AffineStage4
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)

/-- Layer 3: the reference's product-and-bias piece and the kernel's region 4 agree. -/
theorem stepL3 (c : Dev Cert.KernelIdeal.nD) (Vr : RV)
    (hX : Vr (Proc.devRef .tc Cert.ReferenceIdeal.main_v112) = Cert.KernelIdeal.Gen.W17 m ρ c (Proc.devRef .tc Cert.KernelIdeal.main_v78))
    (hW : Vr (Proc.devRef .tc Cert.ReferenceIdeal.main_arg12) = Cert.KernelIdeal.Gen.W17 m ρ c (Proc.devRef .tc Cert.KernelIdeal.main_arg12))
    (hb : Vr (Proc.devRef .tc Cert.ReferenceIdeal.main_arg13) = Cert.KernelIdeal.Gen.W16 m ρ c (Proc.devRef .tc Cert.KernelIdeal.main_arg13)) :
    after (Cert.ReferenceIdeal.RefRun.cL3 (F := Ideal)) Vr (Proc.devRef .tc Cert.ReferenceIdeal.main_v116) = Cert.KernelIdeal.Gen.W18 m ρ c (Proc.devRef .tc Cert.KernelIdeal.main_v80) := by
  rw [Cert.ReferenceIdeal.RefRun.read_cL3, hX, hW, hb]
  exact ((Cert.KernelIdeal.Gen.W18_arr m ρ c 3).trans ((Cert.KernelIdeal.AffineStage.region4 (Cert.KernelIdeal.Gen.V17 m ρ) c _ _ _ rfl rfl
    (rowP2_v79 (Cert.KernelIdeal.Gen.W16 m ρ c))).trans rfl)).symm

end Cert.Bridge

end
-- ==== Proof.AffineStage6.lean ====
/-
  Layer 4's affine map, kernel region 6 against the reference's statements %152 … %155. The region runs over 1 grid
  point; at point `t` it reads rows `64 t … 64 t + 63` of the `[64, 32]` activations, the whole `[32, 2]` weight matrix and
  the whole `[1, 2]` bias row, and writes rows `64 t … 64 t + 63` of the `[64, 2]` result: the block times the weights,
  accumulated from zero, plus the bias row repeated down the rows. The reference is the `dot_general` of the whole
  activations by the weights plus the bias vector broadcast to a row and then down the rows. At the ideal values both
  are, at `(r, q)`, `(∑ j, x (r, j) * w (j, q)) + b q`; row `r` is written by the point `r / 64`, and the 1 block
  covers the array, so the result array after the region is the reference's term.
-/
import proofs.«126871_j30021821399140_1_alg».proof.Proof.Gen.KernelIdeal.Frame
import proofs.«126871_j30021821399140_1_alg».proof.Proof.Gen.ReferenceIdeal
import proofs.«126871_j30021821399140_1_alg».proof.Proof.LibAffineIdx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.AffineStage

open Cert.KernelIdeal Cert.KernelIdeal.Gen

/-- The reference's layer: activations times weights, plus the bias vector as a row repeated down the rows. -/
abbrev layer6 (X : FVec Ideal S64x32 .f32) (Wt : FVec Ideal S32x2 .f32) (b : FVec Ideal S2 .f32) : FVec Ideal S64x2 .f32 :=
  addf (Host.dotGeneral (F := Ideal) Cert.ReferenceIdeal.dot_S64x32_S32x2_S64x2_1_0_0_1_n_n none X Wt)
      (broadcastInDim Cert.ReferenceIdeal.S64x2 ![0, 1] Cert.ReferenceIdeal.Facts₀.bcast_S1x2_S64x2_0_1
        (broadcastInDim Cert.ReferenceIdeal.S1x2 ![1] Cert.ReferenceIdeal.Facts₀.bcast_S2_S1x2_1 b))

/-! ## Both sides at an entry -/

/-- The reference's layer at `(r, q)`: row `r` of the activations against column `q` of the weights, plus `b q`. -/
theorem ref6_apply (X : FVec Ideal S64x32 .f32) (Wt : FVec Ideal S32x2 .f32) (b : FVec Ideal S2 .f32)
    (r : Fin 64) (q : Fin 2) :
    layer6 X Wt b (ix2 r q) = (∑ j : Fin 32, X (ix2 r j) * Wt (ix2 j q)) + b (ix1 q) :=
  Cert.LibAffineIdx.hostAffine_apply Cert.ReferenceIdeal.Facts₀.dot_S64x32_S32x2_S64x2_1_0_0_1_n_n_wf Cert.ReferenceIdeal.Facts₀.bcast_S2_S1x2_1
    Cert.ReferenceIdeal.Facts₀.bcast_S1x2_S64x2_0_1 X Wt b r q

/-- The body's stored value at `(p, q)` of a block: row `p` of the block against column `q` of the weights, plus the
    bias row at `q` (the change of float format before the product is the identity on extended reals). -/
theorem pay6_apply (x0 : FVec Ideal S64x32 .f32) (x1 : FVec Ideal S32x2 .f32) (x2 : FVec Ideal S1x2 .f32)
    (p : Fin 64) (q : Fin 2) :
    k6_pay1 x0 x1 x2 (ix2 p q) = (∑ j : Fin 32, x0 (ix2 p j) * x1 (ix2 j q)) + x2 (ix2 0 q) := by
  unfold k6_pay1
  exact Cert.LibAffineIdx.kernelAffine_apply dot_S64x32_S32x2_S64x2_1_0_0_1_n_n_wf shapeCasts_S64x32_S64x32
    shapeCasts_S1x2_S1x2 broadcasts_S1x2_S64x2 bitsLt_bf16_f32 x0 x1 x2 p q

/-- A block whose row `p` is row `r` of the activations, with the whole weights and the bias as a row: the stored value at
    `(p, q)` is the reference's layer at `(r, q)`. -/
theorem point6 (x0 : FVec Ideal S64x32 .f32) (x1 : FVec Ideal S32x2 .f32) (x2 : FVec Ideal S1x2 .f32)
    (X : FVec Ideal S64x32 .f32) (Wt : FVec Ideal S32x2 .f32) (b : FVec Ideal S2 .f32)
    (p : Fin 64) (q : Fin 2) (r : Fin 64)
    (h0 : ∀ j : Fin 32, x0 (ix2 p j) = X (ix2 r j)) (h1 : x1 = Wt) (h2 : x2 (ix2 0 q) = b (ix1 q)) :
    k6_pay1 x0 x1 x2 (ix2 p q) = layer6 X Wt b (ix2 r q) := by
  refine (pay6_apply x0 x1 x2 p q).trans (Eq.trans ?_ (ref6_apply X Wt b r q).symm)
  rw [h1, h2]
  exact congrArg (· + b (ix1 q)) (Finset.sum_congr rfl fun j _ => by rw [h0 j])

/-! ## The windows' blocks -/

variable (V : (c : Dev nD) → (b : Ref sig .tc) → Buf (Elt Ideal) ((c : Thread nD τ).loc b))

/-- The block indices, decided over the grid: the activations' and the result's blocks are numbered by the point along the
    rows; the weights' and the bias row's are the one whole block. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Row `p` of the activations' block at point `t` is row `64 t + p` of the activations. -/
theorem blkX6_apply (c : Dev nD) (t : Fin cfg6.N) (p : Fin 64) (j : Fin 32) (r : Fin 64)
    (hr : r.val = t.val * 64 + p.val) :
    (iblk6 (F := Ideal) V c 0 t : Vec Ideal S64x32 .f32) (ix2 p j) = (V c main_v100 : S64x32.Idx → Elt Ideal .f32) (ix2 r j) := by
  obtain ⟨e0, e1, -⟩ := idx_facts6 t
  unfold iblk6
  rw [View.read_apply]
  show V c main_v100 _ = V c main_v100 _
  refine congrArg (V c main_v100) (funext fun a => Fin.ext ?_)
  match a with
  | ⟨0, _⟩ => show win6_0.index t (0 : Fin 2) * 64 + 1 * p.val = r.val; rw [e0, hr]; omega
  | ⟨1, _⟩ => show win6_0.index t (1 : Fin 2) * 32 + 1 * j.val = j.val; rw [e1]; omega

/-- The weights' block at every point is the whole weight matrix. -/
theorem blkW6_eq (c : Dev nD) (t : Fin cfg6.N) :
    (iblk6 (F := Ideal) V c 1 t : Vec Ideal S32x2 .f32) = (V c main_arg16 : S32x2.Idx → Elt Ideal .f32) := by
  obtain ⟨-, -, e2, e3, -⟩ := idx_facts6 t
  funext x
  unfold iblk6
  rw [View.read_apply]
  show V c main_arg16 _ = V c main_arg16 _
  refine congrArg (V c main_arg16) (funext fun a => Fin.ext ?_)
  match a with
  | ⟨0, _⟩ => show win6_1.index t (0 : Fin 2) * 32 + 1 * (x 0).val = (x 0).val; rw [e2]; omega
  | ⟨1, _⟩ => show win6_1.index t (1 : Fin 2) * 2 + 1 * (x 1).val = (x 1).val; rw [e3]; omega

/-- The bias row's block at every point is the whole bias row. -/
theorem blkB6_eq (c : Dev nD) (t : Fin cfg6.N) :
    (iblk6 (F := Ideal) V c 2 t : Vec Ideal S1x2 .f32) = (V c main_v101 : S1x2.Idx → Elt Ideal .f32) := by
  obtain ⟨-, -, -, -, e4, e5, -⟩ := idx_facts6 t
  funext x
  unfold iblk6
  rw [View.read_apply]
  show V c main_v101 _ = V c main_v101 _
  refine congrArg (V c main_v101) (funext fun a => Fin.ext ?_)
  match a with
  | ⟨0, _⟩ => show win6_2.index t (0 : Fin 2) * 1 + 1 * (x 0).val = (x 0).val; rw [e4]; omega
  | ⟨1, _⟩ => show win6_2.index t (1 : Fin 2) * 2 + 1 * (x 1).val = (x 1).val; rw [e5]; omega

/-! ## From blocks to the array -/

/-- What point `t` writes back is rows `64 t … 64 t + 63` of the reference's layer of the arrays the region finds. -/
theorem flushed6 (c : Dev nD)
    (X : FVec Ideal S64x32 .f32) (Wt : FVec Ideal S32x2 .f32) (b : FVec Ideal S2 .f32)
    (hX : V c main_v100 = X) (hW : V c main_arg16 = Wt) (hb : V c main_v101 = shapeCast S1x2 b Cert.KernelIdeal.Facts₀.shapeCasts_S2_S1x2)
    (t : Fin cfg6.N) :
    (dat6 (F := Ideal) V c).flushed 3 t = ((cfg6.win 3).blk t).view.read (Elt Ideal) (layer6 X Wt b) := by
  show (cfg6.win 3).cut (grid6.coords t) ((dat6 V c).after 3 t) = _
  rw [after6_3]
  unfold out6_3
  rw [View.canon_unit_zero Cert.LibAffineIdx.zero_offsets2]
  simp only [View.ld_unit_zero (S := S64x32) Cert.LibAffineIdx.zero_offsets2, View.ld_unit_zero (S := S32x2) Cert.LibAffineIdx.zero_offsets2, View.ld_unit_zero (S := S1x2) Cert.LibAffineIdx.zero_offsets2, View.ld_unit_zero (S := S64x2) Cert.LibAffineIdx.zero_offsets2]
  funext j
  obtain ⟨-, -, -, -, -, -, e6, e7⟩ := idx_facts6 t
  have hp : (j 0).val < 64 := (j 0).isLt
  have hq : (j 1).val < 2 := (j 1).isLt
  have ht : t.val < 1 := by have h := t.isLt; have hN : cfg6.N = 1 := N_6; omega
  have hj : (win6 3).xinj (grid6.coords t) j = ix2 (⟨(j 0).val, hp⟩ : Fin 64) (⟨(j 1).val, hq⟩ : Fin 2) := by
    funext a
    match a with
    | ⟨0, _⟩ => rfl
    | ⟨1, _⟩ => rfl
  have hi : ((cfg6.win 3).blk t).view.emb j
      = ix2 (⟨t.val * 64 + (j 0).val, by omega⟩ : Fin 64) (⟨(j 1).val, hq⟩ : Fin 2) := by
    funext a; apply Fin.ext
    match a with
    | ⟨0, _⟩ => show win6_3.index t (0 : Fin 2) * 64 + 1 * (j 0).val = t.val * 64 + (j 0).val; rw [e6]; omega
    | ⟨1, _⟩ => show win6_3.index t (1 : Fin 2) * 2 + 1 * (j 1).val = (j 1).val; rw [e7]; omega
  show k6_pay1 (iblk6 V c 0 t) (iblk6 V c 1 t) (iblk6 V c 2 t) ((win6 3).xinj (grid6.coords t) j)
    = layer6 X Wt b (((cfg6.win 3).blk t).view.emb j)
  rw [hj, hi]
  refine point6 (iblk6 V c 0 t) (iblk6 V c 1 t) (iblk6 V c 2 t) X Wt b _ _ _ (fun k => ?_) ?_ ?_
  · exact (blkX6_apply V c t _ k _ rfl).trans (congrFun hX _)
  · exact (blkW6_eq V c t).trans hW
  · exact (congrFun ((blkB6_eq V c t).trans hb) _).trans
      (Cert.LibAffineIdx.shapeCast_n_1n_apply b Cert.KernelIdeal.Facts₀.shapeCasts_S2_S1x2 0 ⟨(j 1).val, hq⟩)

/-- An index of the result array is in point `t`'s block iff each coordinate is in the block's range on its axis. -/
theorem mem_blk6 (t : Fin cfg6.N) (i : S64x2.Idx) :
    i ∈ ((cfg6.win 3).blk t).view.set ↔ ∀ a : Fin 2, win6_3.index t a * S64x2.size a ≤ (i a).val
      ∧ (i a).val < win6_3.index t a * S64x2.size a + S64x2.size a := by
  show i ∈ ((View.whole main_v102).slice (win6_3.rect t)).set ↔ _
  rw [View.set_slice_whole, Rect.mem_set_unit]
  exact Iff.rfl

/-- Every index of the result array is in some point's block: row `r` is in the block of the point `r / 64`. -/
theorem cover6 (i : S64x2.Idx) :
    ∃ t : Fin cfg6.N, (cfg6.win 3).flush t = true ∧ i ∈ ((cfg6.win 3).blk t).view.set := by
  have hi0 : (i 0).val < 64 := (i 0).isLt
  have hi1 : (i 1).val < 2 := (i 1).isLt
  have hN : cfg6.N = 1 := N_6
  refine ⟨⟨(i 0).val / 64, by omega⟩, flush6_3 _, ?_⟩
  rw [mem_blk6]
  obtain ⟨-, -, -, -, -, -, e6, e7⟩ := idx_facts6 ⟨(i 0).val / 64, by omega⟩
  intro a
  match a with
  | ⟨0, _⟩ =>
    show win6_3.index _ (0 : Fin 2) * 64 ≤ (i 0).val ∧ (i 0).val < win6_3.index _ (0 : Fin 2) * 64 + 64
    rw [e6]
    show (i 0).val / 64 * 64 ≤ (i 0).val ∧ (i 0).val < (i 0).val / 64 * 64 + 64
    omega
  | ⟨1, _⟩ =>
    show win6_3.index _ (1 : Fin 2) * 2 ≤ (i 1).val ∧ (i 1).val < win6_3.index _ (1 : Fin 2) * 2 + 2
    rw [e7]; omega

/-- THE REGION'S RESULT: with the activations `X`, the weights `Wt` and the bias vector `b` cast to a row in the region's
    three input arrays, the result array after the region's 1 point is the reference's layer of `X`, `Wt`, `b`. -/
theorem region6 (c : Dev nD)
    (X : FVec Ideal S64x32 .f32) (Wt : FVec Ideal S32x2 .f32) (b : FVec Ideal S2 .f32)
    (hX : V c main_v100 = X) (hW : V c main_arg16 = Wt) (hb : V c main_v101 = shapeCast S1x2 b Cert.KernelIdeal.Facts₀.shapeCasts_S2_S1x2) :
    (dat6 (F := Ideal) V c).arrAt 3 cfg6.N
      = addf (Host.dotGeneral (F := Ideal) Cert.ReferenceIdeal.dot_S64x32_S32x2_S64x2_1_0_0_1_n_n none X Wt)
      (broadcastInDim Cert.ReferenceIdeal.S64x2 ![0, 1] Cert.ReferenceIdeal.Facts₀.bcast_S1x2_S64x2_0_1
        (broadcastInDim Cert.ReferenceIdeal.S1x2 ![1] Cert.ReferenceIdeal.Facts₀.bcast_S2_S1x2_1 b)) :=
  (dat6 (F := Ideal) V c).arrAt_eq_of_cover 3 (layer6 X Wt b) (fun t _ => flushed6 V c X Wt b hX hW hb t) cover6

end Cert.KernelIdeal.AffineStage

end
-- ==== Proof.StepC.lean ====
/-
  The matrix-product region of the classifier against the reference: from equal inputs, weights and bias, the kernel's region (a product
  into a zero accumulator plus the bias row, block of rows by block of rows) leaves in its output array what the reference's
  dot_general plus the broadcast bias leaves in its result: x · W + b.
-/
import proofs.«126871_j30021821399140_1_alg».proof.Proof.Gen.KernelIdeal.Frame
import proofs.«126871_j30021821399140_1_alg».proof.Proof.Gen.ReferenceIdeal
import proofs.«126871_j30021821399140_1_alg».proof.Proof.RefOps
import proofs.«126871_j30021821399140_1_alg».proof.Proof.RefRead
import proofs.«126871_j30021821399140_1_alg».proof.Proof.StageP3
import proofs.«126871_j30021821399140_1_alg».proof.Proof.AffineStage6
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)

/-- The classifier: the reference's product-and-bias piece and the kernel's region 6 agree. -/
theorem stepC (c : Dev Cert.KernelIdeal.nD) (Vr : RV)
    (hX : Vr (Proc.devRef .tc Cert.ReferenceIdeal.main_v151) = Cert.KernelIdeal.Gen.W25 m ρ c (Proc.devRef .tc Cert.KernelIdeal.main_v100))
    (hW : Vr (Proc.devRef .tc Cert.ReferenceIdeal.main_arg16) = Cert.KernelIdeal.Gen.W25 m ρ c (Proc.devRef .tc Cert.KernelIdeal.main_arg16))
    (hb : Vr (Proc.devRef .tc Cert.ReferenceIdeal.main_arg17) = Cert.KernelIdeal.Gen.W22 m ρ c (Proc.devRef .tc Cert.KernelIdeal.main_arg17)) :
    after (Cert.ReferenceIdeal.RefRun.cC (F := Ideal)) Vr (Proc.devRef .tc Cert.ReferenceIdeal.main_v155) = Cert.KernelIdeal.Gen.W26 m ρ c (Proc.devRef .tc Cert.KernelIdeal.main_v102) := by
  rw [Cert.ReferenceIdeal.RefRun.read_cC, hX, hW, hb]
  exact ((Cert.KernelIdeal.Gen.W26_arr m ρ c 3).trans ((Cert.KernelIdeal.AffineStage.region6 (Cert.KernelIdeal.Gen.V25 m ρ) c _ _ _ rfl rfl
    (rowP3_v101 (Cert.KernelIdeal.Gen.W22 m ρ c))).trans rfl)).symm

end Cert.Bridge

end
-- ==== Proof.Assembly.lean ====
/-
  The two idealized programs end with the same result array. Both walk the same fourteen stages — the degree norms and the first
  normalised aggregation; then, for each of the three layers, the product with the weights plus the bias, the column mean and
  variance, the batch normalisation with the leaky rectifier, and the next aggregation (after the third layer, the per-graph mean);
  last the classifier's product and bias. Stage by stage the reference's piece and the kernel's host stretch or region leave equal
  arrays, given that the arrays they read are equal; arrays read again later (the two degree norms, the edge lists, the weights)
  are written once and kept. Chained from the agreeing argument arrays, the last stage gives the equality of the two result arrays.
-/
import proofs.«126871_j30021821399140_1_alg».proof.Proof.KeepA
import proofs.«126871_j30021821399140_1_alg».proof.Proof.KeepB
import proofs.«126871_j30021821399140_1_alg».proof.Proof.KeepC
import proofs.«126871_j30021821399140_1_alg».proof.Proof.RefRun
import proofs.«126871_j30021821399140_1_alg».proof.Proof.StageP0
import proofs.«126871_j30021821399140_1_alg».proof.Proof.StageP1
import proofs.«126871_j30021821399140_1_alg».proof.Proof.StageP2
import proofs.«126871_j30021821399140_1_alg».proof.Proof.StageP3
import proofs.«126871_j30021821399140_1_alg».proof.Proof.StageS1
import proofs.«126871_j30021821399140_1_alg».proof.Proof.StageS2
import proofs.«126871_j30021821399140_1_alg».proof.Proof.StageS3
import proofs.«126871_j30021821399140_1_alg».proof.Proof.StepB1
import proofs.«126871_j30021821399140_1_alg».proof.Proof.StepB2
import proofs.«126871_j30021821399140_1_alg».proof.Proof.StepB3
import proofs.«126871_j30021821399140_1_alg».proof.Proof.StepL1
import proofs.«126871_j30021821399140_1_alg».proof.Proof.StepL2
import proofs.«126871_j30021821399140_1_alg».proof.Proof.StepL3
import proofs.«126871_j30021821399140_1_alg».proof.Proof.StepC

set_option maxRecDepth 16384

noncomputable section

namespace Cert.Bridge

open Idealize.ShloMosaic Idealize.ShloMosaic.TcCoe Idealize.SL.Sem Idealize.ShloMosaic.StableHlo

/-! ## The reference's buffer contents after each of its fourteen pieces -/
abbrev q0 (V : RV) : RV := after (Cert.ReferenceIdeal.RefRun.cP0 (F := Ideal)) V
abbrev q1 (V : RV) : RV := after (Cert.ReferenceIdeal.RefRun.cL1 (F := Ideal)) (q0 V)
abbrev q2 (V : RV) : RV := after (Cert.ReferenceIdeal.RefRun.cS1 (F := Ideal)) (q1 V)
abbrev q3 (V : RV) : RV := after (Cert.ReferenceIdeal.RefRun.cB1 (F := Ideal)) (q2 V)
abbrev q4 (V : RV) : RV := after (Cert.ReferenceIdeal.RefRun.cP1 (F := Ideal)) (q3 V)
abbrev q5 (V : RV) : RV := after (Cert.ReferenceIdeal.RefRun.cL2 (F := Ideal)) (q4 V)
abbrev q6 (V : RV) : RV := after (Cert.ReferenceIdeal.RefRun.cS2 (F := Ideal)) (q5 V)
abbrev q7 (V : RV) : RV := after (Cert.ReferenceIdeal.RefRun.cB2 (F := Ideal)) (q6 V)
abbrev q8 (V : RV) : RV := after (Cert.ReferenceIdeal.RefRun.cP2 (F := Ideal)) (q7 V)
abbrev q9 (V : RV) : RV := after (Cert.ReferenceIdeal.RefRun.cL3 (F := Ideal)) (q8 V)
abbrev q10 (V : RV) : RV := after (Cert.ReferenceIdeal.RefRun.cS3 (F := Ideal)) (q9 V)
abbrev q11 (V : RV) : RV := after (Cert.ReferenceIdeal.RefRun.cB3 (F := Ideal)) (q10 V)
abbrev q12 (V : RV) : RV := after (Cert.ReferenceIdeal.RefRun.cP3 (F := Ideal)) (q11 V)
abbrev q13 (V : RV) : RV := after (Cert.ReferenceIdeal.RefRun.cC (F := Ideal)) (q12 V)

/-- The whole operation list folds piece by piece. -/
theorem ops_fold (V : RV) : after (Cert.ReferenceIdeal.RefRun.ops (F := Ideal)) V = q13 V := by
  simp only [Cert.ReferenceIdeal.RefRun.ops, Cert.ReferenceIdeal.RefRun.after_append]

variable (m : (ℓ : Loc Cert.KernelIdeal.nD Cert.KernelIdeal.τ Cert.KernelIdeal.sig) → Buf (Elt Ideal) ℓ) (ρ : Dev Cert.KernelIdeal.nD → PrngReg)

/-- From argument arrays that agree, the reference's contents after all its pieces and the kernel's contents at its last boundary
    hold the same result array. -/
theorem result_fold (c : Dev Cert.KernelIdeal.nD) (V : RV)
    (a0 : V (Proc.devRef .tc Cert.ReferenceIdeal.main_arg0) = m ((c : Thread Cert.KernelIdeal.nD Cert.KernelIdeal.τ).loc Cert.KernelIdeal.main_arg0))
    (a1 : V (Proc.devRef .tc Cert.ReferenceIdeal.main_arg1) = m ((c : Thread Cert.KernelIdeal.nD Cert.KernelIdeal.τ).loc Cert.KernelIdeal.main_arg1))
    (a2 : V (Proc.devRef .tc Cert.ReferenceIdeal.main_arg2) = m ((c : Thread Cert.KernelIdeal.nD Cert.KernelIdeal.τ).loc Cert.KernelIdeal.main_arg2))
    (a3 : V (Proc.devRef .tc Cert.ReferenceIdeal.main_arg3) = m ((c : Thread Cert.KernelIdeal.nD Cert.KernelIdeal.τ).loc Cert.KernelIdeal.main_arg3))
    (a4 : V (Proc.devRef .tc Cert.ReferenceIdeal.main_arg4) = m ((c : Thread Cert.KernelIdeal.nD Cert.KernelIdeal.τ).loc Cert.KernelIdeal.main_arg4))
    (a5 : V (Proc.devRef .tc Cert.ReferenceIdeal.main_arg5) = m ((c : Thread Cert.KernelIdeal.nD Cert.KernelIdeal.τ).loc Cert.KernelIdeal.main_arg5))
    (a6 : V (Proc.devRef .tc Cert.ReferenceIdeal.main_arg6) = m ((c : Thread Cert.KernelIdeal.nD Cert.KernelIdeal.τ).loc Cert.KernelIdeal.main_arg6))
    (a7 : V (Proc.devRef .tc Cert.ReferenceIdeal.main_arg7) = m ((c : Thread Cert.KernelIdeal.nD Cert.KernelIdeal.τ).loc Cert.KernelIdeal.main_arg7))
    (a8 : V (Proc.devRef .tc Cert.ReferenceIdeal.main_arg8) = m ((c : Thread Cert.KernelIdeal.nD Cert.KernelIdeal.τ).loc Cert.KernelIdeal.main_arg8))
    (a9 : V (Proc.devRef .tc Cert.ReferenceIdeal.main_arg9) = m ((c : Thread Cert.KernelIdeal.nD Cert.KernelIdeal.τ).loc Cert.KernelIdeal.main_arg9))
    (a10 : V (Proc.devRef .tc Cert.ReferenceIdeal.main_arg10) = m ((c : Thread Cert.KernelIdeal.nD Cert.KernelIdeal.τ).loc Cert.KernelIdeal.main_arg10))
    (a11 : V (Proc.devRef .tc Cert.ReferenceIdeal.main_arg11) = m ((c : Thread Cert.KernelIdeal.nD Cert.KernelIdeal.τ).loc Cert.KernelIdeal.main_arg11))
    (a12 : V (Proc.devRef .tc Cert.ReferenceIdeal.main_arg12) = m ((c : Thread Cert.KernelIdeal.nD Cert.KernelIdeal.τ).loc Cert.KernelIdeal.main_arg12))
    (a13 : V (Proc.devRef .tc Cert.ReferenceIdeal.main_arg13) = m ((c : Thread Cert.KernelIdeal.nD Cert.KernelIdeal.τ).loc Cert.KernelIdeal.main_arg13))
    (a14 : V (Proc.devRef .tc Cert.ReferenceIdeal.main_arg14) = m ((c : Thread Cert.KernelIdeal.nD Cert.KernelIdeal.τ).loc Cert.KernelIdeal.main_arg14))
    (a15 : V (Proc.devRef .tc Cert.ReferenceIdeal.main_arg15) = m ((c : Thread Cert.KernelIdeal.nD Cert.KernelIdeal.τ).loc Cert.KernelIdeal.main_arg15))
    (a16 : V (Proc.devRef .tc Cert.ReferenceIdeal.main_arg16) = m ((c : Thread Cert.KernelIdeal.nD Cert.KernelIdeal.τ).loc Cert.KernelIdeal.main_arg16))
    (a17 : V (Proc.devRef .tc Cert.ReferenceIdeal.main_arg17) = m ((c : Thread Cert.KernelIdeal.nD Cert.KernelIdeal.τ).loc Cert.KernelIdeal.main_arg17)) :
    q13 V (Proc.devRef .tc Cert.ReferenceIdeal.main_v155) = Cert.KernelIdeal.Gen.W26 m ρ c (Proc.devRef .tc Cert.KernelIdeal.main_v102) := by
  -- the first stretch: the degree norms and the first aggregation
  have e0x := stageP0_v28 (Cert.KernelIdeal.Gen.W0 m ρ c) V a0 a1 a2
  have e0s := stageP0_v11 (Cert.KernelIdeal.Gen.W0 m ρ c) V a0 a1 a2
  have e0d := stageP0_v14 (Cert.KernelIdeal.Gen.W0 m ρ c) V a0 a1 a2
  -- layer 1
  have e1 : q1 V (Proc.devRef .tc Cert.ReferenceIdeal.main_v32) = Cert.KernelIdeal.Gen.W6 m ρ c (Proc.devRef .tc Cert.KernelIdeal.main_v30) :=
    stepL1 m ρ c (q0 V) e0x ((Cert.ReferenceIdeal.RefRun.cP0_keep Cert.ReferenceIdeal.main_arg4 (by decide) V).trans (a4.trans (Cert.KernelIdeal.Gen.keep_arg4_5_m m ρ c).symm)) ((Cert.ReferenceIdeal.RefRun.cP0_keep Cert.ReferenceIdeal.main_arg5 (by decide) V).trans a5)
  have e2m := stageS1_v33 (Cert.KernelIdeal.Gen.W6 m ρ c) (q1 V) e1
  have e2v := stageS1_v34 (Cert.KernelIdeal.Gen.W6 m ρ c) (q1 V) e1
  have e3 : q3 V (Proc.devRef .tc Cert.ReferenceIdeal.main_v56) = Cert.KernelIdeal.Gen.W10 m ρ c (Proc.devRef .tc Cert.KernelIdeal.main_v39) :=
    stepB1 m ρ c (q2 V) ((Cert.ReferenceIdeal.RefRun.cS1_keep Cert.ReferenceIdeal.main_v32 (by decide) (q1 V)).trans (e1.trans (Cert.KernelIdeal.Gen.keep_v30_9_6 m ρ c).symm)) e2m e2v ((((Cert.ReferenceIdeal.RefRun.cS1_keep Cert.ReferenceIdeal.main_arg6 (by decide) (q1 V)).trans (Cert.ReferenceIdeal.RefRun.cL1_keep Cert.ReferenceIdeal.main_arg6 (by decide) (q0 V))).trans (Cert.ReferenceIdeal.RefRun.cP0_keep Cert.ReferenceIdeal.main_arg6 (by decide) V)).trans (a6.trans (Cert.KernelIdeal.Gen.keep_arg6_6_m m ρ c).symm)) ((((Cert.ReferenceIdeal.RefRun.cS1_keep Cert.ReferenceIdeal.main_arg7 (by decide) (q1 V)).trans (Cert.ReferenceIdeal.RefRun.cL1_keep Cert.ReferenceIdeal.main_arg7 (by decide) (q0 V))).trans (Cert.ReferenceIdeal.RefRun.cP0_keep Cert.ReferenceIdeal.main_arg7 (by decide) V)).trans (a7.trans (Cert.KernelIdeal.Gen.keep_arg7_6_m m ρ c).symm))
  have e4 := stageP1_v53 (Cert.KernelIdeal.Gen.W10 m ρ c) (q3 V) e3 ((((Cert.ReferenceIdeal.RefRun.cB1_keep Cert.ReferenceIdeal.main_v11 (by decide) (q2 V)).trans (Cert.ReferenceIdeal.RefRun.cS1_keep Cert.ReferenceIdeal.main_v11 (by decide) (q1 V))).trans (Cert.ReferenceIdeal.RefRun.cL1_keep Cert.ReferenceIdeal.main_v11 (by decide) (q0 V))).trans (e0s.trans (Cert.KernelIdeal.Gen.keep_v11_10_5 m ρ c).symm)) ((((Cert.ReferenceIdeal.RefRun.cB1_keep Cert.ReferenceIdeal.main_v14 (by decide) (q2 V)).trans (Cert.ReferenceIdeal.RefRun.cS1_keep Cert.ReferenceIdeal.main_v14 (by decide) (q1 V))).trans (Cert.ReferenceIdeal.RefRun.cL1_keep Cert.ReferenceIdeal.main_v14 (by decide) (q0 V))).trans (e0d.trans (Cert.KernelIdeal.Gen.keep_v14_10_5 m ρ c).symm)) (((((Cert.ReferenceIdeal.RefRun.cB1_keep Cert.ReferenceIdeal.main_arg1 (by decide) (q2 V)).trans (Cert.ReferenceIdeal.RefRun.cS1_keep Cert.ReferenceIdeal.main_arg1 (by decide) (q1 V))).trans (Cert.ReferenceIdeal.RefRun.cL1_keep Cert.ReferenceIdeal.main_arg1 (by decide) (q0 V))).trans (Cert.ReferenceIdeal.RefRun.cP0_keep Cert.ReferenceIdeal.main_arg1 (by decide) V)).trans (a1.trans (Cert.KernelIdeal.Gen.keep_arg1_10_m m ρ c).symm)) (((((Cert.ReferenceIdeal.RefRun.cB1_keep Cert.ReferenceIdeal.main_arg2 (by decide) (q2 V)).trans (Cert.ReferenceIdeal.RefRun.cS1_keep Cert.ReferenceIdeal.main_arg2 (by decide) (q1 V))).trans (Cert.ReferenceIdeal.RefRun.cL1_keep Cert.ReferenceIdeal.main_arg2 (by decide) (q0 V))).trans (Cert.ReferenceIdeal.RefRun.cP0_keep Cert.ReferenceIdeal.main_arg2 (by decide) V)).trans (a2.trans (Cert.KernelIdeal.Gen.keep_arg2_10_m m ρ c).symm))
  -- layer 2
  have e5 : q5 V (Proc.devRef .tc Cert.ReferenceIdeal.main_v74) = Cert.KernelIdeal.Gen.W12 m ρ c (Proc.devRef .tc Cert.KernelIdeal.main_v55) :=
    stepL2 m ρ c (q4 V) e4 ((((((Cert.ReferenceIdeal.RefRun.cP1_keep Cert.ReferenceIdeal.main_arg8 (by decide) (q3 V)).trans (Cert.ReferenceIdeal.RefRun.cB1_keep Cert.ReferenceIdeal.main_arg8 (by decide) (q2 V))).trans (Cert.ReferenceIdeal.RefRun.cS1_keep Cert.ReferenceIdeal.main_arg8 (by decide) (q1 V))).trans (Cert.ReferenceIdeal.RefRun.cL1_keep Cert.ReferenceIdeal.main_arg8 (by decide) (q0 V))).trans (Cert.ReferenceIdeal.RefRun.cP0_keep Cert.ReferenceIdeal.main_arg8 (by decide) V)).trans (a8.trans (Cert.KernelIdeal.Gen.keep_arg8_11_m m ρ c).symm)) ((((((Cert.ReferenceIdeal.RefRun.cP1_keep Cert.ReferenceIdeal.main_arg9 (by decide) (q3 V)).trans (Cert.ReferenceIdeal.RefRun.cB1_keep Cert.ReferenceIdeal.main_arg9 (by decide) (q2 V))).trans (Cert.ReferenceIdeal.RefRun.cS1_keep Cert.ReferenceIdeal.main_arg9 (by decide) (q1 V))).trans (Cert.ReferenceIdeal.RefRun.cL1_keep Cert.ReferenceIdeal.main_arg9 (by decide) (q0 V))).trans (Cert.ReferenceIdeal.RefRun.cP0_keep Cert.ReferenceIdeal.main_arg9 (by decide) V)).trans (a9.trans (Cert.KernelIdeal.Gen.keep_arg9_10_m m ρ c).symm))
  have e6m := stageS2_v58 (Cert.KernelIdeal.Gen.W12 m ρ c) (q5 V) e5
  have e6v := stageS2_v59 (Cert.KernelIdeal.Gen.W12 m ρ c) (q5 V) e5
  have e7 : q7 V (Proc.devRef .tc Cert.ReferenceIdeal.main_v98) = Cert.KernelIdeal.Gen.W16 m ρ c (Proc.devRef .tc Cert.KernelIdeal.main_v64) :=
    stepB2 m ρ c (q6 V) ((Cert.ReferenceIdeal.RefRun.cS2_keep Cert.ReferenceIdeal.main_v74 (by decide) (q5 V)).trans (e5.trans (Cert.KernelIdeal.Gen.keep_v55_15_12 m ρ c).symm)) e6m e6v ((((((((Cert.ReferenceIdeal.RefRun.cS2_keep Cert.ReferenceIdeal.main_arg10 (by decide) (q5 V)).trans (Cert.ReferenceIdeal.RefRun.cL2_keep Cert.ReferenceIdeal.main_arg10 (by decide) (q4 V))).trans (Cert.ReferenceIdeal.RefRun.cP1_keep Cert.ReferenceIdeal.main_arg10 (by decide) (q3 V))).trans (Cert.ReferenceIdeal.RefRun.cB1_keep Cert.ReferenceIdeal.main_arg10 (by decide) (q2 V))).trans (Cert.ReferenceIdeal.RefRun.cS1_keep Cert.ReferenceIdeal.main_arg10 (by decide) (q1 V))).trans (Cert.ReferenceIdeal.RefRun.cL1_keep Cert.ReferenceIdeal.main_arg10 (by decide) (q0 V))).trans (Cert.ReferenceIdeal.RefRun.cP0_keep Cert.ReferenceIdeal.main_arg10 (by decide) V)).trans (a10.trans (Cert.KernelIdeal.Gen.keep_arg10_12_m m ρ c).symm)) ((((((((Cert.ReferenceIdeal.RefRun.cS2_keep Cert.ReferenceIdeal.main_arg11 (by decide) (q5 V)).trans (Cert.ReferenceIdeal.RefRun.cL2_keep Cert.ReferenceIdeal.main_arg11 (by decide) (q4 V))).trans (Cert.ReferenceIdeal.RefRun.cP1_keep Cert.ReferenceIdeal.main_arg11 (by decide) (q3 V))).trans (Cert.ReferenceIdeal.RefRun.cB1_keep Cert.ReferenceIdeal.main_arg11 (by decide) (q2 V))).trans (Cert.ReferenceIdeal.RefRun.cS1_keep Cert.ReferenceIdeal.main_arg11 (by decide) (q1 V))).trans (Cert.ReferenceIdeal.RefRun.cL1_keep Cert.ReferenceIdeal.main_arg11 (by decide) (q0 V))).trans (Cert.ReferenceIdeal.RefRun.cP0_keep Cert.ReferenceIdeal.main_arg11 (by decide) V)).trans (a11.trans (Cert.KernelIdeal.Gen.keep_arg11_12_m m ρ c).symm))
  have e8 := stageP2_v78 (Cert.KernelIdeal.Gen.W16 m ρ c) (q7 V) e7 ((((((((Cert.ReferenceIdeal.RefRun.cB2_keep Cert.ReferenceIdeal.main_v11 (by decide) (q6 V)).trans (Cert.ReferenceIdeal.RefRun.cS2_keep Cert.ReferenceIdeal.main_v11 (by decide) (q5 V))).trans (Cert.ReferenceIdeal.RefRun.cL2_keep Cert.ReferenceIdeal.main_v11 (by decide) (q4 V))).trans (Cert.ReferenceIdeal.RefRun.cP1_keep Cert.ReferenceIdeal.main_v11 (by decide) (q3 V))).trans (Cert.ReferenceIdeal.RefRun.cB1_keep Cert.ReferenceIdeal.main_v11 (by decide) (q2 V))).trans (Cert.ReferenceIdeal.RefRun.cS1_keep Cert.ReferenceIdeal.main_v11 (by decide) (q1 V))).trans (Cert.ReferenceIdeal.RefRun.cL1_keep Cert.ReferenceIdeal.main_v11 (by decide) (q0 V))).trans (e0s.trans (Cert.KernelIdeal.Gen.keep_v11_16_5 m ρ c).symm)) ((((((((Cert.ReferenceIdeal.RefRun.cB2_keep Cert.ReferenceIdeal.main_v14 (by decide) (q6 V)).trans (Cert.ReferenceIdeal.RefRun.cS2_keep Cert.ReferenceIdeal.main_v14 (by decide) (q5 V))).trans (Cert.ReferenceIdeal.RefRun.cL2_keep Cert.ReferenceIdeal.main_v14 (by decide) (q4 V))).trans (Cert.ReferenceIdeal.RefRun.cP1_keep Cert.ReferenceIdeal.main_v14 (by decide) (q3 V))).trans (Cert.ReferenceIdeal.RefRun.cB1_keep Cert.ReferenceIdeal.main_v14 (by decide) (q2 V))).trans (Cert.ReferenceIdeal.RefRun.cS1_keep Cert.ReferenceIdeal.main_v14 (by decide) (q1 V))).trans (Cert.ReferenceIdeal.RefRun.cL1_keep Cert.ReferenceIdeal.main_v14 (by decide) (q0 V))).trans (e0d.trans (Cert.KernelIdeal.Gen.keep_v14_16_5 m ρ c).symm)) (((((((((Cert.ReferenceIdeal.RefRun.cB2_keep Cert.ReferenceIdeal.main_arg1 (by decide) (q6 V)).trans (Cert.ReferenceIdeal.RefRun.cS2_keep Cert.ReferenceIdeal.main_arg1 (by decide) (q5 V))).trans (Cert.ReferenceIdeal.RefRun.cL2_keep Cert.ReferenceIdeal.main_arg1 (by decide) (q4 V))).trans (Cert.ReferenceIdeal.RefRun.cP1_keep Cert.ReferenceIdeal.main_arg1 (by decide) (q3 V))).trans (Cert.ReferenceIdeal.RefRun.cB1_keep Cert.ReferenceIdeal.main_arg1 (by decide) (q2 V))).trans (Cert.ReferenceIdeal.RefRun.cS1_keep Cert.ReferenceIdeal.main_arg1 (by decide) (q1 V))).trans (Cert.ReferenceIdeal.RefRun.cL1_keep Cert.ReferenceIdeal.main_arg1 (by decide) (q0 V))).trans (Cert.ReferenceIdeal.RefRun.cP0_keep Cert.ReferenceIdeal.main_arg1 (by decide) V)).trans (a1.trans (Cert.KernelIdeal.Gen.keep_arg1_16_m m ρ c).symm)) (((((((((Cert.ReferenceIdeal.RefRun.cB2_keep Cert.ReferenceIdeal.main_arg2 (by decide) (q6 V)).trans (Cert.ReferenceIdeal.RefRun.cS2_keep Cert.ReferenceIdeal.main_arg2 (by decide) (q5 V))).trans (Cert.ReferenceIdeal.RefRun.cL2_keep Cert.ReferenceIdeal.main_arg2 (by decide) (q4 V))).trans (Cert.ReferenceIdeal.RefRun.cP1_keep Cert.ReferenceIdeal.main_arg2 (by decide) (q3 V))).trans (Cert.ReferenceIdeal.RefRun.cB1_keep Cert.ReferenceIdeal.main_arg2 (by decide) (q2 V))).trans (Cert.ReferenceIdeal.RefRun.cS1_keep Cert.ReferenceIdeal.main_arg2 (by decide) (q1 V))).trans (Cert.ReferenceIdeal.RefRun.cL1_keep Cert.ReferenceIdeal.main_arg2 (by decide) (q0 V))).trans (Cert.ReferenceIdeal.RefRun.cP0_keep Cert.ReferenceIdeal.main_arg2 (by decide) V)).trans (a2.trans (Cert.KernelIdeal.Gen.keep_arg2_16_m m ρ c).symm))
  -- layer 3
  have e9 : q9 V (Proc.devRef .tc Cert.ReferenceIdeal.main_v116) = Cert.KernelIdeal.Gen.W18 m ρ c (Proc.devRef .tc Cert.KernelIdeal.main_v80) :=
    stepL3 m ρ c (q8 V) e8 ((((((((((Cert.ReferenceIdeal.RefRun.cP2_keep Cert.ReferenceIdeal.main_arg12 (by decide) (q7 V)).trans (Cert.ReferenceIdeal.RefRun.cB2_keep Cert.ReferenceIdeal.main_arg12 (by decide) (q6 V))).trans (Cert.ReferenceIdeal.RefRun.cS2_keep Cert.ReferenceIdeal.main_arg12 (by decide) (q5 V))).trans (Cert.ReferenceIdeal.RefRun.cL2_keep Cert.ReferenceIdeal.main_arg12 (by decide) (q4 V))).trans (Cert.ReferenceIdeal.RefRun.cP1_keep Cert.ReferenceIdeal.main_arg12 (by decide) (q3 V))).trans (Cert.ReferenceIdeal.RefRun.cB1_keep Cert.ReferenceIdeal.main_arg12 (by decide) (q2 V))).trans (Cert.ReferenceIdeal.RefRun.cS1_keep Cert.ReferenceIdeal.main_arg12 (by decide) (q1 V))).trans (Cert.ReferenceIdeal.RefRun.cL1_keep Cert.ReferenceIdeal.main_arg12 (by decide) (q0 V))).trans (Cert.ReferenceIdeal.RefRun.cP0_keep Cert.ReferenceIdeal.main_arg12 (by decide) V)).trans (a12.trans (Cert.KernelIdeal.Gen.keep_arg12_17_m m ρ c).symm)) ((((((((((Cert.ReferenceIdeal.RefRun.cP2_keep Cert.ReferenceIdeal.main_arg13 (by decide) (q7 V)).trans (Cert.ReferenceIdeal.RefRun.cB2_keep Cert.ReferenceIdeal.main_arg13 (by decide) (q6 V))).trans (Cert.ReferenceIdeal.RefRun.cS2_keep Cert.ReferenceIdeal.main_arg13 (by decide) (q5 V))).trans (Cert.ReferenceIdeal.RefRun.cL2_keep Cert.ReferenceIdeal.main_arg13 (by decide) (q4 V))).trans (Cert.ReferenceIdeal.RefRun.cP1_keep Cert.ReferenceIdeal.main_arg13 (by decide) (q3 V))).trans (Cert.ReferenceIdeal.RefRun.cB1_keep Cert.ReferenceIdeal.main_arg13 (by decide) (q2 V))).trans (Cert.ReferenceIdeal.RefRun.cS1_keep Cert.ReferenceIdeal.main_arg13 (by decide) (q1 V))).trans (Cert.ReferenceIdeal.RefRun.cL1_keep Cert.ReferenceIdeal.main_arg13 (by decide) (q0 V))).trans (Cert.ReferenceIdeal.RefRun.cP0_keep Cert.ReferenceIdeal.main_arg13 (by decide) V)).trans (a13.trans (Cert.KernelIdeal.Gen.keep_arg13_16_m m ρ c).symm))
  have e10m := stageS3_v83 (Cert.KernelIdeal.Gen.W18 m ρ c) (q9 V) e9
  have e10v := stageS3_v84 (Cert.KernelIdeal.Gen.W18 m ρ c) (q9 V) e9
  have e11 : q11 V (Proc.devRef .tc Cert.ReferenceIdeal.main_v140) = Cert.KernelIdeal.Gen.W22 m ρ c (Proc.devRef .tc Cert.KernelIdeal.main_v89) :=
    stepB3 m ρ c (q10 V) ((Cert.ReferenceIdeal.RefRun.cS3_keep Cert.ReferenceIdeal.main_v116 (by decide) (q9 V)).trans (e9.trans (Cert.KernelIdeal.Gen.keep_v80_21_18 m ρ c).symm)) e10m e10v ((((((((((((Cert.ReferenceIdeal.RefRun.cS3_keep Cert.ReferenceIdeal.main_arg14 (by decide) (q9 V)).trans (Cert.ReferenceIdeal.RefRun.cL3_keep Cert.ReferenceIdeal.main_arg14 (by decide) (q8 V))).trans (Cert.ReferenceIdeal.RefRun.cP2_keep Cert.ReferenceIdeal.main_arg14 (by decide) (q7 V))).trans (Cert.ReferenceIdeal.RefRun.cB2_keep Cert.ReferenceIdeal.main_arg14 (by decide) (q6 V))).trans (Cert.ReferenceIdeal.RefRun.cS2_keep Cert.ReferenceIdeal.main_arg14 (by decide) (q5 V))).trans (Cert.ReferenceIdeal.RefRun.cL2_keep Cert.ReferenceIdeal.main_arg14 (by decide) (q4 V))).trans (Cert.ReferenceIdeal.RefRun.cP1_keep Cert.ReferenceIdeal.main_arg14 (by decide) (q3 V))).trans (Cert.ReferenceIdeal.RefRun.cB1_keep Cert.ReferenceIdeal.main_arg14 (by decide) (q2 V))).trans (Cert.ReferenceIdeal.RefRun.cS1_keep Cert.ReferenceIdeal.main_arg14 (by decide) (q1 V))).trans (Cert.ReferenceIdeal.RefRun.cL1_keep Cert.ReferenceIdeal.main_arg14 (by decide) (q0 V))).trans (Cert.ReferenceIdeal.RefRun.cP0_keep Cert.ReferenceIdeal.main_arg14 (by decide) V)).trans (a14.trans (Cert.KernelIdeal.Gen.keep_arg14_18_m m ρ c).symm)) ((((((((((((Cert.ReferenceIdeal.RefRun.cS3_keep Cert.ReferenceIdeal.main_arg15 (by decide) (q9 V)).trans (Cert.ReferenceIdeal.RefRun.cL3_keep Cert.ReferenceIdeal.main_arg15 (by decide) (q8 V))).trans (Cert.ReferenceIdeal.RefRun.cP2_keep Cert.ReferenceIdeal.main_arg15 (by decide) (q7 V))).trans (Cert.ReferenceIdeal.RefRun.cB2_keep Cert.ReferenceIdeal.main_arg15 (by decide) (q6 V))).trans (Cert.ReferenceIdeal.RefRun.cS2_keep Cert.ReferenceIdeal.main_arg15 (by decide) (q5 V))).trans (Cert.ReferenceIdeal.RefRun.cL2_keep Cert.ReferenceIdeal.main_arg15 (by decide) (q4 V))).trans (Cert.ReferenceIdeal.RefRun.cP1_keep Cert.ReferenceIdeal.main_arg15 (by decide) (q3 V))).trans (Cert.ReferenceIdeal.RefRun.cB1_keep Cert.ReferenceIdeal.main_arg15 (by decide) (q2 V))).trans (Cert.ReferenceIdeal.RefRun.cS1_keep Cert.ReferenceIdeal.main_arg15 (by decide) (q1 V))).trans (Cert.ReferenceIdeal.RefRun.cL1_keep Cert.ReferenceIdeal.main_arg15 (by decide) (q0 V))).trans (Cert.ReferenceIdeal.RefRun.cP0_keep Cert.ReferenceIdeal.main_arg15 (by decide) V)).trans (a15.trans (Cert.KernelIdeal.Gen.keep_arg15_18_m m ρ c).symm))
  -- the per-graph mean and the classifier
  have e12 := stageP3_v100 (Cert.KernelIdeal.Gen.W22 m ρ c) (q11 V) e11 (((((((((((((Cert.ReferenceIdeal.RefRun.cB3_keep Cert.ReferenceIdeal.main_arg3 (by decide) (q10 V)).trans (Cert.ReferenceIdeal.RefRun.cS3_keep Cert.ReferenceIdeal.main_arg3 (by decide) (q9 V))).trans (Cert.ReferenceIdeal.RefRun.cL3_keep Cert.ReferenceIdeal.main_arg3 (by decide) (q8 V))).trans (Cert.ReferenceIdeal.RefRun.cP2_keep Cert.ReferenceIdeal.main_arg3 (by decide) (q7 V))).trans (Cert.ReferenceIdeal.RefRun.cB2_keep Cert.ReferenceIdeal.main_arg3 (by decide) (q6 V))).trans (Cert.ReferenceIdeal.RefRun.cS2_keep Cert.ReferenceIdeal.main_arg3 (by decide) (q5 V))).trans (Cert.ReferenceIdeal.RefRun.cL2_keep Cert.ReferenceIdeal.main_arg3 (by decide) (q4 V))).trans (Cert.ReferenceIdeal.RefRun.cP1_keep Cert.ReferenceIdeal.main_arg3 (by decide) (q3 V))).trans (Cert.ReferenceIdeal.RefRun.cB1_keep Cert.ReferenceIdeal.main_arg3 (by decide) (q2 V))).trans (Cert.ReferenceIdeal.RefRun.cS1_keep Cert.ReferenceIdeal.main_arg3 (by decide) (q1 V))).trans (Cert.ReferenceIdeal.RefRun.cL1_keep Cert.ReferenceIdeal.main_arg3 (by decide) (q0 V))).trans (Cert.ReferenceIdeal.RefRun.cP0_keep Cert.ReferenceIdeal.main_arg3 (by decide) V)).trans (a3.trans (Cert.KernelIdeal.Gen.keep_arg3_22_m m ρ c).symm))
  exact stepC m ρ c (q12 V) e12 ((((((((((((((Cert.ReferenceIdeal.RefRun.cP3_keep Cert.ReferenceIdeal.main_arg16 (by decide) (q11 V)).trans (Cert.ReferenceIdeal.RefRun.cB3_keep Cert.ReferenceIdeal.main_arg16 (by decide) (q10 V))).trans (Cert.ReferenceIdeal.RefRun.cS3_keep Cert.ReferenceIdeal.main_arg16 (by decide) (q9 V))).trans (Cert.ReferenceIdeal.RefRun.cL3_keep Cert.ReferenceIdeal.main_arg16 (by decide) (q8 V))).trans (Cert.ReferenceIdeal.RefRun.cP2_keep Cert.ReferenceIdeal.main_arg16 (by decide) (q7 V))).trans (Cert.ReferenceIdeal.RefRun.cB2_keep Cert.ReferenceIdeal.main_arg16 (by decide) (q6 V))).trans (Cert.ReferenceIdeal.RefRun.cS2_keep Cert.ReferenceIdeal.main_arg16 (by decide) (q5 V))).trans (Cert.ReferenceIdeal.RefRun.cL2_keep Cert.ReferenceIdeal.main_arg16 (by decide) (q4 V))).trans (Cert.ReferenceIdeal.RefRun.cP1_keep Cert.ReferenceIdeal.main_arg16 (by decide) (q3 V))).trans (Cert.ReferenceIdeal.RefRun.cB1_keep Cert.ReferenceIdeal.main_arg16 (by decide) (q2 V))).trans (Cert.ReferenceIdeal.RefRun.cS1_keep Cert.ReferenceIdeal.main_arg16 (by decide) (q1 V))).trans (Cert.ReferenceIdeal.RefRun.cL1_keep Cert.ReferenceIdeal.main_arg16 (by decide) (q0 V))).trans (Cert.ReferenceIdeal.RefRun.cP0_keep Cert.ReferenceIdeal.main_arg16 (by decide) V)).trans (a16.trans (Cert.KernelIdeal.Gen.keep_arg16_25_m m ρ c).symm)) ((((((((((((((Cert.ReferenceIdeal.RefRun.cP3_keep Cert.ReferenceIdeal.main_arg17 (by decide) (q11 V)).trans (Cert.ReferenceIdeal.RefRun.cB3_keep Cert.ReferenceIdeal.main_arg17 (by decide) (q10 V))).trans (Cert.ReferenceIdeal.RefRun.cS3_keep Cert.ReferenceIdeal.main_arg17 (by decide) (q9 V))).trans (Cert.ReferenceIdeal.RefRun.cL3_keep Cert.ReferenceIdeal.main_arg17 (by decide) (q8 V))).trans (Cert.ReferenceIdeal.RefRun.cP2_keep Cert.ReferenceIdeal.main_arg17 (by decide) (q7 V))).trans (Cert.ReferenceIdeal.RefRun.cB2_keep Cert.ReferenceIdeal.main_arg17 (by decide) (q6 V))).trans (Cert.ReferenceIdeal.RefRun.cS2_keep Cert.ReferenceIdeal.main_arg17 (by decide) (q5 V))).trans (Cert.ReferenceIdeal.RefRun.cL2_keep Cert.ReferenceIdeal.main_arg17 (by decide) (q4 V))).trans (Cert.ReferenceIdeal.RefRun.cP1_keep Cert.ReferenceIdeal.main_arg17 (by decide) (q3 V))).trans (Cert.ReferenceIdeal.RefRun.cB1_keep Cert.ReferenceIdeal.main_arg17 (by decide) (q2 V))).trans (Cert.ReferenceIdeal.RefRun.cS1_keep Cert.ReferenceIdeal.main_arg17 (by decide) (q1 V))).trans (Cert.ReferenceIdeal.RefRun.cL1_keep Cert.ReferenceIdeal.main_arg17 (by decide) (q0 V))).trans (Cert.ReferenceIdeal.RefRun.cP0_keep Cert.ReferenceIdeal.main_arg17 (by decide) V)).trans (a17.trans (Cert.KernelIdeal.Gen.keep_arg17_22_m m ρ c).symm))

/-- The same from the two launch memories: the reference's result array after its whole operation list is the kernel's at its
    last boundary, whenever the eighteen argument arrays agree. -/
theorem result_eq (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    after (Cert.ReferenceIdeal.RefRun.ops (F := Ideal)) (launchContents m' c) (Proc.devRef .tc Cert.ReferenceIdeal.main_v155) = Cert.KernelIdeal.Gen.W26 m ρ c (Proc.devRef .tc Cert.KernelIdeal.main_v102) := by
  rw [ops_fold]
  obtain ⟨h0, h1, h2, h3, h4, h5, h6, h7, h8, h9, h10, h11, h12, h13, h14, h15, h16, h17⟩ := hag
  exact result_fold m ρ c (launchContents m' c) h0 h1 h2 h3 h4 h5 h6 h7 h8 h9 h10 h11 h12 h13 h14 h15 h16 h17

end Cert.Bridge

end
-- ==== Proof.lean ====
/- Both programs compute three graph-convolution layers, a pooling and a last affine map. A layer sums, for every node,
   its neighbours' feature rows scaled by the inverse square roots of the two endpoint degrees, multiplies by the weight
   matrix and adds the bias, normalises every column by that column's own mean and variance over all nodes (then a learnt
   scale and shift), and applies the leaky rectifier x ↦ x if x > 0, else 0.2 · x. The third layer's rows are averaged
   per graph, and one more matrix product plus bias is the result. Read at the extended reals the two agree: outside the
   kernel regions they run the same operations in the same order on equal inputs; a matrix-product region accumulates
   into zero exactly the sum the host's contraction takes and adds the same broadcast bias; a normalisation region
   evaluates, entry by entry, the same ((y − μ) · rsqrt(σ² + ε)) · γ + β and the same rectifier. -/
import proofs.«126871_j30021821399140_1_alg».proof.Defs
import proofs.«126871_j30021821399140_1_alg».proof.Proof.Gen.Kernel
import proofs.«126871_j30021821399140_1_alg».proof.Proof.Gen.Kernel.Skeleton
import proofs.«126871_j30021821399140_1_alg».proof.Proof.Gen.Kernel.Launch
import proofs.«126871_j30021821399140_1_alg».proof.Proof.Gen.Kernel.Points
import proofs.«126871_j30021821399140_1_alg».proof.Proof.Gen.Kernel.Frame
import proofs.«126871_j30021821399140_1_alg».proof.Proof.Gen.KernelIdeal
import proofs.«126871_j30021821399140_1_alg».proof.Proof.Gen.KernelIdeal.Skeleton
import proofs.«126871_j30021821399140_1_alg».proof.Proof.Gen.KernelIdeal.Launch
import proofs.«126871_j30021821399140_1_alg».proof.Proof.Gen.KernelIdeal.Points
import proofs.«126871_j30021821399140_1_alg».proof.Proof.Gen.KernelIdeal.Frame
import proofs.«126871_j30021821399140_1_alg».proof.Proof.Gen.ReferenceIdeal
import proofs.«126871_j30021821399140_1_alg».proof.Proof.Gen.Pre_finite_inputs
import Idealize.ShloMosaic.Adequacy
import Idealize.ShloMosaic.Init
import proofs.«126871_j30021821399140_1_alg».proof.Proof.KernelRun
import proofs.«126871_j30021821399140_1_alg».proof.Proof.RefRun
import proofs.«126871_j30021821399140_1_alg».proof.Proof.Assembly

noncomputable section

namespace Cert.Proof

open Idealize.ShloMosaic Idealize.ShloMosaic.TcCoe Idealize.SL.Sem Idealize.ShloMosaic.StableHlo

/-- The kernel, read bit for bit, runs to the end, nothing faulting, and keeps its arguments. -/
theorem frame_p : Cert.frame_Kernel := fun m ρ _ => Cert.Kernel.Gen.frame m ρ

/-- So does the kernel read at the extended reals. -/
theorem frame_pi : Cert.frame_KernelIdeal := fun m ρ _ => Cert.KernelIdeal.Gen.frame m ρ

/-- The reference is a straight line of host operations, none of which writes an argument. -/
theorem frame_ri : Cert.frame_ReferenceIdeal := fun m g _ => Cert.ReferenceIdeal.RefRun.frame (F := Ideal) m g

/-- Reading the kernel at the extended reals rewrote none of its operations. -/
theorem preserves : Cert.preserves_Kernel_KernelIdeal := trivial

/-- From memories agreeing on the eighteen arguments both programs run to the end and keep their arguments; the kernel's
    result array ends at the contents its last region writes back, the reference's at the fold of its operations over
    the launch contents, and the two are the same array of extended reals. -/
theorem algebraic : Cert.algebraic_KernelIdeal_ReferenceIdeal := by
  intro m ρ m' ρ' _ hagree
  refine ⟨fun c => Cert.KernelIdeal.Gen.W26 m ρ c (Proc.devRef .tc Cert.KernelIdeal.main_v102), Cert.KernelIdeal.Gen.Named.run m ρ, ?_⟩
  refine (θ_run Cert.ReferenceIdeal.defs _ _).mono (fun r h c =>
    ⟨(h c Cert.ReferenceIdeal.main_v155).trans (Cert.Bridge.result_eq m ρ m' c (hagree c)),
      (h c Cert.ReferenceIdeal.main_arg0).trans (Cert.ReferenceIdeal.RefRun.arg_kept0 _),
      (h c Cert.ReferenceIdeal.main_arg1).trans (Cert.ReferenceIdeal.RefRun.arg_kept1 _),
      (h c Cert.ReferenceIdeal.main_arg2).trans (Cert.ReferenceIdeal.RefRun.arg_kept2 _),
      (h c Cert.ReferenceIdeal.main_arg3).trans (Cert.ReferenceIdeal.RefRun.arg_kept3 _),
      (h c Cert.ReferenceIdeal.main_arg4).trans (Cert.ReferenceIdeal.RefRun.arg_kept4 _),
      (h c Cert.ReferenceIdeal.main_arg5).trans (Cert.ReferenceIdeal.RefRun.arg_kept5 _),
      (h c Cert.ReferenceIdeal.main_arg6).trans (Cert.ReferenceIdeal.RefRun.arg_kept6 _),
      (h c Cert.ReferenceIdeal.main_arg7).trans (Cert.ReferenceIdeal.RefRun.arg_kept7 _),
      (h c Cert.ReferenceIdeal.main_arg8).trans (Cert.ReferenceIdeal.RefRun.arg_kept8 _),
      (h c Cert.ReferenceIdeal.main_arg9).trans (Cert.ReferenceIdeal.RefRun.arg_kept9 _),
      (h c Cert.ReferenceIdeal.main_arg10).trans (Cert.ReferenceIdeal.RefRun.arg_kept10 _),
      (h c Cert.ReferenceIdeal.main_arg11).trans (Cert.ReferenceIdeal.RefRun.arg_kept11 _),
      (h c Cert.ReferenceIdeal.main_arg12).trans (Cert.ReferenceIdeal.RefRun.arg_kept12 _),
      (h c Cert.ReferenceIdeal.main_arg13).trans (Cert.ReferenceIdeal.RefRun.arg_kept13 _),
      (h c Cert.ReferenceIdeal.main_arg14).trans (Cert.ReferenceIdeal.RefRun.arg_kept14 _),
      (h c Cert.ReferenceIdeal.main_arg15).trans (Cert.ReferenceIdeal.RefRun.arg_kept15 _),
      (h c Cert.ReferenceIdeal.main_arg16).trans (Cert.ReferenceIdeal.RefRun.arg_kept16 _),
      (h c Cert.ReferenceIdeal.main_arg17).trans (Cert.ReferenceIdeal.RefRun.arg_kept17 _)⟩)
    (Cert.ReferenceIdeal.RefRun.run (F := Ideal) m' ρ')

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
